-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S1000000x10 : Shape := ⟨2, ![1000000, 10]⟩
abbrev S1000000 : Shape := ⟨1, ![1000000]⟩
abbrev S35x10 : Shape := ⟨2, ![35, 10]⟩
abbrev S35 : Shape := ⟨1, ![35]⟩
abbrev S3x35x35 : Shape := ⟨3, ![3, 35, 35]⟩
abbrev S3x35 : Shape := ⟨2, ![3, 35]⟩
abbrev S10x35 : Shape := ⟨2, ![10, 35]⟩
abbrev S10 : Shape := ⟨1, ![10]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S35x10 : S_.BroadcastsInDim S35x10 (![] : Fin 0 → Fin S35x10.rank)
  reducesTo_S35x10_S_d0_1 : S35x10.ReducesTo [0, 1] S_
  bcast_S_S35 : S_.BroadcastsInDim S35 (![] : Fin 0 → Fin S35.rank)
  reducesTo_S35_S_d0 : S35.ReducesTo [0] S_
  bcast_S_S3x35x35 : S_.BroadcastsInDim S3x35x35 (![] : Fin 0 → Fin S3x35x35.rank)
  reducesTo_S3x35x35_S_d0_1_2 : S3x35x35.ReducesTo [0, 1, 2] S_
  bcast_S_S3x35 : S_.BroadcastsInDim S3x35 (![] : Fin 0 → Fin S3x35.rank)
  reducesTo_S3x35_S_d0_1 : S3x35.ReducesTo [0, 1] S_
  bcast_S_S10x35 : S_.BroadcastsInDim S10x35 (![] : Fin 0 → Fin S10x35.rank)
  reducesTo_S10x35_S_d0_1 : S10x35.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S3x35 .f32) (main_arg13 : FVec F S10x35 .f32) (main_arg14 : FVec F S10 .f32) (main_v48 : IVec S_ 1) (main_v49 : FVec F S3x35x35 .f32) (main_v50 : FVec F S3x35x35 .f32) : IVec S_ 1 :=
  let main_v51 : IVec S3x35x35 1 := cmpf .olt main_v49 main_v50
  let main_c_19 : IVec S_ 1 := constantI S_ 1 1#1
  let main_v52 : IVec S_ 1 := (fun x v => Host.reduce IntOp.andi x v reducesTo_S3x35x35_S_d0_1_2 h_S_) main_v51 main_c_19
  let main_v53 : IVec S_ 1 := andi main_v48 main_v52
  let main_v54 : FVec F S3x35 .f32 := Host.absf main_arg12
  let main_cst_20 : FVec F S_ .f32 := constant S_ .f32 0x7F800000#32
  let main_v55 : FVec F S3x35 .f32 := broadcastInDim S3x35 ![] bcast_S_S3x35 main_cst_20
  let main_v56 : IVec S3x35 1 := cmpf .olt main_v54 main_v55
  let main_c_21 : IVec S_ 1 := constantI S_ 1 1#1
  let main_v57 : IVec S_ 1 := (fun x v => Host.reduce IntOp.andi x v reducesTo_S3x35_S_d0_1 h_S_) main_v56 main_c_21
  let main_v58 : IVec S_ 1 := andi main_v53 main_v57
  let main_v59 : FVec F S10x35 .f32 := Host.absf main_arg13
  let main_cst_22 : FVec F S_ .f32 := constant S_ .f32 0x7F800000#32
  let main_v60 : FVec F S10x35 .f32 := broadcastInDim S10x35 ![] bcast_S_S10x35 main_cst_22
  let main_v61 : IVec S10x35 1 := cmpf .olt main_v59 main_v60
  let main_c_23 : IVec S_ 1 := constantI S_ 1 1#1
  let main_v62 : IVec S_ 1 := (fun x v => Host.reduce IntOp.andi x v reducesTo_S10x35_S_d0_1 h_S_) main_v61 main_c_23
  let main_v63 : IVec S_ 1 := andi main_v58 main_v62
  let main_v64 : FVec F S10 .f32 := Host.absf main_arg14
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg8 : FVec F S10 .f32) (main_arg9 : FVec F S35x10 .f32) (main_arg10 : FVec F S35 .f32) (main_arg11 : FVec F S3x35x35 .f32) (main_arg12 : FVec F S3x35 .f32) (main_arg13 : FVec F S10x35 .f32) (main_arg14 : FVec F S10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S35x10 .f32 := Host.absf main_arg9
  let main_cst_14 : FVec F S_ .f32 := constant S_ .f32 0x7F800000#32
  let main_v40 : FVec F S35x10 .f32 := broadcastInDim S35x10 ![] bcast_S_S35x10 main_cst_14
  let main_v41 : IVec S35x10 1 := cmpf .olt main_v39 main_v40
  let main_c_15 : IVec S_ 1 := constantI S_ 1 1#1
  let main_v42 : IVec S_ 1 := (fun x v => Host.reduce IntOp.andi x v reducesTo_S35x10_S_d0_1 h_S_) main_v41 main_c_15
  let main_v43 : IVec S_ 1 := andi main_v38 main_v42
  let main_v44 : FVec F S35 .f32 := Host.absf main_arg10
  let main_cst_16 : FVec F S_ .f32 := constant S_ .f32 0x7F800000#32
  let main_v45 : FVec F S35 .f32 := broadcastInDim S35 ![] bcast_S_S35 main_cst_16
  let main_v46 : IVec S35 1 := cmpf .olt main_v44 main_v45
  let main_c_17 : IVec S_ 1 := constantI S_ 1 1#1
  let main_v47 : IVec S_ 1 := (fun x v => Host.reduce IntOp.andi x v reducesTo_S35_S_d0 h_S_) main_v46 main_c_17
  let main_v48 : IVec S_ 1 := andi main_v43 main_v47
  let main_v49 : FVec F S3x35x35 .f32 := Host.absf main_arg11
  let main_cst_18 : FVec F S_ .f32 := constant S_ .f32 0x7F800000#32
  let main_v50 : FVec F S3x35x35 .f32 := broadcastInDim S3x35x35 ![] bcast_S_S3x35x35 main_cst_18
  fn_part3 (F := F) main_arg12 main_arg13 main_arg14 main_v48 main_v49 main_v50

def fn_part1 {F : FTy → Type} [FloatOps F] (main_arg5 : FVec F S3x35x35 .f32) (main_arg6 : FVec F S3x35 .f32) (main_arg7 : FVec F S10x35 .f32) (main_arg8 : FVec F S10 .f32) (main_arg9 : FVec F S35x10 .f32) (main_arg10 : FVec F S35 .f32) (main_arg11 : FVec F S3x35x35 .f32) (main_arg12 : FVec F S3x35 .f32) (main_arg13 : FVec F S10x35 .f32) (main_arg14 : FVec F S10 .f32) (main_v13 : IVec S_ 1) (main_v16 : IVec S35 1) : IVec S_ 1 :=
  let main_c_5 : IVec S_ 1 := constantI S_ 1 1#1
  let main_v17 : IVec S_ 1 := (fun x v => Host.reduce IntOp.andi x v reducesTo_S35_S_d0 h_S_) main_v16 main_c_5
  let main_v18 : IVec S_ 1 := andi main_v13 main_v17
  let main_v19 : FVec F S3x35x35 .f32 := Host.absf main_arg5
  let main_cst_6 : FVec F S_ .f32 := constant S_ .f32 0x7F800000#32
  let main_v20 : FVec F S3x35x35 .f32 := broadcastInDim S3x35x35 ![] bcast_S_S3x35x35 main_cst_6
  let main_v21 : IVec S3x35x35 1 := cmpf .olt main_v19 main_v20
  let main_c_7 : IVec S_ 1 := constantI S_ 1 1#1
  let main_v22 : IVec S_ 1 := (fun x v => Host.reduce IntOp.andi x v reducesTo_S3x35x35_S_d0_1_2 h_S_) main_v21 main_c_7
  let main_v23 : IVec S_ 1 := andi main_v18 main_v22
  let main_v24 : FVec F S3x35 .f32 := Host.absf main_arg6
  let main_cst_8 : FVec F S_ .f32 := constant S_ .f32 0x7F800000#32
  let main_v25 : FVec F S3x35 .f32 := broadcastInDim S3x35 ![] bcast_S_S3x35 main_cst_8
  let main_v26 : IVec S3x35 1 := cmpf .olt main_v24 main_v25
  let main_c_9 : IVec S_ 1 := constantI S_ 1 1#1
  let main_v27 : IVec S_ 1 := (fun x v => Host.reduce IntOp.andi x v reducesTo_S3x35_S_d0_1 h_S_) main_v26 main_c_9
  let main_v28 : IVec S_ 1 := andi main_v23 main_v27
  let main_v29 : FVec F S10x35 .f32 := Host.absf main_arg7
  let main_cst_10 : FVec F S_ .f32 := constant S_ .f32 0x7F800000#32
  let main_v30 : FVec F S10x35 .f32 := broadcastInDim S10x35 ![] bcast_S_S10x35 main_cst_10
  let main_v31 : IVec S10x35 1 := cmpf .olt main_v29 main_v30
  let main_c_11 : IVec S_ 1 := constantI S_ 1 1#1
  let main_v32 : IVec S_ 1 := (fun x v => Host.reduce IntOp.andi x v reducesTo_S10x35_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x1 .f32) (main_arg1 : IVec S1000000x10 32) (main_arg2 : FVec F S1000000 .f32) (main_arg3 : FVec F S35x10 .f32) (main_arg4 : FVec F S35 .f32) (main_arg5 : FVec F S3x35x35 .f32) (main_arg6 : FVec F S3x35 .f32) (main_arg7 : FVec F S10x35 .f32) (main_arg8 : FVec F S10 .f32) (main_arg9 : FVec F S35x10 .f32) (main_arg10 : FVec F S35 .f32) (main_arg11 : FVec F S3x35x35 .f32) (main_arg12 : FVec F S3x35 .f32) (main_arg13 : FVec F S10x35 .f32) (main_arg14 : FVec F S10 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S35x10 .f32 := Host.absf main_arg3
  let main_cst_2 : FVec F S_ .f32 := constant S_ .f32 0x7F800000#32
  let main_v10 : FVec F S35x10 .f32 := broadcastInDim S35x10 ![] bcast_S_S35x10 main_cst_2
  let main_v11 : IVec S35x10 1 := cmpf .olt main_v9 main_v10
  let main_c_3 : IVec S_ 1 := constantI S_ 1 1#1
  let main_v12 : IVec S_ 1 := (fun x v => Host.reduce IntOp.andi x v reducesTo_S35x10_S_d0_1 h_S_) main_v11 main_c_3
  let main_v13 : IVec S_ 1 := andi main_v8 main_v12
  let main_v14 : FVec F S35 .f32 := Host.absf main_arg4
  let main_cst_4 : FVec F S_ .f32 := constant S_ .f32 0x7F800000#32
  let main_v15 : FVec F S35 .f32 := broadcastInDim S35 ![] bcast_S_S35 main_cst_4
  let main_v16 : IVec S35 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x1 : Shape := ⟨2, ![100000, 1]⟩
abbrev S1000000x10 : Shape := ⟨2, ![1000000, 10]⟩
abbrev S1000000 : Shape := ⟨1, ![1000000]⟩
abbrev S35x10 : Shape := ⟨2, ![35, 10]⟩
abbrev S35 : Shape := ⟨1, ![35]⟩
abbrev S3x35x35 : Shape := ⟨3, ![3, 35, 35]⟩
abbrev S3x35 : Shape := ⟨2, ![3, 35]⟩
abbrev S10x35 : Shape := ⟨2, ![10, 35]⟩
abbrev S10 : Shape := ⟨1, ![10]⟩
abbrev S_ : Shape := ⟨0, ![]⟩
abbrev S1000000x10x1 : Shape := ⟨3, ![1000000, 10, 1]⟩
abbrev S1000000x10x2 : Shape := ⟨3, ![1000000, 10, 2]⟩
abbrev S10x1000000 : Shape := ⟨2, ![10, 1000000]⟩
abbrev S10x1015808 : Shape := ⟨2, ![10, 1015808]⟩
abbrev S1x1000000 : Shape := ⟨2, ![1, 1000000]⟩
abbrev S1x1015808 : Shape := ⟨2, ![1, 1015808]⟩
abbrev S5x35 : Shape := ⟨2, ![5, 35]⟩
abbrev S5 : Shape := ⟨1, ![5]⟩
abbrev S10x16384 : Shape := ⟨2, ![10, 16384]⟩
abbrev S1x16384 : Shape := ⟨2, ![1, 16384]⟩
abbrev S35x16384 : Shape := ⟨2, ![35, 16384]⟩
abbrev S35x1 : Shape := ⟨2, ![35, 1]⟩
abbrev S1x35x35 : Shape := ⟨3, ![1, 35, 35]⟩
abbrev S35x35 : Shape := ⟨2, ![35, 35]⟩
abbrev S1x35 : Shape := ⟨2, ![1, 35]⟩
abbrev S5x16384 : Shape := ⟨2, ![5, 16384]⟩
abbrev S5x1 : Shape := ⟨2, ![5, 1]⟩
abbrev S10000000 : Shape := ⟨1, ![10000000]⟩
abbrev S100000 : Shape := ⟨1, ![100000]⟩
abbrev S10000000x1 : Shape := ⟨2, ![10000000, 1]⟩
abbrev S1 : Shape := ⟨1, ![1]⟩
abbrev S1x1 : Shape := ⟨2, ![1, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x1, .f32⟩
  | .hbm, ⟨1, _⟩ => ⟨S1000000x10, .i32⟩
  | .hbm, ⟨2, _⟩ => ⟨S1000000, .f32⟩
  | .hbm, ⟨3, _⟩ => ⟨S35x10, .f32⟩
  | .hbm, ⟨4, _⟩ => ⟨S35, .f32⟩
  | .hbm, ⟨5, _⟩ => ⟨S3x35x35, .f32⟩
  | .hbm, ⟨6, _⟩ => ⟨S3x35, .f32⟩
  | .hbm, ⟨7, _⟩ => ⟨S10x35, .f32⟩
  | .hbm, ⟨8, _⟩ => ⟨S10, .f32⟩
  | .hbm, ⟨9, _⟩ => ⟨S35x10, .f32⟩
  | .hbm, ⟨10, _⟩ => ⟨S35, .f32⟩
  | .hbm, ⟨11, _⟩ => ⟨S3x35x35, .f32⟩
  | .hbm, ⟨12, _⟩ => ⟨S3x35, .f32⟩
  | .hbm, ⟨13, _⟩ => ⟨S10x35, .f32⟩
  | .hbm, ⟨14, _⟩ => ⟨S10, .f32⟩
  | .hbm, ⟨15, _⟩ => ⟨S_, .i32⟩
  | .hbm, ⟨16, _⟩ => ⟨S1000000x10, .i32⟩
  | .hbm, ⟨17, _⟩ => ⟨S1000000x10, .i1⟩
  | .hbm, ⟨18, _⟩ => ⟨S_, .i32⟩
  | .hbm, ⟨19, _⟩ => ⟨S1000000x10, .i32⟩
  | .hbm, ⟨20, _⟩ => ⟨S1000000x10, .i32⟩
  | .hbm, ⟨21, _⟩ => ⟨S1000000x10, .i32⟩
  | .hbm, ⟨22, _⟩ => ⟨S_, .i32⟩
  | .hbm, ⟨23, _⟩ => ⟨S1000000x10, .i32⟩
  | .hbm, ⟨24, _⟩ => ⟨S1000000x10, .i32⟩
  | .hbm, ⟨25, _⟩ => ⟨S1000000x10x1, .i32⟩
  | .hbm, ⟨26, _⟩ => ⟨S1000000x10x1, .i32⟩
  | .hbm, ⟨27, _⟩ => ⟨S1000000x10x2, .i32⟩
  | .hbm, ⟨28, _⟩ => ⟨S1000000x10, .f32⟩
  | .hbm, ⟨29, _⟩ => ⟨S10x1000000, .f32⟩
  | .hbm, ⟨30, _⟩ => ⟨S_, .i32⟩
  | .hbm, ⟨31, _⟩ => ⟨S_, .f32⟩
  | .hbm, ⟨32, _⟩ => ⟨S10x1015808, .f32⟩
  | .hbm, ⟨33, _⟩ => ⟨S10x1015808, .f32⟩
  | .hbm, ⟨34, _⟩ => ⟨S1x1000000, .f32⟩
  | .hbm, ⟨35, _⟩ => ⟨S_, .i32⟩
  | .hbm, ⟨36, _⟩ => ⟨S_, .f32⟩
  | .hbm, ⟨37, _⟩ => ⟨S1x1015808, .f32⟩
  | .hbm, ⟨38, _⟩ => ⟨S35x10, .bf16⟩
  | .hbm, ⟨39, _⟩ => ⟨S3x35x35, .bf16⟩
  | .hbm, ⟨40, _⟩ => ⟨S5x35, .f32⟩
  | .hbm, ⟨41, _⟩ => ⟨S5x35, .bf16⟩
  | .hbm, ⟨42, _⟩ => ⟨S5, .f32⟩
  | .hbm, ⟨43, _⟩ => ⟨S35x10, .bf16⟩
  | .hbm, ⟨44, _⟩ => ⟨S3x35x35, .bf16⟩
  | .hbm, ⟨45, _⟩ => ⟨S5x35, .f32⟩
  | .hbm, ⟨46, _⟩ => ⟨S5x35, .bf16⟩
  | .hbm, ⟨47, _⟩ => ⟨S5, .f32⟩
  | .hbm, ⟨48, _⟩ => ⟨S10x1015808, .f32⟩
  | .hbm, ⟨49, _⟩ => ⟨S10x1000000, .f32⟩
  | .hbm, ⟨50, _⟩ => ⟨S1000000x10, .f32⟩
  | .hbm, ⟨51, _⟩ => ⟨S10000000, .i32⟩
  | .hbm, ⟨52, _⟩ => ⟨S10000000, .f32⟩
  | .hbm, ⟨53, _⟩ => ⟨S_, .f32⟩
  | .hbm, ⟨54, _⟩ => ⟨S100000, .f32⟩
  | .hbm, ⟨55, _⟩ => ⟨S10000000x1, .i32⟩
  | .hbm, ⟨56, _⟩ => ⟨S100000, .f32⟩
  | .hbm, ⟨57, _⟩ => ⟨S_, .f32⟩
  | .hbm, ⟨58, _⟩ => ⟨S10000000, .f32⟩
  | .hbm, ⟨59, _⟩ => ⟨S_, .f32⟩
  | .hbm, ⟨60, _⟩ => ⟨S100000, .f32⟩
  | .hbm, ⟨61, _⟩ => ⟨S10000000x1, .i32⟩
  | .hbm, ⟨62, _⟩ => ⟨S100000, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S100000x1, .f32⟩
  | .hbm, ⟨76, _⟩ => ⟨S100000x1, .f32⟩
  | .hbm, ⟨77, _⟩ => ⟨S100000x1, .f32⟩
  | .hbm, ⟨78, _⟩ => ⟨S_, .f32⟩
  | .hbm, ⟨79, _⟩ => ⟨S1, .f32⟩
  | .hbm, ⟨80, _⟩ => ⟨S1, .f32⟩
  | .hbm, ⟨81, _⟩ => ⟨S1x1, .f32⟩
  | .hbm, ⟨82, _⟩ => ⟨S100000x1, .f32⟩
  | .hbm, ⟨83, _⟩ => ⟨S100000x1, .f32⟩
  | .local _ .vmem, ⟨0, _⟩ => ⟨S10x16384, .f32⟩
  | .local _ .vmem, ⟨1, _⟩ => ⟨S10x16384, .f32⟩
  | .local _ .vmem, ⟨2, _⟩ => ⟨S10x16384, .f32⟩
  | .local _ .vmem, ⟨3, _⟩ => ⟨S10x16384, .f32⟩
  | .local _ .vmem, ⟨4, _⟩ => ⟨S1x16384, .f32⟩
  | .local _ .vmem, ⟨5, _⟩ => ⟨S1x16384, .f32⟩
  | .local _ .vmem, ⟨6, _⟩ => ⟨S35x10, .bf16⟩
  | .local _ .vmem, ⟨7, _⟩ => ⟨S35, .f32⟩
  | .local _ .vmem, ⟨8, _⟩ => ⟨S3x35x35, .bf16⟩
  | .local _ .vmem, ⟨9, _⟩ => ⟨S3x35, .f32⟩
  | .local _ .vmem, ⟨10, _⟩ => ⟨S5x35, .bf16⟩
  | .local _ .vmem, ⟨11, _⟩ => ⟨S5, .f32⟩
  | .local _ .vmem, ⟨12, _⟩ => ⟨S35x10, .bf16⟩
  | .local _ .vmem, ⟨13, _⟩ => ⟨S35, .f32⟩
  | .local _ .vmem, ⟨14, _⟩ => ⟨S3x35x35, .bf16⟩
  | .local _ .vmem, ⟨15, _⟩ => ⟨S3x35, .f32⟩
  | .local _ .vmem, ⟨16, _⟩ => ⟨S5x35, .bf16⟩
  | .local _ .vmem, ⟨17, _⟩ => ⟨S5, .f32⟩
  | .local _ .vmem, ⟨18, _⟩ => ⟨S10x16384, .f32⟩
  | .local _ .vmem, ⟨19, _⟩ => ⟨S10x16384, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_call0_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_call1_v0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call2_v0 : Ref sig .tc := ⟨.hbm, 77, rfl⟩
abbrev main_call2_cst : Ref sig .tc := ⟨.hbm, 78, rfl⟩
abbrev main_call2_v1 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S10x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S35x10 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S35 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x35x35 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x35 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x35 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S35x10 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S35 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x35x35 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x35 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S5x35 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S5 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S10x16384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S_S1000000x10 : S_.BroadcastsInDim S1000000x10 (![] : Fin 0 → Fin S1000000x10.rank)
  bcast_S1000000x10_S1000000x10x1_0_1 : S1000000x10.BroadcastsInDim S1000000x10x1 (![0, 1] : Fin 2 → Fin S1000000x10x1.rank)
  concatenates_S1000000x10x1_S1000000x10x1_S1000000x10x2_d2 : Shape.Concatenates [S1000000x10x1, S1000000x10x1] S1000000x10x2 2
  transposes_S1000000x10_S10x1000000_1_0 : S1000000x10.Transposes [1, 0] S10x1000000
  pads_S10x1000000_S10x1015808_000_0158080 : S10x1000000.Pads (![0, 0] : Fin 2 → Nat) ![0, 15808] ![0, 0] S10x1015808
  h_S_ : 0 < S_.numel
  shapeCasts_S1000000_S1x1000000 : S1000000.ShapeCasts S1x1000000
  pads_S1x1000000_S1x1015808_000_0158080 : S1x1000000.Pads (![0, 0] : Fin 2 → Nat) ![0, 15808] ![0, 0] S1x1015808
  bitsLt_bf16_f32 : FTy.bits .bf16 < FTy.bits .f32
  slices_S10x35_S5x35_0_0 : S10x35.Slices ![0, 0] S5x35
  slices_S10_S5_0 : S10.Slices ![0] S5
  inb_S10x16384_S10x16384_0_0 : ∀ a, (![0, 0] : Fin 2 → Nat) a + S10x16384.size a ≤ S10x16384.size a
  h_S10x16384 : 0 < S10x16384.numel
  shapeCasts_S10x16384_S10x16384 : S10x16384.ShapeCasts S10x16384
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  inb_S35x10_S35x10_0_0 : ∀ a, (![0, 0] : Fin 2 → Nat) a + S35x10.size a ≤ S35x10.size a
  h_S35x10 : 0 < S35x10.numel
  shapeCasts_S35x10_S35x10 : S35x10.ShapeCasts S35x10
  inb_S35_S35_0 : ∀ a, (![0] : Fin 1 → Nat) a + S35.size a ≤ S35.size a
  h_S35 : 0 < S35.numel
  inb_S3x35x35_S3x35x35_0_0_0 : ∀ a, (![0, 0, 0] : Fin 3 → Nat) a + S3x35x35.size a ≤ S3x35x35.size a
  h_S3x35x35 : 0 < S3x35x35.numel
  shapeCasts_S3x35x35_S3x35x35 : S3x35x35.ShapeCasts S3x35x35
  inb_S3x35_S3x35_0_0 : ∀ a, (![0, 0] : Fin 2 → Nat) a + S3x35.size a ≤ S3x35.size a
  h_S3x35 : 0 < S3x35.numel
  inb_S5x35_S5x35_0_0 : ∀ a, (![0, 0] : Fin 2 → Nat) a + S5x35.size a ≤ S5x35.size a
  h_S5x35 : 0 < S5x35.numel
  shapeCasts_S5x35_S5x35 : S5x35.ShapeCasts S5x35
  inb_S5_S5_0 : ∀ a, (![0] : Fin 1 → Nat) a + S5.size a ≤ S5.size a
  h_S5 : 0 < S5.numel
  shapeCasts_S5_S5 : S5.ShapeCasts S5
  shapeCasts_S35_S35x1 : S35.ShapeCasts S35x1
  broadcasts_S35x1_S35x16384 : S35x1.Broadcasts S35x16384
  slices_S3x35x35_o0_0_0_S1x35x35 : S3x35x35.Slices ![0, 0, 0] S1x35x35
  shapeCasts_S1x35x35_S35x35 : S1x35x35.ShapeCasts S35x35
  slices_S3x35_o0_0_S1x35 : S3x35.Slices ![0, 0] S1x35
  shapeCasts_S1x35_S35 : S1x35.ShapeCasts S35
  slices_S3x35x35_o1_0_0_S1x35x35 : S3x35x35.Slices ![1, 0, 0] S1x35x35
  slices_S3x35_o1_0_S1x35 : S3x35.Slices ![1, 0] S1x35
  slices_S3x35x35_o2_0_0_S1x35x35 : S3x35x35.Slices ![2, 0, 0] S1x35x35
  slices_S3x35_o2_0_S1x35 : S3x35.Slices ![2, 0] S1x35
  shapeCasts_S5_S5x1 : S5.ShapeCasts S5x1
  broadcasts_S5x1_S5x16384 : S5x1.Broadcasts S5x16384
  broadcasts_S1x16384_S5x16384 : S1x16384.Broadcasts S5x16384
  concatenates_S5x16384_S5x16384_S10x16384_d0 : Shape.Concatenates [S5x16384, S5x16384] S10x16384 0
  slices_S10x1015808_S10x1000000_0_0 : S10x1015808.Slices ![0, 0] S10x1000000
  transposes_S10x1000000_S1000000x10_1_0 : S10x1000000.Transposes [1, 0] S1000000x10
  shapeCasts_S1000000x10_S10000000 : S1000000x10.ShapeCasts S10000000
  bcast_S_S100000 : S_.BroadcastsInDim S100000 (![] : Fin 0 → Fin S100000.rank)
  bcast_S10000000_S10000000x1_0 : S10000000.BroadcastsInDim S10000000x1 (![0] : Fin 1 → Fin S10000000x1.rank)
  bcast_S_S10000000 : S_.BroadcastsInDim S10000000 (![] : Fin 0 → Fin S10000000.rank)
  reducesTo_S100000_S_d0 : S100000.ReducesTo [0] S_
  bcast_S100000_S100000x1_0 : S100000.BroadcastsInDim S100000x1 (![0] : Fin 1 → Fin S100000x1.rank)
  reducesTo_S100000x1_S_d0_1 : S100000x1.ReducesTo [0, 1] S_
  bcast_S_S100000x1 : S_.BroadcastsInDim S100000x1 (![] : Fin 0 → Fin S100000x1.rank)
  reducesTo_S100000x1_S1_d0 : S100000x1.ReducesTo [0] S1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x1_S1000000x10x2_S1000000x10_n_01_n_n_01_2_11_wf : GatherDims.WF S100000x1 S1000000x10x2 S1000000x10 [] [0, 1] [] [0, 1] [] 2 ![1, 1]
  dot_S35x10_S10x16384_S35x16384_1_0_0_1_n_n_wf : DotDims.WF S35x10 S10x16384 S35x16384 [1] [0] [0] [1] [] []
  dot_S35x35_S35x16384_S35x16384_1_0_0_1_n_n_wf : DotDims.WF S35x35 S35x16384 S35x16384 [1] [0] [0] [1] [] []
  dot_S5x35_S35x16384_S5x16384_1_0_0_1_n_n_wf : DotDims.WF S5x35 S35x16384 S5x16384 [1] [0] [0] [1] [] []
  scatter_S100000_S10000000x1_S10000000_n_0_0_1_wf : ScatterDims.WF S100000 S10000000x1 S10000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x16384.size a ≤ S10x1015808.size a
  hwx0_0 : ∀ i : grid0.Coords, EltTy.bits .f32 = 32 ∨ (Rect.block (s := S10x1015808) S10x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10x16384.size a ≤ S10x1015808.size a
  hwx0_1 : ∀ i : grid0.Coords, EltTy.bits .f32 = 32 ∨ (Rect.block (s := S10x1015808) S10x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x1015808.size a
  hwx0_2 : ∀ i : grid0.Coords, EltTy.bits .f32 = 32 ∨ (Rect.block (s := S1x1015808) S1x16384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S35x10.size a ≤ S35x10.size a
  hwx0_3 : ∀ i : grid0.Coords, EltTy.bits .bf16 = 32 ∨ (Rect.block (s := S35x10) S35x10.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S35.size a ≤ S35.size a
  hwx0_4 : ∀ i : grid0.Coords, EltTy.bits .f32 = 32 ∨ (Rect.block (s := S35) S35.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x35x35.size a ≤ S3x35x35.size a
  hwx0_5 : ∀ i : grid0.Coords, EltTy.bits .bf16 = 32 ∨ (Rect.block (s := S3x35x35) S3x35x35.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x35.size a ≤ S3x35.size a
  hwx0_6 : ∀ i : grid0.Coords, EltTy.bits .f32 = 32 ∨ (Rect.block (s := S3x35) S3x35.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5x35.size a ≤ S5x35.size a
  hwx0_7 : ∀ i : grid0.Coords, EltTy.bits .bf16 = 32 ∨ (Rect.block (s := S5x35) S5x35.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5.size a ≤ S5.size a
  hwx0_8 : ∀ i : grid0.Coords, EltTy.bits .f32 = 32 ∨ (Rect.block (s := S5) S5.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S35x10.size a ≤ S35x10.size a
  hwx0_9 : ∀ i : grid0.Coords, EltTy.bits .bf16 = 32 ∨ (Rect.block (s := S35x10) S35x10.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S35.size a ≤ S35.size a
  hwx0_10 : ∀ i : grid0.Coords, EltTy.bits .f32 = 32 ∨ (Rect.block (s := S35) S35.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3x35x35.size a ≤ S3x35x35.size a
  hwx0_11 : ∀ i : grid0.Coords, EltTy.bits .bf16 = 32 ∨ (Rect.block (s := S3x35x35) S3x35x35.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3x35.size a ≤ S3x35.size a
  hwx0_12 : ∀ i : grid0.Coords, EltTy.bits .f32 = 32 ∨ (Rect.block (s := S3x35) S3x35.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S5x35.size a ≤ S5x35.size a
  hwx0_13 : ∀ i : grid0.Coords, EltTy.bits .bf16 = 32 ∨ (Rect.block (s := S5x35) S5x35.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S5.size a ≤ S5.size a
  hwx0_14 : ∀ i : grid0.Coords, EltTy.bits .f32 = 32 ∨ (Rect.block (s := S5) S5.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S10x16384.size a ≤ S10x1015808.size a
  hwx0_15 : ∀ i : grid0.Coords, EltTy.bits .f32 = 32 ∨ (Rect.block (s := S10x1015808) S10x16384.size (cc0_transform_15 i) (hinb0_15 i)).WholeWords (EltTy.packing .f32)

variable [Facts₀]

def gather_S100000x1_S1000000x10x2_S1000000x10_n_01_n_n_01_2_11 : GatherDims S100000x1 S1000000x10x2 S1000000x10 where
  offsetDims := []
  collapsedSliceDims := [0, 1]
  operandBatchingDims := []
  startIndicesBatchingDims := []
  startIndexMap := [0, 1]
  indexVectorDim := 2
  sliceSizes := ![1, 1]
  wf := gather_S100000x1_S1000000x10x2_S1000000x10_n_01_n_n_01_2_11_wf
def dot_S35x10_S10x16384_S35x16384_1_0_0_1_n_n : DotDims S35x10 S10x16384 S35x16384 where
  lhsContracting := [1]
  rhsContracting := [0]
  lhsNonContracting := [0]
  rhsNonContracting := [1]
  lhsBatch := []
  rhsBatch := []
  wf := dot_S35x10_S10x16384_S35x16384_1_0_0_1_n_n_wf
def dot_S35x35_S35x16384_S35x16384_1_0_0_1_n_n : DotDims S35x35 S35x16384 S35x16384 where
  lhsContracting := [1]
  rhsContracting := [0]
  lhsNonContracting := [0]
  rhsNonContracting := [1]
  lhsBatch := []
  rhsBatch := []
  wf := dot_S35x35_S35x16384_S35x16384_1_0_0_1_n_n_wf
def dot_S5x35_S35x16384_S5x16384_1_0_0_1_n_n : DotDims S5x35 S35x16384 S5x16384 where
  lhsContracting := [1]
  rhsContracting := [0]
  lhsNonContracting := [0]
  rhsNonContracting := [1]
  lhsBatch := []
  rhsBatch := []
  wf := dot_S5x35_S35x16384_S5x16384_1_0_0_1_n_n_wf
def scatter_S100000_S10000000x1_S10000000_n_0_0_1 : ScatterDims S100000 S10000000x1 S10000000 where
  updateWindowDims := []
  insertedWindowDims := [0]
  scatterDimsToOperandDims := [0]
  indexVectorDim := 1
  wf := scatter_S100000_S10000000x1_S10000000_n_0_0_1_wf

abbrev win0_0 : Pipeline.Window sig grid0 :=
  Pipeline.Window.ofSpec (Memref.whole main_v12) S10x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S35x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S35.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S3x35x35.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x35.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S5x35.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S5.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S35x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S35.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22) S3x35x35.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S3x35.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24) S5x35.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25) S5.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v26) S10x16384.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S100000x1 : Shape := ⟨2, ![100000, 1]⟩
abbrev S1000000x10 : Shape := ⟨2, ![1000000, 10]⟩
abbrev S1000000 : Shape := ⟨1, ![1000000]⟩
abbrev S35x10 : Shape := ⟨2, ![35, 10]⟩
abbrev S35 : Shape := ⟨1, ![35]⟩
abbrev S3x35x35 : Shape := ⟨3, ![3, 35, 35]⟩
abbrev S3x35 : Shape := ⟨2, ![3, 35]⟩
abbrev S10x35 : Shape := ⟨2, ![10, 35]⟩
abbrev S10 : Shape := ⟨1, ![10]⟩
abbrev S_ : Shape := ⟨0, ![]⟩
abbrev S1000000x10x1 : Shape := ⟨3, ![1000000, 10, 1]⟩
abbrev S1000000x10x2 : Shape := ⟨3, ![1000000, 10, 2]⟩
abbrev S1000000x35 : Shape := ⟨2, ![1000000, 35]⟩
abbrev S1x35 : Shape := ⟨2, ![1, 35]⟩
abbrev S1x35x35 : Shape := ⟨3, ![1, 35, 35]⟩
abbrev S35x35 : Shape := ⟨2, ![35, 35]⟩
abbrev S1x10 : Shape := ⟨2, ![1, 10]⟩
abbrev S1000000x1 : Shape := ⟨2, ![1000000, 1]⟩
abbrev S1000000x5 : Shape := ⟨2, ![1000000, 5]⟩
abbrev S10000000 : Shape := ⟨1, ![10000000]⟩
abbrev S100000 : Shape := ⟨1, ![100000]⟩
abbrev S10000000x1 : Shape := ⟨2, ![10000000, 1]⟩
abbrev S1 : Shape := ⟨1, ![1]⟩
abbrev S1x1 : Shape := ⟨2, ![1, 1]⟩

abbrev nBuf : Space → Nat
  | .hbm => 320
  | .vmem => 0
  | .smem => 0
  | _ => 0

abbrev hbmTy0_0 (i : Nat) : BufTy := match i % 128 with
  | 0 => ⟨S100000x1, .f32⟩
  | 1 => ⟨S1000000x10, .i32⟩
  | 2 => ⟨S1000000, .f32⟩
  | 3 => ⟨S35x10, .f32⟩
  | 4 => ⟨S35, .f32⟩
  | 5 => ⟨S3x35x35, .f32⟩
  | 6 => ⟨S3x35, .f32⟩
  | 7 => ⟨S10x35, .f32⟩
  | 8 => ⟨S10, .f32⟩
  | 9 => ⟨S35x10, .f32⟩
  | 10 => ⟨S35, .f32⟩
  | 11 => ⟨S3x35x35, .f32⟩
  | 12 => ⟨S3x35, .f32⟩
  | 13 => ⟨S10x35, .f32⟩
  | 14 => ⟨S10, .f32⟩
  | 15 => ⟨S_, .i32⟩
  | 16 => ⟨S1000000x10, .i32⟩
  | 17 => ⟨S1000000x10, .i1⟩
  | 18 => ⟨S_, .i32⟩
  | 19 => ⟨S1000000x10, .i32⟩
  | 20 => ⟨S1000000x10, .i32⟩
  | 21 => ⟨S1000000x10, .i32⟩
  | 22 => ⟨S_, .i32⟩
  | 23 => ⟨S1000000x10, .i32⟩
  | 24 => ⟨S1000000x10, .i32⟩
  | 25 => ⟨S1000000x10x1, .i32⟩
  | 26 => ⟨S1000000x10x1, .i32⟩
  | 27 => ⟨S1000000x10x2, .i32⟩
  | 28 => ⟨S1000000x10, .f32⟩
  | 29 => ⟨S1000000x10, .f32⟩
  | 30 => ⟨S10x35, .f32⟩
  | 31 => ⟨S1000000x35, .f32⟩
  | 32 => ⟨S1x35, .f32⟩
  | 33 => ⟨S1000000x35, .f32⟩
  | 34 => ⟨S1000000x35, .f32⟩
  | 35 => ⟨S_, .f32⟩
  | 36 => ⟨S1000000x35, .f32⟩
  | 37 => ⟨S1000000x35, .f32⟩
  | 38 => ⟨S1x35x35, .f32⟩
  | 39 => ⟨S35x35, .f32⟩
  | 40 => ⟨S35x35, .f32⟩
  | 41 => ⟨S1000000x35, .f32⟩
  | 42 => ⟨S1x35, .f32⟩
  | 43 => ⟨S35, .f32⟩
  | 44 => ⟨S1x35, .f32⟩
  | 45 => ⟨S1000000x35, .f32⟩
  | 46 => ⟨S1000000x35, .f32⟩
  | 47 => ⟨S_, .f32⟩
  | 48 => ⟨S1000000x35, .f32⟩
  | 49 => ⟨S1000000x35, .f32⟩
  | 50 => ⟨S1x35x35, .f32⟩
  | 51 => ⟨S35x35, .f32⟩
  | 52 => ⟨S35x35, .f32⟩
  | 53 => ⟨S1000000x35, .f32⟩
  | 54 => ⟨S1x35, .f32⟩
  | 55 => ⟨S35, .f32⟩
  | 56 => ⟨S1x35, .f32⟩
  | 57 => ⟨S1000000x35, .f32⟩
  | 58 => ⟨S1000000x35, .f32⟩
  | 59 => ⟨S_, .f32⟩
  | 60 => ⟨S1000000x35, .f32⟩
  | 61 => ⟨S1000000x35, .f32⟩
  | 62 => ⟨S1x35x35, .f32⟩
  | 63 => ⟨S35x35, .f32⟩
  | 64 => ⟨S35x35, .f32⟩
  | 65 => ⟨S1000000x35, .f32⟩
  | 66 => ⟨S1x35, .f32⟩
  | 67 => ⟨S35, .f32⟩
  | 68 => ⟨S1x35, .f32⟩
  | 69 => ⟨S1000000x35, .f32⟩
  | 70 => ⟨S1000000x35, .f32⟩
  | 71 => ⟨S_, .f32⟩
  | 72 => ⟨S1000000x35, .f32⟩
  | 73 => ⟨S1000000x35, .f32⟩
  | 74 => ⟨S35x10, .f32⟩
  | 75 => ⟨S1000000x10, .f32⟩
  | 76 => ⟨S1x10, .f32⟩
  | 77 => ⟨S1000000x10, .f32⟩
  | 78 => ⟨S1000000x10, .f32⟩
  | 79 => ⟨S10x35, .f32⟩
  | 80 => ⟨S1000000x35, .f32⟩
  | 81 => ⟨S1x35, .f32⟩
  | 82 => ⟨S1000000x35, .f32⟩
  | 83 => ⟨S1000000x35, .f32⟩
  | 84 => ⟨S_, .f32⟩
  | 85 => ⟨S1000000x35, .f32⟩
  | 86 => ⟨S1000000x35, .f32⟩
  | 87 => ⟨S1x35x35, .f32⟩
  | 88 => ⟨S35x35, .f32⟩
  | 89 => ⟨S35x35, .f32⟩
  | 90 => ⟨S1000000x35, .f32⟩
  | 91 => ⟨S1x35, .f32⟩
  | 92 => ⟨S35, .f32⟩
  | 93 => ⟨S1x35, .f32⟩
  | 94 => ⟨S1000000x35, .f32⟩
  | 95 => ⟨S1000000x35, .f32⟩
  | 96 => ⟨S_, .f32⟩
  | 97 => ⟨S1000000x35, .f32⟩
  | 98 => ⟨S1000000x35, .f32⟩
  | 99 => ⟨S1x35x35, .f32⟩
  | 100 => ⟨S35x35, .f32⟩
  | 101 => ⟨S35x35, .f32⟩
  | 102 => ⟨S1000000x35, .f32⟩
  | 103 => ⟨S1x35, .f32⟩
  | 104 => ⟨S35, .f32⟩
  | 105 => ⟨S1x35, .f32⟩
  | 106 => ⟨S1000000x35, .f32⟩
  | 107 => ⟨S1000000x35, .f32⟩
  | 108 => ⟨S_, .f32⟩
  | 109 => ⟨S1000000x35, .f32⟩
  | 110 => ⟨S1000000x35, .f32⟩
  | 111 => ⟨S1x35x35, .f32⟩
  | 112 => ⟨S35x35, .f32⟩
  | 113 => ⟨S35x35, .f32⟩
  | 114 => ⟨S1000000x35, .f32⟩
  | 115 => ⟨S1x35, .f32⟩
  | 116 => ⟨S35, .f32⟩
  | 117 => ⟨S1x35, .f32⟩
  | 118 => ⟨S1000000x35, .f32⟩
  | 119 => ⟨S1000000x35, .f32⟩
  | 120 => ⟨S_, .f32⟩
  | 121 => ⟨S1000000x35, .f32⟩
  | 122 => ⟨S1000000x35, .f32⟩
  | 123 => ⟨S35x10, .f32⟩
  | 124 => ⟨S1000000x10, .f32⟩
  | 125 => ⟨S1x10, .f32⟩
  | 126 => ⟨S1000000x10, .f32⟩
  | 127 => ⟨S1000000x10, .f32⟩
  | _ => ⟨S100000x1, .f32⟩

abbrev hbmTy0_1 (i : Nat) : BufTy := match i % 128 with
  | 0 => ⟨S10x35, .f32⟩
  | 1 => ⟨S1000000x35, .f32⟩
  | 2 => ⟨S1x35, .f32⟩
  | 3 => ⟨S1000000x35, .f32⟩
  | 4 => ⟨S1000000x35, .f32⟩
  | 5 => ⟨S_, .f32⟩
  | 6 => ⟨S1000000x35, .f32⟩
  | 7 => ⟨S1000000x35, .f32⟩
  | 8 => ⟨S1x35x35, .f32⟩
  | 9 => ⟨S35x35, .f32⟩
  | 10 => ⟨S35x35, .f32⟩
  | 11 => ⟨S1000000x35, .f32⟩
  | 12 => ⟨S1x35, .f32⟩
  | 13 => ⟨S35, .f32⟩
  | 14 => ⟨S1x35, .f32⟩
  | 15 => ⟨S1000000x35, .f32⟩
  | 16 => ⟨S1000000x35, .f32⟩
  | 17 => ⟨S_, .f32⟩
  | 18 => ⟨S1000000x35, .f32⟩
  | 19 => ⟨S1000000x35, .f32⟩
  | 20 => ⟨S1x35x35, .f32⟩
  | 21 => ⟨S35x35, .f32⟩
  | 22 => ⟨S35x35, .f32⟩
  | 23 => ⟨S1000000x35, .f32⟩
  | 24 => ⟨S1x35, .f32⟩
  | 25 => ⟨S35, .f32⟩
  | 26 => ⟨S1x35, .f32⟩
  | 27 => ⟨S1000000x35, .f32⟩
  | 28 => ⟨S1000000x35, .f32⟩
  | 29 => ⟨S_, .f32⟩
  | 30 => ⟨S1000000x35, .f32⟩
  | 31 => ⟨S1000000x35, .f32⟩
  | 32 => ⟨S1x35x35, .f32⟩
  | 33 => ⟨S35x35, .f32⟩
  | 34 => ⟨S35x35, .f32⟩
  | 35 => ⟨S1000000x35, .f32⟩
  | 36 => ⟨S1x35, .f32⟩
  | 37 => ⟨S35, .f32⟩
  | 38 => ⟨S1x35, .f32⟩
  | 39 => ⟨S1000000x35, .f32⟩
  | 40 => ⟨S1000000x35, .f32⟩
  | 41 => ⟨S_, .f32⟩
  | 42 => ⟨S1000000x35, .f32⟩
  | 43 => ⟨S1000000x35, .f32⟩
  | 44 => ⟨S35x10, .f32⟩
  | 45 => ⟨S1000000x10, .f32⟩
  | 46 => ⟨S1x10, .f32⟩
  | 47 => ⟨S1000000x10, .f32⟩
  | 48 => ⟨S1000000x10, .f32⟩
  | 49 => ⟨S10x35, .f32⟩
  | 50 => ⟨S1000000x35, .f32⟩
  | 51 => ⟨S1x35, .f32⟩
  | 52 => ⟨S1000000x35, .f32⟩
  | 53 => ⟨S1000000x35, .f32⟩
  | 54 => ⟨S_, .f32⟩
  | 55 => ⟨S1000000x35, .f32⟩
  | 56 => ⟨S1000000x35, .f32⟩
  | 57 => ⟨S1x35x35, .f32⟩
  | 58 => ⟨S35x35, .f32⟩
  | 59 => ⟨S35x35, .f32⟩
  | 60 => ⟨S1000000x35, .f32⟩
  | 61 => ⟨S1x35, .f32⟩
  | 62 => ⟨S35, .f32⟩
  | 63 => ⟨S1x35, .f32⟩
  | 64 => ⟨S1000000x35, .f32⟩
  | 65 => ⟨S1000000x35, .f32⟩
  | 66 => ⟨S_, .f32⟩
  | 67 => ⟨S1000000x35, .f32⟩
  | 68 => ⟨S1000000x35, .f32⟩
  | 69 => ⟨S1x35x35, .f32⟩
  | 70 => ⟨S35x35, .f32⟩
  | 71 => ⟨S35x35, .f32⟩
  | 72 => ⟨S1000000x35, .f32⟩
  | 73 => ⟨S1x35, .f32⟩
  | 74 => ⟨S35, .f32⟩
  | 75 => ⟨S1x35, .f32⟩
  | 76 => ⟨S1000000x35, .f32⟩
  | 77 => ⟨S1000000x35, .f32⟩
  | 78 => ⟨S_, .f32⟩
  | 79 => ⟨S1000000x35, .f32⟩
  | 80 => ⟨S1000000x35, .f32⟩
  | 81 => ⟨S1x35x35, .f32⟩
  | 82 => ⟨S35x35, .f32⟩
  | 83 => ⟨S35x35, .f32⟩
  | 84 => ⟨S1000000x35, .f32⟩
  | 85 => ⟨S1x35, .f32⟩
  | 86 => ⟨S35, .f32⟩
  | 87 => ⟨S1x35, .f32⟩
  | 88 => ⟨S1000000x35, .f32⟩
  | 89 => ⟨S1000000x35, .f32⟩
  | 90 => ⟨S_, .f32⟩
  | 91 => ⟨S1000000x35, .f32⟩
  | 92 => ⟨S1000000x35, .f32⟩
  | 93 => ⟨S35x10, .f32⟩
  | 94 => ⟨S1000000x10, .f32⟩
  | 95 => ⟨S1x10, .f32⟩
  | 96 => ⟨S1000000x10, .f32⟩
  | 97 => ⟨S1000000x10, .f32⟩
  | 98 => ⟨S_, .f32⟩
  | 99 => ⟨S1000000, .f32⟩
  | 100 => ⟨S1000000, .f32⟩
  | 101 => ⟨S_, .f32⟩
  | 102 => ⟨S1000000, .f32⟩
  | 103 => ⟨S1000000, .f32⟩
  | 104 => ⟨S1000000x1, .f32⟩
  | 105 => ⟨S1000000x10, .f32⟩
  | 106 => ⟨S1000000x10, .f32⟩
  | 107 => ⟨S_, .f32⟩
  | 108 => ⟨S1000000x10, .f32⟩
  | 109 => ⟨S1000000x10, .f32⟩
  | 110 => ⟨S_, .f32⟩
  | 111 => ⟨S1000000x10, .f32⟩
  | 112 => ⟨S1000000x10, .f32⟩
  | 113 => ⟨S1000000x10, .f32⟩
  | 114 => ⟨S1000000x10, .f32⟩
  | 115 => ⟨S_, .f32⟩
  | 116 => ⟨S1000000, .f32⟩
  | 117 => ⟨S1000000, .f32⟩
  | 118 => ⟨S1000000x1, .f32⟩
  | 119 => ⟨S1000000x10, .f32⟩
  | 120 => ⟨S1000000x10, .f32⟩
  | 121 => ⟨S_, .f32⟩
  | 122 => ⟨S1000000x10, .f32⟩
  | 123 => ⟨S1000000x10, .f32⟩
  | 124 => ⟨S_, .f32⟩
  | 125 => ⟨S1000000x10, .f32⟩
  | 126 => ⟨S1000000x10, .f32⟩
  | 127 => ⟨S1000000x10, .f32⟩
  | _ => ⟨S100000x1, .f32⟩

abbrev hbmTy0_2 (i : Nat) : BufTy := match i % 128 with
  | 0 => ⟨S1000000x10, .f32⟩
  | 1 => ⟨S1000000x10, .f32⟩
  | 2 => ⟨S_, .f32⟩
  | 3 => ⟨S1000000, .f32⟩
  | 4 => ⟨S1000000, .f32⟩
  | 5 => ⟨S1000000x1, .f32⟩
  | 6 => ⟨S1000000x10, .f32⟩
  | 7 => ⟨S1000000x10, .f32⟩
  | 8 => ⟨S_, .f32⟩
  | 9 => ⟨S1000000x10, .f32⟩
  | 10 => ⟨S1000000x10, .f32⟩
  | 11 => ⟨S_, .f32⟩
  | 12 => ⟨S1000000x10, .f32⟩
  | 13 => ⟨S1000000x10, .f32⟩
  | 14 => ⟨S1000000x10, .f32⟩
  | 15 => ⟨S1000000x10, .f32⟩
  | 16 => ⟨S1000000x1, .f32⟩
  | 17 => ⟨S1000000x10, .f32⟩
  | 18 => ⟨S1000000x10, .f32⟩
  | 19 => ⟨S_, .f32⟩
  | 20 => ⟨S1000000x10, .f32⟩
  | 21 => ⟨S1000000x10, .f32⟩
  | 22 => ⟨S_, .f32⟩
  | 23 => ⟨S1000000x10, .f32⟩
  | 24 => ⟨S1000000x10, .f32⟩
  | 25 => ⟨S1000000x10, .f32⟩
  | 26 => ⟨S1000000x10, .f32⟩
  | 27 => ⟨S1000000x10, .f32⟩
  | 28 => ⟨S1000000x5, .f32⟩
  | 29 => ⟨S1000000x5, .f32⟩
  | 30 => ⟨S1000000x10, .f32⟩
  | 31 => ⟨S10000000, .f32⟩
  | 32 => ⟨S10000000, .i32⟩
  | 33 => ⟨S_, .f32⟩
  | 34 => ⟨S100000, .f32⟩
  | 35 => ⟨S10000000x1, .i32⟩
  | 36 => ⟨S100000, .f32⟩
  | 37 => ⟨S_, .f32⟩
  | 38 => ⟨S10000000, .f32⟩
  | 39 => ⟨S_, .f32⟩
  | 40 => ⟨S100000, .f32⟩
  | 41 => ⟨S10000000x1, .i32⟩
  | 42 => ⟨S100000, .f32⟩
  | 43 => ⟨S_, .f32⟩
  | 44 => ⟨S_, .f32⟩
  | 45 => ⟨S_, .f32⟩
  | 46 => ⟨S_, .f32⟩
  | 47 => ⟨S100000, .f32⟩
  | 48 => ⟨S100000, .f32⟩
  | 49 => ⟨S100000x1, .f32⟩
  | 50 => ⟨S100000x1, .f32⟩
  | 51 => ⟨S_, .f32⟩
  | 52 => ⟨S_, .f32⟩
  | 53 => ⟨S_, .f32⟩
  | 54 => ⟨S_, .f32⟩
  | 55 => ⟨S100000x1, .f32⟩
  | 56 => ⟨S100000x1, .f32⟩
  | 57 => ⟨S100000x1, .f32⟩
  | 58 => ⟨S_, .f32⟩
  | 59 => ⟨S1, .f32⟩
  | 60 => ⟨S1, .f32⟩
  | 61 => ⟨S1x1, .f32⟩
  | 62 => ⟨S100000x1, .f32⟩
  | 63 => ⟨S100000x1, .f32⟩
  | _ => ⟨S100000x1, .f32⟩

abbrev hbmTy (i : Nat) : BufTy := match i / 128 with
  | 0 => hbmTy0_0 i
  | 1 => hbmTy0_1 i
  | 2 => hbmTy0_2 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call0_cst : Ref sig .tc := ⟨.hbm, 35, rfl⟩
abbrev main_call0_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_cst : Ref sig .tc := ⟨.hbm, 47, rfl⟩
abbrev main_call1_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call2_cst : Ref sig .tc := ⟨.hbm, 59, rfl⟩
abbrev main_call2_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call3_cst : Ref sig .tc := ⟨.hbm, 71, rfl⟩
abbrev main_call3_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call4_cst : Ref sig .tc := ⟨.hbm, 84, rfl⟩
abbrev main_call4_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_call5_cst : Ref sig .tc := ⟨.hbm, 96, rfl⟩
abbrev main_call5_v0 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_call6_cst : Ref sig .tc := ⟨.hbm, 108, rfl⟩
abbrev main_call6_v0 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_call7_cst : Ref sig .tc := ⟨.hbm, 120, rfl⟩
abbrev main_call7_v0 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_call8_cst : Ref sig .tc := ⟨.hbm, 133, rfl⟩
abbrev main_call8_v0 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_call9_cst : Ref sig .tc := ⟨.hbm, 145, rfl⟩
abbrev main_call9_v0 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_call10_cst : Ref sig .tc := ⟨.hbm, 157, rfl⟩
abbrev main_call10_v0 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_call11_cst : Ref sig .tc := ⟨.hbm, 169, rfl⟩
abbrev main_call11_v0 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_call12_cst : Ref sig .tc := ⟨.hbm, 182, rfl⟩
abbrev main_call12_v0 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_call13_cst : Ref sig .tc := ⟨.hbm, 194, rfl⟩
abbrev main_call13_v0 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_call14_cst : Ref sig .tc := ⟨.hbm, 206, rfl⟩
abbrev main_call14_v0 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_call15_cst : Ref sig .tc := ⟨.hbm, 218, rfl⟩
abbrev main_call15_v0 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_cst : Ref sig .tc := ⟨.hbm, 226, rfl⟩
abbrev main_v176 : Ref sig .tc := ⟨.hbm, 227, rfl⟩
abbrev main_v177 : Ref sig .tc := ⟨.hbm, 228, rfl⟩
abbrev main_cst_2 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_cst_3 : Ref sig .tc := ⟨.hbm, 235, rfl⟩
abbrev main_v183 : Ref sig .tc := ⟨.hbm, 236, rfl⟩
abbrev main_v184 : Ref sig .tc := ⟨.hbm, 237, rfl⟩
abbrev main_cst_4 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_cst_5 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_cst_6 : Ref sig .tc := ⟨.hbm, 249, rfl⟩
abbrev main_v194 : Ref sig .tc := ⟨.hbm, 250, rfl⟩
abbrev main_v195 : Ref sig .tc := ⟨.hbm, 251, rfl⟩
abbrev main_cst_7 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_cst_8 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_cst_9 : Ref sig .tc := ⟨.hbm, 264, rfl⟩
abbrev main_v206 : Ref sig .tc := ⟨.hbm, 265, rfl⟩
abbrev main_v207 : Ref sig .tc := ⟨.hbm, 266, rfl⟩
abbrev main_cst_10 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_cst_11 : Ref sig .tc := ⟨.hbm, 275, rfl⟩
abbrev main_v215 : Ref sig .tc := ⟨.hbm, 276, rfl⟩
abbrev main_v216 : Ref sig .tc := ⟨.hbm, 277, rfl⟩
abbrev main_cst_12 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_cst_13 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_cst_14 : Ref sig .tc := ⟨.hbm, 293, rfl⟩
abbrev main_v230 : Ref sig .tc := ⟨.hbm, 294, rfl⟩
abbrev main_cst_15 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_cst_16 : Ref sig .tc := ⟨.hbm, 299, rfl⟩
abbrev main_v234 : Ref sig .tc := ⟨.hbm, 300, rfl⟩
abbrev main_cst_17 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_cst_18 : Ref sig .tc := ⟨.hbm, 307, rfl⟩
abbrev main_v240 : Ref sig .tc := ⟨.hbm, 308, rfl⟩
abbrev main_cst_19 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_call16_v0 : Ref sig .tc := ⟨.hbm, 313, rfl⟩
abbrev main_call16_cst : Ref sig .tc := ⟨.hbm, 314, rfl⟩
abbrev main_call16_v1 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩

abbrev nD : Nat := 1
abbrev τ : Topo := Topo.v7x

variable {F : FTy → Type} [FloatOps F]

class Facts₀ : Prop where
  bcast_S_S1000000x10 : S_.BroadcastsInDim S1000000x10 (![] : Fin 0 → Fin S1000000x10.rank)
  bcast_S1000000x10_S1000000x10x1_0_1 : S1000000x10.BroadcastsInDim S1000000x10x1 (![0, 1] : Fin 2 → Fin S1000000x10x1.rank)
  concatenates_S1000000x10x1_S1000000x10x1_S1000000x10x2_d2 : Shape.Concatenates [S1000000x10x1, S1000000x10x1] S1000000x10x2 2
  transposes_S35x10_S10x35_1_0 : S35x10.Transposes [1, 0] S10x35
  bcast_S35_S1x35_1 : S35.BroadcastsInDim S1x35 (![1] : Fin 1 → Fin S1x35.rank)
  bcast_S1x35_S1000000x35_0_1 : S1x35.BroadcastsInDim S1000000x35 (![0, 1] : Fin 2 → Fin S1000000x35.rank)
  bcast_S_S1000000x35 : S_.BroadcastsInDim S1000000x35 (![] : Fin 0 → Fin S1000000x35.rank)
  slices_S3x35x35_S1x35x35_0_0_0 : S3x35x35.Slices ![0, 0, 0] S1x35x35
  shapeCasts_S1x35x35_S35x35 : S1x35x35.ShapeCasts S35x35
  transposes_S35x35_S35x35_1_0 : S35x35.Transposes [1, 0] S35x35
  slices_S3x35_S1x35_0_0 : S3x35.Slices ![0, 0] S1x35
  shapeCasts_S1x35_S35 : S1x35.ShapeCasts S35
  slices_S3x35x35_S1x35x35_1_0_0 : S3x35x35.Slices ![1, 0, 0] S1x35x35
  slices_S3x35_S1x35_1_0 : S3x35.Slices ![1, 0] S1x35
  slices_S3x35x35_S1x35x35_2_0_0 : S3x35x35.Slices ![2, 0, 0] S1x35x35
  slices_S3x35_S1x35_2_0 : S3x35.Slices ![2, 0] S1x35
  transposes_S10x35_S35x10_1_0 : S10x35.Transposes [1, 0] S35x10
  bcast_S10_S1x10_1 : S10.BroadcastsInDim S1x10 (![1] : Fin 1 → Fin S1x10.rank)
  bcast_S1x10_S1000000x10_0_1 : S1x10.BroadcastsInDim S1000000x10 (![0, 1] : Fin 2 → Fin S1000000x10.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x10_0_1 : S1000000x1.BroadcastsInDim S1000000x10 (![0, 1] : Fin 2 → Fin S1000000x10.rank)
  slices_S1000000x10_S1000000x5_0_0 : S1000000x10.Slices ![0, 0] S1000000x5
  concatenates_S1000000x5_S1000000x5_S1000000x10_d1 : Shape.Concatenates [S1000000x5, S1000000x5] S1000000x10 1
  shapeCasts_S1000000x10_S10000000 : S1000000x10.ShapeCasts S10000000
  bcast_S_S100000 : S_.BroadcastsInDim S100000 (![] : Fin 0 → Fin S100000.rank)
  bcast_S10000000_S10000000x1_0 : S10000000.BroadcastsInDim S10000000x1 (![0] : Fin 1 → Fin S10000000x1.rank)
  bcast_S_S10000000 : S_.BroadcastsInDim S10000000 (![] : Fin 0 → Fin S10000000.rank)
  reducesTo_S100000_S_d0 : S100000.ReducesTo [0] S_
  h_S_ : 0 < S_.numel
  bcast_S100000_S100000x1_0 : S100000.BroadcastsInDim S100000x1 (![0] : Fin 1 → Fin S100000x1.rank)
  reducesTo_S100000x1_S_d0_1 : S100000x1.ReducesTo [0, 1] S_
  bcast_S_S100000x1 : S_.BroadcastsInDim S100000x1 (![] : Fin 0 → Fin S100000x1.rank)
  reducesTo_S100000x1_S1_d0 : S100000x1.ReducesTo [0] S1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x1_S1000000x10x2_S1000000x10_n_01_n_n_01_2_11_wf : GatherDims.WF S100000x1 S1000000x10x2 S1000000x10 [] [0, 1] [] [0, 1] [] 2 ![1, 1]
  dot_S1000000x10_S10x35_S1000000x35_1_0_0_1_n_n_wf : DotDims.WF S1000000x10 S10x35 S1000000x35 [1] [0] [0] [1] [] []
  dot_S1000000x35_S35x35_S1000000x35_1_0_0_1_n_n_wf : DotDims.WF S1000000x35 S35x35 S1000000x35 [1] [0] [0] [1] [] []
  dot_S1000000x35_S35x10_S1000000x10_1_0_0_1_n_n_wf : DotDims.WF S1000000x35 S35x10 S1000000x10 [1] [0] [0] [1] [] []
  scatter_S100000_S10000000x1_S10000000_n_0_0_1_wf : ScatterDims.WF S100000 S10000000x1 S10000000 [] [0] [0] 1

variable [Facts₀]

def gather_S100000x1_S1000000x10x2_S1000000x10_n_01_n_n_01_2_11 : GatherDims S100000x1 S1000000x10x2 S1000000x10 where
  offsetDims := []
  collapsedSliceDims := [0, 1]
  operandBatchingDims := []
  startIndicesBatchingDims := []
  startIndexMap := [0, 1]
  indexVectorDim := 2
  sliceSizes := ![1, 1]
  wf := gather_S100000x1_S1000000x10x2_S1000000x10_n_01_n_n_01_2_11_wf
def dot_S1000000x10_S10x35_S1000000x35_1_0_0_1_n_n : DotDims S1000000x10 S10x35 S1000000x35 where
  lhsContracting := [1]
  rhsContracting := [0]
  lhsNonContracting := [0]
  rhsNonContracting := [1]
  lhsBatch := []
  rhsBatch := []
  wf := dot_S1000000x10_S10x35_S1000000x35_1_0_0_1_n_n_wf
def dot_S1000000x35_S35x35_S1000000x35_1_0_0_1_n_n : DotDims S1000000x35 S35x35 S1000000x35 where
  lhsContracting := [1]
  rhsContracting := [0]
  lhsNonContracting := [0]
  rhsNonContracting := [1]
  lhsBatch := []
  rhsBatch := []
  wf := dot_S1000000x35_S35x35_S1000000x35_1_0_0_1_n_n_wf
def dot_S1000000x35_S35x10_S1000000x10_1_0_0_1_n_n : DotDims S1000000x35 S35x10 S1000000x10 where
  lhsContracting := [1]
  rhsContracting := [0]
  lhsNonContracting := [0]
  rhsNonContracting := [1]
  lhsBatch := []
  rhsBatch := []
  wf := dot_S1000000x35_S35x10_S1000000x10_1_0_0_1_n_n_wf
def scatter_S100000_S10000000x1_S10000000_n_0_0_1 : ScatterDims S100000 S10000000x1 S10000000 where
  updateWindowDims := []
  insertedWindowDims := [0]
  scatterDimsToOperandDims := [0]
  indexVectorDim := 1
  wf := scatter_S100000_S10000000x1_S10000000_n_0_0_1_wf

class Facts : Prop extends Facts₀ where

variable [Facts]
-- ==== Proof.Spec.lean ====
/-
  What both programs compute per edge, written once on the extended reals.

  An edge `e` has ten player scores `x₀ … x₉` (five per side) and an outcome `o`. Two small networks, the
  reward network `R` and the penalty network `P`, each map the ten scores to five numbers: an affine map
  10 → 35, three affine maps 35 → 35 and an affine map 35 → 5, with `max · 0` after each of the first four.
  With `w = (o + 1) · ½`, the first five contributions of the edge are
      w · σ(R x)ⱼ − (1 − w) · σ(P x)ⱼ
  and the last five, computed from the scores in reversed order `x'ₖ = x₉₋ₖ`,
      (1 − w) · σ(R x')ⱼ − w · σ(P x')ⱼ,
  where σ is the logistic function. Nothing here needs the scores or weights to be finite: the two programs
  are compared operation by operation, and only commutativity of the product is used.
-/
import Idealize.ShloMosaic.PureOps.Ideal
import Idealize.ShloMosaic.Lib.ValueIdx

noncomputable section

namespace EdgeNet

open Idealize.ShloMosaic Idealize.ShloMosaic.ValueIdx

/-- The float words the programs spell: zero, one and one half. They are never evaluated. -/
abbrev zero : EReal := Ideal.ofBits .f32 0x00000000#32
abbrev one : EReal := Ideal.ofBits .f32 0x3F800000#32
abbrev half : EReal := Ideal.ofBits .f32 0x3F000000#32

/-- An affine map: row `j` of the weights against the vector, plus the bias. -/
def lin {n k : ℕ} (w : Fin n → Fin k → EReal) (b : Fin n → EReal) (x : Fin k → EReal) (j : Fin n) : EReal :=
  (∑ q : Fin k, w j q * x q) + b j

/-- The positive part, entry by entry. -/
def relu {n : ℕ} (h : Fin n → EReal) (j : Fin n) : EReal := max (h j) zero

/-- The weights of one network; the last layer keeps the five rows that are used. -/
structure Net where
  sw : Fin 35 → Fin 10 → EReal
  sb : Fin 35 → EReal
  hw : Fin 3 → Fin 35 → Fin 35 → EReal
  hb : Fin 3 → Fin 35 → EReal
  ew : Fin 5 → Fin 35 → EReal
  eb : Fin 5 → EReal

/-- The network's five outputs on ten scores. -/
def mlp (N : Net) (x : Fin 10 → EReal) : Fin 5 → EReal :=
  lin N.ew N.eb (relu (lin (N.hw 2) (N.hb 2) (relu (lin (N.hw 1) (N.hb 1) (relu (lin (N.hw 0) (N.hb 0)
    (relu (lin N.sw N.sb x))))))))

/-- The outcome as a weight: `(o + 1) · ½`. -/
def wgt (o : EReal) : EReal := (o + one) * half

/-- The ten contributions of one edge: `x` its scores, `xr` the scores in reversed order, `o` its outcome. -/
def col (x xr : Fin 10 → EReal) (o : EReal) (R P : Net) (j : Fin 10) : EReal :=
  if h : j.val < 5 then
    wgt o * Ideal.logistic (mlp R x ⟨j.val, h⟩) - (one - wgt o) * Ideal.logistic (mlp P x ⟨j.val, h⟩)
  else
    (one - wgt o) * Ideal.logistic (mlp R xr ⟨j.val - 5, by omega⟩)
      - wgt o * Ideal.logistic (mlp P xr ⟨j.val - 5, by omega⟩)

/-- A network from its weight arrays (the last layer's arrays already cut to five rows). -/
def netOf (sw : (⟨2, ![35, 10]⟩ : Shape).Idx → EReal) (sb : (⟨1, ![35]⟩ : Shape).Idx → EReal)
    (hw : (⟨3, ![3, 35, 35]⟩ : Shape).Idx → EReal) (hb : (⟨2, ![3, 35]⟩ : Shape).Idx → EReal)
    (ew : (⟨2, ![5, 35]⟩ : Shape).Idx → EReal) (eb : (⟨1, ![5]⟩ : Shape).Idx → EReal) : Net where
  sw j q := sw (ix2 j q)
  sb j := sb (ix1 j)
  hw d j q := hw (ix3 d j q)
  hb d j := hb (ix2 d j)
  ew j q := ew (ix2 j q)
  eb j := eb (ix1 j)

/-- The first five rows of a ten-row matrix, and the first five entries of a ten-entry vector. -/
def top5 (a : (⟨2, ![10, 35]⟩ : Shape).Idx → EReal) : (⟨2, ![5, 35]⟩ : Shape).Idx → EReal :=
  fun i => a (ix2 (Fin.castLE (n := 5) (m := 10) (by decide) (i 0)) (i 1))
def top5v (a : (⟨1, ![10]⟩ : Shape).Idx → EReal) : (⟨1, ![5]⟩ : Shape).Idx → EReal :=
  fun i => a (ix1 (Fin.castLE (n := 5) (m := 10) (by decide) (i 0)))

/-- Every edge's contributions, edge-major: entry `(e, j)` is contribution `j` of edge `e`, from the gathered
    scores `X` (edge by player) and the outcomes `oc`. -/
def contrib (X : (⟨2, ![1000000, 10]⟩ : Shape).Idx → EReal) (oc : (⟨1, ![1000000]⟩ : Shape).Idx → EReal)
    (R P : Net) : (⟨2, ![1000000, 10]⟩ : Shape).Idx → EReal :=
  fun i => col (fun k => X (ix2 (i 0) k)) (fun k => X (ix2 (i 0) k.rev)) (oc (ix1 (i 0))) R P (i 1)

end EdgeNet

end
-- ==== Proof.LibDotSingle.lean ====
/-
  A matrix product with ONE contracted axis, accumulated into the zero splat and read at the ideal values, as a sum over
  the contracted axis's coordinates `k : Fin n`: the product's own contraction index is a one-coordinate multi-index, and the
  sum is re-indexed through the bijection between such multi-indices and `Fin n`. The caller names what each operand reads
  at contraction coordinate `k` (`L k`, `R k`); at literal dimension numbers the operand indices' coordinates are
  `rfl` on a kept axis and `DotDims.lhsIdx_val_of_single` / `rhsIdx_val_of_single` with `contrEquiv1_symm_val` on the contracted one.
-/
import Idealize.ShloMosaic.PureOps.Ideal
import Idealize.ShloMosaic.PureOps.Ideal.Laws
import Idealize.ShloMosaic.Lib.ValueIdx

noncomputable section

open scoped BigOperators

namespace Cert.LibDotSingle

open Idealize.ShloMosaic Idealize.ShloMosaic.ValueIdx

/-- The product at result index `j` is `∑ k : Fin n, L k * R k` once each operand, at the operand index of `j` and of the
    contraction multi-index with coordinate `k`, is known to read `L k`, respectively `R k`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (L R : Fin n → EReal)
    (hl : ∀ k : Fin n, lhs (d.lhsIdx j ((contrEquiv1 d n hr hs).symm k)) = L k)
    (hR : ∀ k : Fin n, rhs (d.rhsIdx j ((contrEquiv1 d n hr hs).symm k)) = R k) :
    FloatOps.matmul d prec lhs rhs (constant so .f32 0x00000000#32) j = ∑ k : Fin n, L k * R k := by
  rw [Ideal.matmul_constant_zero_apply, ← Equiv.sum_comp (contrEquiv1 d n hr hs).symm]
  exact Finset.sum_congr rfl fun k _ => by rw [hl k, hR k]

end Cert.LibDotSingle

end
-- ==== Proof.LibColumnLayout.lean ====
/-
  Column layouts read at an index given by coordinates.

  A vector of length `a` viewed as a column `[a, 1]`, a column viewed as a vector again, and a column repeated along a
  new last axis to `[a, b]` (a per-row quantity met with a per-column one, as after a sum that keeps its axis): each
  reads, at an index written by its coordinates, the operand at the evident index. They complete the library's
  leading-unit-axis casts and its row broadcast; like those they are the general layout lemmas with the coordinate
  arithmetic discharged once.
-/
import Idealize.ShloMosaic.Lib.ValueLayout

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `o` of an `[a, n]` matrix, taken as a slice `[a, 1]`, flattened to `[a]` and made a column again (how a
    per-row parameter is picked out of a small parameter table), reads at `(i, 0)` the matrix at `(i, o)`. -/
theorem column_apply {a n : ℕ} (o : ℕ) (v : (⟨2, ![a, n]⟩ : Shape).Idx → α)
    (hs : (⟨2, ![a, n]⟩ : Shape).Slices ![0, o] ⟨2, ![a, 1]⟩) (h1 : (⟨2, ![a, 1]⟩ : Shape).ShapeCasts ⟨1, ![a]⟩)
    (h2 : (⟨1, ![a]⟩ : Shape).ShapeCasts ⟨2, ![a, 1]⟩) (i : Fin a) (d : Fin n) (hd : d.val = o) :
    shapeCast ⟨2, ![a, 1]⟩ (shapeCast ⟨1, ![a]⟩ (extractStridedSlice ⟨2, ![a, 1]⟩ ![0, o] v hs) h1) h2 (ix2 i (0 : Fin 1))
      = v (ix2 i d) :=
  (shapeCast_a_a1_apply _ _ i 0).trans ((shapeCast_a1_a_apply _ _ i).trans
    (slice2_axis1_apply o v hs i (0 : Fin 1) d (by rw [hd]; rfl)))

end Idealize.ShloMosaic.ValueIdx
-- ==== Proof.KLayers.lean ====
/-
  The kernel's layers at an index.

  In the kernel an edge is a COLUMN: the block of scores is `[10, 16384]` (player by edge), a layer's weights multiply it
  from the left, and the bias is a column repeated along the edges. So entry `(j, l)` of a layer's output is row `j` of
  the weights against column `l` of the input, plus bias `j` — the affine map of the specification applied to column `l` —
  and the positive part after it. The change of float format before each product is the identity on extended reals.
-/
import proofs.«122336_j21646635172527_1_alg».proof.Proof.Gen.KernelIdeal.Skeleton
import proofs.«122336_j21646635172527_1_alg».proof.Proof.Spec
import proofs.«122336_j21646635172527_1_alg».proof.Proof.LibDotSingle
import proofs.«122336_j21646635172527_1_alg».proof.Proof.LibColumnLayout
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Facts₀ Cert.KernelIdeal.Facts Idealize.ShloMosaic Idealize.ShloMosaic.ValueIdx

theorem dot_first_apply_l0 (i : S35x16384.Idx) (q : dot_S35x10_S10x16384_S35x16384_1_0_0_1_n_n.contr.Idx) : (dot_S35x10_S10x16384_S35x16384_1_0_0_1_n_n.lhsIdx i q 0).val = (i 0).val := by
  unfold DotDims.lhsIdx
  rw [dif_neg (show ¬(0 : Fin S35x10.rank) ∈ dot_S35x10_S10x16384_S35x16384_1_0_0_1_n_n.lhsBatch by decide),
    dif_pos (show (0 : Fin S35x10.rank) ∈ dot_S35x10_S10x16384_S35x16384_1_0_0_1_n_n.lhsNonContracting by decide)]
  rfl
theorem dot_first_apply_l1 (i : S35x16384.Idx) (q : dot_S35x10_S10x16384_S35x16384_1_0_0_1_n_n.contr.Idx) : (dot_S35x10_S10x16384_S35x16384_1_0_0_1_n_n.lhsIdx i q 1).val = (q ⟨0, by decide⟩).val :=
  dot_S35x10_S10x16384_S35x16384_1_0_0_1_n_n.lhsIdx_val_of_single rfl i q
theorem dot_first_apply_r0 (i : S35x16384.Idx) (q : dot_S35x10_S10x16384_S35x16384_1_0_0_1_n_n.contr.Idx) : (dot_S35x10_S10x16384_S35x16384_1_0_0_1_n_n.rhsIdx i q 0).val = (q ⟨0, by decide⟩).val :=
  dot_S35x10_S10x16384_S35x16384_1_0_0_1_n_n.rhsIdx_val_of_single rfl i q
theorem dot_first_apply_r1 (i : S35x16384.Idx) (q : dot_S35x10_S10x16384_S35x16384_1_0_0_1_n_n.contr.Idx) : (dot_S35x10_S10x16384_S35x16384_1_0_0_1_n_n.rhsIdx i q 1).val = (i 1).val := by
  unfold DotDims.rhsIdx
  rw [dif_neg (show ¬(1 : Fin S10x16384.rank) ∈ dot_S35x10_S10x16384_S35x16384_1_0_0_1_n_n.rhsBatch by decide),
    dif_pos (show (1 : Fin S10x16384.rank) ∈ dot_S35x10_S10x16384_S35x16384_1_0_0_1_n_n.rhsNonContracting by decide)]
  rfl

/-- Entry `(j, l)` of the product of an `[35, 10]` matrix with an `[10, 16384]` matrix, accumulated from zero, is the sum
    over the contracted coordinate of the row's entries against the column's. -/
theorem dot_first_apply {φ₁ φ₂ : FTy} (W : FVec Ideal S35x10 φ₁) (H : FVec Ideal S10x16384 φ₂) (j : Fin 35) (l : Fin 16384) :
    matmul dot_S35x10_S10x16384_S35x16384_1_0_0_1_n_n none W H (constant S35x16384 .f32 0x00000000#32) (ix2 j l)
      = ∑ k : Fin 10, W (ix2 j k) * H (ix2 k l) := by
  refine Cert.LibDotSingle.matmul_zero_single dot_S35x10_S10x16384_S35x16384_1_0_0_1_n_n none 10 rfl rfl W H (ix2 j l)
    (fun k => W (ix2 j k)) (fun k => H (ix2 k l)) (fun k => ?_) (fun k => ?_)
  · have hk := contrEquiv1_symm_val dot_S35x10_S10x16384_S35x16384_1_0_0_1_n_n 10 rfl rfl k
    refine congrArg W (funext fun a => Fin.ext ?_)
    match a with
    | ⟨0, _⟩ => exact dot_first_apply_l0 _ _
    | ⟨1, _⟩ => exact (dot_first_apply_l1 _ _).trans hk
  · have hk := contrEquiv1_symm_val dot_S35x10_S10x16384_S35x16384_1_0_0_1_n_n 10 rfl rfl k
    refine congrArg H (funext fun a => Fin.ext ?_)
    match a with
    | ⟨0, _⟩ => exact (dot_first_apply_r0 _ _).trans hk
    | ⟨1, _⟩ => exact dot_first_apply_r1 _ _

theorem dot_hidden_apply_l0 (i : S35x16384.Idx) (q : dot_S35x35_S35x16384_S35x16384_1_0_0_1_n_n.contr.Idx) : (dot_S35x35_S35x16384_S35x16384_1_0_0_1_n_n.lhsIdx i q 0).val = (i 0).val := by
  unfold DotDims.lhsIdx
  rw [dif_neg (show ¬(0 : Fin S35x35.rank) ∈ dot_S35x35_S35x16384_S35x16384_1_0_0_1_n_n.lhsBatch by decide),
    dif_pos (show (0 : Fin S35x35.rank) ∈ dot_S35x35_S35x16384_S35x16384_1_0_0_1_n_n.lhsNonContracting by decide)]
  rfl
theorem dot_hidden_apply_l1 (i : S35x16384.Idx) (q : dot_S35x35_S35x16384_S35x16384_1_0_0_1_n_n.contr.Idx) : (dot_S35x35_S35x16384_S35x16384_1_0_0_1_n_n.lhsIdx i q 1).val = (q ⟨0, by decide⟩).val :=
  dot_S35x35_S35x16384_S35x16384_1_0_0_1_n_n.lhsIdx_val_of_single rfl i q
theorem dot_hidden_apply_r0 (i : S35x16384.Idx) (q : dot_S35x35_S35x16384_S35x16384_1_0_0_1_n_n.contr.Idx) : (dot_S35x35_S35x16384_S35x16384_1_0_0_1_n_n.rhsIdx i q 0).val = (q ⟨0, by decide⟩).val :=
  dot_S35x35_S35x16384_S35x16384_1_0_0_1_n_n.rhsIdx_val_of_single rfl i q
theorem dot_hidden_apply_r1 (i : S35x16384.Idx) (q : dot_S35x35_S35x16384_S35x16384_1_0_0_1_n_n.contr.Idx) : (dot_S35x35_S35x16384_S35x16384_1_0_0_1_n_n.rhsIdx i q 1).val = (i 1).val := by
  unfold DotDims.rhsIdx
  rw [dif_neg (show ¬(1 : Fin S35x16384.rank) ∈ dot_S35x35_S35x16384_S35x16384_1_0_0_1_n_n.rhsBatch by decide),
    dif_pos (show (1 : Fin S35x16384.rank) ∈ dot_S35x35_S35x16384_S35x16384_1_0_0_1_n_n.rhsNonContracting by decide)]
  rfl

/-- Entry `(j, l)` of the product of an `[35, 35]` matrix with an `[35, 16384]` matrix, accumulated from zero, is the sum
    over the contracted coordinate of the row's entries against the column's. -/
theorem dot_hidden_apply {φ₁ φ₂ : FTy} (W : FVec Ideal S35x35 φ₁) (H : FVec Ideal S35x16384 φ₂) (j : Fin 35) (l : Fin 16384) :
    matmul dot_S35x35_S35x16384_S35x16384_1_0_0_1_n_n none W H (constant S35x16384 .f32 0x00000000#32) (ix2 j l)
      = ∑ k : Fin 35, W (ix2 j k) * H (ix2 k l) := by
  refine Cert.LibDotSingle.matmul_zero_single dot_S35x35_S35x16384_S35x16384_1_0_0_1_n_n none 35 rfl rfl W H (ix2 j l)
    (fun k => W (ix2 j k)) (fun k => H (ix2 k l)) (fun k => ?_) (fun k => ?_)
  · have hk := contrEquiv1_symm_val dot_S35x35_S35x16384_S35x16384_1_0_0_1_n_n 35 rfl rfl k
    refine congrArg W (funext fun a => Fin.ext ?_)
    match a with
    | ⟨0, _⟩ => exact dot_hidden_apply_l0 _ _
    | ⟨1, _⟩ => exact (dot_hidden_apply_l1 _ _).trans hk
  · have hk := contrEquiv1_symm_val dot_S35x35_S35x16384_S35x16384_1_0_0_1_n_n 35 rfl rfl k
    refine congrArg H (funext fun a => Fin.ext ?_)
    match a with
    | ⟨0, _⟩ => exact (dot_hidden_apply_r0 _ _).trans hk
    | ⟨1, _⟩ => exact dot_hidden_apply_r1 _ _

theorem dot_last_apply_l0 (i : S5x16384.Idx) (q : dot_S5x35_S35x16384_S5x16384_1_0_0_1_n_n.contr.Idx) : (dot_S5x35_S35x16384_S5x16384_1_0_0_1_n_n.lhsIdx i q 0).val = (i 0).val := by
  unfold DotDims.lhsIdx
  rw [dif_neg (show ¬(0 : Fin S5x35.rank) ∈ dot_S5x35_S35x16384_S5x16384_1_0_0_1_n_n.lhsBatch by decide),
    dif_pos (show (0 : Fin S5x35.rank) ∈ dot_S5x35_S35x16384_S5x16384_1_0_0_1_n_n.lhsNonContracting by decide)]
  rfl
theorem dot_last_apply_l1 (i : S5x16384.Idx) (q : dot_S5x35_S35x16384_S5x16384_1_0_0_1_n_n.contr.Idx) : (dot_S5x35_S35x16384_S5x16384_1_0_0_1_n_n.lhsIdx i q 1).val = (q ⟨0, by decide⟩).val :=
  dot_S5x35_S35x16384_S5x16384_1_0_0_1_n_n.lhsIdx_val_of_single rfl i q
theorem dot_last_apply_r0 (i : S5x16384.Idx) (q : dot_S5x35_S35x16384_S5x16384_1_0_0_1_n_n.contr.Idx) : (dot_S5x35_S35x16384_S5x16384_1_0_0_1_n_n.rhsIdx i q 0).val = (q ⟨0, by decide⟩).val :=
  dot_S5x35_S35x16384_S5x16384_1_0_0_1_n_n.rhsIdx_val_of_single rfl i q
theorem dot_last_apply_r1 (i : S5x16384.Idx) (q : dot_S5x35_S35x16384_S5x16384_1_0_0_1_n_n.contr.Idx) : (dot_S5x35_S35x16384_S5x16384_1_0_0_1_n_n.rhsIdx i q 1).val = (i 1).val := by
  unfold DotDims.rhsIdx
  rw [dif_neg (show ¬(1 : Fin S35x16384.rank) ∈ dot_S5x35_S35x16384_S5x16384_1_0_0_1_n_n.rhsBatch by decide),
    dif_pos (show (1 : Fin S35x16384.rank) ∈ dot_S5x35_S35x16384_S5x16384_1_0_0_1_n_n.rhsNonContracting by decide)]
  rfl

/-- Entry `(j, l)` of the product of an `[5, 35]` matrix with an `[35, 16384]` matrix, accumulated from zero, is the sum
    over the contracted coordinate of the row's entries against the column's. -/
theorem dot_last_apply {φ₁ φ₂ : FTy} (W : FVec Ideal S5x35 φ₁) (H : FVec Ideal S35x16384 φ₂) (j : Fin 5) (l : Fin 16384) :
    matmul dot_S5x35_S35x16384_S5x16384_1_0_0_1_n_n none W H (constant S5x16384 .f32 0x00000000#32) (ix2 j l)
      = ∑ k : Fin 35, W (ix2 j k) * H (ix2 k l) := by
  refine Cert.LibDotSingle.matmul_zero_single dot_S5x35_S35x16384_S5x16384_1_0_0_1_n_n none 35 rfl rfl W H (ix2 j l)
    (fun k => W (ix2 j k)) (fun k => H (ix2 k l)) (fun k => ?_) (fun k => ?_)
  · have hk := contrEquiv1_symm_val dot_S5x35_S35x16384_S5x16384_1_0_0_1_n_n 35 rfl rfl k
    refine congrArg W (funext fun a => Fin.ext ?_)
    match a with
    | ⟨0, _⟩ => exact dot_last_apply_l0 _ _
    | ⟨1, _⟩ => exact (dot_last_apply_l1 _ _).trans hk
  · have hk := contrEquiv1_symm_val dot_S5x35_S35x16384_S5x16384_1_0_0_1_n_n 35 rfl rfl k
    refine congrArg H (funext fun a => Fin.ext ?_)
    match a with
    | ⟨0, _⟩ => exact (dot_last_apply_r0 _ _).trans hk
    | ⟨1, _⟩ => exact dot_last_apply_r1 _ _

/-! ## The layers -/

/-- The first layer on a block of scores: weights times block, plus the bias column, positive part. -/
def layerFirst (W : FVec Ideal S35x10 .bf16) (b : Vec Ideal S35 .f32) (X : FVec Ideal S10x16384 .f32) :
    FVec Ideal S35x16384 .f32 :=
  maximumf (addf (matmul dot_S35x10_S10x16384_S35x16384_1_0_0_1_n_n none W (truncf .bf16 X bitsLt_bf16_f32)
        (constant S35x16384 .f32 0x00000000#32))
      (broadcastTo S35x16384 (shapeCast S35x1 b shapeCasts_S35_S35x1) broadcasts_S35x1_S35x16384))
    (broadcast S35x16384 (Scalar.ofBits .f32 0x00000000#32))

/-- Hidden layer `o` (its weights are slab `o` of the `[3, 35, 35]` table, its bias row `o` of the `[3, 35]` table). -/
def layerHidden (o : ℕ) (hs3 : S3x35x35.Slices ![o, 0, 0] S1x35x35) (hs2 : S3x35.Slices ![o, 0] S1x35)
    (W : FVec Ideal S3x35x35 .bf16) (b : Vec Ideal S3x35 .f32) (H : FVec Ideal S35x16384 .f32) :
    FVec Ideal S35x16384 .f32 :=
  maximumf (addf (matmul dot_S35x35_S35x16384_S35x16384_1_0_0_1_n_n none
        (shapeCast S35x35 (extractStridedSlice S1x35x35 ![o, 0, 0] W hs3) shapeCasts_S1x35x35_S35x35)
        (truncf .bf16 H bitsLt_bf16_f32) (constant S35x16384 .f32 0x00000000#32))
      (broadcastTo S35x16384 (shapeCast S35x1 (shapeCast S35 (extractStridedSlice S1x35 ![o, 0] b hs2) shapeCasts_S1x35_S35)
        shapeCasts_S35_S35x1) broadcasts_S35x1_S35x16384))
    (broadcast S35x16384 (Scalar.ofBits .f32 0x00000000#32))

/-- The last layer: five rows of weights, no positive part. -/
def layerLast (W : FVec Ideal S5x35 .bf16) (b : FVec Ideal S5 .f32) (H : FVec Ideal S35x16384 .f32) :
    FVec Ideal S5x16384 .f32 :=
  addf (matmul dot_S5x35_S35x16384_S5x16384_1_0_0_1_n_n none W (truncf .bf16 H bitsLt_bf16_f32)
      (constant S5x16384 .f32 0x00000000#32))
    (broadcastTo S5x16384 (shapeCast S5x1 b shapeCasts_S5_S5x1) broadcasts_S5x1_S5x16384)

theorem layerFirst_apply (W : FVec Ideal S35x10 .bf16) (b : Vec Ideal S35 .f32) (X : FVec Ideal S10x16384 .f32)
    (j : Fin 35) (l : Fin 16384) :
    layerFirst W b X (ix2 j l)
      = EdgeNet.relu (EdgeNet.lin (fun j q => W (ix2 j q)) (fun j => b (ix1 j)) (fun q => X (ix2 q l))) j := by
  unfold layerFirst EdgeNet.relu EdgeNet.lin
  rw [maximumf_apply, addf_apply, dot_first_apply, broadcastTo_a1_ab_apply, shapeCast_a_a1_apply]
  rfl

/-- Slab `o` of the weight table, as a `[35, 35]` matrix, at `(j, k)`. -/
theorem slab_apply (o : ℕ) (ho : o < 3) (hs3 : S3x35x35.Slices ![o, 0, 0] S1x35x35) (W : FVec Ideal S3x35x35 .bf16)
    (j k : Fin 35) :
    shapeCast S35x35 (extractStridedSlice S1x35x35 ![o, 0, 0] W hs3) shapeCasts_S1x35x35_S35x35 (ix2 j k)
      = W (ix3 ⟨o, ho⟩ j k) := by
  rw [shapeCast_apply _ shapeCasts_S1x35x35_S35x35 (ix2 j k) (ix3 (0 : Fin 1) j k) (by
    rw [Shape.rowMajor_val_two, Shape.rowMajor_val_three]
    show (0 * 35 + j.val) * 35 + k.val = j.val * 35 + k.val
    omega)]
  exact extractStridedSlice_apply _ _ _ _ (ix3 ⟨o, ho⟩ j k) (fun a => by
    match a with
    | ⟨0, _⟩ => exact (Nat.add_zero o).symm
    | ⟨1, _⟩ => exact (Nat.zero_add _).symm
    | ⟨2, _⟩ => exact (Nat.zero_add _).symm)

/-- Row `o` of the bias table, made a column, at `(j, 0)`. -/
theorem biasRow_apply (o : ℕ) (ho : o < 3) (hs2 : S3x35.Slices ![o, 0] S1x35) (b : Vec Ideal S3x35 .f32) (j : Fin 35) :
    shapeCast S35x1 (shapeCast S35 (extractStridedSlice S1x35 ![o, 0] b hs2) shapeCasts_S1x35_S35) shapeCasts_S35_S35x1
        (ix2 j (0 : Fin 1))
      = b (ix2 ⟨o, ho⟩ j) := by
  rw [shapeCast_a_a1_apply, shapeCast_apply _ shapeCasts_S1x35_S35 (ix1 j) (ix2 (0 : Fin 1) j) (by
    rw [Shape.rowMajor_val_one, Shape.rowMajor_val_two]
    show 0 * 35 + j.val = j.val
    omega)]
  exact extractStridedSlice_apply _ _ _ _ (ix2 ⟨o, ho⟩ j) (fun a => by
    match a with
    | ⟨0, _⟩ => exact (Nat.add_zero o).symm
    | ⟨1, _⟩ => exact (Nat.zero_add _).symm)

theorem layerHidden_apply (o : ℕ) (ho : o < 3) (hs3 : S3x35x35.Slices ![o, 0, 0] S1x35x35) (hs2 : S3x35.Slices ![o, 0] S1x35)
    (W : FVec Ideal S3x35x35 .bf16) (b : Vec Ideal S3x35 .f32) (H : FVec Ideal S35x16384 .f32) (j : Fin 35) (l : Fin 16384) :
    layerHidden o hs3 hs2 W b H (ix2 j l)
      = EdgeNet.relu (EdgeNet.lin (fun j q => W (ix3 ⟨o, ho⟩ j q)) (fun j => b (ix2 ⟨o, ho⟩ j)) (fun q => H (ix2 q l))) j := by
  unfold layerHidden EdgeNet.relu EdgeNet.lin
  rw [maximumf_apply, addf_apply, dot_hidden_apply, broadcastTo_a1_ab_apply, biasRow_apply o ho]
  simp only [slab_apply o ho]
  rfl

theorem layerLast_apply (W : FVec Ideal S5x35 .bf16) (b : FVec Ideal S5 .f32) (H : FVec Ideal S35x16384 .f32)
    (j : Fin 5) (l : Fin 16384) :
    layerLast W b H (ix2 j l)
      = EdgeNet.lin (fun j q => W (ix2 j q)) (fun j => b (ix1 j)) (fun q => H (ix2 q l)) j := by
  unfold layerLast EdgeNet.lin
  rw [addf_apply, dot_last_apply, broadcastTo_a1_ab_apply, shapeCast_a_a1_apply]
  rfl

end Cert.KernelIdeal.Body

end
-- ==== Proof.KBody.lean ====
/-
  What one grid point leaves in its output block.

  The body stores once, the whole `[10, 16384]` block: rows 0–4 are `w · σ(R x) − (1 − w) · σ(P x)` and rows 5–9 are
  `(1 − w) · σ(R x') − w · σ(P x')`, column by column, where column `l` of the first input block is the edge's ten scores
  `x`, column `l` of the second the reversed scores `x'`, entry `l` of the third the outcome, and `R`, `P` are the two
  networks (five layers each, read layer by layer at an index). So entry `(j, l)` of the block is contribution `j` of the
  edge in column `l`: the specification's `col`.
-/
import proofs.«122336_j21646635172527_1_alg».proof.Proof.KLayers
import proofs.«122336_j21646635172527_1_alg».proof.Proof.Gen.KernelIdeal.Frame

noncomputable section

namespace Cert.KernelIdeal.Body

open Cert.KernelIdeal Cert.KernelIdeal.Gen Idealize.ShloMosaic Idealize.ShloMosaic.ValueIdx

/-- One network on a block of scores: the five outputs of every column, before the logistic function. -/
def mlpK (sw : FVec Ideal S35x10 .bf16) (sb : Vec Ideal S35 .f32) (hw : FVec Ideal S3x35x35 .bf16) (hb : Vec Ideal S3x35 .f32)
    (ew : FVec Ideal S5x35 .bf16) (eb : FVec Ideal S5 .f32) (X : FVec Ideal S10x16384 .f32) : FVec Ideal S5x16384 .f32 :=
  layerLast ew eb (layerHidden 2 slices_S3x35x35_o2_0_0_S1x35x35 slices_S3x35_o2_0_S1x35 hw hb
    (layerHidden 1 slices_S3x35x35_o1_0_0_S1x35x35 slices_S3x35_o1_0_S1x35 hw hb
      (layerHidden 0 slices_S3x35x35_o0_0_0_S1x35x35 slices_S3x35_o0_0_S1x35 hw hb (layerFirst sw sb X))))

theorem mlpK_apply (sw : FVec Ideal S35x10 .bf16) (sb : Vec Ideal S35 .f32) (hw : FVec Ideal S3x35x35 .bf16)
    (hb : Vec Ideal S3x35 .f32) (ew : FVec Ideal S5x35 .bf16) (eb : FVec Ideal S5 .f32) (X : FVec Ideal S10x16384 .f32)
    (j : Fin 5) (l : Fin 16384) :
    mlpK sw sb hw hb ew eb X (ix2 j l) = EdgeNet.mlp (EdgeNet.netOf sw sb hw hb ew eb) (fun q => X (ix2 q l)) j := by
  unfold mlpK
  rw [layerLast_apply]
  simp only [layerHidden_apply 2 (by decide), layerHidden_apply 1 (by decide), layerHidden_apply 0 (by decide),
    layerFirst_apply]
  rfl

/-- The outcome row as weights: `(o + 1) · ½`, entry by entry. -/
def wgtK (oc : FVec Ideal S1x16384 .f32) : FVec Ideal S1x16384 .f32 :=
  mulf (addf oc (broadcast S1x16384 (Scalar.ofBits .f32 0x3F800000#32))) (broadcast S1x16384 (Scalar.ofBits .f32 0x3F000000#32))

/-- The two halves stacked: from the four networks' outputs `r, p` (on the scores) and `rr, pr` (on the reversed scores). -/
def combineK (oc : FVec Ideal S1x16384 .f32) (r p rr pr : FVec Ideal S5x16384 .f32) : FVec Ideal S10x16384 .f32 :=
  concatenate S10x16384 0
    [⟨S5x16384, subf (mulf (broadcastTo S5x16384 (wgtK oc) broadcasts_S1x16384_S5x16384) (logistic r))
        (mulf (broadcastTo S5x16384 (subf (broadcast S1x16384 (Scalar.ofBits .f32 0x3F800000#32)) (wgtK oc))
          broadcasts_S1x16384_S5x16384) (logistic p))⟩,
     ⟨S5x16384, subf (mulf (broadcastTo S5x16384 (subf (broadcast S1x16384 (Scalar.ofBits .f32 0x3F800000#32)) (wgtK oc))
          broadcasts_S1x16384_S5x16384) (logistic rr))
        (mulf (broadcastTo S5x16384 (wgtK oc) broadcasts_S1x16384_S5x16384) (logistic pr))⟩]
    concatenates_S5x16384_S5x16384_S10x16384_d0

theorem combineK_apply (oc : FVec Ideal S1x16384 .f32) (r p rr pr : FVec Ideal S5x16384 .f32) (j : Fin 10) (l : Fin 16384) :
    combineK oc r p rr pr (ix2 j l)
      = if h : j.val < 5 then
          EdgeNet.wgt (oc (ix2 (0 : Fin 1) l)) * Ideal.logistic (r (ix2 ⟨j.val, h⟩ l))
            - (EdgeNet.one - EdgeNet.wgt (oc (ix2 (0 : Fin 1) l))) * Ideal.logistic (p (ix2 ⟨j.val, h⟩ l))
        else
          (EdgeNet.one - EdgeNet.wgt (oc (ix2 (0 : Fin 1) l))) * Ideal.logistic (rr (ix2 ⟨j.val - 5, by omega⟩ l))
            - EdgeNet.wgt (oc (ix2 (0 : Fin 1) l)) * Ideal.logistic (pr (ix2 ⟨j.val - 5, by omega⟩ l)) := by
  unfold combineK
  by_cases h : j.val < 5
  · rw [dif_pos h, concatenate_pair_apply_left (t := S10x16384) (s₁ := S5x16384) (s₂ := S5x16384) (0 : Fin 2) _ _
      concatenates_S5x16384_S5x16384_S10x16384_d0 (ix2 j l) rfl
      (ix2 ⟨j.val, h⟩ l) (fun b => by match b with | ⟨0, _⟩ => rfl | ⟨1, _⟩ => rfl)]
    rw [subf_apply, mulf_apply, mulf_apply, broadcastTo_1b_ab_apply, broadcastTo_1b_ab_apply]
    rfl
  · rw [dif_neg h, concatenate_pair_apply_right (t := S10x16384) (s₁ := S5x16384) (s₂ := S5x16384) (0 : Fin 2) _ _
      concatenates_S5x16384_S5x16384_S10x16384_d0 (ix2 j l) rfl rfl
      (ix2 ⟨j.val - 5, by omega⟩ l) (fun b hb => by
        match b with
        | ⟨0, _⟩ => exact absurd rfl hb
        | ⟨1, _⟩ => rfl) (by show j.val - 5 + 5 = j.val; omega)]
    rw [subf_apply, mulf_apply, mulf_apply, broadcastTo_1b_ab_apply, broadcastTo_1b_ab_apply]
    rfl

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The loads' casts to their own shape change nothing. -/
theorem pay1_id (x : Vec Ideal S10x16384 .f32) : k0_pay1 (F := Ideal) x = x := shapeCast_self x _
theorem pay2_id (x : Vec Ideal S10x16384 .f32) : k0_pay2 (F := Ideal) x = x := shapeCast_self x _
theorem pay3_id (x : Vec Ideal S1x16384 .f32) : k0_pay3 (F := Ideal) x = x := shapeCast_self x _
theorem pay4_id (x : Vec Ideal S35x10 .bf16) : k0_pay4 (F := Ideal) x = x := shapeCast_self x _
theorem pay5_id (x : Vec Ideal S3x35x35 .bf16) : k0_pay5 (F := Ideal) x = x := shapeCast_self x _
theorem pay6_id (x : Vec Ideal S5x35 .bf16) : k0_pay6 (F := Ideal) x = x := shapeCast_self x _
theorem pay7_id (x : Vec Ideal S5 .f32) : k0_pay7 (F := Ideal) x = x := shapeCast_self x _
theorem pay8_id (x : Vec Ideal S35x10 .bf16) : k0_pay8 (F := Ideal) x = x := shapeCast_self x _
theorem pay9_id (x : Vec Ideal S3x35x35 .bf16) : k0_pay9 (F := Ideal) x = x := shapeCast_self x _
theorem pay10_id (x : Vec Ideal S5x35 .bf16) : k0_pay10 (F := Ideal) x = x := shapeCast_self x _
theorem pay11_id (x : Vec Ideal S5 .f32) : k0_pay11 (F := Ideal) x = x := shapeCast_self x _

/-- The block the body leaves, with the loads' casts still in place: the stacked halves of the four networks. -/
theorem out_eq_loaded (x0 x1 : Vec Ideal S10x16384 .f32) (x2 : Vec Ideal S1x16384 .f32)
    (x3 : Vec Ideal S35x10 .bf16) (x4 : Vec Ideal S35 .f32) (x5 : Vec Ideal S3x35x35 .bf16) (x6 : Vec Ideal S3x35 .f32)
    (x7 : Vec Ideal S5x35 .bf16) (x8 : Vec Ideal S5 .f32)
    (x9 : Vec Ideal S35x10 .bf16) (x10 : Vec Ideal S35 .f32) (x11 : Vec Ideal S3x35x35 .bf16) (x12 : Vec Ideal S3x35 .f32)
    (x13 : Vec Ideal S5x35 .bf16) (x14 : Vec Ideal S5 .f32) :
    out0_15 (F := Ideal) x0 x1 x2 x3 x4 x5 x6 x7 x8 x9 x10 x11 x12 x13 x14
      = combineK (k0_pay3 x2)
          (mlpK (k0_pay4 x3) x4 (k0_pay5 x5) x6 (k0_pay6 x7) (k0_pay7 x8) (k0_pay1 x0))
          (mlpK (k0_pay8 x9) x10 (k0_pay9 x11) x12 (k0_pay10 x13) (k0_pay11 x14) (k0_pay1 x0))
          (mlpK (k0_pay4 x3) x4 (k0_pay5 x5) x6 (k0_pay6 x7) (k0_pay7 x8) (k0_pay2 x1))
          (mlpK (k0_pay8 x9) x10 (k0_pay9 x11) x12 (k0_pay10 x13) (k0_pay11 x14) (k0_pay2 x1)) := by
  unfold out0_15
  rw [View.canon_unit_zero hz2]
  simp only [View.ld_unit_zero (S := S10x16384) hz2, View.ld_unit_zero (S := S1x16384) hz2,
    View.ld_unit_zero (S := S35x10) hz2, View.ld_unit_zero (S := S35) hz1, View.ld_unit_zero (S := S3x35x35) hz3,
    View.ld_unit_zero (S := S3x35) hz2, View.ld_unit_zero (S := S5x35) hz2, View.ld_unit_zero (S := S5) hz1]
  simp only [k0_pay22, k0_pay21, k0_pay20, k0_pay19, k0_pay18, k0_pay17, k0_pay16, k0_pay15, k0_pay14, k0_pay13, k0_pay12,
    combineK, mlpK, wgtK, layerLast, layerHidden, layerFirst]

/-- The block the body leaves is the stacked halves of the four networks on the two score blocks. -/
theorem out_eq (x0 x1 : Vec Ideal S10x16384 .f32) (x2 : Vec Ideal S1x16384 .f32)
    (x3 : Vec Ideal S35x10 .bf16) (x4 : Vec Ideal S35 .f32) (x5 : Vec Ideal S3x35x35 .bf16) (x6 : Vec Ideal S3x35 .f32)
    (x7 : Vec Ideal S5x35 .bf16) (x8 : Vec Ideal S5 .f32)
    (x9 : Vec Ideal S35x10 .bf16) (x10 : Vec Ideal S35 .f32) (x11 : Vec Ideal S3x35x35 .bf16) (x12 : Vec Ideal S3x35 .f32)
    (x13 : Vec Ideal S5x35 .bf16) (x14 : Vec Ideal S5 .f32) :
    out0_15 (F := Ideal) x0 x1 x2 x3 x4 x5 x6 x7 x8 x9 x10 x11 x12 x13 x14
      = combineK x2 (mlpK x3 x4 x5 x6 x7 x8 x0) (mlpK x9 x10 x11 x12 x13 x14 x0)
          (mlpK x3 x4 x5 x6 x7 x8 x1) (mlpK x9 x10 x11 x12 x13 x14 x1) := by
  rw [out_eq_loaded, pay1_id, pay2_id, pay3_id, pay4_id, pay5_id, pay6_id, pay7_id, pay8_id, pay9_id, pay10_id, pay11_id]

/-- Entry `(j, l)` of the block a grid point leaves: contribution `j` of the edge whose scores, reversed scores and outcome
    sit in column `l` of the three data blocks. -/
theorem out_apply (x0 x1 : Vec Ideal S10x16384 .f32) (x2 : Vec Ideal S1x16384 .f32)
    (x3 : Vec Ideal S35x10 .bf16) (x4 : Vec Ideal S35 .f32) (x5 : Vec Ideal S3x35x35 .bf16) (x6 : Vec Ideal S3x35 .f32)
    (x7 : Vec Ideal S5x35 .bf16) (x8 : Vec Ideal S5 .f32)
    (x9 : Vec Ideal S35x10 .bf16) (x10 : Vec Ideal S35 .f32) (x11 : Vec Ideal S3x35x35 .bf16) (x12 : Vec Ideal S3x35 .f32)
    (x13 : Vec Ideal S5x35 .bf16) (x14 : Vec Ideal S5 .f32) (j : Fin 10) (l : Fin 16384) :
    out0_15 (F := Ideal) x0 x1 x2 x3 x4 x5 x6 x7 x8 x9 x10 x11 x12 x13 x14 (ix2 j l)
      = EdgeNet.col (fun k => x0 (ix2 k l)) (fun k => x1 (ix2 k l)) (x2 (ix2 (0 : Fin 1) l))
          (EdgeNet.netOf x3 x4 x5 x6 x7 x8) (EdgeNet.netOf x9 x10 x11 x12 x13 x14) j := by
  rw [out_eq, combineK_apply]
  unfold EdgeNet.col
  simp only [mlpK_apply]

end Cert.KernelIdeal.Body

end
-- ==== Proof.KBlocks.lean ====
/-
  From blocks to the array.

  Grid point `t` (of 62) works on the columns `16384·t … 16384·t + 16383` of the `[10, 1015808]` arrays: its two score blocks and
  its outcome block are those columns of the padded score, reversed-score and outcome arrays, the weight blocks are the whole
  weight arrays, and it writes back those columns of the result. The 62 blocks tile the result, so after the region entry
  `(j, L)` of the result is contribution `j` of the edge stored in column `L` of the three data arrays.
-/
import proofs.«122336_j21646635172527_1_alg».proof.Proof.KBody

set_option maxRecDepth 16384

noncomputable section

namespace Cert.KernelIdeal.Blocks

open Cert.KernelIdeal Cert.KernelIdeal.Gen Cert.KernelIdeal.Facts₀ Cert.KernelIdeal.Facts Idealize.ShloMosaic
  Idealize.ShloMosaic.ValueIdx Idealize.ShloMosaic.TcCoe Idealize.SL.Sem
open Idealize.ShloMosaic.Pipeline (Dat Cfg Window)

variable (m : (ℓ : Loc nD τ sig) → Buf (Elt Ideal) ℓ)

/-- Entry `(j, L)` of the result array as a function of the three data arrays and the two networks. -/
def entry (A0 A1 : S10x1015808.Idx → EReal) (A2 : S1x1015808.Idx → EReal) (R P : EdgeNet.Net) (j : Fin 10) (L : Fin 1015808) :
    EReal :=
  EdgeNet.col (fun k => A0 (ix2 k L)) (fun k => A1 (ix2 k L)) (A2 (ix2 (0 : Fin 1) L)) R P j

/-- The whole result array. -/
def arrFn (A0 A1 : S10x1015808.Idx → EReal) (A2 : S1x1015808.Idx → EReal) (R P : EdgeNet.Net) : S10x1015808.Idx → EReal :=
  fun i => entry A0 A1 A2 R P (i 0) (i 1)

/-- The two networks, from the weight arrays as the region finds them. -/
def netR (c : Dev nD) : EdgeNet.Net :=
  EdgeNet.netOf (V m c main_v16) (V m c main_arg4) (V m c main_v17) (V m c main_arg6) (V m c main_v19) (V m c main_v20)
def netP (c : Dev nD) : EdgeNet.Net :=
  EdgeNet.netOf (V m c main_v21) (V m c main_arg10) (V m c main_v22) (V m c main_arg12) (V m c main_v24) (V m c main_v25)

/-- The index maps over the grid: the data windows and the result window sit at block `(0, t)`. -/
theorem idx_data : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_15.index t (0 : Fin 2) = 0 ∧ win0_15.index t (1 : Fin 2) = t.val :=
  (by decide +kernel : ∀ t : Fin grid0.N, _)

/-- The weight windows sit at block zero at every point. -/
theorem idx_weights : ∀ t : Fin cfg0.N,
    win0_3.index t (0 : Fin 2) = 0
    ∧ win0_3.index t (1 : Fin 2) = 0
    ∧ win0_4.index t (0 : Fin 1) = 0
    ∧ win0_5.index t (0 : Fin 3) = 0
    ∧ win0_5.index t (1 : Fin 3) = 0
    ∧ win0_5.index t (2 : Fin 3) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 3) = 0
    ∧ win0_11.index t (1 : Fin 3) = 0
    ∧ win0_11.index t (2 : Fin 3) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 1) = 0 :=
  (by decide +kernel : ∀ t : Fin grid0.N, _)

/-! ## The blocks a point reads -/

theorem blk3 (c : Dev nD) (t : Fin cfg0.N) : iblk m c 3 t = (V m c main_v16 : S35x10.Idx → Elt Ideal .bf16) := by
  obtain ⟨w3_0, w3_1, w4_0, w5_0, w5_1, w5_2, w6_0, w6_1, w7_0, w7_1, w8_0, w9_0, w9_1, w10_0, w11_0, w11_1, w11_2, w12_0, w12_1, w13_0, w13_1, w14_0⟩ := idx_weights t
  funext y
  show V m c main_v16 (((cfg0.win 3).blk t).view.emb y) = V m c main_v16 y
  refine congrArg (V m c main_v16) (funext fun a => Fin.ext ?_)
  match a with
  | ⟨0, _⟩ => show win0_3.index t (0 : Fin 2) * 35 + 1 * (y 0).val = (y 0).val; omega
  | ⟨1, _⟩ => show win0_3.index t (1 : Fin 2) * 10 + 1 * (y 1).val = (y 1).val; omega

theorem blk4 (c : Dev nD) (t : Fin cfg0.N) : iblk m c 4 t = (V m c main_arg4 : S35.Idx → Elt Ideal .f32) := by
  obtain ⟨w3_0, w3_1, w4_0, w5_0, w5_1, w5_2, w6_0, w6_1, w7_0, w7_1, w8_0, w9_0, w9_1, w10_0, w11_0, w11_1, w11_2, w12_0, w12_1, w13_0, w13_1, w14_0⟩ := idx_weights t
  funext y
  show V m c main_arg4 (((cfg0.win 4).blk t).view.emb y) = V m c main_arg4 y
  refine congrArg (V m c main_arg4) (funext fun a => Fin.ext ?_)
  match a with
  | ⟨0, _⟩ => show win0_4.index t (0 : Fin 1) * 35 + 1 * (y 0).val = (y 0).val; omega

theorem blk5 (c : Dev nD) (t : Fin cfg0.N) : iblk m c 5 t = (V m c main_v17 : S3x35x35.Idx → Elt Ideal .bf16) := by
  obtain ⟨w3_0, w3_1, w4_0, w5_0, w5_1, w5_2, w6_0, w6_1, w7_0, w7_1, w8_0, w9_0, w9_1, w10_0, w11_0, w11_1, w11_2, w12_0, w12_1, w13_0, w13_1, w14_0⟩ := idx_weights t
  funext y
  show V m c main_v17 (((cfg0.win 5).blk t).view.emb y) = V m c main_v17 y
  refine congrArg (V m c main_v17) (funext fun a => Fin.ext ?_)
  match a with
  | ⟨0, _⟩ => show win0_5.index t (0 : Fin 3) * 3 + 1 * (y 0).val = (y 0).val; omega
  | ⟨1, _⟩ => show win0_5.index t (1 : Fin 3) * 35 + 1 * (y 1).val = (y 1).val; omega
  | ⟨2, _⟩ => show win0_5.index t (2 : Fin 3) * 35 + 1 * (y 2).val = (y 2).val; omega

theorem blk6 (c : Dev nD) (t : Fin cfg0.N) : iblk m c 6 t = (V m c main_arg6 : S3x35.Idx → Elt Ideal .f32) := by
  obtain ⟨w3_0, w3_1, w4_0, w5_0, w5_1, w5_2, w6_0, w6_1, w7_0, w7_1, w8_0, w9_0, w9_1, w10_0, w11_0, w11_1, w11_2, w12_0, w12_1, w13_0, w13_1, w14_0⟩ := idx_weights t
  funext y
  show V m c main_arg6 (((cfg0.win 6).blk t).view.emb y) = V m c main_arg6 y
  refine congrArg (V m c main_arg6) (funext fun a => Fin.ext ?_)
  match a with
  | ⟨0, _⟩ => show win0_6.index t (0 : Fin 2) * 3 + 1 * (y 0).val = (y 0).val; omega
  | ⟨1, _⟩ => show win0_6.index t (1 : Fin 2) * 35 + 1 * (y 1).val = (y 1).val; omega

theorem blk7 (c : Dev nD) (t : Fin cfg0.N) : iblk m c 7 t = (V m c main_v19 : S5x35.Idx → Elt Ideal .bf16) := by
  obtain ⟨w3_0, w3_1, w4_0, w5_0, w5_1, w5_2, w6_0, w6_1, w7_0, w7_1, w8_0, w9_0, w9_1, w10_0, w11_0, w11_1, w11_2, w12_0, w12_1, w13_0, w13_1, w14_0⟩ := idx_weights t
  funext y
  show V m c main_v19 (((cfg0.win 7).blk t).view.emb y) = V m c main_v19 y
  refine congrArg (V m c main_v19) (funext fun a => Fin.ext ?_)
  match a with
  | ⟨0, _⟩ => show win0_7.index t (0 : Fin 2) * 5 + 1 * (y 0).val = (y 0).val; omega
  | ⟨1, _⟩ => show win0_7.index t (1 : Fin 2) * 35 + 1 * (y 1).val = (y 1).val; omega

theorem blk8 (c : Dev nD) (t : Fin cfg0.N) : iblk m c 8 t = (V m c main_v20 : S5.Idx → Elt Ideal .f32) := by
  obtain ⟨w3_0, w3_1, w4_0, w5_0, w5_1, w5_2, w6_0, w6_1, w7_0, w7_1, w8_0, w9_0, w9_1, w10_0, w11_0, w11_1, w11_2, w12_0, w12_1, w13_0, w13_1, w14_0⟩ := idx_weights t
  funext y
  show V m c main_v20 (((cfg0.win 8).blk t).view.emb y) = V m c main_v20 y
  refine congrArg (V m c main_v20) (funext fun a => Fin.ext ?_)
  match a with
  | ⟨0, _⟩ => show win0_8.index t (0 : Fin 1) * 5 + 1 * (y 0).val = (y 0).val; omega

theorem blk9 (c : Dev nD) (t : Fin cfg0.N) : iblk m c 9 t = (V m c main_v21 : S35x10.Idx → Elt Ideal .bf16) := by
  obtain ⟨w3_0, w3_1, w4_0, w5_0, w5_1, w5_2, w6_0, w6_1, w7_0, w7_1, w8_0, w9_0, w9_1, w10_0, w11_0, w11_1, w11_2, w12_0, w12_1, w13_0, w13_1, w14_0⟩ := idx_weights t
  funext y
  show V m c main_v21 (((cfg0.win 9).blk t).view.emb y) = V m c main_v21 y
  refine congrArg (V m c main_v21) (funext fun a => Fin.ext ?_)
  match a with
  | ⟨0, _⟩ => show win0_9.index t (0 : Fin 2) * 35 + 1 * (y 0).val = (y 0).val; omega
  | ⟨1, _⟩ => show win0_9.index t (1 : Fin 2) * 10 + 1 * (y 1).val = (y 1).val; omega

theorem blk10 (c : Dev nD) (t : Fin cfg0.N) : iblk m c 10 t = (V m c main_arg10 : S35.Idx → Elt Ideal .f32) := by
  obtain ⟨w3_0, w3_1, w4_0, w5_0, w5_1, w5_2, w6_0, w6_1, w7_0, w7_1, w8_0, w9_0, w9_1, w10_0, w11_0, w11_1, w11_2, w12_0, w12_1, w13_0, w13_1, w14_0⟩ := idx_weights t
  funext y
  show V m c main_arg10 (((cfg0.win 10).blk t).view.emb y) = V m c main_arg10 y
  refine congrArg (V m c main_arg10) (funext fun a => Fin.ext ?_)
  match a with
  | ⟨0, _⟩ => show win0_10.index t (0 : Fin 1) * 35 + 1 * (y 0).val = (y 0).val; omega

theorem blk11 (c : Dev nD) (t : Fin cfg0.N) : iblk m c 11 t = (V m c main_v22 : S3x35x35.Idx → Elt Ideal .bf16) := by
  obtain ⟨w3_0, w3_1, w4_0, w5_0, w5_1, w5_2, w6_0, w6_1, w7_0, w7_1, w8_0, w9_0, w9_1, w10_0, w11_0, w11_1, w11_2, w12_0, w12_1, w13_0, w13_1, w14_0⟩ := idx_weights t
  funext y
  show V m c main_v22 (((cfg0.win 11).blk t).view.emb y) = V m c main_v22 y
  refine congrArg (V m c main_v22) (funext fun a => Fin.ext ?_)
  match a with
  | ⟨0, _⟩ => show win0_11.index t (0 : Fin 3) * 3 + 1 * (y 0).val = (y 0).val; omega
  | ⟨1, _⟩ => show win0_11.index t (1 : Fin 3) * 35 + 1 * (y 1).val = (y 1).val; omega
  | ⟨2, _⟩ => show win0_11.index t (2 : Fin 3) * 35 + 1 * (y 2).val = (y 2).val; omega

theorem blk12 (c : Dev nD) (t : Fin cfg0.N) : iblk m c 12 t = (V m c main_arg12 : S3x35.Idx → Elt Ideal .f32) := by
  obtain ⟨w3_0, w3_1, w4_0, w5_0, w5_1, w5_2, w6_0, w6_1, w7_0, w7_1, w8_0, w9_0, w9_1, w10_0, w11_0, w11_1, w11_2, w12_0, w12_1, w13_0, w13_1, w14_0⟩ := idx_weights t
  funext y
  show V m c main_arg12 (((cfg0.win 12).blk t).view.emb y) = V m c main_arg12 y
  refine congrArg (V m c main_arg12) (funext fun a => Fin.ext ?_)
  match a with
  | ⟨0, _⟩ => show win0_12.index t (0 : Fin 2) * 3 + 1 * (y 0).val = (y 0).val; omega
  | ⟨1, _⟩ => show win0_12.index t (1 : Fin 2) * 35 + 1 * (y 1).val = (y 1).val; omega

theorem blk13 (c : Dev nD) (t : Fin cfg0.N) : iblk m c 13 t = (V m c main_v24 : S5x35.Idx → Elt Ideal .bf16) := by
  obtain ⟨w3_0, w3_1, w4_0, w5_0, w5_1, w5_2, w6_0, w6_1, w7_0, w7_1, w8_0, w9_0, w9_1, w10_0, w11_0, w11_1, w11_2, w12_0, w12_1, w13_0, w13_1, w14_0⟩ := idx_weights t
  funext y
  show V m c main_v24 (((cfg0.win 13).blk t).view.emb y) = V m c main_v24 y
  refine congrArg (V m c main_v24) (funext fun a => Fin.ext ?_)
  match a with
  | ⟨0, _⟩ => show win0_13.index t (0 : Fin 2) * 5 + 1 * (y 0).val = (y 0).val; omega
  | ⟨1, _⟩ => show win0_13.index t (1 : Fin 2) * 35 + 1 * (y 1).val = (y 1).val; omega

theorem blk14 (c : Dev nD) (t : Fin cfg0.N) : iblk m c 14 t = (V m c main_v25 : S5.Idx → Elt Ideal .f32) := by
  obtain ⟨w3_0, w3_1, w4_0, w5_0, w5_1, w5_2, w6_0, w6_1, w7_0, w7_1, w8_0, w9_0, w9_1, w10_0, w11_0, w11_1, w11_2, w12_0, w12_1, w13_0, w13_1, w14_0⟩ := idx_weights t
  funext y
  show V m c main_v25 (((cfg0.win 14).blk t).view.emb y) = V m c main_v25 y
  refine congrArg (V m c main_v25) (funext fun a => Fin.ext ?_)
  match a with
  | ⟨0, _⟩ => show win0_14.index t (0 : Fin 1) * 5 + 1 * (y 0).val = (y 0).val; omega

/-- Column `l` of point `t`'s blocks is column `16384·t + l` of the arrays. -/
theorem blk0_apply (c : Dev nD) (t : Fin cfg0.N) (k : Fin 10) (l : Fin 16384) (L : Fin 1015808) (hL : L.val = t.val * 16384 + l.val) :
    iblk m c 0 t (ix2 k l) = V m c main_v12 (ix2 k L) := by
  obtain ⟨a0, a1, b0, b1, c0, c1, d0, d1⟩ := idx_data t
  show V m c main_v12 (((cfg0.win 0).blk t).view.emb (ix2 k l)) = V m c main_v12 (ix2 k L)
  refine congrArg (V m c main_v12) (funext fun a => Fin.ext ?_)
  match a with
  | ⟨0, _⟩ => show win0_0.index t (0 : Fin 2) * 10 + 1 * k.val = k.val; omega
  | ⟨1, _⟩ => show win0_0.index t (1 : Fin 2) * 16384 + 1 * l.val = L.val; omega

theorem blk1_apply (c : Dev nD) (t : Fin cfg0.N) (k : Fin 10) (l : Fin 16384) (L : Fin 1015808) (hL : L.val = t.val * 16384 + l.val) :
    iblk m c 1 t (ix2 k l) = V m c main_v13 (ix2 k L) := by
  obtain ⟨a0, a1, b0, b1, c0, c1, d0, d1⟩ := idx_data t
  show V m c main_v13 (((cfg0.win 1).blk t).view.emb (ix2 k l)) = V m c main_v13 (ix2 k L)
  refine congrArg (V m c main_v13) (funext fun a => Fin.ext ?_)
  match a with
  | ⟨0, _⟩ => show win0_1.index t (0 : Fin 2) * 10 + 1 * k.val = k.val; omega
  | ⟨1, _⟩ => show win0_1.index t (1 : Fin 2) * 16384 + 1 * l.val = L.val; omega

theorem blk2_apply (c : Dev nD) (t : Fin cfg0.N) (l : Fin 16384) (L : Fin 1015808) (hL : L.val = t.val * 16384 + l.val) :
    iblk m c 2 t (ix2 (0 : Fin 1) l) = V m c main_v15 (ix2 (0 : Fin 1) L) := by
  obtain ⟨a0, a1, b0, b1, c0, c1, d0, d1⟩ := idx_data t
  show V m c main_v15 (((cfg0.win 2).blk t).view.emb (ix2 (0 : Fin 1) l)) = V m c main_v15 (ix2 (0 : Fin 1) L)
  refine congrArg (V m c main_v15) (funext fun a => Fin.ext ?_)
  match a with
  | ⟨0, _⟩ => show win0_2.index t (0 : Fin 2) * 1 + 1 * 0 = 0; omega
  | ⟨1, _⟩ => show win0_2.index t (1 : Fin 2) * 16384 + 1 * l.val = L.val; omega

/-! ## What a point writes back -/

/-- Point `t` writes back block `t` of the result function. -/
theorem flushed_eq (c : Dev nD) (t : Fin cfg0.N) :
    (dats m 0 c).flushed 15 t = ((cfg0.win 15).blk t).view.read (Elt Ideal)
      (arrFn (V m c main_v12) (V m c main_v13) (V m c main_v15) (netR m c) (netP m c)) := by
  show (cfg0.win 15).cut (grid0.coords t) ((dats m 0 c).after 15 t) = _
  rw [after0_15, blk3 m c t, blk4 m c t, blk5 m c t, blk6 m c t, blk7 m c t, blk8 m c t, blk9 m c t, blk10 m c t, blk11 m c t,
    blk12 m c t, blk13 m c t, blk14 m c t]
  obtain ⟨a0, a1, b0, b1, c0, c1, d0, d1⟩ := idx_data t
  funext y
  obtain ⟨j, l, rfl⟩ : ∃ (j : Fin 10) (l : Fin 16384), y = ix2 j l := ⟨y 0, y 1, eq_ix2 y⟩
  have ht : t.val < 62 := t.isLt
  have hl : l.val < 16384 := l.isLt
  have e : ((cfg0.win 15).blk t).view.emb (ix2 j l) = ix2 j (⟨t.val * 16384 + l.val, by omega⟩ : Fin 1015808) := by
    funext a; apply Fin.ext
    match a with
    | ⟨0, _⟩ => show win0_15.index t (0 : Fin 2) * 10 + 1 * j.val = j.val; omega
    | ⟨1, _⟩ => show win0_15.index t (1 : Fin 2) * 16384 + 1 * l.val = t.val * 16384 + l.val; omega
  show out0_15 (F := Ideal) (iblk m c 0 t) (iblk m c 1 t) (iblk m c 2 t) (V m c main_v16) (V m c main_arg4) (V m c main_v17)
      (V m c main_arg6) (V m c main_v19) (V m c main_v20) (V m c main_v21) (V m c main_arg10) (V m c main_v22) (V m c main_arg12)
      (V m c main_v24) (V m c main_v25) (ix2 j l)
    = arrFn (V m c main_v12) (V m c main_v13) (V m c main_v15) (netR m c) (netP m c) (((cfg0.win 15).blk t).view.emb (ix2 j l))
  rw [e]
  refine (Body.out_apply (iblk m c 0 t) (iblk m c 1 t) (iblk m c 2 t) (V m c main_v16) (V m c main_arg4) (V m c main_v17)
      (V m c main_arg6) (V m c main_v19) (V m c main_v20) (V m c main_v21) (V m c main_arg10) (V m c main_v22) (V m c main_arg12)
      (V m c main_v24) (V m c main_v25) j l).trans ?_
  show _ = entry (V m c main_v12) (V m c main_v13) (V m c main_v15) (netR m c) (netP m c) j ⟨t.val * 16384 + l.val, by omega⟩
  unfold entry
  simp only [blk0_apply m c t _ l ⟨t.val * 16384 + l.val, by omega⟩ rfl, blk1_apply m c t _ l ⟨t.val * 16384 + l.val, by omega⟩ rfl,
    blk2_apply m c t l ⟨t.val * 16384 + l.val, by omega⟩ rfl]
  rfl

/-- An index of the result array is in point `t`'s block iff each coordinate is in the block's range. -/
theorem mem_blk (t : Fin cfg0.N) (i : S10x1015808.Idx) :
    i ∈ ((cfg0.win 15).blk t).view.set ↔ ∀ a : Fin 2, win0_15.index t a * S10x16384.size a ≤ (i a).val
      ∧ (i a).val < win0_15.index t a * S10x16384.size a + S10x16384.size a := by
  show i ∈ ((View.whole main_v26).slice (win0_15.rect t)).set ↔ _
  rw [View.set_slice_whole, Rect.mem_set_unit]
  exact Iff.rfl

/-- Every index of the result array lies in the block of the point that owns its column. -/
theorem cover (i : S10x1015808.Idx) :
    ∃ t : Fin cfg0.N, (cfg0.win 15).flush t = true ∧ i ∈ ((cfg0.win 15).blk t).view.set := by
  have hi0 : (i 0).val < 10 := (i 0).isLt
  have hi1 : (i 1).val < 1015808 := (i 1).isLt
  let t : Fin cfg0.N := ⟨(i 1).val / 16384, by show (i 1).val / 16384 < 62; omega⟩
  obtain ⟨a0, a1, b0, b1, c0, c1, d0, d1⟩ := idx_data t
  have d1' : win0_15.index t (1 : Fin 2) = (i 1).val / 16384 := d1
  refine ⟨t, flush0_15 t, ?_⟩
  rw [mem_blk]
  intro a
  match a with
  | ⟨0, _⟩ => show win0_15.index t (0 : Fin 2) * 10 ≤ (i 0).val ∧ (i 0).val < win0_15.index t (0 : Fin 2) * 10 + 10; omega
  | ⟨1, _⟩ =>
    show win0_15.index t (1 : Fin 2) * 16384 ≤ (i 1).val ∧ (i 1).val < win0_15.index t (1 : Fin 2) * 16384 + 16384
    omega

/-- THE RESULT ARRAY after the region. -/
theorem final (c : Dev nD) :
    (dats m 0 c).arrAt 15 cfg0.N = arrFn (V m c main_v12) (V m c main_v13) (V m c main_v15) (netR m c) (netP m c) :=
  (dats m 0 c).arrAt_eq_of_cover 15 _ (fun t _ => flushed_eq m c t) cover

end Cert.KernelIdeal.Blocks

end
-- ==== Proof.KTail.lean ====
/-
  After the region: from the contributions to the new scores.

  The `[10, 1015808]` result is cut back to the million real edges, transposed to edge-major and flattened; every
  contribution is added to the node its edge-table entry names (a segment sum), and so is a one per entry (the degrees);
  the sums are divided by half the largest degree and added to the scores, the mean is subtracted and the vector is divided
  by its Euclidean norm. None of this is opened here: both programs apply the very same operations to the contributions, so
  the comparison needs only that the contributions agree.
-/
import proofs.«122336_j21646635172527_1_alg».proof.Proof.Gen.KernelIdeal
import Idealize.ShloMosaic.PureOps.Ideal
import Idealize.ShloMosaic.Lib.ValueIdx

set_option maxRecDepth 16384

noncomputable section

namespace Cert.KernelIdeal.Tail

open Cert.KernelIdeal Cert.KernelIdeal.Facts₀ Cert.KernelIdeal.Facts Idealize.ShloMosaic Idealize.ShloMosaic.ValueIdx

/-- The segment sum of the flattened contributions `Vt` over the flattened edge table `a1`. -/
def segSum (Vt : FVec Ideal S1000000x10 .f32) (a1 : IVec S1000000x10 32) :
    FVec Ideal S100000 .f32 :=
  Host.scatterAdd scatter_S100000_S10000000x1_S10000000_n_0_0_1
    (broadcastInDim S100000 ![] bcast_S_S100000 (constant (F := Ideal) S_ .f32 0x00000000#32))
    (broadcastInDim S10000000x1 ![0] bcast_S10000000_S10000000x1_0 (shapeCast _ a1 shapeCasts_S1000000x10_S10000000))
    (shapeCast _ Vt shapeCasts_S1000000x10_S10000000)

/-- Half the largest degree (the degree of a node: how many edge-table entries name it). -/
def halfMaxDeg (a1 : IVec S1000000x10 32) : FVec Ideal S_ .f32 :=
  Host.divf (Host.reduce FloatOps.maximumf
      (Host.scatterAdd scatter_S100000_S10000000x1_S10000000_n_0_0_1
        (broadcastInDim S100000 ![] bcast_S_S100000 (constant (F := Ideal) S_ .f32 0x00000000#32))
        (broadcastInDim S10000000x1 ![0] bcast_S10000000_S10000000x1_0 (shapeCast _ a1 shapeCasts_S1000000x10_S10000000))
        (broadcastInDim S10000000 ![] bcast_S_S10000000 (constant (F := Ideal) S_ .f32 0x3F800000#32)))
      (constant (F := Ideal) S_ .f32 0xFF800000#32) reducesTo_S100000_S_d0 h_S_)
    (constant (F := Ideal) S_ .f32 0x40000000#32)

/-- The scores plus the normalised segment sums. -/
def raised (Vt : FVec Ideal S1000000x10 .f32) (a1 : IVec S1000000x10 32)
    (a0 : FVec Ideal S100000x1 .f32) : FVec Ideal S100000x1 .f32 :=
  addf a0 (broadcastInDim S100000x1 ![0] bcast_S100000_S100000x1_0
    (Host.divf (segSum Vt a1) (broadcastInDim S100000 ![] bcast_S_S100000 (halfMaxDeg a1))))

/-- The mean subtracted. -/
def centred (Vt : FVec Ideal S1000000x10 .f32) (a1 : IVec S1000000x10 32)
    (a0 : FVec Ideal S100000x1 .f32) : FVec Ideal S100000x1 .f32 :=
  subf (raised Vt a1 a0) (broadcastInDim S100000x1 ![] bcast_S_S100000x1
    (Host.divf (Host.reduceAdd (raised Vt a1 a0) (constant (F := Ideal) S_ .f32 0x00000000#32) reducesTo_S100000x1_S_d0_1 h_S_)
      (constant (F := Ideal) S_ .f32 0x47C35000#32)))

/-- Divided by the Euclidean norm: the program's result. -/
def newScores (Vt : FVec Ideal S1000000x10 .f32) (a1 : IVec S1000000x10 32)
    (a0 : FVec Ideal S100000x1 .f32) : FVec Ideal S100000x1 .f32 :=
  Host.divf (centred Vt a1 a0) (broadcastInDim S100000x1 ![0, 1] bcast_S1x1_S100000x1_0_1
    (broadcastInDim S1x1 ![1] bcast_S1_S1x1_1
      (Host.sqrt (Host.reduceAdd (mulf (centred Vt a1 a0) (centred Vt a1 a0)) (constant (F := Ideal) S_ .f32 0x00000000#32)
        reducesTo_S100000x1_S1_d0 h_S_))))

end Cert.KernelIdeal.Tail

end
-- ==== Proof.KernelInputs.lean ====
/-
  What the region's fifteen input arrays hold when it is entered.

  Before the region the host gathers each edge's ten scores (an edge-by-player array `X`), transposes it to
  player-by-edge, pads the edge axis with zeros from 1000000 to 1015808 columns, and reverses the rows for the second
  operand; reshapes the outcomes to one row and pads it the same way; and converts the weight arrays to the narrower
  float format (nothing on the extended reals), cutting the last layer's arrays to their first five rows. Each
  statement below reads one of those arrays at an index given by coordinates, or states it whole.
-/
import proofs.«122336_j21646635172527_1_alg».proof.Proof.Gen.KernelIdeal.Frame
import proofs.«122336_j21646635172527_1_alg».proof.Proof.Spec
import Idealize.ShloMosaic.Lib.KernelVsHost

set_option maxRecDepth 16384

noncomputable section

namespace Cert.KernelIdeal.Inputs

open Idealize.ShloMosaic Idealize.ShloMosaic.TcCoe Idealize.ShloMosaic.Tactic Idealize.ShloMosaic.ValueIdx
open Idealize.SL.Sem
open Cert.KernelIdeal Cert.KernelIdeal.Gen

variable (m : (ℓ : Loc nD τ sig) → Buf (Elt Ideal) ℓ) (c : Dev nD)

/-! ## The layout operations read at an index -/

/-- The first five rows of a ten-row matrix, cut out by the slice at offset zero. -/
theorem slice_top5 (a : S10x35.Idx → EReal) :
    (extractStridedSlice S5x35 ![0, 0] a slices_S10x35_S5x35_0_0 : S5x35.Idx → EReal) = EdgeNet.top5 a := by
  funext i
  refine extractStridedSlice_apply _ a _ i _ fun b => ?_
  match b with
  | ⟨0, _⟩ => show (i 0).val = 0 + (i 0).val; omega
  | ⟨1, _⟩ => show (i 1).val = 0 + (i 1).val; omega

/-- The first five entries of a ten-entry vector, cut out by the slice at offset zero. -/
theorem slice_top5v (a : S10.Idx → EReal) :
    (extractStridedSlice S5 ![0] a slices_S10_S5_0 : S5.Idx → EReal) = EdgeNet.top5v a := by
  funext i
  refine extractStridedSlice_apply _ a _ i _ fun b => ?_
  match b with
  | ⟨0, _⟩ => show (i 0).val = 0 + (i 0).val; omega

/-- The edge-major array transposed and padded on the right to 1015808 columns: column `l < 1000000` of row `k` is
    entry `(l, k)` of the array. -/
theorem pad_transpose_apply (x : S1000000x10.Idx → EReal) (v : S_.Idx → EReal) (k : Fin 10) (l : Fin 1015808)
    (h : l.val < 1000000) :
    pad S10x1015808 ![0, 0] ![0, 15808] ![0, 0] (transpose S10x1000000 [1, 0] x transposes_S1000000x10_S10x1000000_1_0) v
        pads_S10x1000000_S10x1015808_000_0158080 h_S_ (ix2 k l)
      = x (ix2 ⟨l.val, h⟩ k) := by
  refine (pad_apply_of_inside _ _ _ _ v pads_S10x1000000_S10x1015808_000_0158080 h_S_ (ix2 k l)
    (ix2 k (⟨l.val, h⟩ : Fin 1000000)) fun a => ?_).trans ?_
  · match a with
    | ⟨0, _⟩ => show k.val = 0 + k.val * (0 + 1); omega
    | ⟨1, _⟩ => show l.val = 0 + l.val * (0 + 1); omega
  · refine transpose_apply [1, 0] x transposes_S1000000x10_S10x1000000_1_0 (ix2 k (⟨l.val, h⟩ : Fin 1000000))
      (ix2 (⟨l.val, h⟩ : Fin 1000000) k) fun b => ?_
    match b with
    | ⟨0, _⟩ => rfl
    | ⟨1, _⟩ => rfl

/-- The outcomes as one row, padded on the right to 1015808 columns: column `l < 1000000` is outcome `l`. -/
theorem pad_row_apply (x : S1000000.Idx → EReal) (v : S_.Idx → EReal) (l : Fin 1015808) (h : l.val < 1000000) :
    pad S1x1015808 ![0, 0] ![0, 15808] ![0, 0] (shapeCast S1x1000000 x shapeCasts_S1000000_S1x1000000) v
        pads_S1x1000000_S1x1015808_000_0158080 h_S_ (ix2 (0 : Fin 1) l)
      = x (ix1 ⟨l.val, h⟩) := by
  refine (pad_apply_of_inside _ _ _ _ v pads_S1x1000000_S1x1015808_000_0158080 h_S_ (ix2 (0 : Fin 1) l)
    (ix2 (0 : Fin 1) (⟨l.val, h⟩ : Fin 1000000)) fun a => ?_).trans ?_
  · match a with
    | ⟨0, _⟩ => show 0 = 0 + 0 * (0 + 1); omega
    | ⟨1, _⟩ => show l.val = 0 + l.val * (0 + 1); omega
  · refine shapeCast_apply x shapeCasts_S1000000_S1x1000000 (ix2 (0 : Fin 1) (⟨l.val, h⟩ : Fin 1000000))
      (ix1 (⟨l.val, h⟩ : Fin 1000000)) ?_
    rewrite [Shape.rowMajor_val_one, Shape.rowMajor_val_two]
    show l.val = 0 * 1000000 + l.val
    omega

/-- Reversal along the first axis reads row `9 − k`. -/
theorem reverse0_apply (x : S10x1015808.Idx → EReal) (k : Fin 10) (l : Fin 1015808) :
    Host.reverse (s := S10x1015808) [0] x (ix2 k l) = x (ix2 k.rev l) := by
  unfold Host.reverse
  refine congrArg x (funext fun a => ?_)
  match a with
  | ⟨0, _⟩ => rfl
  | ⟨1, _⟩ => rfl

/-! ## What the host operations before the region leave in its input arrays -/

/-- The gathered scores, as the host operations compute them from the score table `a0` and the player indices
    `a1`: a negative index is moved up by the table's length, a second coordinate zero is appended, and the table
    is read there. -/
def gathered (a0 : (⟨S100000x1, .f32⟩ : BufTy).Contents (Elt Ideal)) (a1 : (⟨S1000000x10, .i32⟩ : BufTy).Contents (Elt Ideal)) :
    S1000000x10.Idx → EReal :=
  Host.gather gather_S100000x1_S1000000x10x2_S1000000x10_n_01_n_n_01_2_11 a0
    (concatenate S1000000x10x2 2
      [⟨S1000000x10x1, broadcastInDim S1000000x10x1 ![0, 1] bcast_S1000000x10_S1000000x10x1_0_1
          (select (cmpi CmpIPredicate.slt a1 (broadcastInDim S1000000x10 ![] bcast_S_S1000000x10 (constantI S_ 32 0#32)))
            (addi a1 (broadcastInDim S1000000x10 ![] bcast_S_S1000000x10 (constantI S_ 32 100000#32))) a1)⟩,
       ⟨S1000000x10x1, broadcastInDim S1000000x10x1 ![0, 1] bcast_S1000000x10_S1000000x10x1_0_1
          (id (broadcastInDim S1000000x10 ![] bcast_S_S1000000x10 (constantI S_ 32 0#32)))⟩]
      concatenates_S1000000x10x1_S1000000x10x1_S1000000x10x2_d2)

/-- The padding value the two pads are given: the integer zero converted. -/
def padValue : S_.Idx → EReal := (sitofp .f32 (constantI S_ 32 0#32 : IVec S_ 32) : FVec Ideal S_ .f32)

set_option maxHeartbeats 4000000 in
/-- The gather's result when the region is entered. -/
theorem X_eq : (V m c main_v10 : S1000000x10.Idx → EReal)
    = gathered (m ((c : Thread nD τ).loc main_arg0)) (m ((c : Thread nD τ).loc main_arg1)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 4000000 in
theorem v12_eq : (V m c main_v12 : S10x1015808.Idx → EReal)
    = pad S10x1015808 ![0, 0] ![0, 15808] ![0, 0]
        (transpose S10x1000000 [1, 0] (gathered (m ((c : Thread nD τ).loc main_arg0)) (m ((c : Thread nD τ).loc main_arg1)))
          transposes_S1000000x10_S10x1000000_1_0)
        padValue pads_S10x1000000_S10x1015808_000_0158080 h_S_ := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 4000000 in
theorem v13_eq : (V m c main_v13 : S10x1015808.Idx → EReal)
    = Host.reverse (s := S10x1015808) [0] (pad S10x1015808 ![0, 0] ![0, 15808] ![0, 0]
        (transpose S10x1000000 [1, 0] (gathered (m ((c : Thread nD τ).loc main_arg0)) (m ((c : Thread nD τ).loc main_arg1)))
          transposes_S1000000x10_S10x1000000_1_0)
        padValue pads_S10x1000000_S10x1015808_000_0158080 h_S_) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem v15_eq : (V m c main_v15 : S1x1015808.Idx → EReal)
    = pad S1x1015808 ![0, 0] ![0, 15808] ![0, 0]
        (shapeCast S1x1000000 (m ((c : Thread nD τ).loc main_arg2) : S1000000.Idx → EReal) shapeCasts_S1000000_S1x1000000)
        padValue pads_S1x1000000_S1x1015808_000_0158080 h_S_ := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- (1) Operand 0 of the region: column `l < 1000000` of row `k` is score `k` of edge `l`. -/
theorem v12_apply (k : Fin 10) (l : Fin 1015808) (h : l.val < 1000000) :
    (V m c main_v12 : S10x1015808.Idx → EReal) (ix2 k l)
      = (V m c main_v10 : S1000000x10.Idx → EReal) (ix2 (⟨l.val, h⟩ : Fin 1000000) k) := by
  refine (congrFun (v12_eq m c) _).trans ?_
  refine Eq.trans ?_ (congrFun (X_eq m c) _).symm
  exact pad_transpose_apply _ _ k l h

/-- (2) Operand 1 of the region: operand 0 with its rows in reversed order. -/
theorem v13_apply (k : Fin 10) (l : Fin 1015808) :
    (V m c main_v13 : S10x1015808.Idx → EReal) (ix2 k l) = (V m c main_v12 : S10x1015808.Idx → EReal) (ix2 k.rev l) := by
  refine (congrFun (v13_eq m c) _).trans ?_
  refine Eq.trans ?_ (congrFun (v12_eq m c) _).symm
  exact reverse0_apply _ k l

/-- (3) Operand 2 of the region: column `l < 1000000` of its one row is the outcome of edge `l`. -/
theorem v15_apply (l : Fin 1015808) (h : l.val < 1000000) :
    (V m c main_v15 : S1x1015808.Idx → EReal) (ix2 (0 : Fin 1) l)
      = (m ((c : Thread nD τ).loc main_arg2) : S1000000.Idx → EReal) (ix1 (⟨l.val, h⟩ : Fin 1000000)) := by
  refine (congrFun (v15_eq m c) _).trans ?_
  exact pad_row_apply _ _ l h

/-! (4) The weights: a conversion to the narrower float format changes nothing on the extended reals, and the last
    layer's arrays are cut to their first five rows. -/

theorem v16_eq : (V m c main_v16 : S35x10.Idx → EReal) = (m ((c : Thread nD τ).loc main_arg3) : S35x10.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem v17_eq : (V m c main_v17 : S3x35x35.Idx → EReal) = (m ((c : Thread nD τ).loc main_arg5) : S3x35x35.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem v19_eq : (V m c main_v19 : S5x35.Idx → EReal)
    = EdgeNet.top5 (m ((c : Thread nD τ).loc main_arg7) : S10x35.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact slice_top5 _

theorem v20_eq : (V m c main_v20 : S5.Idx → EReal)
    = EdgeNet.top5v (m ((c : Thread nD τ).loc main_arg8) : S10.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact slice_top5v _

theorem v21_eq : (V m c main_v21 : S35x10.Idx → EReal) = (m ((c : Thread nD τ).loc main_arg9) : S35x10.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem v22_eq : (V m c main_v22 : S3x35x35.Idx → EReal) = (m ((c : Thread nD τ).loc main_arg11) : S3x35x35.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem v24_eq : (V m c main_v24 : S5x35.Idx → EReal)
    = EdgeNet.top5 (m ((c : Thread nD τ).loc main_arg13) : S10x35.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact slice_top5 _

theorem v25_eq : (V m c main_v25 : S5.Idx → EReal)
    = EdgeNet.top5v (m ((c : Thread nD τ).loc main_arg14) : S10.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact slice_top5v _

end Cert.KernelIdeal.Inputs
end
-- ==== Proof.KValue.lean ====
/-
  The kernel program's result, read.

  After the region the result array is cut to its first million columns and transposed: entry `(e, j)` of that edge-major
  array is entry `(j, e)` of the result, which is contribution `j` of the edge in column `e` of the data arrays — and for a real
  edge `e` that column holds the gathered scores of edge `e` (the padding lies beyond), their reversal, and the edge's outcome.
  So the edge-major array is the specification's array of contributions, and the program's result is the common tail applied
  to it.
-/
import proofs.«122336_j21646635172527_1_alg».proof.Proof.KBlocks
import proofs.«122336_j21646635172527_1_alg».proof.Proof.KTail
import proofs.«122336_j21646635172527_1_alg».proof.Proof.KernelInputs
import Idealize.ShloMosaic.Lib.StableHlo.Run
import Idealize.ShloMosaic.Lib.Pipeline.FrameSuffix

set_option maxRecDepth 16384

noncomputable section

namespace Cert.KernelIdeal.Value

open Cert.KernelIdeal Cert.KernelIdeal.Gen Idealize.ShloMosaic Idealize.ShloMosaic.ValueIdx Idealize.ShloMosaic.TcCoe
  Idealize.SL.Sem Idealize.ShloMosaic.StableHlo

variable (m : (ℓ : Loc nD τ sig) → Buf (Elt Ideal) ℓ)

/-- The first million columns, transposed: entry `(e, j)` is entry `(j, e)` of the array. -/
theorem cut_transpose_apply (O : S10x1015808.Idx → EReal) (e : Fin 1000000) (j : Fin 10) :
    transpose S1000000x10 [1, 0] (extractStridedSlice S10x1000000 ![0, 0] O slices_S10x1015808_S10x1000000_0_0)
        transposes_S10x1000000_S1000000x10_1_0 (ix2 e j)
      = O (ix2 j (⟨e.val, by have := e.isLt; omega⟩ : Fin 1015808)) := by
  refine (transpose_apply [1, 0] _ transposes_S10x1000000_S1000000x10_1_0 (ix2 e j) (ix2 j e) fun b => ?_).trans ?_
  · match b with
    | ⟨0, _⟩ => rfl
    | ⟨1, _⟩ => rfl
  · exact extractStridedSlice_apply _ _ _ (ix2 j e) (ix2 j (⟨e.val, by have := e.isLt; omega⟩ : Fin 1015808)) (fun a => by
      match a with
      | ⟨0, _⟩ => exact (Nat.zero_add _).symm
      | ⟨1, _⟩ => exact (Nat.zero_add _).symm)

/-- The edge-major array the tail starts from is the specification's array of contributions. -/
theorem contributions (c : Dev nD) :
    transpose S1000000x10 [1, 0]
        (extractStridedSlice S10x1000000 ![0, 0]
          (Blocks.arrFn (V m c main_v12) (V m c main_v13) (V m c main_v15) (Blocks.netR m c) (Blocks.netP m c))
          slices_S10x1015808_S10x1000000_0_0)
        transposes_S10x1000000_S1000000x10_1_0
      = EdgeNet.contrib (Inputs.gathered (m ((c : Thread nD τ).loc main_arg0)) (m ((c : Thread nD τ).loc main_arg1)))
          (m ((c : Thread nD τ).loc main_arg2))
          (EdgeNet.netOf (m ((c : Thread nD τ).loc main_arg3)) (m ((c : Thread nD τ).loc main_arg4))
            (m ((c : Thread nD τ).loc main_arg5)) (m ((c : Thread nD τ).loc main_arg6))
            (EdgeNet.top5 (m ((c : Thread nD τ).loc main_arg7))) (EdgeNet.top5v (m ((c : Thread nD τ).loc main_arg8))))
          (EdgeNet.netOf (m ((c : Thread nD τ).loc main_arg9)) (m ((c : Thread nD τ).loc main_arg10))
            (m ((c : Thread nD τ).loc main_arg11)) (m ((c : Thread nD τ).loc main_arg12))
            (EdgeNet.top5 (m ((c : Thread nD τ).loc main_arg13))) (EdgeNet.top5v (m ((c : Thread nD τ).loc main_arg14)))) := by
  funext i
  obtain ⟨e, j, rfl⟩ : ∃ (e : Fin 1000000) (j : Fin 10), i = ix2 e j := ⟨i 0, i 1, eq_ix2 i⟩
  rw [cut_transpose_apply]
  have he : e.val < 1000000 := e.isLt
  have hR : Blocks.netR m c = EdgeNet.netOf (m ((c : Thread nD τ).loc main_arg3)) (m ((c : Thread nD τ).loc main_arg4))
      (m ((c : Thread nD τ).loc main_arg5)) (m ((c : Thread nD τ).loc main_arg6))
      (EdgeNet.top5 (m ((c : Thread nD τ).loc main_arg7))) (EdgeNet.top5v (m ((c : Thread nD τ).loc main_arg8))) := by
    unfold Blocks.netR
    rw [Inputs.v16_eq m c, Inputs.v17_eq m c, Inputs.v19_eq m c, Inputs.v20_eq m c, V_main_arg4 m c, V_main_arg6 m c]
  have hP : Blocks.netP m c = EdgeNet.netOf (m ((c : Thread nD τ).loc main_arg9)) (m ((c : Thread nD τ).loc main_arg10))
      (m ((c : Thread nD τ).loc main_arg11)) (m ((c : Thread nD τ).loc main_arg12))
      (EdgeNet.top5 (m ((c : Thread nD τ).loc main_arg13))) (EdgeNet.top5v (m ((c : Thread nD τ).loc main_arg14))) := by
    unfold Blocks.netP
    rw [Inputs.v21_eq m c, Inputs.v22_eq m c, Inputs.v24_eq m c, Inputs.v25_eq m c, V_main_arg10 m c, V_main_arg12 m c]
  rw [hR, hP, ← Inputs.X_eq m c]
  show EdgeNet.col (fun k => V m c main_v12 (ix2 k (⟨e.val, by omega⟩ : Fin 1015808)))
      (fun k => V m c main_v13 (ix2 k (⟨e.val, by omega⟩ : Fin 1015808)))
      (V m c main_v15 (ix2 (0 : Fin 1) (⟨e.val, by omega⟩ : Fin 1015808))) _ _ j
    = EdgeNet.col (fun k => V m c main_v10 (ix2 e k)) (fun k => V m c main_v10 (ix2 e k.rev))
      (m ((c : Thread nD τ).loc main_arg2) (ix1 e)) _ _ j
  have h12 : ∀ k : Fin 10, V m c main_v12 (ix2 k (⟨e.val, by omega⟩ : Fin 1015808)) = V m c main_v10 (ix2 e k) :=
    fun k => Inputs.v12_apply m c k ⟨e.val, by omega⟩ he
  have h13 : ∀ k : Fin 10, V m c main_v13 (ix2 k (⟨e.val, by omega⟩ : Fin 1015808)) = V m c main_v10 (ix2 e k.rev) :=
    fun k => (Inputs.v13_apply m c k ⟨e.val, by omega⟩).trans (h12 k.rev)
  have h15 : V m c main_v15 (ix2 (0 : Fin 1) (⟨e.val, by omega⟩ : Fin 1015808)) = m ((c : Thread nD τ).loc main_arg2) (ix1 e) :=
    Inputs.v15_apply m c ⟨e.val, by omega⟩ he
  rw [funext h12, funext h13, h15]

set_option maxHeartbeats 4000000 in
/-- The program's result is the common tail applied to the edge-major cut of the result array, the edge table and the scores. -/
theorem result_eq (c : Dev nD) :
    Pipeline.afterTail₀ cfgs (dats m) 0 (V0 m) [hostOps1, hostOps1_1, hostOps1_2] c main_v51
      = Tail.newScores
          (transpose S1000000x10 [1, 0]
            (extractStridedSlice S10x1000000 ![0, 0] ((dats m 0 c).arrAt 15 cfg0.N) slices_S10x1015808_S10x1000000_0_0)
            transposes_S10x1000000_S1000000x10_1_0)
          (m ((c : Thread nD τ).loc main_arg1)) (m ((c : Thread nD τ).loc main_arg0)) := by
  have h26 : Pipeline.withArrays (cfgs (0 : Fin 1)).spec c (V0 m c) (fun w => (dats m 0 c).arrAt w (cfgs (0 : Fin 1)).N)
      (Proc.devRef .tc main_v26) = (dats m 0 c).arrAt 15 cfg0.N :=
    Pipeline.withArrays_arr spec0 launch0.win.arr_inj c _ _ 15
  have h1 : Pipeline.withArrays (cfgs (0 : Fin 1)).spec c (V0 m c) (fun w => (dats m 0 c).arrAt w (cfgs (0 : Fin 1)).N)
      (Proc.devRef .tc main_arg1) = m ((c : Thread nD τ).loc main_arg1) :=
    (Pipeline.withArrays_of_ne _ c (V0 m c) _ main_arg1
      (by exact (by decide : ∀ w, Pipeline.arrRef spec0 w ≠ main_arg1))).trans (V_main_arg1 m c)
  have h0 : Pipeline.withArrays (cfgs (0 : Fin 1)).spec c (V0 m c) (fun w => (dats m 0 c).arrAt w (cfgs (0 : Fin 1)).N)
      (Proc.devRef .tc main_arg0) = m ((c : Thread nD τ).loc main_arg0) :=
    (Pipeline.withArrays_of_ne _ c (V0 m c) _ main_arg0
      (by exact (by decide : ∀ w, Pipeline.arrRef spec0 w ≠ main_arg0))).trans (V_main_arg0 m c)
  unfold Pipeline.afterTail₀
  simp only [hostOps1, hostOps1_1, hostOps1_2, List.flatten_cons, List.flatten_nil, List.append_nil, List.cons_append,
    List.nil_append]
  after_results
  rw [h26, h1, h0]
  rfl

/-- What the kernel program computes: the common tail applied to the specification's contributions. -/
def value (c : Dev nD) : Buf (Elt Ideal) ((c.tc : Thread nD τ).loc main_v51) :=
  Tail.newScores
    (EdgeNet.contrib (Inputs.gathered (m ((c : Thread nD τ).loc main_arg0)) (m ((c : Thread nD τ).loc main_arg1))) (m ((c : Thread nD τ).loc main_arg2))
      (EdgeNet.netOf (m ((c : Thread nD τ).loc main_arg3)) (m ((c : Thread nD τ).loc main_arg4)) (m ((c : Thread nD τ).loc main_arg5)) (m ((c : Thread nD τ).loc main_arg6)) (EdgeNet.top5 (m ((c : Thread nD τ).loc main_arg7))) (EdgeNet.top5v (m ((c : Thread nD τ).loc main_arg8))))
      (EdgeNet.netOf (m ((c : Thread nD τ).loc main_arg9)) (m ((c : Thread nD τ).loc main_arg10)) (m ((c : Thread nD τ).loc main_arg11)) (m ((c : Thread nD τ).loc main_arg12)) (EdgeNet.top5 (m ((c : Thread nD τ).loc main_arg13))) (EdgeNet.top5v (m ((c : Thread nD τ).loc main_arg14)))))
    (m ((c : Thread nD τ).loc main_arg1)) (m ((c : Thread nD τ).loc main_arg0))

/-- THE KERNEL PROGRAM'S RUN: every weakly fair execution terminates with the result at `value` and the arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v51) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨((h c).2 main_v51 (Pipeline.mem_restRefs_of main_v51 (by decide) (by decide))).trans
        ((result_eq m c).trans (by unfold value; rw [Blocks.final m c, contributions m c])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans ((((dats m) 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans ((((dats m) 0 c).arrAt_in 6 rfl _).trans ((A_eq m c 6).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 10).trans ((((dats m) 0 c).arrAt_in 10 rfl _).trans ((A_eq m c 10).trans (V_main_arg10 m c))),
      (((h c).2 main_arg11 (Pipeline.mem_restRefs_of main_arg11 (by decide) (by decide))).trans (W_main_arg11 m (dats m) c)),
      ((h c).1 12).trans ((((dats m) 0 c).arrAt_in 12 rfl _).trans ((A_eq m c 12).trans (V_main_arg12 m c))),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c))⟩)
    (run_main m ρ)

end Cert.KernelIdeal.Value

end
-- ==== Proof.RefMlp.lean ====
/-
  The network the reference evaluates, read one edge and one output at a time.

  The reference runs the same six-array network four times: on the gathered scores and on the scores in reversed
  order, with the reward weights and with the penalty weights. Each run is five matrix products of an
  [edges, width] array with a transposed weight matrix, a bias row added to every edge, and the maximum with zero
  after the first four. Written as one function `net` of the score array and the weight arrays, entry (e, j) of
  its result is output j of the specification's `EdgeNet.mlp` on row e of the score array: every product is the
  sum over the contracted coordinate, the reference multiplies score by weight where the specification multiplies
  weight by score, and the product of extended reals commutes. The last layer is computed with all ten rows of its
  weight matrix; the specification keeps the five that are used.
-/
import proofs.«122336_j21646635172527_1_alg».proof.Proof.ReadP
import proofs.«122336_j21646635172527_1_alg».proof.Proof.Spec

noncomputable section

open scoped BigOperators

namespace Cert.ReferenceIdeal.RefValue

open Cert.ReferenceIdeal Cert.ReferenceIdeal.Gen Idealize.ShloMosaic Idealize.ShloMosaic.ValueIdx Idealize.ShloMosaic.StableHlo

/-- An f32 array of shape `s` at the extended reals. -/
abbrev Arr (s : Shape) : Type := (⟨s, .f32⟩ : BufTy).Contents (Elt Ideal)

/-! ## A product with one contracted axis at an entry: the sum over that axis -/

/-- Edges by ten scores against ten by width: entry `(e, j)` is row `e` against column `j`. -/
theorem dot_in_apply (Y : Arr S1000000x10) (W : Arr S10x35) (e : Fin 1000000) (j : Fin 35) :
    Host.dotGeneral (F := Ideal) (φ₁ := .f32) (φ₂ := .f32) dot_S1000000x10_S10x35_S1000000x35_1_0_0_1_n_n none Y W (ix2 e j) = ∑ k : Fin 10, Y (ix2 e k) * W (ix2 k j) := by
  simp only [Host.dotGeneral]
  rw [Ideal.dotGeneral_apply, ← Equiv.sum_comp (contrEquiv1 dot_S1000000x10_S10x35_S1000000x35_1_0_0_1_n_n 10 rfl rfl).symm]
  refine Finset.sum_congr rfl fun k _ => ?_
  have hk := contrEquiv1_symm_val dot_S1000000x10_S10x35_S1000000x35_1_0_0_1_n_n 10 rfl rfl k
  have el : dot_S1000000x10_S10x35_S1000000x35_1_0_0_1_n_n.lhsIdx (ix2 e j) ((contrEquiv1 dot_S1000000x10_S10x35_S1000000x35_1_0_0_1_n_n 10 rfl rfl).symm k) = ix2 e k :=
    funext fun a => Fin.ext (by
      match a with
      | ⟨0, _⟩ => exact Read.lhs_main_v13_0 _ _
      | ⟨1, _⟩ => exact (Read.lhs_main_v13_1 _ _).trans hk)
  have er : dot_S1000000x10_S10x35_S1000000x35_1_0_0_1_n_n.rhsIdx (ix2 e j) ((contrEquiv1 dot_S1000000x10_S10x35_S1000000x35_1_0_0_1_n_n 10 rfl rfl).symm k) = ix2 k j :=
    funext fun a => Fin.ext (by
      match a with
      | ⟨0, _⟩ => exact (Read.rhs_main_v13_0 _ _).trans hk
      | ⟨1, _⟩ => exact Read.rhs_main_v13_1 _ _)
  rw [el, er]

/-- Edges by width against width by width. -/
theorem dot_hid_apply (Y : Arr S1000000x35) (W : Arr S35x35) (e : Fin 1000000) (j : Fin 35) :
    Host.dotGeneral (F := Ideal) (φ₁ := .f32) (φ₂ := .f32) dot_S1000000x35_S35x35_S1000000x35_1_0_0_1_n_n none Y W (ix2 e j) = ∑ k : Fin 35, Y (ix2 e k) * W (ix2 k j) := by
  simp only [Host.dotGeneral]
  rw [Ideal.dotGeneral_apply, ← Equiv.sum_comp (contrEquiv1 dot_S1000000x35_S35x35_S1000000x35_1_0_0_1_n_n 35 rfl rfl).symm]
  refine Finset.sum_congr rfl fun k _ => ?_
  have hk := contrEquiv1_symm_val dot_S1000000x35_S35x35_S1000000x35_1_0_0_1_n_n 35 rfl rfl k
  have el : dot_S1000000x35_S35x35_S1000000x35_1_0_0_1_n_n.lhsIdx (ix2 e j) ((contrEquiv1 dot_S1000000x35_S35x35_S1000000x35_1_0_0_1_n_n 35 rfl rfl).symm k) = ix2 e k :=
    funext fun a => Fin.ext (by
      match a with
      | ⟨0, _⟩ => exact Read.lhs_main_v21_0 _ _
      | ⟨1, _⟩ => exact (Read.lhs_main_v21_1 _ _).trans hk)
  have er : dot_S1000000x35_S35x35_S1000000x35_1_0_0_1_n_n.rhsIdx (ix2 e j) ((contrEquiv1 dot_S1000000x35_S35x35_S1000000x35_1_0_0_1_n_n 35 rfl rfl).symm k) = ix2 k j :=
    funext fun a => Fin.ext (by
      match a with
      | ⟨0, _⟩ => exact (Read.rhs_main_v21_0 _ _).trans hk
      | ⟨1, _⟩ => exact Read.rhs_main_v21_1 _ _)
  rw [el, er]

/-- Edges by width against width by ten outputs. -/
theorem dot_out_apply (Y : Arr S1000000x35) (W : Arr S35x10) (e : Fin 1000000) (j : Fin 10) :
    Host.dotGeneral (F := Ideal) (φ₁ := .f32) (φ₂ := .f32) dot_S1000000x35_S35x10_S1000000x10_1_0_0_1_n_n none Y W (ix2 e j) = ∑ k : Fin 35, Y (ix2 e k) * W (ix2 k j) := by
  simp only [Host.dotGeneral]
  rw [Ideal.dotGeneral_apply, ← Equiv.sum_comp (contrEquiv1 dot_S1000000x35_S35x10_S1000000x10_1_0_0_1_n_n 35 rfl rfl).symm]
  refine Finset.sum_congr rfl fun k _ => ?_
  have hk := contrEquiv1_symm_val dot_S1000000x35_S35x10_S1000000x10_1_0_0_1_n_n 35 rfl rfl k
  have el : dot_S1000000x35_S35x10_S1000000x10_1_0_0_1_n_n.lhsIdx (ix2 e j) ((contrEquiv1 dot_S1000000x35_S35x10_S1000000x10_1_0_0_1_n_n 35 rfl rfl).symm k) = ix2 e k :=
    funext fun a => Fin.ext (by
      match a with
      | ⟨0, _⟩ => exact Read.lhs_main_v49_0 _ _
      | ⟨1, _⟩ => exact (Read.lhs_main_v49_1 _ _).trans hk)
  have er : dot_S1000000x35_S35x10_S1000000x10_1_0_0_1_n_n.rhsIdx (ix2 e j) ((contrEquiv1 dot_S1000000x35_S35x10_S1000000x10_1_0_0_1_n_n 35 rfl rfl).symm k) = ix2 k j :=
    funext fun a => Fin.ext (by
      match a with
      | ⟨0, _⟩ => exact (Read.rhs_main_v49_0 _ _).trans hk
      | ⟨1, _⟩ => exact Read.rhs_main_v49_1 _ _)
  rw [el, er]

/-! ## The weight operands at an entry

A weight matrix enters a product transposed; a hidden layer's matrix and bias are first cut out of the stacked
arrays (slice `d`, dropped unit axis); a bias is repeated along the edges. -/

theorem v12_at (x3 : Arr S35x10) (k : Fin 10) (j : Fin 35) :
    Read.val_main_v12 (F := Ideal) x3 (ix2 k j) = x3 (ix2 j k) := by
  rw [Read.val_main_v12_apply]
  exact congrArg x3 (funext fun a => Fin.ext (by
    match a with
    | ⟨0, _⟩ => rfl
    | ⟨1, _⟩ => rfl))

theorem v15_at (x4 : Arr S35) (e : Fin 1000000) (j : Fin 35) :
    Read.val_main_v15 (F := Ideal) x4 (ix2 e j) = x4 (ix1 j) := by
  rw [Read.val_main_v15_apply, Read.val_main_v14_apply]
  exact congrArg x4 (funext fun a => Fin.ext (by
    match a with
    | ⟨0, _⟩ => rfl))

theorem v20_at (x5 : Arr S3x35x35) (k j : Fin 35) :
    Read.val_main_v20 (F := Ideal) x5 (ix2 k j) = x5 (ix3 (0 : Fin 3) j k) := by
  rw [Read.val_main_v20_apply, Read.val_main_v19_apply, Read.val_main_v18_apply]
  refine congrArg x5 (funext fun a => Fin.ext ?_)
  have hk := k.isLt
  have hj := j.isLt
  match a with
  | ⟨0, _⟩ => rfl
  | ⟨1, _⟩ => show (j.val * 35 + k.val) / 35 % 35 = j.val; omega
  | ⟨2, _⟩ => show (j.val * 35 + k.val) % 35 = k.val; omega

theorem v30_at (x5 : Arr S3x35x35) (k j : Fin 35) :
    Read.val_main_v30 (F := Ideal) x5 (ix2 k j) = x5 (ix3 (1 : Fin 3) j k) := by
  rw [Read.val_main_v30_apply, Read.val_main_v29_apply, Read.val_main_v28_apply]
  refine congrArg x5 (funext fun a => Fin.ext ?_)
  have hk := k.isLt
  have hj := j.isLt
  match a with
  | ⟨0, _⟩ => rfl
  | ⟨1, _⟩ => show (j.val * 35 + k.val) / 35 % 35 = j.val; omega
  | ⟨2, _⟩ => show (j.val * 35 + k.val) % 35 = k.val; omega

theorem v40_at (x5 : Arr S3x35x35) (k j : Fin 35) :
    Read.val_main_v40 (F := Ideal) x5 (ix2 k j) = x5 (ix3 (2 : Fin 3) j k) := by
  rw [Read.val_main_v40_apply, Read.val_main_v39_apply, Read.val_main_v38_apply]
  refine congrArg x5 (funext fun a => Fin.ext ?_)
  have hk := k.isLt
  have hj := j.isLt
  match a with
  | ⟨0, _⟩ => rfl
  | ⟨1, _⟩ => show (j.val * 35 + k.val) / 35 % 35 = j.val; omega
  | ⟨2, _⟩ => show (j.val * 35 + k.val) % 35 = k.val; omega

theorem v25_at (x6 : Arr S3x35) (e : Fin 1000000) (j : Fin 35) :
    Read.val_main_v25 (F := Ideal) x6 (ix2 e j) = x6 (ix2 (0 : Fin 3) j) := by
  rw [Read.val_main_v25_apply, Read.val_main_v24_apply, Read.val_main_v23_apply, Read.val_main_v22_apply]
  refine congrArg x6 (funext fun a => Fin.ext ?_)
  have hj := j.isLt
  match a with
  | ⟨0, _⟩ => rfl
  | ⟨1, _⟩ => show j.val % 35 = j.val; omega

theorem v35_at (x6 : Arr S3x35) (e : Fin 1000000) (j : Fin 35) :
    Read.val_main_v35 (F := Ideal) x6 (ix2 e j) = x6 (ix2 (1 : Fin 3) j) := by
  rw [Read.val_main_v35_apply, Read.val_main_v34_apply, Read.val_main_v33_apply, Read.val_main_v32_apply]
  refine congrArg x6 (funext fun a => Fin.ext ?_)
  have hj := j.isLt
  match a with
  | ⟨0, _⟩ => rfl
  | ⟨1, _⟩ => show j.val % 35 = j.val; omega

theorem v45_at (x6 : Arr S3x35) (e : Fin 1000000) (j : Fin 35) :
    Read.val_main_v45 (F := Ideal) x6 (ix2 e j) = x6 (ix2 (2 : Fin 3) j) := by
  rw [Read.val_main_v45_apply, Read.val_main_v44_apply, Read.val_main_v43_apply, Read.val_main_v42_apply]
  refine congrArg x6 (funext fun a => Fin.ext ?_)
  have hj := j.isLt
  match a with
  | ⟨0, _⟩ => rfl
  | ⟨1, _⟩ => show j.val % 35 = j.val; omega

theorem v48_at (x7 : Arr S10x35) (k : Fin 35) (j : Fin 10) :
    Read.val_main_v48 (F := Ideal) x7 (ix2 k j) = x7 (ix2 j k) := by
  rw [Read.val_main_v48_apply]
  exact congrArg x7 (funext fun a => Fin.ext (by
    match a with
    | ⟨0, _⟩ => rfl
    | ⟨1, _⟩ => rfl))

theorem v51_at (x8 : Arr S10) (e : Fin 1000000) (j : Fin 10) :
    Read.val_main_v51 (F := Ideal) x8 (ix2 e j) = x8 (ix1 j) := by
  rw [Read.val_main_v51_apply, Read.val_main_v50_apply]
  exact congrArg x8 (funext fun a => Fin.ext (by
    match a with
    | ⟨0, _⟩ => rfl))

/-! ## The zero array each maximum is taken against -/

theorem call0_at (e : Fin 1000000) (j : Fin 35) :
    Read.val_main_call0_v0 (F := Ideal) (ix2 e j) = EdgeNet.zero := by
  rw [Read.val_main_call0_v0_apply, Read.val_main_call0_cst_apply]
  rfl

theorem call1_at (e : Fin 1000000) (j : Fin 35) :
    Read.val_main_call1_v0 (F := Ideal) (ix2 e j) = EdgeNet.zero := by
  rw [Read.val_main_call1_v0_apply, Read.val_main_call1_cst_apply]
  rfl

theorem call2_at (e : Fin 1000000) (j : Fin 35) :
    Read.val_main_call2_v0 (F := Ideal) (ix2 e j) = EdgeNet.zero := by
  rw [Read.val_main_call2_v0_apply, Read.val_main_call2_cst_apply]
  rfl

theorem call3_at (e : Fin 1000000) (j : Fin 35) :
    Read.val_main_call3_v0 (F := Ideal) (ix2 e j) = EdgeNet.zero := by
  rw [Read.val_main_call3_v0_apply, Read.val_main_call3_cst_apply]
  rfl

/-! ## The layers as functions of their input array -/

/-- The first layer: ten scores to the hidden width. -/
def lay0 (Y : Arr S1000000x10) (x3 : Arr S35x10) (x4 : Arr S35) : Arr S1000000x35 :=
  maximumf (F := Ideal) (addf (F := Ideal) (Host.dotGeneral (F := Ideal) (φ₁ := .f32) (φ₂ := .f32) dot_S1000000x10_S10x35_S1000000x35_1_0_0_1_n_n none Y (Read.val_main_v12 (F := Ideal) x3))
    (Read.val_main_v15 (F := Ideal) x4)) (Read.val_main_call0_v0 (F := Ideal))

/-- A hidden layer, its transposed matrix `Wt`, repeated bias `Bb` and zero array `Z` given. -/
def layH (Y : Arr S1000000x35) (Wt : Arr S35x35) (Bb Z : Arr S1000000x35) : Arr S1000000x35 :=
  maximumf (F := Ideal) (addf (F := Ideal) (Host.dotGeneral (F := Ideal) (φ₁ := .f32) (φ₂ := .f32) dot_S1000000x35_S35x35_S1000000x35_1_0_0_1_n_n none Y Wt) Bb) Z

/-- The last layer: the hidden width to ten outputs, no maximum. -/
def layE (Y : Arr S1000000x35) (x7 : Arr S10x35) (x8 : Arr S10) : Arr S1000000x10 :=
  addf (F := Ideal) (Host.dotGeneral (F := Ideal) (φ₁ := .f32) (φ₂ := .f32) dot_S1000000x35_S35x10_S1000000x10_1_0_0_1_n_n none Y (Read.val_main_v48 (F := Ideal) x7)) (Read.val_main_v51 (F := Ideal) x8)

/-- The whole network on the score array `Y`. -/
def net (Y : Arr S1000000x10) (x3 : Arr S35x10) (x4 : Arr S35) (x5 : Arr S3x35x35) (x6 : Arr S3x35)
    (x7 : Arr S10x35) (x8 : Arr S10) : Arr S1000000x10 :=
  layE (layH (layH (layH (lay0 Y x3 x4)
    (Read.val_main_v20 (F := Ideal) x5) (Read.val_main_v25 (F := Ideal) x6) (Read.val_main_call1_v0 (F := Ideal)))
    (Read.val_main_v30 (F := Ideal) x5) (Read.val_main_v35 (F := Ideal) x6) (Read.val_main_call2_v0 (F := Ideal)))
    (Read.val_main_v40 (F := Ideal) x5) (Read.val_main_v45 (F := Ideal) x6) (Read.val_main_call3_v0 (F := Ideal)))
    x7 x8

/-- Row `e` of the first layer's result is the positive part of the affine map of row `e` of its input. -/
theorem lay0_row (Y : Arr S1000000x10) (x3 : Arr S35x10) (x4 : Arr S35) (e : Fin 1000000) :
    (fun j : Fin 35 => lay0 Y x3 x4 (ix2 e j))
      = EdgeNet.relu (EdgeNet.lin (fun j q => x3 (ix2 j q)) (fun j => x4 (ix1 j)) (fun k => Y (ix2 e k))) := by
  funext j
  unfold lay0 EdgeNet.relu EdgeNet.lin
  rw [maximumf_apply, addf_apply, dot_in_apply, v15_at, call0_at]
  congr 2
  exact Finset.sum_congr rfl fun k _ => by rw [v12_at, mul_comm]

/-- The same for a hidden layer whose operands read the matrix `w`, the bias `b` and zero. -/
theorem layH_row (Y : Arr S1000000x35) (Wt : Arr S35x35) (Bb Z : Arr S1000000x35)
    (w : Fin 35 → Fin 35 → EReal) (b : Fin 35 → EReal)
    (hW : ∀ k j : Fin 35, Wt (ix2 k j) = w j k) (hB : ∀ (e : Fin 1000000) (j : Fin 35), Bb (ix2 e j) = b j)
    (hZ : ∀ (e : Fin 1000000) (j : Fin 35), Z (ix2 e j) = EdgeNet.zero) (e : Fin 1000000) :
    (fun j : Fin 35 => layH Y Wt Bb Z (ix2 e j))
      = EdgeNet.relu (EdgeNet.lin w b (fun k => Y (ix2 e k))) := by
  funext j
  unfold layH EdgeNet.relu EdgeNet.lin
  rw [maximumf_apply, addf_apply, dot_hid_apply, hB, hZ]
  congr 2
  exact Finset.sum_congr rfl fun k _ => by rw [hW, mul_comm]

/-- Entry `(e, j)` of the last layer's result, `j` one of the five outputs that are used: the affine map with
    the first five rows of the ten-row matrix and bias. -/
theorem layE_apply (Y : Arr S1000000x35) (x7 : Arr S10x35) (x8 : Arr S10) (e : Fin 1000000) (j : Fin 5) :
    layE Y x7 x8 (ix2 e (Fin.castLE (n := 5) (m := 10) (by decide) j))
      = EdgeNet.lin (fun j q => EdgeNet.top5 x7 (ix2 j q)) (fun j => EdgeNet.top5v x8 (ix1 j))
          (fun k => Y (ix2 e k)) j := by
  unfold layE EdgeNet.lin
  rw [addf_apply, dot_out_apply, v51_at]
  refine congrArg₂ (· + ·) (Finset.sum_congr rfl fun k _ => ?_) rfl
  rw [v48_at, mul_comm]
  rfl

/-- THE NETWORK AT AN ENTRY: output `j` of the specification's network on row `e` of the score array. -/
theorem net_apply (Y : Arr S1000000x10) (x3 : Arr S35x10) (x4 : Arr S35) (x5 : Arr S3x35x35) (x6 : Arr S3x35)
    (x7 : Arr S10x35) (x8 : Arr S10) (e : Fin 1000000) (j : Fin 5) :
    net Y x3 x4 x5 x6 x7 x8 (ix2 e (Fin.castLE (n := 5) (m := 10) (by decide) j))
      = EdgeNet.mlp (EdgeNet.netOf x3 x4 x5 x6 (EdgeNet.top5 x7) (EdgeNet.top5v x8)) (fun k => Y (ix2 e k)) j := by
  unfold net
  rw [layE_apply,
    layH_row _ _ _ _ (fun j q => x5 (ix3 (2 : Fin 3) j q)) (fun j => x6 (ix2 (2 : Fin 3) j))
      (v40_at x5) (v45_at x6) call3_at,
    layH_row _ _ _ _ (fun j q => x5 (ix3 (1 : Fin 3) j q)) (fun j => x6 (ix2 (1 : Fin 3) j))
      (v30_at x5) (v35_at x6) call2_at,
    layH_row _ _ _ _ (fun j q => x5 (ix3 (0 : Fin 3) j q)) (fun j => x6 (ix2 (0 : Fin 3) j))
      (v20_at x5) (v25_at x6) call1_at,
    lay0_row]
  rfl

end Cert.ReferenceIdeal.RefValue

end
-- ==== Proof.RefContrib.lean ====
/-
  The reference's contributions are the specification's, and what the reference does with them afterwards.

  Entry (e, j) of the array the reference scatters is read in three steps. The array is two [edges, 5] halves
  joined along the second axis, so j < 5 reads the first half at (e, j) and j ≥ 5 the second at (e, j − 5); a half
  is the first five columns of a difference of two products, each an outcome weight (the edge's w = (o + 1) · ½ or
  1 − w, repeated along the row) times 1 / (1 + exp(−r)), which is the logistic function of r, with r an output of
  one of the four network runs; and a run is the network of the specification on the edge's row of scores, the runs
  on the reversed score array reading the row in reversed order.
-/
import proofs.«122336_j21646635172527_1_alg».proof.Proof.RefMlp
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx Idealize.ShloMosaic.StableHlo

/-- An i32 array of shape `s`. -/
abbrev IArr (s : Shape) : Type := (⟨s, .i32⟩ : BufTy).Contents (Elt Ideal)

section Runs

variable (x0 : Arr S100000x1) (x1 : IArr S1000000x10) (x2 : Arr S1000000)
  (x3 : Arr S35x10) (x4 : Arr S35) (x5 : Arr S3x35x35) (x6 : Arr S3x35) (x7 : Arr S10x35) (x8 : Arr S10)
  (x9 : Arr S35x10) (x10 : Arr S35) (x11 : Arr S3x35x35) (x12 : Arr S3x35) (x13 : Arr S10x35) (x14 : Arr S10)

/-! ## The four runs are one network at four pairs of arguments -/

theorem v52_eq : Read.val_main_v52 (F := Ideal) x0 x1 x3 x4 x5 x6 x7 x8
    = net (Read.val_main_v10 (F := Ideal) x0 x1) x3 x4 x5 x6 x7 x8 := rfl

theorem v93_eq : Read.val_main_v93 (F := Ideal) x0 x1 x9 x10 x11 x12 x13 x14
    = net (Read.val_main_v10 (F := Ideal) x0 x1) x9 x10 x11 x12 x13 x14 := rfl

theorem v134_eq : Read.val_main_v134 (F := Ideal) x0 x1 x3 x4 x5 x6 x7 x8
    = net (Read.val_main_v11 (F := Ideal) x0 x1) x3 x4 x5 x6 x7 x8 := rfl

theorem v175_eq : Read.val_main_v175 (F := Ideal) x0 x1 x9 x10 x11 x12 x13 x14
    = net (Read.val_main_v11 (F := Ideal) x0 x1) x9 x10 x11 x12 x13 x14 := rfl

/-- The reversed score array at `(e, k)` is the score array at `(e, 9 − k)`. -/
theorem v11_at (e : Fin 1000000) (k : Fin 10) :
    Read.val_main_v11 (F := Ideal) x0 x1 (ix2 e k) = Read.val_main_v10 (F := Ideal) x0 x1 (ix2 e k.rev) := by
  unfold Read.val_main_v11 Host.reverse
  refine congrArg (Read.val_main_v10 (F := Ideal) x0 x1) (funext fun a => ?_)
  match a with
  | ⟨0, _⟩ =>
    exact if_neg fun hm =>
      absurd (congrArg Fin.val (List.mem_singleton.mp hm)) (show ¬ (0 : ℕ) = 1 by decide)
  | ⟨1, _⟩ => exact if_pos (List.mem_singleton.mpr (Fin.ext rfl))

/-! ## The outcome weights, repeated along a row -/

theorem w187_at (e : Fin 1000000) (j : Fin 10) :
    Read.val_main_v187 (F := Ideal) x2 (ix2 e j) = EdgeNet.wgt (x2 (ix1 e)) := by
  rw [Read.val_main_v187_apply, Read.val_main_v180_apply, Read.val_main_v179_apply, Read.val_main_v177_apply,
    Read.val_main_v176_apply, Read.val_main_cst_apply, Read.val_main_v178_apply, Read.val_main_cst_2_apply]
  have hi : Read.idx_main_v180 (Read.idx_main_v187 (ix2 e j)) = ix1 e :=
    funext fun a => Fin.ext (by
      match a with
      | ⟨0, _⟩ => rfl)
  rw [hi]
  rfl

theorem w219_at (e : Fin 1000000) (j : Fin 10) :
    Read.val_main_v219 (F := Ideal) x2 (ix2 e j) = EdgeNet.wgt (x2 (ix1 e)) := by
  rw [Read.val_main_v219_apply, Read.val_main_v212_apply, Read.val_main_v179_apply, Read.val_main_v177_apply,
    Read.val_main_v176_apply, Read.val_main_cst_apply, Read.val_main_v178_apply, Read.val_main_cst_2_apply]
  have hi : Read.idx_main_v212 (Read.idx_main_v219 (ix2 e j)) = ix1 e :=
    funext fun a => Fin.ext (by
      match a with
      | ⟨0, _⟩ => rfl)
  rw [hi]
  rfl

theorem w198_at (e : Fin 1000000) (j : Fin 10) :
    Read.val_main_v198 (F := Ideal) x2 (ix2 e j) = EdgeNet.one - EdgeNet.wgt (x2 (ix1 e)) := by
  rw [Read.val_main_v198_apply, Read.val_main_v191_apply, Read.val_main_v190_apply, Read.val_main_v189_apply,
    Read.val_main_cst_5_apply, Read.val_main_v179_apply, Read.val_main_v177_apply,
    Read.val_main_v176_apply, Read.val_main_cst_apply, Read.val_main_v178_apply, Read.val_main_cst_2_apply]
  have hi : Read.idx_main_v191 (Read.idx_main_v198 (ix2 e j)) = ix1 e :=
    funext fun a => Fin.ext (by
      match a with
      | ⟨0, _⟩ => rfl)
  rw [hi]
  rfl

theorem w210_at (e : Fin 1000000) (j : Fin 10) :
    Read.val_main_v210 (F := Ideal) x2 (ix2 e j) = EdgeNet.one - EdgeNet.wgt (x2 (ix1 e)) := by
  rw [Read.val_main_v210_apply, Read.val_main_v203_apply, Read.val_main_v202_apply, Read.val_main_v201_apply,
    Read.val_main_cst_8_apply, Read.val_main_v179_apply, Read.val_main_v177_apply,
    Read.val_main_v176_apply, Read.val_main_cst_apply, Read.val_main_v178_apply, Read.val_main_cst_2_apply]
  have hi : Read.idx_main_v203 (Read.idx_main_v210 (ix2 e j)) = ix1 e :=
    funext fun a => Fin.ext (by
      match a with
      | ⟨0, _⟩ => rfl)
  rw [hi]
  rfl

/-! ## `1 / (1 + exp(−r))` is the logistic function of `r` -/

/-- The spelled-out quotient, its two ones the float word for one. -/
theorem logistic_spelled (r : EReal) :
    Ideal.div (Ideal.ofBits .f32 0x3F800000#32) (Ideal.ofBits .f32 0x3F800000#32 + Ideal.exp (-r))
      = Ideal.logistic r := by
  rw [Ideal.ofBits_one_f32]
  rfl

theorem s186_at (i : S1000000x10.Idx) :
    Read.val_main_v186 (F := Ideal) x0 x1 x3 x4 x5 x6 x7 x8 i = Ideal.logistic (Read.val_main_v52 (F := Ideal) x0 x1 x3 x4 x5 x6 x7 x8 i) := by
  rw [Read.val_main_v186_apply, Read.val_main_v185_apply, Read.val_main_cst_4_apply, Read.val_main_v184_apply,
    Read.val_main_v183_apply, Read.val_main_cst_3_apply, Read.val_main_v182_apply, Read.val_main_v181_apply]
  exact logistic_spelled _

theorem s197_at (i : S1000000x10.Idx) :
    Read.val_main_v197 (F := Ideal) x0 x1 x9 x10 x11 x12 x13 x14 i = Ideal.logistic (Read.val_main_v93 (F := Ideal) x0 x1 x9 x10 x11 x12 x13 x14 i) := by
  rw [Read.val_main_v197_apply, Read.val_main_v196_apply, Read.val_main_cst_7_apply, Read.val_main_v195_apply,
    Read.val_main_v194_apply, Read.val_main_cst_6_apply, Read.val_main_v193_apply, Read.val_main_v192_apply]
  exact logistic_spelled _

theorem s209_at (i : S1000000x10.Idx) :
    Read.val_main_v209 (F := Ideal) x0 x1 x3 x4 x5 x6 x7 x8 i = Ideal.logistic (Read.val_main_v134 (F := Ideal) x0 x1 x3 x4 x5 x6 x7 x8 i) := by
  rw [Read.val_main_v209_apply, Read.val_main_v208_apply, Read.val_main_cst_10_apply, Read.val_main_v207_apply,
    Read.val_main_v206_apply, Read.val_main_cst_9_apply, Read.val_main_v205_apply, Read.val_main_v204_apply]
  exact logistic_spelled _

theorem s218_at (i : S1000000x10.Idx) :
    Read.val_main_v218 (F := Ideal) x0 x1 x9 x10 x11 x12 x13 x14 i = Ideal.logistic (Read.val_main_v175 (F := Ideal) x0 x1 x9 x10 x11 x12 x13 x14 i) := by
  rw [Read.val_main_v218_apply, Read.val_main_v217_apply, Read.val_main_cst_12_apply, Read.val_main_v216_apply,
    Read.val_main_v215_apply, Read.val_main_cst_11_apply, Read.val_main_v214_apply, Read.val_main_v213_apply]
  exact logistic_spelled _

/-! ## The two differences at an entry of their first five columns -/

/-- The first difference at `(e, j)`, `j < 5`: the edge's first five contributions. -/
theorem v200_at (e : Fin 1000000) (j : Fin 5) :
    Read.val_main_v200 (F := Ideal) x0 x1 x2 x3 x4 x5 x6 x7 x8 x9 x10 x11 x12 x13 x14 (ix2 e (Fin.castLE (n := 5) (m := 10) (by decide) j))
      = EdgeNet.wgt (x2 (ix1 e))
          * Ideal.logistic (EdgeNet.mlp (EdgeNet.netOf x3 x4 x5 x6 (EdgeNet.top5 x7) (EdgeNet.top5v x8))
              (fun k => Read.val_main_v10 (F := Ideal) x0 x1 (ix2 e k)) j)
        - (EdgeNet.one - EdgeNet.wgt (x2 (ix1 e)))
          * Ideal.logistic (EdgeNet.mlp (EdgeNet.netOf x9 x10 x11 x12 (EdgeNet.top5 x13) (EdgeNet.top5v x14))
              (fun k => Read.val_main_v10 (F := Ideal) x0 x1 (ix2 e k)) j) := by
  rw [Read.val_main_v200_apply, Read.val_main_v188_apply, Read.val_main_v199_apply, w187_at, w198_at, s186_at,
    s197_at, v52_eq, v93_eq, net_apply, net_apply]
  rfl

/-- The second difference at `(e, j)`, `j < 5`: the edge's last five contributions, from the reversed row. -/
theorem v221_at (e : Fin 1000000) (j : Fin 5) :
    Read.val_main_v221 (F := Ideal) x0 x1 x2 x3 x4 x5 x6 x7 x8 x9 x10 x11 x12 x13 x14 (ix2 e (Fin.castLE (n := 5) (m := 10) (by decide) j))
      = (EdgeNet.one - EdgeNet.wgt (x2 (ix1 e)))
          * Ideal.logistic (EdgeNet.mlp (EdgeNet.netOf x3 x4 x5 x6 (EdgeNet.top5 x7) (EdgeNet.top5v x8))
              (fun k => Read.val_main_v10 (F := Ideal) x0 x1 (ix2 e k.rev)) j)
        - EdgeNet.wgt (x2 (ix1 e))
          * Ideal.logistic (EdgeNet.mlp (EdgeNet.netOf x9 x10 x11 x12 (EdgeNet.top5 x13) (EdgeNet.top5v x14))
              (fun k => Read.val_main_v10 (F := Ideal) x0 x1 (ix2 e k.rev)) j) := by
  rw [Read.val_main_v221_apply, Read.val_main_v211_apply, Read.val_main_v220_apply, w210_at, w219_at, s209_at,
    s218_at, v134_eq, v175_eq, net_apply, net_apply,
    show (fun k : Fin 10 => Read.val_main_v11 (F := Ideal) x0 x1 (ix2 e k))
      = fun k => Read.val_main_v10 (F := Ideal) x0 x1 (ix2 e k.rev) from funext fun k => v11_at x0 x1 e k]
  rfl

/-! ## The joined array -/

/-- THE REFERENCE'S CONTRIBUTIONS ARE THE SPECIFICATION'S. -/
theorem ref_contrib :
    Read.val_main_v224 (F := Ideal) x0 x1 x2 x3 x4 x5 x6 x7 x8 x9 x10 x11 x12 x13 x14
      = EdgeNet.contrib (Read.val_main_v10 (F := Ideal) x0 x1) x2
          (EdgeNet.netOf x3 x4 x5 x6 (EdgeNet.top5 x7) (EdgeNet.top5v x8))
          (EdgeNet.netOf x9 x10 x11 x12 (EdgeNet.top5 x13) (EdgeNet.top5v x14)) := by
  funext i
  obtain ⟨e, j, rfl⟩ : ∃ (e : Fin 1000000) (j : Fin 10), i = ix2 e j := ⟨i 0, i 1, eq_ix2 i⟩
  show _ = EdgeNet.col _ _ (x2 (ix1 e)) _ _ j
  unfold Read.val_main_v224 EdgeNet.col
  by_cases h : j.val < 5
  · have hidx : Read.idx_main_v222 (ix2 e (⟨j.val, h⟩ : Fin 5))
        = ix2 e (Fin.castLE (n := 5) (m := 10) (by decide) ⟨j.val, h⟩) :=
      funext fun a => Fin.ext (by
        match a with
        | ⟨0, _⟩ => rfl
        | ⟨1, _⟩ => rfl)
    rw [dif_pos h,
      concatenate_pair_apply_left (t := S1000000x10) (s₁ := S1000000x5) (s₂ := S1000000x5) 1 _ _
        concatenates_S1000000x5_S1000000x5_S1000000x10_d1 (ix2 e j) rfl
        (ix2 e (⟨j.val, h⟩ : Fin 5)) (fun b => match b with | ⟨0, _⟩ => rfl | ⟨1, _⟩ => rfl),
      Read.val_main_v222_apply, hidx]
    exact v200_at x0 x1 x2 x3 x4 x5 x6 x7 x8 x9 x10 x11 x12 x13 x14 e ⟨j.val, h⟩
  · have hj : j.val - 5 < 5 := by have := j.isLt; omega
    have hidx : Read.idx_main_v223 (ix2 e (⟨j.val - 5, hj⟩ : Fin 5))
        = ix2 e (Fin.castLE (n := 5) (m := 10) (by decide) ⟨j.val - 5, hj⟩) :=
      funext fun a => Fin.ext (by
        match a with
        | ⟨0, _⟩ => rfl
        | ⟨1, _⟩ => rfl)
    rw [dif_neg h,
      concatenate_pair_apply_right (t := S1000000x10) (s₁ := S1000000x5) (s₂ := S1000000x5) 1 _ _
        concatenates_S1000000x5_S1000000x5_S1000000x10_d1 (ix2 e j) rfl rfl
        (ix2 e (⟨j.val - 5, hj⟩ : Fin 5))
        (fun b hb => match b, hb with | ⟨0, _⟩, _ => rfl | ⟨1, _⟩, hb => absurd rfl hb)
        (by show j.val - 5 + 5 = j.val; omega),
      Read.val_main_v223_apply, hidx]
    exact v221_at x0 x1 x2 x3 x4 x5 x6 x7 x8 x9 x10 x11 x12 x13 x14 e ⟨j.val - 5, hj⟩

end Runs

/-! ## After the contributions

The reference flattens the contributions, adds them up per player (and counts, per player, how many it added),
divides by half the largest count, adds the scores, subtracts the mean and divides by the Euclidean norm. Here the
same operations are written as a function of an arbitrary contribution array `V`. -/

/-- Scores plus the scaled per-player sums of `V`. -/
def tailSum (V : Arr S1000000x10) (x1 : IArr S1000000x10) (x0 : Arr S100000x1) : Arr S100000x1 :=
  addf (F := Ideal) (φ := .f32) x0 (broadcastInDim S100000x1 ![0] bcast_S100000_S100000x1_0
    (Host.divf (F := Ideal) (φ := .f32)
      (Host.scatterAdd (F := Ideal) (φ := .f32) scatter_S100000_S10000000x1_S10000000_n_0_0_1 (Read.val_main_v227 (F := Ideal))
        (Read.val_main_v228 (F := Ideal) x1) (shapeCast _ V shapeCasts_S1000000x10_S10000000))
      (Read.val_main_v236 (F := Ideal) x1)))

/-- The same with its mean subtracted. -/
def tailCentred (V : Arr S1000000x10) (x1 : IArr S1000000x10) (x0 : Arr S100000x1) : Arr S100000x1 :=
  subf (F := Ideal) (φ := .f32) (tailSum V x1 x0) (broadcastInDim S100000x1 ![] bcast_S_S100000x1
    (Host.divf (F := Ideal) (φ := .f32) (Host.reduceAdd (F := Ideal) (φ := .f32) (tailSum V x1 x0) (Read.val_main_cst_18 (F := Ideal)) reducesTo_S100000x1_S_d0_1 h_S_)
      (Read.val_main_cst_19 (F := Ideal))))

/-- The reference's result from the contributions `V`: the centred sums over their norm. -/
def refTail (V : Arr S1000000x10) (x1 : IArr S1000000x10) (x0 : Arr S100000x1) : Arr S100000x1 :=
  Host.divf (F := Ideal) (φ := .f32) (tailCentred V x1 x0) (broadcastInDim S100000x1 ![0, 1] bcast_S1x1_S100000x1_0_1
    (broadcastInDim S1x1 ![1] bcast_S1_S1x1_1
      (Host.sqrt (F := Ideal) (φ := .f32) (Host.reduceAdd (F := Ideal) (φ := .f32) (mulf (F := Ideal) (φ := .f32) (tailCentred V x1 x0) (tailCentred V x1 x0))
        (Read.val_main_call16_cst (F := Ideal)) reducesTo_S100000x1_S1_d0 h_S_))))

/-- The reference's result is `refTail` of its contributions. -/
theorem val247_eq_tail (x0 : Arr S100000x1) (x1 : IArr S1000000x10) (x2 : Arr S1000000)
    (x3 : Arr S35x10) (x4 : Arr S35) (x5 : Arr S3x35x35) (x6 : Arr S3x35) (x7 : Arr S10x35) (x8 : Arr S10)
    (x9 : Arr S35x10) (x10 : Arr S35) (x11 : Arr S3x35x35) (x12 : Arr S3x35) (x13 : Arr S10x35) (x14 : Arr S10) :
    Read.val_main_v247 (F := Ideal) x0 x1 x2 x3 x4 x5 x6 x7 x8 x9 x10 x11 x12 x13 x14
      = refTail (Read.val_main_v224 (F := Ideal) x0 x1 x2 x3 x4 x5 x6 x7 x8 x9 x10 x11 x12 x13 x14) x1 x0 := rfl

end Cert.ReferenceIdeal.RefValue

end
-- ==== Proof.RefOps.lean ====
/-
  The reference program as a line of host operations.

  @main is printed in five parts; each part is a straight line of host operations (an outlined function's operations stand in
  its call's place), so each part is the line of its own operations run in order, and @main is the five lines run one after
  the other: the line of all 305 operations. The operations' text is the printed program's, part by part.
-/
import proofs.«122336_j21646635172527_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The operations of part 0 of @main, in order. -/
abbrev ops0 : List (HloOp τ sig (Elt F)) :=
  [ nullary main_c (constantI S_ 32 0#32),
    unary main_c main_v0 (broadcastInDim S1000000x10 ![] bcast_S_S1000000x10 : (⟨S_, .i32⟩ : BufTy).Contents (Elt F) → (⟨S1000000x10, .i32⟩ : BufTy).Contents (Elt F)),
    binary main_arg1 main_v0 main_v1 (cmpi .slt : (⟨S1000000x10, .i32⟩ : BufTy).Contents (Elt F) → (⟨S1000000x10, .i32⟩ : BufTy).Contents (Elt F) → (⟨S1000000x10, .i1⟩ : BufTy).Contents (Elt F)),
    nullary main_c_0 (constantI S_ 32 100000#32),
    unary main_c_0 main_v2 (broadcastInDim S1000000x10 ![] bcast_S_S1000000x10 : (⟨S_, .i32⟩ : BufTy).Contents (Elt F) → (⟨S1000000x10, .i32⟩ : BufTy).Contents (Elt F)),
    binary main_arg1 main_v2 main_v3 (addi : (⟨S1000000x10, .i32⟩ : BufTy).Contents (Elt F) → (⟨S1000000x10, .i32⟩ : BufTy).Contents (Elt F) → (⟨S1000000x10, .i32⟩ : BufTy).Contents (Elt F)),
    ternary main_v1 main_v3 main_arg1 main_v4 (select : (⟨S1000000x10, .i1⟩ : BufTy).Contents (Elt F) → (⟨S1000000x10, .i32⟩ : BufTy).Contents (Elt F) → (⟨S1000000x10, .i32⟩ : BufTy).Contents (Elt F) → (⟨S1000000x10, .i32⟩ : BufTy).Contents (Elt F)),
    nullary main_c_1 (constantI S_ 32 0#32),
    unary main_c_1 main_v5 (broadcastInDim S1000000x10 ![] bcast_S_S1000000x10 : (⟨S_, .i32⟩ : BufTy).Contents (Elt F) → (⟨S1000000x10, .i32⟩ : BufTy).Contents (Elt F)),
    unary main_v5 main_v6 (id : (⟨S1000000x10, .i32⟩ : BufTy).Contents (Elt F) → (⟨S1000000x10, .i32⟩ : BufTy).Contents (Elt F)),
    unary main_v4 main_v7 (broadcastInDim S1000000x10x1 ![0, 1] bcast_S1000000x10_S1000000x10x1_0_1 : (⟨S1000000x10, .i32⟩ : BufTy).Contents (Elt F) → (⟨S1000000x10x1, .i32⟩ : BufTy).Contents (Elt F)),
    unary main_v6 main_v8 (broadcastInDim S1000000x10x1 ![0, 1] bcast_S1000000x10_S1000000x10x1_0_1 : (⟨S1000000x10, .i32⟩ : BufTy).Contents (Elt F) → (⟨S1000000x10x1, .i32⟩ : BufTy).Contents (Elt F)),
    binary main_v7 main_v8 main_v9 ((fun a b => concatenate S1000000x10x2 2 [⟨S1000000x10x1, a⟩, ⟨S1000000x10x1, b⟩] concatenates_S1000000x10x1_S1000000x10x1_S1000000x10x2_d2) : (⟨S1000000x10x1, .i32⟩ : BufTy).Contents (Elt F) → (⟨S1000000x10x1, .i32⟩ : BufTy).Contents (Elt F) → (⟨S1000000x10x2, .i32⟩ : BufTy).Contents (Elt F)),
    binary main_arg0 main_v9 main_v10 ((fun x i => Host.gather gather_S100000x1_S1000000x10x2_S1000000x10_n_01_n_n_01_2_11 x i) : (⟨S100000x1, .f32⟩ : BufTy).Contents (Elt F) → (⟨S1000000x10x2, .i32⟩ : BufTy).Contents (Elt F) → (⟨S1000000x10, .f32⟩ : BufTy).Contents (Elt F)),
    unary main_v10 main_v11 (Host.reverse [1] : (⟨S1000000x10, .f32⟩ : BufTy).Contents (Elt F) → (⟨S1000000x10, .f32⟩ : BufTy).Contents (Elt F)),
    unary main_arg3 main_v12 ((transpose S10x35 [1, 0] · transposes_S35x10_S10x35_1_0) : (⟨S35x10, .f32⟩ : BufTy).Contents (Elt F) → (⟨S10x35, .f32⟩ : BufTy).Contents (Elt F)),
    binary main_v10 main_v12 main_v13 ((fun l r => Host.dotGeneral dot_S1000000x10_S10x35_S1000000x35_1_0_0_1_n_n none l r) : (⟨S1000000x10, .f32⟩ : BufTy).Contents (Elt F) → (⟨S10x35, .f32⟩ : BufTy).Contents (Elt F) → (⟨S1000000x35, .f32⟩ : BufTy).Contents (Elt F)),
    unary main_arg4 main_v14 (broadcastInDim S1x35 ![1] bcast_S35_S1x35_1 : (⟨S35, .f32⟩ : BufTy).Contents (Elt F) → (⟨S1x35, .f32⟩ : BufTy).Contents (Elt F)),
    unary main_v14 main_v15 (broadcastInDim S1000000x35 ![0, 1] bcast_S1x35_S1000000x35_0_1 : (⟨S1x35, .f32⟩ : BufTy).Contents (Elt F) → (⟨S1000000x35, .f32⟩ : BufTy).Contents (Elt F)),
    binary main_v13 main_v15 main_v16 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1000000x35, .f32⟩) main_call0_v0) (broadcastInDim S1000000x35 ![] bcast_S_S1000000x35),
    TRef.binary (TRef.of (T := ⟨S1000000x35, .f32⟩) main_v16) (TRef.of (T := ⟨S1000000x35, .f32⟩) main_call0_v0) (TRef.of (T := ⟨S1000000x35, .f32⟩) main_v17) maximumf,
    unary main_arg5 main_v18 ((extractStridedSlice S1x35x35 ![0, 0, 0] · slices_S3x35x35_S1x35x35_0_0_0) : (⟨S3x35x35, .f32⟩ : BufTy).Contents (Elt F) → (⟨S1x35x35, .f32⟩ : BufTy).Contents (Elt F)),
    reshape main_v18 main_v19 rfl shapeCasts_S1x35x35_S35x35,
    unary main_v19 main_v20 ((transpose S35x35 [1, 0] · transposes_S35x35_S35x35_1_0) : (⟨S35x35, .f32⟩ : BufTy).Contents (Elt F) → (⟨S35x35, .f32⟩ : BufTy).Contents (Elt F)),
    binary main_v17 main_v20 main_v21 ((fun l r => Host.dotGeneral dot_S1000000x35_S35x35_S1000000x35_1_0_0_1_n_n none l r) : (⟨S1000000x35, .f32⟩ : BufTy).Contents (Elt F) → (⟨S35x35, .f32⟩ : BufTy).Contents (Elt F) → (⟨S1000000x35, .f32⟩ : BufTy).Contents (Elt F)),
    unary main_arg6 main_v22 ((extractStridedSlice S1x35 ![0, 0] · slices_S3x35_S1x35_0_0) : (⟨S3x35, .f32⟩ : BufTy).Contents (Elt F) → (⟨S1x35, .f32⟩ : BufTy).Contents (Elt F)),
    reshape main_v22 main_v23 rfl shapeCasts_S1x35_S35,
    unary main_v23 main_v24 (broadcastInDim S1x35 ![1] bcast_S35_S1x35_1 : (⟨S35, .f32⟩ : BufTy).Contents (Elt F) → (⟨S1x35, .f32⟩ : BufTy).Contents (Elt F)),
    unary main_v24 main_v25 (broadcastInDim S1000000x35 ![0, 1] bcast_S1x35_S1000000x35_0_1 : (⟨S1x35, .f32⟩ : BufTy).Contents (Elt F) → (⟨S1000000x35, .f32⟩ : BufTy).Contents (Elt F)),
    binary main_v21 main_v25 main_v26 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1000000x35, .f32⟩) main_call1_v0) (broadcastInDim S1000000x35 ![] bcast_S_S1000000x35),
    TRef.binary (TRef.of (T := ⟨S1000000x35, .f32⟩) main_v26) (TRef.of (T := ⟨S1000000x35, .f32⟩) main_call1_v0) (TRef.of (T := ⟨S1000000x35, .f32⟩) main_v27) maximumf,
    unary main_arg5 main_v28 ((extractStridedSlice S1x35x35 ![1, 0, 0] · slices_S3x35x35_S1x35x35_1_0_0) : (⟨S3x35x35, .f32⟩ : BufTy).Contents (Elt F) → (⟨S1x35x35, .f32⟩ : BufTy).Contents (Elt F)),
    reshape main_v28 main_v29 rfl shapeCasts_S1x35x35_S35x35,
    unary main_v29 main_v30 ((transpose S35x35 [1, 0] · transposes_S35x35_S35x35_1_0) : (⟨S35x35, .f32⟩ : BufTy).Contents (Elt F) → (⟨S35x35, .f32⟩ : BufTy).Contents (Elt F)),
    binary main_v27 main_v30 main_v31 ((fun l r => Host.dotGeneral dot_S1000000x35_S35x35_S1000000x35_1_0_0_1_n_n none l r) : (⟨S1000000x35, .f32⟩ : BufTy).Contents (Elt F) → (⟨S35x35, .f32⟩ : BufTy).Contents (Elt F) → (⟨S1000000x35, .f32⟩ : BufTy).Contents (Elt F)),
    unary main_arg6 main_v32 ((extractStridedSlice S1x35 ![1, 0] · slices_S3x35_S1x35_1_0) : (⟨S3x35, .f32⟩ : BufTy).Contents (Elt F) → (⟨S1x35, .f32⟩ : BufTy).Contents (Elt F)),
    reshape main_v32 main_v33 rfl shapeCasts_S1x35_S35,
    unary main_v33 main_v34 (broadcastInDim S1x35 ![1] bcast_S35_S1x35_1 : (⟨S35, .f32⟩ : BufTy).Contents (Elt F) → (⟨S1x35, .f32⟩ : BufTy).Contents (Elt F)),
    unary main_v34 main_v35 (broadcastInDim S1000000x35 ![0, 1] bcast_S1x35_S1000000x35_0_1 : (⟨S1x35, .f32⟩ : BufTy).Contents (Elt F) → (⟨S1000000x35, .f32⟩ : BufTy).Contents (Elt F)),
    binary main_v31 main_v35 main_v36 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1000000x35, .f32⟩) main_call2_v0) (broadcastInDim S1000000x35 ![] bcast_S_S1000000x35),
    TRef.binary (TRef.of (T := ⟨S1000000x35, .f32⟩) main_v36) (TRef.of (T := ⟨S1000000x35, .f32⟩) main_call2_v0) (TRef.of (T := ⟨S1000000x35, .f32⟩) main_v37) maximumf,
    unary main_arg5 main_v38 ((extractStridedSlice S1x35x35 ![2, 0, 0] · slices_S3x35x35_S1x35x35_2_0_0) : (⟨S3x35x35, .f32⟩ : BufTy).Contents (Elt F) → (⟨S1x35x35, .f32⟩ : BufTy).Contents (Elt F)),
    reshape main_v38 main_v39 rfl shapeCasts_S1x35x35_S35x35,
    unary main_v39 main_v40 ((transpose S35x35 [1, 0] · transposes_S35x35_S35x35_1_0) : (⟨S35x35, .f32⟩ : BufTy).Contents (Elt F) → (⟨S35x35, .f32⟩ : BufTy).Contents (Elt F)),
    binary main_v37 main_v40 main_v41 ((fun l r => Host.dotGeneral dot_S1000000x35_S35x35_S1000000x35_1_0_0_1_n_n none l r) : (⟨S1000000x35, .f32⟩ : BufTy).Contents (Elt F) → (⟨S35x35, .f32⟩ : BufTy).Contents (Elt F) → (⟨S1000000x35, .f32⟩ : BufTy).Contents (Elt F)),
    unary main_arg6 main_v42 ((extractStridedSlice S1x35 ![2, 0] · slices_S3x35_S1x35_2_0) : (⟨S3x35, .f32⟩ : BufTy).Contents (Elt F) → (⟨S1x35, .f32⟩ : BufTy).Contents (Elt F)),
    reshape main_v42 main_v43 rfl shapeCasts_S1x35_S35,
    unary main_v43 main_v44 (broadcastInDim S1x35 ![1] bcast_S35_S1x35_1 : (⟨S35, .f32⟩ : BufTy).Contents (Elt F) → (⟨S1x35, .f32⟩ : BufTy).Contents (Elt F)),
    unary main_v44 main_v45 (broadcastInDim S1000000x35 ![0, 1] bcast_S1x35_S1000000x35_0_1 : (⟨S1x35, .f32⟩ : BufTy).Contents (Elt F) → (⟨S1000000x35, .f32⟩ : BufTy).Contents (Elt F)),
    binary main_v41 main_v45 main_v46 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1000000x35, .f32⟩) main_call3_v0) (broadcastInDim S1000000x35 ![] bcast_S_S1000000x35),
    TRef.binary (TRef.of (T := ⟨S1000000x35, .f32⟩) main_v46) (TRef.of (T := ⟨S1000000x35, .f32⟩) main_call3_v0) (TRef.of (T := ⟨S1000000x35, .f32⟩) main_v47) maximumf,
    unary main_arg7 main_v48 ((transpose S35x10 [1, 0] · transposes_S10x35_S35x10_1_0) : (⟨S10x35, .f32⟩ : BufTy).Contents (Elt F) → (⟨S35x10, .f32⟩ : BufTy).Contents (Elt F)),
    binary main_v47 main_v48 main_v49 ((fun l r => Host.dotGeneral dot_S1000000x35_S35x10_S1000000x10_1_0_0_1_n_n none l r) : (⟨S1000000x35, .f32⟩ : BufTy).Contents (Elt F) → (⟨S35x10, .f32⟩ : BufTy).Contents (Elt F) → (⟨S1000000x10, .f32⟩ : BufTy).Contents (Elt F)),
    unary main_arg8 main_v50 (broadcastInDim S1x10 ![1] bcast_S10_S1x10_1 : (⟨S10, .f32⟩ : BufTy).Contents (Elt F) → (⟨S1x10, .f32⟩ : BufTy).Contents (Elt F)),
    unary main_v50 main_v51 (broadcastInDim S1000000x10 ![0, 1] bcast_S1x10_S1000000x10_0_1 : (⟨S1x10, .f32⟩ : BufTy).Contents (Elt F) → (⟨S1000000x10, .f32⟩ : BufTy).Contents (Elt F)),
    binary main_v49 main_v51 main_v52 (addf : (⟨S1000000x10, .f32⟩ : BufTy).Contents (Elt F) → (⟨S1000000x10, .f32⟩ : BufTy).Contents (Elt F) → (⟨S1000000x10, .f32⟩ : BufTy).Contents (Elt F)),
    unary main_arg9 main_v53 ((transpose S10x35 [1, 0] · transposes_S35x10_S10x35_1_0) : (⟨S35x10, .f32⟩ : BufTy).Contents (Elt F) → (⟨S10x35, .f32⟩ : BufTy).Contents (Elt F)),
    binary main_v10 main_v53 main_v54 ((fun l r => Host.dotGeneral dot_S1000000x10_S10x35_S1000000x35_1_0_0_1_n_n none l r) : (⟨S1000000x10, .f32⟩ : BufTy).Contents (Elt F) → (⟨S10x35, .f32⟩ : BufTy).Contents (Elt F) → (⟨S1000000x35, .f32⟩ : BufTy).Contents (Elt F)),
    unary main_arg10 main_v55 (broadcastInDim S1x35 ![1] bcast_S35_S1x35_1 : (⟨S35, .f32⟩ : BufTy).Contents (Elt F) → (⟨S1x35, .f32⟩ : BufTy).Contents (Elt F)),
    unary main_v55 main_v56 (broadcastInDim S1000000x35 ![0, 1] bcast_S1x35_S1000000x35_0_1 : (⟨S1x35, .f32⟩ : BufTy).Contents (Elt F) → (⟨S1000000x35, .f32⟩ : BufTy).Contents (Elt F)) ]

/-- The operations of part 1 of @main, in order. -/
abbrev ops1 : List (HloOp τ sig (Elt F)) :=
  [ binary main_v54 main_v56 main_v57 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1000000x35, .f32⟩) main_call4_v0) (broadcastInDim S1000000x35 ![] bcast_S_S1000000x35),
    TRef.binary (TRef.of (T := ⟨S1000000x35, .f32⟩) main_v57) (TRef.of (T := ⟨S1000000x35, .f32⟩) main_call4_v0) (TRef.of (T := ⟨S1000000x35, .f32⟩) main_v58) maximumf,
    unary main_arg11 main_v59 ((extractStridedSlice S1x35x35 ![0, 0, 0] · slices_S3x35x35_S1x35x35_0_0_0) : (⟨S3x35x35, .f32⟩ : BufTy).Contents (Elt F) → (⟨S1x35x35, .f32⟩ : BufTy).Contents (Elt F)),
    reshape main_v59 main_v60 rfl shapeCasts_S1x35x35_S35x35,
    unary main_v60 main_v61 ((transpose S35x35 [1, 0] · transposes_S35x35_S35x35_1_0) : (⟨S35x35, .f32⟩ : BufTy).Contents (Elt F) → (⟨S35x35, .f32⟩ : BufTy).Contents (Elt F)),
    binary main_v58 main_v61 main_v62 ((fun l r => Host.dotGeneral dot_S1000000x35_S35x35_S1000000x35_1_0_0_1_n_n none l r) : (⟨S1000000x35, .f32⟩ : BufTy).Contents (Elt F) → (⟨S35x35, .f32⟩ : BufTy).Contents (Elt F) → (⟨S1000000x35, .f32⟩ : BufTy).Contents (Elt F)),
    unary main_arg12 main_v63 ((extractStridedSlice S1x35 ![0, 0] · slices_S3x35_S1x35_0_0) : (⟨S3x35, .f32⟩ : BufTy).Contents (Elt F) → (⟨S1x35, .f32⟩ : BufTy).Contents (Elt F)),
    reshape main_v63 main_v64 rfl shapeCasts_S1x35_S35,
    unary main_v64 main_v65 (broadcastInDim S1x35 ![1] bcast_S35_S1x35_1 : (⟨S35, .f32⟩ : BufTy).Contents (Elt F) → (⟨S1x35, .f32⟩ : BufTy).Contents (Elt F)),
    unary main_v65 main_v66 (broadcastInDim S1000000x35 ![0, 1] bcast_S1x35_S1000000x35_0_1 : (⟨S1x35, .f32⟩ : BufTy).Contents (Elt F) → (⟨S1000000x35, .f32⟩ : BufTy).Contents (Elt F)),
    binary main_v62 main_v66 main_v67 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1000000x35, .f32⟩) main_call5_v0) (broadcastInDim S1000000x35 ![] bcast_S_S1000000x35),
    TRef.binary (TRef.of (T := ⟨S1000000x35, .f32⟩) main_v67) (TRef.of (T := ⟨S1000000x35, .f32⟩) main_call5_v0) (TRef.of (T := ⟨S1000000x35, .f32⟩) main_v68) maximumf,
    unary main_arg11 main_v69 ((extractStridedSlice S1x35x35 ![1, 0, 0] · slices_S3x35x35_S1x35x35_1_0_0) : (⟨S3x35x35, .f32⟩ : BufTy).Contents (Elt F) → (⟨S1x35x35, .f32⟩ : BufTy).Contents (Elt F)),
    reshape main_v69 main_v70 rfl shapeCasts_S1x35x35_S35x35,
    unary main_v70 main_v71 ((transpose S35x35 [1, 0] · transposes_S35x35_S35x35_1_0) : (⟨S35x35, .f32⟩ : BufTy).Contents (Elt F) → (⟨S35x35, .f32⟩ : BufTy).Contents (Elt F)),
    binary main_v68 main_v71 main_v72 ((fun l r => Host.dotGeneral dot_S1000000x35_S35x35_S1000000x35_1_0_0_1_n_n none l r) : (⟨S1000000x35, .f32⟩ : BufTy).Contents (Elt F) → (⟨S35x35, .f32⟩ : BufTy).Contents (Elt F) → (⟨S1000000x35, .f32⟩ : BufTy).Contents (Elt F)),
    unary main_arg12 main_v73 ((extractStridedSlice S1x35 ![1, 0] · slices_S3x35_S1x35_1_0) : (⟨S3x35, .f32⟩ : BufTy).Contents (Elt F) → (⟨S1x35, .f32⟩ : BufTy).Contents (Elt F)),
    reshape main_v73 main_v74 rfl shapeCasts_S1x35_S35,
    unary main_v74 main_v75 (broadcastInDim S1x35 ![1] bcast_S35_S1x35_1 : (⟨S35, .f32⟩ : BufTy).Contents (Elt F) → (⟨S1x35, .f32⟩ : BufTy).Contents (Elt F)),
    unary main_v75 main_v76 (broadcastInDim S1000000x35 ![0, 1] bcast_S1x35_S1000000x35_0_1 : (⟨S1x35, .f32⟩ : BufTy).Contents (Elt F) → (⟨S1000000x35, .f32⟩ : BufTy).Contents (Elt F)),
    binary main_v72 main_v76 main_v77 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1000000x35, .f32⟩) main_call6_v0) (broadcastInDim S1000000x35 ![] bcast_S_S1000000x35),
    TRef.binary (TRef.of (T := ⟨S1000000x35, .f32⟩) main_v77) (TRef.of (T := ⟨S1000000x35, .f32⟩) main_call6_v0) (TRef.of (T := ⟨S1000000x35, .f32⟩) main_v78) maximumf,
    unary main_arg11 main_v79 ((extractStridedSlice S1x35x35 ![2, 0, 0] · slices_S3x35x35_S1x35x35_2_0_0) : (⟨S3x35x35, .f32⟩ : BufTy).Contents (Elt F) → (⟨S1x35x35, .f32⟩ : BufTy).Contents (Elt F)),
    reshape main_v79 main_v80 rfl shapeCasts_S1x35x35_S35x35,
    unary main_v80 main_v81 ((transpose S35x35 [1, 0] · transposes_S35x35_S35x35_1_0) : (⟨S35x35, .f32⟩ : BufTy).Contents (Elt F) → (⟨S35x35, .f32⟩ : BufTy).Contents (Elt F)),
    binary main_v78 main_v81 main_v82 ((fun l r => Host.dotGeneral dot_S1000000x35_S35x35_S1000000x35_1_0_0_1_n_n none l r) : (⟨S1000000x35, .f32⟩ : BufTy).Contents (Elt F) → (⟨S35x35, .f32⟩ : BufTy).Contents (Elt F) → (⟨S1000000x35, .f32⟩ : BufTy).Contents (Elt F)),
    unary main_arg12 main_v83 ((extractStridedSlice S1x35 ![2, 0] · slices_S3x35_S1x35_2_0) : (⟨S3x35, .f32⟩ : BufTy).Contents (Elt F) → (⟨S1x35, .f32⟩ : BufTy).Contents (Elt F)),
    reshape main_v83 main_v84 rfl shapeCasts_S1x35_S35,
    unary main_v84 main_v85 (broadcastInDim S1x35 ![1] bcast_S35_S1x35_1 : (⟨S35, .f32⟩ : BufTy).Contents (Elt F) → (⟨S1x35, .f32⟩ : BufTy).Contents (Elt F)),
    unary main_v85 main_v86 (broadcastInDim S1000000x35 ![0, 1] bcast_S1x35_S1000000x35_0_1 : (⟨S1x35, .f32⟩ : BufTy).Contents (Elt F) → (⟨S1000000x35, .f32⟩ : BufTy).Contents (Elt F)),
    binary main_v82 main_v86 main_v87 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S1000000x35, .f32⟩) main_call7_v0) (broadcastInDim S1000000x35 ![] bcast_S_S1000000x35),
    TRef.binary (TRef.of (T := ⟨S1000000x35, .f32⟩) main_v87) (TRef.of (T := ⟨S1000000x35, .f32⟩) main_call7_v0) (TRef.of (T := ⟨S1000000x35, .f32⟩) main_v88) maximumf,
    unary main_arg13 main_v89 ((transpose S35x10 [1, 0] · transposes_S10x35_S35x10_1_0) : (⟨S10x35, .f32⟩ : BufTy).Contents (Elt F) → (⟨S35x10, .f32⟩ : BufTy).Contents (Elt F)),
    binary main_v88 main_v89 main_v90 ((fun l r => Host.dotGeneral dot_S1000000x35_S35x10_S1000000x10_1_0_0_1_n_n none l r) : (⟨S1000000x35, .f32⟩ : BufTy).Contents (Elt F) → (⟨S35x10, .f32⟩ : BufTy).Contents (Elt F) → (⟨S1000000x10, .f32⟩ : BufTy).Contents (Elt F)),
    unary main_arg14 main_v91 (broadcastInDim S1x10 ![1] bcast_S10_S1x10_1 : (⟨S10, .f32⟩ : BufTy).Contents (Elt F) → (⟨S1x10, .f32⟩ : BufTy).Contents (Elt F)),
    unary main_v91 main_v92 (broadcastInDim S1000000x10 ![0, 1] bcast_S1x10_S1000000x10_0_1 : (⟨S1x10, .f32⟩ : BufTy).Contents (Elt F) → (⟨S1000000x10, .f32⟩ : BufTy).Contents (Elt F)),
    binary main_v90 main_v92 main_v93 (addf : (⟨S1000000x10, .f32⟩ : BufTy).Contents (Elt F) → (⟨S1000000x10, .f32⟩ : BufTy).Contents (Elt F) → (⟨S1000000x10, .f32⟩ : BufTy).Contents (Elt F)),
    unary main_arg3 main_v94 ((transpose S10x35 [1, 0] · transposes_S35x10_S10x35_1_0) : (⟨S35x10, .f32⟩ : BufTy).Contents (Elt F) → (⟨S10x35, .f32⟩ : BufTy).Contents (Elt F)),
    binary main_v11 main_v94 main_v95 ((fun l r => Host.dotGeneral dot_S1000000x10_S10x35_S1000000x35_1_0_0_1_n_n none l r) : (⟨S1000000x10, .f32⟩ : BufTy).Contents (Elt F) → (⟨S10x35, .f32⟩ : BufTy).Contents (Elt F) → (⟨S1000000x35, .f32⟩ : BufTy).Contents (Elt F)),
    unary main_arg4 main_v96 (broadcastInDim S1x35 ![1] bcast_S35_S1x35_1 : (⟨S35, .f32⟩ : BufTy).Contents (Elt F) → (⟨S1x35, .f32⟩ : BufTy).Contents (Elt F)),
    unary main_v96 main_v97 (broadcastInDim S1000000x35 ![0, 1] bcast_S1x35_S1000000x35_0_1 : (⟨S1x35, .f32⟩ : BufTy).Contents (Elt F) → (⟨S1000000x35, .f32⟩ : BufTy).Contents (Elt F)),
    binary main_v95 main_v97 main_v98 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S1000000x35, .f32⟩) main_call8_v0) (broadcastInDim S1000000x35 ![] bcast_S_S1000000x35),
    TRef.binary (TRef.of (T := ⟨S1000000x35, .f32⟩) main_v98) (TRef.of (T := ⟨S1000000x35, .f32⟩) main_call8_v0) (TRef.of (T := ⟨S1000000x35, .f32⟩) main_v99) maximumf,
    unary main_arg5 main_v100 ((extractStridedSlice S1x35x35 ![0, 0, 0] · slices_S3x35x35_S1x35x35_0_0_0) : (⟨S3x35x35, .f32⟩ : BufTy).Contents (Elt F) → (⟨S1x35x35, .f32⟩ : BufTy).Contents (Elt F)),
    reshape main_v100 main_v101 rfl shapeCasts_S1x35x35_S35x35,
    unary main_v101 main_v102 ((transpose S35x35 [1, 0] · transposes_S35x35_S35x35_1_0) : (⟨S35x35, .f32⟩ : BufTy).Contents (Elt F) → (⟨S35x35, .f32⟩ : BufTy).Contents (Elt F)),
    binary main_v99 main_v102 main_v103 ((fun l r => Host.dotGeneral dot_S1000000x35_S35x35_S1000000x35_1_0_0_1_n_n none l r) : (⟨S1000000x35, .f32⟩ : BufTy).Contents (Elt F) → (⟨S35x35, .f32⟩ : BufTy).Contents (Elt F) → (⟨S1000000x35, .f32⟩ : BufTy).Contents (Elt F)),
    unary main_arg6 main_v104 ((extractStridedSlice S1x35 ![0, 0] · slices_S3x35_S1x35_0_0) : (⟨S3x35, .f32⟩ : BufTy).Contents (Elt F) → (⟨S1x35, .f32⟩ : BufTy).Contents (Elt F)),
    reshape main_v104 main_v105 rfl shapeCasts_S1x35_S35,
    unary main_v105 main_v106 (broadcastInDim S1x35 ![1] bcast_S35_S1x35_1 : (⟨S35, .f32⟩ : BufTy).Contents (Elt F) → (⟨S1x35, .f32⟩ : BufTy).Contents (Elt F)),
    unary main_v106 main_v107 (broadcastInDim S1000000x35 ![0, 1] bcast_S1x35_S1000000x35_0_1 : (⟨S1x35, .f32⟩ : BufTy).Contents (Elt F) → (⟨S1000000x35, .f32⟩ : BufTy).Contents (Elt F)),
    binary main_v103 main_v107 main_v108 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S1000000x35, .f32⟩) main_call9_v0) (broadcastInDim S1000000x35 ![] bcast_S_S1000000x35),
    TRef.binary (TRef.of (T := ⟨S1000000x35, .f32⟩) main_v108) (TRef.of (T := ⟨S1000000x35, .f32⟩) main_call9_v0) (TRef.of (T := ⟨S1000000x35, .f32⟩) main_v109) maximumf,
    unary main_arg5 main_v110 ((extractStridedSlice S1x35x35 ![1, 0, 0] · slices_S3x35x35_S1x35x35_1_0_0) : (⟨S3x35x35, .f32⟩ : BufTy).Contents (Elt F) → (⟨S1x35x35, .f32⟩ : BufTy).Contents (Elt F)),
    reshape main_v110 main_v111 rfl shapeCasts_S1x35x35_S35x35,
    unary main_v111 main_v112 ((transpose S35x35 [1, 0] · transposes_S35x35_S35x35_1_0) : (⟨S35x35, .f32⟩ : BufTy).Contents (Elt F) → (⟨S35x35, .f32⟩ : BufTy).Contents (Elt F)),
    binary main_v109 main_v112 main_v113 ((fun l r => Host.dotGeneral dot_S1000000x35_S35x35_S1000000x35_1_0_0_1_n_n none l r) : (⟨S1000000x35, .f32⟩ : BufTy).Contents (Elt F) → (⟨S35x35, .f32⟩ : BufTy).Contents (Elt F) → (⟨S1000000x35, .f32⟩ : BufTy).Contents (Elt F)),
    unary main_arg6 main_v114 ((extractStridedSlice S1x35 ![1, 0] · slices_S3x35_S1x35_1_0) : (⟨S3x35, .f32⟩ : BufTy).Contents (Elt F) → (⟨S1x35, .f32⟩ : BufTy).Contents (Elt F)),
    reshape main_v114 main_v115 rfl shapeCasts_S1x35_S35,
    unary main_v115 main_v116 (broadcastInDim S1x35 ![1] bcast_S35_S1x35_1 : (⟨S35, .f32⟩ : BufTy).Contents (Elt F) → (⟨S1x35, .f32⟩ : BufTy).Contents (Elt F)) ]

/-- The operations of part 2 of @main, in order. -/
abbrev ops2 : List (HloOp τ sig (Elt F)) :=
  [ unary main_v116 main_v117 (broadcastInDim S1000000x35 ![0, 1] bcast_S1x35_S1000000x35_0_1 : (⟨S1x35, .f32⟩ : BufTy).Contents (Elt F) → (⟨S1000000x35, .f32⟩ : BufTy).Contents (Elt F)),
    binary main_v113 main_v117 main_v118 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S1000000x35, .f32⟩) main_call10_v0) (broadcastInDim S1000000x35 ![] bcast_S_S1000000x35),
    TRef.binary (TRef.of (T := ⟨S1000000x35, .f32⟩) main_v118) (TRef.of (T := ⟨S1000000x35, .f32⟩) main_call10_v0) (TRef.of (T := ⟨S1000000x35, .f32⟩) main_v119) maximumf,
    unary main_arg5 main_v120 ((extractStridedSlice S1x35x35 ![2, 0, 0] · slices_S3x35x35_S1x35x35_2_0_0) : (⟨S3x35x35, .f32⟩ : BufTy).Contents (Elt F) → (⟨S1x35x35, .f32⟩ : BufTy).Contents (Elt F)),
    reshape main_v120 main_v121 rfl shapeCasts_S1x35x35_S35x35,
    unary main_v121 main_v122 ((transpose S35x35 [1, 0] · transposes_S35x35_S35x35_1_0) : (⟨S35x35, .f32⟩ : BufTy).Contents (Elt F) → (⟨S35x35, .f32⟩ : BufTy).Contents (Elt F)),
    binary main_v119 main_v122 main_v123 ((fun l r => Host.dotGeneral dot_S1000000x35_S35x35_S1000000x35_1_0_0_1_n_n none l r) : (⟨S1000000x35, .f32⟩ : BufTy).Contents (Elt F) → (⟨S35x35, .f32⟩ : BufTy).Contents (Elt F) → (⟨S1000000x35, .f32⟩ : BufTy).Contents (Elt F)),
    unary main_arg6 main_v124 ((extractStridedSlice S1x35 ![2, 0] · slices_S3x35_S1x35_2_0) : (⟨S3x35, .f32⟩ : BufTy).Contents (Elt F) → (⟨S1x35, .f32⟩ : BufTy).Contents (Elt F)),
    reshape main_v124 main_v125 rfl shapeCasts_S1x35_S35,
    unary main_v125 main_v126 (broadcastInDim S1x35 ![1] bcast_S35_S1x35_1 : (⟨S35, .f32⟩ : BufTy).Contents (Elt F) → (⟨S1x35, .f32⟩ : BufTy).Contents (Elt F)),
    unary main_v126 main_v127 (broadcastInDim S1000000x35 ![0, 1] bcast_S1x35_S1000000x35_0_1 : (⟨S1x35, .f32⟩ : BufTy).Contents (Elt F) → (⟨S1000000x35, .f32⟩ : BufTy).Contents (Elt F)),
    binary main_v123 main_v127 main_v128 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S1000000x35, .f32⟩) main_call11_v0) (broadcastInDim S1000000x35 ![] bcast_S_S1000000x35),
    TRef.binary (TRef.of (T := ⟨S1000000x35, .f32⟩) main_v128) (TRef.of (T := ⟨S1000000x35, .f32⟩) main_call11_v0) (TRef.of (T := ⟨S1000000x35, .f32⟩) main_v129) maximumf,
    unary main_arg7 main_v130 ((transpose S35x10 [1, 0] · transposes_S10x35_S35x10_1_0) : (⟨S10x35, .f32⟩ : BufTy).Contents (Elt F) → (⟨S35x10, .f32⟩ : BufTy).Contents (Elt F)),
    binary main_v129 main_v130 main_v131 ((fun l r => Host.dotGeneral dot_S1000000x35_S35x10_S1000000x10_1_0_0_1_n_n none l r) : (⟨S1000000x35, .f32⟩ : BufTy).Contents (Elt F) → (⟨S35x10, .f32⟩ : BufTy).Contents (Elt F) → (⟨S1000000x10, .f32⟩ : BufTy).Contents (Elt F)),
    unary main_arg8 main_v132 (broadcastInDim S1x10 ![1] bcast_S10_S1x10_1 : (⟨S10, .f32⟩ : BufTy).Contents (Elt F) → (⟨S1x10, .f32⟩ : BufTy).Contents (Elt F)),
    unary main_v132 main_v133 (broadcastInDim S1000000x10 ![0, 1] bcast_S1x10_S1000000x10_0_1 : (⟨S1x10, .f32⟩ : BufTy).Contents (Elt F) → (⟨S1000000x10, .f32⟩ : BufTy).Contents (Elt F)),
    binary main_v131 main_v133 main_v134 (addf : (⟨S1000000x10, .f32⟩ : BufTy).Contents (Elt F) → (⟨S1000000x10, .f32⟩ : BufTy).Contents (Elt F) → (⟨S1000000x10, .f32⟩ : BufTy).Contents (Elt F)),
    unary main_arg9 main_v135 ((transpose S10x35 [1, 0] · transposes_S35x10_S10x35_1_0) : (⟨S35x10, .f32⟩ : BufTy).Contents (Elt F) → (⟨S10x35, .f32⟩ : BufTy).Contents (Elt F)),
    binary main_v11 main_v135 main_v136 ((fun l r => Host.dotGeneral dot_S1000000x10_S10x35_S1000000x35_1_0_0_1_n_n none l r) : (⟨S1000000x10, .f32⟩ : BufTy).Contents (Elt F) → (⟨S10x35, .f32⟩ : BufTy).Contents (Elt F) → (⟨S1000000x35, .f32⟩ : BufTy).Contents (Elt F)),
    unary main_arg10 main_v137 (broadcastInDim S1x35 ![1] bcast_S35_S1x35_1 : (⟨S35, .f32⟩ : BufTy).Contents (Elt F) → (⟨S1x35, .f32⟩ : BufTy).Contents (Elt F)),
    unary main_v137 main_v138 (broadcastInDim S1000000x35 ![0, 1] bcast_S1x35_S1000000x35_0_1 : (⟨S1x35, .f32⟩ : BufTy).Contents (Elt F) → (⟨S1000000x35, .f32⟩ : BufTy).Contents (Elt F)),
    binary main_v136 main_v138 main_v139 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S1000000x35, .f32⟩) main_call12_v0) (broadcastInDim S1000000x35 ![] bcast_S_S1000000x35),
    TRef.binary (TRef.of (T := ⟨S1000000x35, .f32⟩) main_v139) (TRef.of (T := ⟨S1000000x35, .f32⟩) main_call12_v0) (TRef.of (T := ⟨S1000000x35, .f32⟩) main_v140) maximumf,
    unary main_arg11 main_v141 ((extractStridedSlice S1x35x35 ![0, 0, 0] · slices_S3x35x35_S1x35x35_0_0_0) : (⟨S3x35x35, .f32⟩ : BufTy).Contents (Elt F) → (⟨S1x35x35, .f32⟩ : BufTy).Contents (Elt F)),
    reshape main_v141 main_v142 rfl shapeCasts_S1x35x35_S35x35,
    unary main_v142 main_v143 ((transpose S35x35 [1, 0] · transposes_S35x35_S35x35_1_0) : (⟨S35x35, .f32⟩ : BufTy).Contents (Elt F) → (⟨S35x35, .f32⟩ : BufTy).Contents (Elt F)),
    binary main_v140 main_v143 main_v144 ((fun l r => Host.dotGeneral dot_S1000000x35_S35x35_S1000000x35_1_0_0_1_n_n none l r) : (⟨S1000000x35, .f32⟩ : BufTy).Contents (Elt F) → (⟨S35x35, .f32⟩ : BufTy).Contents (Elt F) → (⟨S1000000x35, .f32⟩ : BufTy).Contents (Elt F)),
    unary main_arg12 main_v145 ((extractStridedSlice S1x35 ![0, 0] · slices_S3x35_S1x35_0_0) : (⟨S3x35, .f32⟩ : BufTy).Contents (Elt F) → (⟨S1x35, .f32⟩ : BufTy).Contents (Elt F)),
    reshape main_v145 main_v146 rfl shapeCasts_S1x35_S35,
    unary main_v146 main_v147 (broadcastInDim S1x35 ![1] bcast_S35_S1x35_1 : (⟨S35, .f32⟩ : BufTy).Contents (Elt F) → (⟨S1x35, .f32⟩ : BufTy).Contents (Elt F)),
    unary main_v147 main_v148 (broadcastInDim S1000000x35 ![0, 1] bcast_S1x35_S1000000x35_0_1 : (⟨S1x35, .f32⟩ : BufTy).Contents (Elt F) → (⟨S1000000x35, .f32⟩ : BufTy).Contents (Elt F)),
    binary main_v144 main_v148 main_v149 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S1000000x35, .f32⟩) main_call13_v0) (broadcastInDim S1000000x35 ![] bcast_S_S1000000x35),
    TRef.binary (TRef.of (T := ⟨S1000000x35, .f32⟩) main_v149) (TRef.of (T := ⟨S1000000x35, .f32⟩) main_call13_v0) (TRef.of (T := ⟨S1000000x35, .f32⟩) main_v150) maximumf,
    unary main_arg11 main_v151 ((extractStridedSlice S1x35x35 ![1, 0, 0] · slices_S3x35x35_S1x35x35_1_0_0) : (⟨S3x35x35, .f32⟩ : BufTy).Contents (Elt F) → (⟨S1x35x35, .f32⟩ : BufTy).Contents (Elt F)),
    reshape main_v151 main_v152 rfl shapeCasts_S1x35x35_S35x35,
    unary main_v152 main_v153 ((transpose S35x35 [1, 0] · transposes_S35x35_S35x35_1_0) : (⟨S35x35, .f32⟩ : BufTy).Contents (Elt F) → (⟨S35x35, .f32⟩ : BufTy).Contents (Elt F)),
    binary main_v150 main_v153 main_v154 ((fun l r => Host.dotGeneral dot_S1000000x35_S35x35_S1000000x35_1_0_0_1_n_n none l r) : (⟨S1000000x35, .f32⟩ : BufTy).Contents (Elt F) → (⟨S35x35, .f32⟩ : BufTy).Contents (Elt F) → (⟨S1000000x35, .f32⟩ : BufTy).Contents (Elt F)),
    unary main_arg12 main_v155 ((extractStridedSlice S1x35 ![1, 0] · slices_S3x35_S1x35_1_0) : (⟨S3x35, .f32⟩ : BufTy).Contents (Elt F) → (⟨S1x35, .f32⟩ : BufTy).Contents (Elt F)),
    reshape main_v155 main_v156 rfl shapeCasts_S1x35_S35,
    unary main_v156 main_v157 (broadcastInDim S1x35 ![1] bcast_S35_S1x35_1 : (⟨S35, .f32⟩ : BufTy).Contents (Elt F) → (⟨S1x35, .f32⟩ : BufTy).Contents (Elt F)),
    unary main_v157 main_v158 (broadcastInDim S1000000x35 ![0, 1] bcast_S1x35_S1000000x35_0_1 : (⟨S1x35, .f32⟩ : BufTy).Contents (Elt F) → (⟨S1000000x35, .f32⟩ : BufTy).Contents (Elt F)),
    binary main_v154 main_v158 main_v159 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S1000000x35, .f32⟩) main_call14_v0) (broadcastInDim S1000000x35 ![] bcast_S_S1000000x35),
    TRef.binary (TRef.of (T := ⟨S1000000x35, .f32⟩) main_v159) (TRef.of (T := ⟨S1000000x35, .f32⟩) main_call14_v0) (TRef.of (T := ⟨S1000000x35, .f32⟩) main_v160) maximumf,
    unary main_arg11 main_v161 ((extractStridedSlice S1x35x35 ![2, 0, 0] · slices_S3x35x35_S1x35x35_2_0_0) : (⟨S3x35x35, .f32⟩ : BufTy).Contents (Elt F) → (⟨S1x35x35, .f32⟩ : BufTy).Contents (Elt F)),
    reshape main_v161 main_v162 rfl shapeCasts_S1x35x35_S35x35,
    unary main_v162 main_v163 ((transpose S35x35 [1, 0] · transposes_S35x35_S35x35_1_0) : (⟨S35x35, .f32⟩ : BufTy).Contents (Elt F) → (⟨S35x35, .f32⟩ : BufTy).Contents (Elt F)),
    binary main_v160 main_v163 main_v164 ((fun l r => Host.dotGeneral dot_S1000000x35_S35x35_S1000000x35_1_0_0_1_n_n none l r) : (⟨S1000000x35, .f32⟩ : BufTy).Contents (Elt F) → (⟨S35x35, .f32⟩ : BufTy).Contents (Elt F) → (⟨S1000000x35, .f32⟩ : BufTy).Contents (Elt F)),
    unary main_arg12 main_v165 ((extractStridedSlice S1x35 ![2, 0] · slices_S3x35_S1x35_2_0) : (⟨S3x35, .f32⟩ : BufTy).Contents (Elt F) → (⟨S1x35, .f32⟩ : BufTy).Contents (Elt F)),
    reshape main_v165 main_v166 rfl shapeCasts_S1x35_S35,
    unary main_v166 main_v167 (broadcastInDim S1x35 ![1] bcast_S35_S1x35_1 : (⟨S35, .f32⟩ : BufTy).Contents (Elt F) → (⟨S1x35, .f32⟩ : BufTy).Contents (Elt F)),
    unary main_v167 main_v168 (broadcastInDim S1000000x35 ![0, 1] bcast_S1x35_S1000000x35_0_1 : (⟨S1x35, .f32⟩ : BufTy).Contents (Elt F) → (⟨S1000000x35, .f32⟩ : BufTy).Contents (Elt F)),
    binary main_v164 main_v168 main_v169 (addf : (⟨S1000000x35, .f32⟩ : BufTy).Contents (Elt F) → (⟨S1000000x35, .f32⟩ : BufTy).Contents (Elt F) → (⟨S1000000x35, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S1000000x35, .f32⟩) main_call15_v0) (broadcastInDim S1000000x35 ![] bcast_S_S1000000x35),
    TRef.binary (TRef.of (T := ⟨S1000000x35, .f32⟩) main_v169) (TRef.of (T := ⟨S1000000x35, .f32⟩) main_call15_v0) (TRef.of (T := ⟨S1000000x35, .f32⟩) main_v170) maximumf,
    unary main_arg13 main_v171 ((transpose S35x10 [1, 0] · transposes_S10x35_S35x10_1_0) : (⟨S10x35, .f32⟩ : BufTy).Contents (Elt F) → (⟨S35x10, .f32⟩ : BufTy).Contents (Elt F)),
    binary main_v170 main_v171 main_v172 ((fun l r => Host.dotGeneral dot_S1000000x35_S35x10_S1000000x10_1_0_0_1_n_n none l r) : (⟨S1000000x35, .f32⟩ : BufTy).Contents (Elt F) → (⟨S35x10, .f32⟩ : BufTy).Contents (Elt F) → (⟨S1000000x10, .f32⟩ : BufTy).Contents (Elt F)),
    unary main_arg14 main_v173 (broadcastInDim S1x10 ![1] bcast_S10_S1x10_1 : (⟨S10, .f32⟩ : BufTy).Contents (Elt F) → (⟨S1x10, .f32⟩ : BufTy).Contents (Elt F)),
    unary main_v173 main_v174 (broadcastInDim S1000000x10 ![0, 1] bcast_S1x10_S1000000x10_0_1 : (⟨S1x10, .f32⟩ : BufTy).Contents (Elt F) → (⟨S1000000x10, .f32⟩ : BufTy).Contents (Elt F)),
    binary main_v172 main_v174 main_v175 (addf : (⟨S1000000x10, .f32⟩ : BufTy).Contents (Elt F) → (⟨S1000000x10, .f32⟩ : BufTy).Contents (Elt F) → (⟨S1000000x10, .f32⟩ : BufTy).Contents (Elt F)),
    nullary main_cst (constant S_ .f32 0x3F800000#32) ]

/-- The operations of part 3 of @main, in order. -/
abbrev ops3 : List (HloOp τ sig (Elt F)) :=
  [ unary main_cst main_v176 (broadcastInDim S1000000 ![] bcast_S_S1000000 : (⟨S_, .f32⟩ : BufTy).Contents (Elt F) → (⟨S1000000, .f32⟩ : BufTy).Contents (Elt F)),
    binary main_arg2 main_v176 main_v177 (addf : (⟨S1000000, .f32⟩ : BufTy).Contents (Elt F) → (⟨S1000000, .f32⟩ : BufTy).Contents (Elt F) → (⟨S1000000, .f32⟩ : BufTy).Contents (Elt F)),
    nullary main_cst_2 (constant S_ .f32 0x3F000000#32),
    unary main_cst_2 main_v178 (broadcastInDim S1000000 ![] bcast_S_S1000000 : (⟨S_, .f32⟩ : BufTy).Contents (Elt F) → (⟨S1000000, .f32⟩ : BufTy).Contents (Elt F)),
    binary main_v177 main_v178 main_v179 (mulf : (⟨S1000000, .f32⟩ : BufTy).Contents (Elt F) → (⟨S1000000, .f32⟩ : BufTy).Contents (Elt F) → (⟨S1000000, .f32⟩ : BufTy).Contents (Elt F)),
    unary main_v179 main_v180 (broadcastInDim S1000000x1 ![0] bcast_S1000000_S1000000x1_0 : (⟨S1000000, .f32⟩ : BufTy).Contents (Elt F) → (⟨S1000000x1, .f32⟩ : BufTy).Contents (Elt F)),
    unary main_v52 main_v181 (Host.negf : (⟨S1000000x10, .f32⟩ : BufTy).Contents (Elt F) → (⟨S1000000x10, .f32⟩ : BufTy).Contents (Elt F)),
    unary main_v181 main_v182 (Host.exp : (⟨S1000000x10, .f32⟩ : BufTy).Contents (Elt F) → (⟨S1000000x10, .f32⟩ : BufTy).Contents (Elt F)),
    nullary main_cst_3 (constant S_ .f32 0x3F800000#32),
    unary main_cst_3 main_v183 (broadcastInDim S1000000x10 ![] bcast_S_S1000000x10 : (⟨S_, .f32⟩ : BufTy).Contents (Elt F) → (⟨S1000000x10, .f32⟩ : BufTy).Contents (Elt F)),
    binary main_v183 main_v182 main_v184 (addf : (⟨S1000000x10, .f32⟩ : BufTy).Contents (Elt F) → (⟨S1000000x10, .f32⟩ : BufTy).Contents (Elt F) → (⟨S1000000x10, .f32⟩ : BufTy).Contents (Elt F)),
    nullary main_cst_4 (constant S_ .f32 0x3F800000#32),
    unary main_cst_4 main_v185 (broadcastInDim S1000000x10 ![] bcast_S_S1000000x10 : (⟨S_, .f32⟩ : BufTy).Contents (Elt F) → (⟨S1000000x10, .f32⟩ : BufTy).Contents (Elt F)),
    binary main_v185 main_v184 main_v186 (Host.divf : (⟨S1000000x10, .f32⟩ : BufTy).Contents (Elt F) → (⟨S1000000x10, .f32⟩ : BufTy).Contents (Elt F) → (⟨S1000000x10, .f32⟩ : BufTy).Contents (Elt F)),
    unary main_v180 main_v187 (broadcastInDim S1000000x10 ![0, 1] bcast_S1000000x1_S1000000x10_0_1 : (⟨S1000000x1, .f32⟩ : BufTy).Contents (Elt F) → (⟨S1000000x10, .f32⟩ : BufTy).Contents (Elt F)),
    binary main_v187 main_v186 main_v188 (mulf : (⟨S1000000x10, .f32⟩ : BufTy).Contents (Elt F) → (⟨S1000000x10, .f32⟩ : BufTy).Contents (Elt F) → (⟨S1000000x10, .f32⟩ : BufTy).Contents (Elt F)),
    nullary main_cst_5 (constant S_ .f32 0x3F800000#32),
    unary main_cst_5 main_v189 (broadcastInDim S1000000 ![] bcast_S_S1000000 : (⟨S_, .f32⟩ : BufTy).Contents (Elt F) → (⟨S1000000, .f32⟩ : BufTy).Contents (Elt F)),
    binary main_v189 main_v179 main_v190 (subf : (⟨S1000000, .f32⟩ : BufTy).Contents (Elt F) → (⟨S1000000, .f32⟩ : BufTy).Contents (Elt F) → (⟨S1000000, .f32⟩ : BufTy).Contents (Elt F)),
    unary main_v190 main_v191 (broadcastInDim S1000000x1 ![0] bcast_S1000000_S1000000x1_0 : (⟨S1000000, .f32⟩ : BufTy).Contents (Elt F) → (⟨S1000000x1, .f32⟩ : BufTy).Contents (Elt F)),
    unary main_v93 main_v192 (Host.negf : (⟨S1000000x10, .f32⟩ : BufTy).Contents (Elt F) → (⟨S1000000x10, .f32⟩ : BufTy).Contents (Elt F)),
    unary main_v192 main_v193 (Host.exp : (⟨S1000000x10, .f32⟩ : BufTy).Contents (Elt F) → (⟨S1000000x10, .f32⟩ : BufTy).Contents (Elt F)),
    nullary main_cst_6 (constant S_ .f32 0x3F800000#32),
    unary main_cst_6 main_v194 (broadcastInDim S1000000x10 ![] bcast_S_S1000000x10 : (⟨S_, .f32⟩ : BufTy).Contents (Elt F) → (⟨S1000000x10, .f32⟩ : BufTy).Contents (Elt F)),
    binary main_v194 main_v193 main_v195 (addf : (⟨S1000000x10, .f32⟩ : BufTy).Contents (Elt F) → (⟨S1000000x10, .f32⟩ : BufTy).Contents (Elt F) → (⟨S1000000x10, .f32⟩ : BufTy).Contents (Elt F)),
    nullary main_cst_7 (constant S_ .f32 0x3F800000#32),
    unary main_cst_7 main_v196 (broadcastInDim S1000000x10 ![] bcast_S_S1000000x10 : (⟨S_, .f32⟩ : BufTy).Contents (Elt F) → (⟨S1000000x10, .f32⟩ : BufTy).Contents (Elt F)),
    binary main_v196 main_v195 main_v197 (Host.divf : (⟨S1000000x10, .f32⟩ : BufTy).Contents (Elt F) → (⟨S1000000x10, .f32⟩ : BufTy).Contents (Elt F) → (⟨S1000000x10, .f32⟩ : BufTy).Contents (Elt F)),
    unary main_v191 main_v198 (broadcastInDim S1000000x10 ![0, 1] bcast_S1000000x1_S1000000x10_0_1 : (⟨S1000000x1, .f32⟩ : BufTy).Contents (Elt F) → (⟨S1000000x10, .f32⟩ : BufTy).Contents (Elt F)),
    binary main_v198 main_v197 main_v199 (mulf : (⟨S1000000x10, .f32⟩ : BufTy).Contents (Elt F) → (⟨S1000000x10, .f32⟩ : BufTy).Contents (Elt F) → (⟨S1000000x10, .f32⟩ : BufTy).Contents (Elt F)),
    binary main_v188 main_v199 main_v200 (subf : (⟨S1000000x10, .f32⟩ : BufTy).Contents (Elt F) → (⟨S1000000x10, .f32⟩ : BufTy).Contents (Elt F) → (⟨S1000000x10, .f32⟩ : BufTy).Contents (Elt F)),
    nullary main_cst_8 (constant S_ .f32 0x3F800000#32),
    unary main_cst_8 main_v201 (broadcastInDim S1000000 ![] bcast_S_S1000000 : (⟨S_, .f32⟩ : BufTy).Contents (Elt F) → (⟨S1000000, .f32⟩ : BufTy).Contents (Elt F)),
    binary main_v201 main_v179 main_v202 (subf : (⟨S1000000, .f32⟩ : BufTy).Contents (Elt F) → (⟨S1000000, .f32⟩ : BufTy).Contents (Elt F) → (⟨S1000000, .f32⟩ : BufTy).Contents (Elt F)),
    unary main_v202 main_v203 (broadcastInDim S1000000x1 ![0] bcast_S1000000_S1000000x1_0 : (⟨S1000000, .f32⟩ : BufTy).Contents (Elt F) → (⟨S1000000x1, .f32⟩ : BufTy).Contents (Elt F)),
    unary main_v134 main_v204 (Host.negf : (⟨S1000000x10, .f32⟩ : BufTy).Contents (Elt F) → (⟨S1000000x10, .f32⟩ : BufTy).Contents (Elt F)),
    unary main_v204 main_v205 (Host.exp : (⟨S1000000x10, .f32⟩ : BufTy).Contents (Elt F) → (⟨S1000000x10, .f32⟩ : BufTy).Contents (Elt F)),
    nullary main_cst_9 (constant S_ .f32 0x3F800000#32),
    unary main_cst_9 main_v206 (broadcastInDim S1000000x10 ![] bcast_S_S1000000x10 : (⟨S_, .f32⟩ : BufTy).Contents (Elt F) → (⟨S1000000x10, .f32⟩ : BufTy).Contents (Elt F)),
    binary main_v206 main_v205 main_v207 (addf : (⟨S1000000x10, .f32⟩ : BufTy).Contents (Elt F) → (⟨S1000000x10, .f32⟩ : BufTy).Contents (Elt F) → (⟨S1000000x10, .f32⟩ : BufTy).Contents (Elt F)),
    nullary main_cst_10 (constant S_ .f32 0x3F800000#32),
    unary main_cst_10 main_v208 (broadcastInDim S1000000x10 ![] bcast_S_S1000000x10 : (⟨S_, .f32⟩ : BufTy).Contents (Elt F) → (⟨S1000000x10, .f32⟩ : BufTy).Contents (Elt F)),
    binary main_v208 main_v207 main_v209 (Host.divf : (⟨S1000000x10, .f32⟩ : BufTy).Contents (Elt F) → (⟨S1000000x10, .f32⟩ : BufTy).Contents (Elt F) → (⟨S1000000x10, .f32⟩ : BufTy).Contents (Elt F)),
    unary main_v203 main_v210 (broadcastInDim S1000000x10 ![0, 1] bcast_S1000000x1_S1000000x10_0_1 : (⟨S1000000x1, .f32⟩ : BufTy).Contents (Elt F) → (⟨S1000000x10, .f32⟩ : BufTy).Contents (Elt F)),
    binary main_v210 main_v209 main_v211 (mulf : (⟨S1000000x10, .f32⟩ : BufTy).Contents (Elt F) → (⟨S1000000x10, .f32⟩ : BufTy).Contents (Elt F) → (⟨S1000000x10, .f32⟩ : BufTy).Contents (Elt F)),
    unary main_v179 main_v212 (broadcastInDim S1000000x1 ![0] bcast_S1000000_S1000000x1_0 : (⟨S1000000, .f32⟩ : BufTy).Contents (Elt F) → (⟨S1000000x1, .f32⟩ : BufTy).Contents (Elt F)),
    unary main_v175 main_v213 (Host.negf : (⟨S1000000x10, .f32⟩ : BufTy).Contents (Elt F) → (⟨S1000000x10, .f32⟩ : BufTy).Contents (Elt F)),
    unary main_v213 main_v214 (Host.exp : (⟨S1000000x10, .f32⟩ : BufTy).Contents (Elt F) → (⟨S1000000x10, .f32⟩ : BufTy).Contents (Elt F)),
    nullary main_cst_11 (constant S_ .f32 0x3F800000#32),
    unary main_cst_11 main_v215 (broadcastInDim S1000000x10 ![] bcast_S_S1000000x10 : (⟨S_, .f32⟩ : BufTy).Contents (Elt F) → (⟨S1000000x10, .f32⟩ : BufTy).Contents (Elt F)),
    binary main_v215 main_v214 main_v216 (addf : (⟨S1000000x10, .f32⟩ : BufTy).Contents (Elt F) → (⟨S1000000x10, .f32⟩ : BufTy).Contents (Elt F) → (⟨S1000000x10, .f32⟩ : BufTy).Contents (Elt F)),
    nullary main_cst_12 (constant S_ .f32 0x3F800000#32),
    unary main_cst_12 main_v217 (broadcastInDim S1000000x10 ![] bcast_S_S1000000x10 : (⟨S_, .f32⟩ : BufTy).Contents (Elt F) → (⟨S1000000x10, .f32⟩ : BufTy).Contents (Elt F)),
    binary main_v217 main_v216 main_v218 (Host.divf : (⟨S1000000x10, .f32⟩ : BufTy).Contents (Elt F) → (⟨S1000000x10, .f32⟩ : BufTy).Contents (Elt F) → (⟨S1000000x10, .f32⟩ : BufTy).Contents (Elt F)),
    unary main_v212 main_v219 (broadcastInDim S1000000x10 ![0, 1] bcast_S1000000x1_S1000000x10_0_1 : (⟨S1000000x1, .f32⟩ : BufTy).Contents (Elt F) → (⟨S1000000x10, .f32⟩ : BufTy).Contents (Elt F)),
    binary main_v219 main_v218 main_v220 (mulf : (⟨S1000000x10, .f32⟩ : BufTy).Contents (Elt F) → (⟨S1000000x10, .f32⟩ : BufTy).Contents (Elt F) → (⟨S1000000x10, .f32⟩ : BufTy).Contents (Elt F)),
    binary main_v211 main_v220 main_v221 (subf : (⟨S1000000x10, .f32⟩ : BufTy).Contents (Elt F) → (⟨S1000000x10, .f32⟩ : BufTy).Contents (Elt F) → (⟨S1000000x10, .f32⟩ : BufTy).Contents (Elt F)),
    unary main_v200 main_v222 ((extractStridedSlice S1000000x5 ![0, 0] · slices_S1000000x10_S1000000x5_0_0) : (⟨S1000000x10, .f32⟩ : BufTy).Contents (Elt F) → (⟨S1000000x5, .f32⟩ : BufTy).Contents (Elt F)),
    unary main_v221 main_v223 ((extractStridedSlice S1000000x5 ![0, 0] · slices_S1000000x10_S1000000x5_0_0) : (⟨S1000000x10, .f32⟩ : BufTy).Contents (Elt F) → (⟨S1000000x5, .f32⟩ : BufTy).Contents (Elt F)),
    binary main_v222 main_v223 main_v224 ((fun a b => concatenate S1000000x10 1 [⟨S1000000x5, a⟩, ⟨S1000000x5, b⟩] concatenates_S1000000x5_S1000000x5_S1000000x10_d1) : (⟨S1000000x5, .f32⟩ : BufTy).Contents (Elt F) → (⟨S1000000x5, .f32⟩ : BufTy).Contents (Elt F) → (⟨S1000000x10, .f32⟩ : BufTy).Contents (Elt F)) ]

/-- The operations of part 4 of @main, in order. -/
abbrev ops4 : List (HloOp τ sig (Elt F)) :=
  [ reshape main_v224 main_v225 rfl shapeCasts_S1000000x10_S10000000,
    reshape main_arg1 main_v226 rfl shapeCasts_S1000000x10_S10000000,
    nullary main_cst_13 (constant S_ .f32 0x00000000#32),
    unary main_cst_13 main_v227 (broadcastInDim S100000 ![] bcast_S_S100000 : (⟨S_, .f32⟩ : BufTy).Contents (Elt F) → (⟨S100000, .f32⟩ : BufTy).Contents (Elt F)),
    unary main_v226 main_v228 (broadcastInDim S10000000x1 ![0] bcast_S10000000_S10000000x1_0 : (⟨S10000000, .i32⟩ : BufTy).Contents (Elt F) → (⟨S10000000x1, .i32⟩ : BufTy).Contents (Elt F)),
    ternary main_v227 main_v228 main_v225 main_v229 ((fun x i u => Host.scatterAdd scatter_S100000_S10000000x1_S10000000_n_0_0_1 x i u) : (⟨S100000, .f32⟩ : BufTy).Contents (Elt F) → (⟨S10000000x1, .i32⟩ : BufTy).Contents (Elt F) → (⟨S10000000, .f32⟩ : BufTy).Contents (Elt F) → (⟨S100000, .f32⟩ : BufTy).Contents (Elt F)),
    nullary main_cst_14 (constant S_ .f32 0x3F800000#32),
    unary main_cst_14 main_v230 (broadcastInDim S10000000 ![] bcast_S_S10000000 : (⟨S_, .f32⟩ : BufTy).Contents (Elt F) → (⟨S10000000, .f32⟩ : BufTy).Contents (Elt F)),
    nullary main_cst_15 (constant S_ .f32 0x00000000#32),
    unary main_cst_15 main_v231 (broadcastInDim S100000 ![] bcast_S_S100000 : (⟨S_, .f32⟩ : BufTy).Contents (Elt F) → (⟨S100000, .f32⟩ : BufTy).Contents (Elt F)),
    unary main_v226 main_v232 (broadcastInDim S10000000x1 ![0] bcast_S10000000_S10000000x1_0 : (⟨S10000000, .i32⟩ : BufTy).Contents (Elt F) → (⟨S10000000x1, .i32⟩ : BufTy).Contents (Elt F)),
    ternary main_v231 main_v232 main_v230 main_v233 ((fun x i u => Host.scatterAdd scatter_S100000_S10000000x1_S10000000_n_0_0_1 x i u) : (⟨S100000, .f32⟩ : BufTy).Contents (Elt F) → (⟨S10000000x1, .i32⟩ : BufTy).Contents (Elt F) → (⟨S10000000, .f32⟩ : BufTy).Contents (Elt F) → (⟨S100000, .f32⟩ : BufTy).Contents (Elt F)),
    nullary main_cst_16 (constant S_ .f32 0xFF800000#32),
    binary main_v233 main_cst_16 main_v234 ((fun x v => Host.reduce FloatOps.maximumf x v reducesTo_S100000_S_d0 h_S_) : (⟨S100000, .f32⟩ : BufTy).Contents (Elt F) → (⟨S_, .f32⟩ : BufTy).Contents (Elt F) → (⟨S_, .f32⟩ : BufTy).Contents (Elt F)),
    nullary main_cst_17 (constant S_ .f32 0x40000000#32),
    binary main_v234 main_cst_17 main_v235 (Host.divf : (⟨S_, .f32⟩ : BufTy).Contents (Elt F) → (⟨S_, .f32⟩ : BufTy).Contents (Elt F) → (⟨S_, .f32⟩ : BufTy).Contents (Elt F)),
    unary main_v235 main_v236 (broadcastInDim S100000 ![] bcast_S_S100000 : (⟨S_, .f32⟩ : BufTy).Contents (Elt F) → (⟨S100000, .f32⟩ : BufTy).Contents (Elt F)),
    binary main_v229 main_v236 main_v237 (Host.divf : (⟨S100000, .f32⟩ : BufTy).Contents (Elt F) → (⟨S100000, .f32⟩ : BufTy).Contents (Elt F) → (⟨S100000, .f32⟩ : BufTy).Contents (Elt F)),
    unary main_v237 main_v238 (broadcastInDim S100000x1 ![0] bcast_S100000_S100000x1_0 : (⟨S100000, .f32⟩ : BufTy).Contents (Elt F) → (⟨S100000x1, .f32⟩ : BufTy).Contents (Elt F)),
    binary main_arg0 main_v238 main_v239 (addf : (⟨S100000x1, .f32⟩ : BufTy).Contents (Elt F) → (⟨S100000x1, .f32⟩ : BufTy).Contents (Elt F) → (⟨S100000x1, .f32⟩ : BufTy).Contents (Elt F)),
    nullary main_cst_18 (constant S_ .f32 0x00000000#32),
    binary main_v239 main_cst_18 main_v240 ((fun x v => Host.reduceAdd x v reducesTo_S100000x1_S_d0_1 h_S_) : (⟨S100000x1, .f32⟩ : BufTy).Contents (Elt F) → (⟨S_, .f32⟩ : BufTy).Contents (Elt F) → (⟨S_, .f32⟩ : BufTy).Contents (Elt F)),
    nullary main_cst_19 (constant S_ .f32 0x47C35000#32),
    binary main_v240 main_cst_19 main_v241 (Host.divf : (⟨S_, .f32⟩ : BufTy).Contents (Elt F) → (⟨S_, .f32⟩ : BufTy).Contents (Elt F) → (⟨S_, .f32⟩ : BufTy).Contents (Elt F)),
    unary main_v241 main_v242 (broadcastInDim S100000x1 ![] bcast_S_S100000x1 : (⟨S_, .f32⟩ : BufTy).Contents (Elt F) → (⟨S100000x1, .f32⟩ : BufTy).Contents (Elt F)),
    binary main_v239 main_v242 main_v243 (subf : (⟨S100000x1, .f32⟩ : BufTy).Contents (Elt F) → (⟨S100000x1, .f32⟩ : BufTy).Contents (Elt F) → (⟨S100000x1, .f32⟩ : BufTy).Contents (Elt F)),
    TRef.binary (TRef.of (T := ⟨S100000x1, .f32⟩) main_v243) (TRef.of (T := ⟨S100000x1, .f32⟩) main_v243) (TRef.of (T := ⟨S100000x1, .f32⟩) main_call16_v0) mulf,
    TRef.nullary (TRef.of (T := ⟨S_, .f32⟩) main_call16_cst) (constant S_ .f32 0x00000000#32),
    TRef.binary (TRef.of (T := ⟨S100000x1, .f32⟩) main_call16_v0) (TRef.of (T := ⟨S_, .f32⟩) main_call16_cst) (TRef.of (T := ⟨S1, .f32⟩) main_call16_v1) (fun x v => Host.reduceAdd x v reducesTo_S100000x1_S1_d0 h_S_),
    TRef.unary (TRef.of (T := ⟨S1, .f32⟩) main_call16_v1) (TRef.of (T := ⟨S1, .f32⟩) main_v244) Host.sqrt,
    unary main_v244 main_v245 (broadcastInDim S1x1 ![1] bcast_S1_S1x1_1 : (⟨S1, .f32⟩ : BufTy).Contents (Elt F) → (⟨S1x1, .f32⟩ : BufTy).Contents (Elt F)),
    unary main_v245 main_v246 (broadcastInDim S100000x1 ![0, 1] bcast_S1x1_S100000x1_0_1 : (⟨S1x1, .f32⟩ : BufTy).Contents (Elt F) → (⟨S100000x1, .f32⟩ : BufTy).Contents (Elt F)),
    binary main_v243 main_v246 main_v247 (Host.divf : (⟨S100000x1, .f32⟩ : BufTy).Contents (Elt F) → (⟨S100000x1, .f32⟩ : BufTy).Contents (Elt F) → (⟨S100000x1, .f32⟩ : BufTy).Contents (Elt F)) ]

/-- All of @main's operations, in order. -/
abbrev ops : List (HloOp τ sig (Elt F)) := ops0 ++ (ops1 ++ (ops2 ++ (ops3 ++ ops4)))

theorem part0_eq (c : Dev nD) : main_part0 (F := F) c = seq ops0 := rfl
theorem part1_eq (c : Dev nD) : main_part1 (F := F) c = seq ops1 := rfl
theorem part2_eq (c : Dev nD) : main_part2 (F := F) c = seq ops2 := rfl
theorem part3_eq (c : Dev nD) : main_part3 (F := F) c = seq ops3 := rfl
theorem part4_eq (c : Dev nD) : main_part4 (F := F) c = seq ops4 := rfl

/-- @main is the line of all its operations. -/
theorem main_eq (c : Dev nD) : main (F := F) c = seq ops := by
  show (main_part0 (F := F) c >>= fun _ => main_part1 (F := F) c >>= fun _ => main_part2 (F := F) c >>= fun _ =>
    main_part3 (F := F) c >>= fun _ => main_part4 (F := F) c) = _
  rw [part0_eq, part1_eq, part2_eq, part3_eq, part4_eq, seq_append, seq_append, seq_append, seq_append]

theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub ..⟩
theorem ops0_fresh : ∀ op ∈ (ops0 : List (HloOp τ sig (Elt F))), op.fresh = ∅ := by
  intro _ h; (repeat (cases h with | head => rfl | tail _ h => ?_)); exact nomatch h
theorem ops1_sub : (ops1 : List (HloOp τ sig (Elt F))).Forall fun op => op.bufs ⊆ tcRefs τ sig :=
  ⟨binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub ..⟩
theorem ops1_fresh : ∀ op ∈ (ops1 : List (HloOp τ sig (Elt F))), op.fresh = ∅ := by
  intro _ h; (repeat (cases h with | head => rfl | tail _ h => ?_)); exact nomatch h
theorem ops2_sub : (ops2 : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub ..⟩
theorem ops2_fresh : ∀ op ∈ (ops2 : List (HloOp τ sig (Elt F))), op.fresh = ∅ := by
  intro _ h; (repeat (cases h with | head => rfl | tail _ h => ?_)); exact nomatch h
theorem ops3_sub : (ops3 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., binary_bufs_sub ..⟩
theorem ops3_fresh : ∀ op ∈ (ops3 : List (HloOp τ sig (Elt F))), op.fresh = ∅ := by
  intro _ h; (repeat (cases h with | head => rfl | tail _ h => ?_)); exact nomatch h
theorem ops4_sub : (ops4 : List (HloOp τ sig (Elt F))).Forall fun op => op.bufs ⊆ tcRefs τ sig :=
  ⟨reshape_bufs_sub .., reshape_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., binary_bufs_sub .., nullary_bufs_sub .., binary_bufs_sub .., unary_bufs_sub .., binary_bufs_sub .., unary_bufs_sub .., binary_bufs_sub .., nullary_bufs_sub .., binary_bufs_sub .., nullary_bufs_sub .., binary_bufs_sub .., unary_bufs_sub .., binary_bufs_sub .., binary_bufs_sub .., nullary_bufs_sub .., binary_bufs_sub .., unary_bufs_sub .., unary_bufs_sub .., unary_bufs_sub .., binary_bufs_sub ..⟩
theorem ops4_fresh : ∀ op ∈ (ops4 : List (HloOp τ sig (Elt F))), op.fresh = ∅ := by
  intro _ h; (repeat (cases h with | head => rfl | tail _ h => ?_)); exact nomatch h

/-- Every operation touches TensorCore buffers only. -/
theorem ops_sub : (ops : List (HloOp τ sig (Elt F))).Forall fun op => op.bufs ⊆ tcRefs τ sig := by
  rw [List.forall_iff_forall_mem]
  intro op h
  simp only [List.mem_append] at h
  rcases h with h | h | h | h | h
  · exact (List.forall_iff_forall_mem.mp ops0_sub) op h
  · exact (List.forall_iff_forall_mem.mp ops1_sub) op h
  · exact (List.forall_iff_forall_mem.mp ops2_sub) op h
  · exact (List.forall_iff_forall_mem.mp ops3_sub) op h
  · exact (List.forall_iff_forall_mem.mp ops4_sub) op h

/-- Every operation determines its results. -/
theorem ops_fresh : ∀ op ∈ (ops : List (HloOp τ sig (Elt F))), op.fresh = ∅ := by
  intro op h
  simp only [List.mem_append] at h
  rcases h with h | h | h | h | h
  · exact ops0_fresh op h
  · exact ops1_fresh op h
  · exact ops2_fresh op h
  · exact ops3_fresh op h
  · exact ops4_fresh op h

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefOps

end
-- ==== Proof.LibReadBack.lean ====
/-
  A single-assignment line of host operations read back one operation at a time.

  A line of host operations in which every operation writes one buffer of its own, listed at its position (`WritesAt`),
  leaves in each buffer what the operation writing it computed from what ITS operands held at that point — and an operand
  not written from that point on still holds the same at the end. So at the end of the line (and after any further
  computation `G` that leaves the buffers in question alone) the contents satisfy one equation per operation,
  `result = f (operand₁) (operand₂) …`, every buffer read at the END: `read0` … `read3`, `readReshape`, and
  `read_result` / `read_operand` for an operation of any other form. Such equations compose by rewriting, with no fold
  in sight.

  General in the topology, the reference signature and the element values.
-/
import Idealize.ShloMosaic.Lib.StableHlo.Run
import Idealize.ShloMosaic.Lib.Pipeline.Frame
import Mathlib.Data.List.Forall2

namespace Cert.ReadBack

open Idealize.ShloMosaic Idealize.ShloMosaic.StableHlo

variable {τ : Topo} {sig : RefSig} {Val : EltTy → Type}

/-- Each operation of `l` writes exactly the buffer `W` lists at its position. -/
abbrev WritesAt (l : List (HloOp τ sig Val)) (W : List (Ref sig .tc)) : Prop :=
  List.Forall₂ (fun op w => op.writes = {Proc.devRef (τ := τ) .tc w}) l W

/-- A buffer not listed is written by no operation. -/
theorem WritesAt.not_mem {l : List (HloOp τ sig Val)} {W : List (Ref sig .tc)} (h : WritesAt l W) {r : Ref sig .tc}
    (hr : r ∉ W) : ∀ op ∈ l, Proc.devRef (τ := τ) .tc r ∉ op.writes := by
  induction h with
  | nil => intro op hop; cases hop
  | cons hw _ ih =>
    intro op hop
    rcases List.mem_cons.mp hop with rfl | hop
    · rw [hw, Finset.mem_singleton]
      exact devRef_ne_of_ne fun e => hr (e ▸ List.mem_cons_self)
    · exact ih (fun hm => hr (List.mem_cons_of_mem _ hm)) op hop

/-- A buffer not listed keeps its contents through the line. -/
theorem WritesAt.keep {l : List (HloOp τ sig Val)} {W : List (Ref sig .tc)} (h : WritesAt l W) {r : Ref sig .tc}
    (hr : r ∉ W) (V : Valuation τ sig Val) : after l V (Proc.devRef .tc r) = V (Proc.devRef .tc r) :=
  after_of_forall_not_mem l V (WritesAt.not_mem h hr)

/-- A buffer not written from position `j` on holds at the end what it held after the first `j` operations. -/
theorem WritesAt.after_take {l : List (HloOp τ sig Val)} {W : List (Ref sig .tc)} (h : WritesAt l W) (j : Nat)
    (V : Valuation τ sig Val) {r : Ref sig .tc} (hr : r ∉ W.drop j) :
    after l V (Proc.devRef .tc r) = after (l.take j) V (Proc.devRef .tc r) := by
  conv_lhs => rw [← List.take_append_drop j l, StableHlo.after_append]
  exact WritesAt.keep (List.forall₂_drop j h) hr _

/-- A buffer not written after position `j` holds at the end what the operation at `j` left in it. -/
theorem WritesAt.after_at {l : List (HloOp τ sig Val)} {W : List (Ref sig .tc)} (h : WritesAt l W) (j : Nat)
    (op : HloOp τ sig Val) (hop : l[j]? = some op) (V : Valuation τ sig Val) {r : Ref sig .tc} (hr : r ∉ W.drop (j + 1)) :
    after l V (Proc.devRef .tc r) = op.result (after (l.take j) V) (Proc.devRef .tc r) := by
  rw [WritesAt.after_take h (j + 1) V hr, List.take_succ, hop, Option.toList_some, StableHlo.after_append]
  rfl

section Read

variable {l : List (HloOp τ sig Val)} {W : List (Ref sig .tc)} (h : WritesAt l W)
  (G : Valuation τ sig Val → Valuation τ sig Val) (W' : List (Ref sig .tc))
  (hG : ∀ (X : Valuation τ sig Val) (r : Ref sig .tc), r ∉ W' → G X (Proc.devRef .tc r) = X (Proc.devRef .tc r))
  (j : Nat) (V : Valuation τ sig Val)

include h hG

/-- After the line and `G`: the result buffer of the operation at `j` holds what that operation left in it. -/
theorem read_result (op : HloOp τ sig Val) (hop : l[j]? = some op) {y : Ref sig .tc} (ny : y ∉ W.drop (j + 1) ++ W') :
    G (after l V) (Proc.devRef .tc y) = op.result (after (l.take j) V) (Proc.devRef .tc y) :=
  (hG _ y fun hm => ny (List.mem_append.mpr (Or.inr hm))).trans
    (WritesAt.after_at h j op hop V fun hm => ny (List.mem_append.mpr (Or.inl hm)))

/-- After the line and `G`: a buffer not written from `j` on holds what the operation at `j` read in it. -/
theorem read_operand {a : Ref sig .tc} (na : a ∉ W.drop j ++ W') :
    G (after l V) (Proc.devRef .tc a) = after (l.take j) V (Proc.devRef .tc a) :=
  (hG _ a fun hm => na (List.mem_append.mpr (Or.inr hm))).trans
    (WritesAt.after_take h j V fun hm => na (List.mem_append.mpr (Or.inl hm)))

theorem read0 (y : Ref sig .tc) (v : y.ty.Contents Val) (hy) (hop : l[j]? = some (nullary y v hy))
    (ny : y ∉ W.drop (j + 1) ++ W') : G (after l V) (Proc.devRef .tc y) = v :=
  (read_result h G W' hG j V _ hop ny).trans (nullary_result y v hy _)

theorem read1 (x y : Ref sig .tc) (f : x.ty.Contents Val → y.ty.Contents Val) (hx hy) (hop : l[j]? = some (unary x y f hx hy))
    (ny : y ∉ W.drop (j + 1) ++ W') (nx : x ∉ W.drop j ++ W') :
    G (after l V) (Proc.devRef .tc y) = f (G (after l V) (Proc.devRef .tc x)) := by
  rw [read_operand h G W' hG j V nx]
  exact (read_result h G W' hG j V _ hop ny).trans (unary_result x y f hx hy _)

theorem read2 (a b y : Ref sig .tc) (f : a.ty.Contents Val → b.ty.Contents Val → y.ty.Contents Val) (ha hb hy)
    (hop : l[j]? = some (binary a b y f ha hb hy))
    (ny : y ∉ W.drop (j + 1) ++ W') (na : a ∉ W.drop j ++ W') (nb : b ∉ W.drop j ++ W') :
    G (after l V) (Proc.devRef .tc y) = f (G (after l V) (Proc.devRef .tc a)) (G (after l V) (Proc.devRef .tc b)) := by
  rw [read_operand h G W' hG j V na, read_operand h G W' hG j V nb]
  exact (read_result h G W' hG j V _ hop ny).trans (binary_result a b y f ha hb hy _)

theorem read3 (c a b y : Ref sig .tc) (f : c.ty.Contents Val → a.ty.Contents Val → b.ty.Contents Val → y.ty.Contents Val)
    (hc ha hb hy) (hop : l[j]? = some (ternary c a b y f hc ha hb hy))
    (ny : y ∉ W.drop (j + 1) ++ W') (nc : c ∉ W.drop j ++ W') (na : a ∉ W.drop j ++ W') (nb : b ∉ W.drop j ++ W') :
    G (after l V) (Proc.devRef .tc y)
      = f (G (after l V) (Proc.devRef .tc c)) (G (after l V) (Proc.devRef .tc a)) (G (after l V) (Proc.devRef .tc b)) := by
  rw [read_operand h G W' hG j V nc, read_operand h G W' hG j V na, read_operand h G W' hG j V nb]
  exact (read_result h G W' hG j V _ hop ny).trans (ternary_result c a b y f hc ha hb hy _)

theorem readReshape (x y : Ref sig .tc) (he hn hx hy) (hop : l[j]? = some (reshape (Val := Val) x y he hn hx hy))
    (ny : y ∉ W.drop (j + 1) ++ W') (nx : x ∉ W.drop j ++ W') :
    G (after l V) (Proc.devRef .tc y) = fun i => he ▸ shapeCast y.ty.shape (G (after l V) (Proc.devRef .tc x)) hn i := by
  rw [read_operand h G W' hG j V nx]
  exact (read_result h G W' hG j V _ hop ny).trans (reshape_result x y he hn hx hy _)

end Read

end Cert.ReadBack
-- ==== Proof.LibReadEnd.lean ====
/-
  Host operations read back against an END valuation.

  A program's host operations come in lines; after a line, later lines and kernel regions may run, each rewriting
  buffers of its own. Let `E` be the contents at the very end, and suppose `E` agrees with the contents right after
  the line `l` (run from `V`) on every buffer outside a list `later` — the buffers anything after the line writes.
  Then every operation of `l` whose result and operands are written neither later in `l` nor in `later` satisfies
  its defining equation with EVERY buffer read at the end: `E y = f (E a) (E b)`. Equations of this form, for two
  programs, compose by rewriting: equal operations of equal operands have equal results.

  Side conditions of the form `a ∉ L` over long literal lists are meant to be discharged through `nk` (numbers compared,
  not references).

  General in the topology, the reference signature and the element values.
-/
import proofs.«122336_j21646635172527_1_alg».proof.Proof.LibReadBack

namespace Cert.ReadEnd

open Idealize.ShloMosaic Idealize.ShloMosaic.StableHlo Cert.ReadBack

variable {τ : Topo} {sig : RefSig} {Val : EltTy → Type}

/-- The number a buffer reference carries within its memory space. -/
abbrev key (r : Ref sig .tc) : Nat := r.idx.val

/-- A reference whose number is not among the listed references' numbers is not listed: non-membership in a long list
    of references decided on numerals alone. -/
theorem nk {a : Ref sig .tc} {L : List (Ref sig .tc)} (h : key a ∉ L.map key) : a ∉ L :=
  fun hm => h (List.mem_map.mpr ⟨a, hm, rfl⟩)

section

variable {l : List (HloOp τ sig Val)} {W : List (Ref sig .tc)} (h : WritesAt l W)
  (V E : Valuation τ sig Val) (later : List (Ref sig .tc))
  (T : ∀ r : Ref sig .tc, r ∉ later → E (Proc.devRef .tc r) = after l V (Proc.devRef .tc r))
  (j : Nat)

include h T

private theorem notIn_nil {r : Ref sig .tc} {L : List (Ref sig .tc)} (hr : r ∉ L ++ later) : r ∉ L ++ [] := by
  simpa using fun hm => hr (List.mem_append.mpr (Or.inl hm))

private theorem notIn_later {r : Ref sig .tc} {L : List (Ref sig .tc)} (hr : r ∉ L ++ later) : r ∉ later :=
  fun hm => hr (List.mem_append.mpr (Or.inr hm))

/-- A constant: at the end its buffer holds the constant. -/
theorem end0 (y : Ref sig .tc) (v : y.ty.Contents Val) (hy) (hop : l[j]? = some (nullary y v hy))
    (ny : y ∉ W.drop (j + 1) ++ later) : E (Proc.devRef .tc y) = v := by
  rw [T y (notIn_later h V E later T ny)]
  exact read0 h id [] (fun _ _ _ => rfl) j V y v hy hop (notIn_nil h V E later T ny)

/-- A one-operand operation: at the end its result is the function of its operand at the end. -/
theorem end1 (x y : Ref sig .tc) (f : x.ty.Contents Val → y.ty.Contents Val) (hx hy)
    (hop : l[j]? = some (unary x y f hx hy))
    (ny : y ∉ W.drop (j + 1) ++ later) (nx : x ∉ W.drop j ++ later) :
    E (Proc.devRef .tc y) = f (E (Proc.devRef .tc x)) := by
  rw [T y (notIn_later h V E later T ny), T x (notIn_later h V E later T nx)]
  exact read1 h id [] (fun _ _ _ => rfl) j V x y f hx hy hop (notIn_nil h V E later T ny) (notIn_nil h V E later T nx)

/-- A two-operand operation read at the end. -/
theorem end2 (a b y : Ref sig .tc) (f : a.ty.Contents Val → b.ty.Contents Val → y.ty.Contents Val) (ha hb hy)
    (hop : l[j]? = some (binary a b y f ha hb hy))
    (ny : y ∉ W.drop (j + 1) ++ later) (na : a ∉ W.drop j ++ later) (nb : b ∉ W.drop j ++ later) :
    E (Proc.devRef .tc y) = f (E (Proc.devRef .tc a)) (E (Proc.devRef .tc b)) := by
  rw [T y (notIn_later h V E later T ny), T a (notIn_later h V E later T na), T b (notIn_later h V E later T nb)]
  exact read2 h id [] (fun _ _ _ => rfl) j V a b y f ha hb hy hop (notIn_nil h V E later T ny)
    (notIn_nil h V E later T na) (notIn_nil h V E later T nb)

/-- A three-operand operation read at the end. -/
theorem end3 (c a b y : Ref sig .tc)
    (f : c.ty.Contents Val → a.ty.Contents Val → b.ty.Contents Val → y.ty.Contents Val) (hc ha hb hy)
    (hop : l[j]? = some (ternary c a b y f hc ha hb hy))
    (ny : y ∉ W.drop (j + 1) ++ later) (nc : c ∉ W.drop j ++ later) (na : a ∉ W.drop j ++ later)
    (nb : b ∉ W.drop j ++ later) :
    E (Proc.devRef .tc y) = f (E (Proc.devRef .tc c)) (E (Proc.devRef .tc a)) (E (Proc.devRef .tc b)) := by
  rw [T y (notIn_later h V E later T ny), T c (notIn_later h V E later T nc), T a (notIn_later h V E later T na),
    T b (notIn_later h V E later T nb)]
  exact read3 h id [] (fun _ _ _ => rfl) j V c a b y f hc ha hb hy hop (notIn_nil h V E later T ny)
    (notIn_nil h V E later T nc) (notIn_nil h V E later T na) (notIn_nil h V E later T nb)

/-- A reshape read at the end: the operand's contents re-indexed. -/
theorem endReshape (x y : Ref sig .tc) (he hn hx hy) (hop : l[j]? = some (reshape (Val := Val) x y he hn hx hy))
    (ny : y ∉ W.drop (j + 1) ++ later) (nx : x ∉ W.drop j ++ later) :
    E (Proc.devRef .tc y) = fun i => he ▸ shapeCast y.ty.shape (E (Proc.devRef .tc x)) hn i := by
  rw [T y (notIn_later h V E later T ny), T x (notIn_later h V E later T nx)]
  exact readReshape h id [] (fun _ _ _ => rfl) j V x y he hn hx hy hop (notIn_nil h V E later T ny)
    (notIn_nil h V E later T nx)

end

end Cert.ReadEnd
-- ==== Proof.RefRun.lean ====
/-
  The reference program's run, read back one operation at a time.

  The reference is a straight line of 305 host operations, each writing a buffer of its own once. So in the contents `E` at
  the end of the line every operation's equation holds with every buffer read at the end — `E y = f (E a) (E b)` — and the
  arguments still hold what they were launched with. Going down the line, each buffer's end contents are the stage of the
  same name as a function of the arguments: for the result buffer that is the stage `val_main_v247`, the whole program as a
  function of its fifteen arguments. Every weakly fair execution terminates in those contents.
-/
import proofs.«122336_j21646635172527_1_alg».proof.Proof.RefOps
import proofs.«122336_j21646635172527_1_alg».proof.Proof.ReadP
import proofs.«122336_j21646635172527_1_alg».proof.Proof.LibReadBack
import proofs.«122336_j21646635172527_1_alg».proof.Proof.LibReadEnd

set_option maxRecDepth 16384

noncomputable section

namespace Cert.ReferenceIdeal.RefRun

open Cert.ReferenceIdeal Cert.ReferenceIdeal.Gen Cert.ReferenceIdeal.RefOps Cert.ReferenceIdeal.Read Idealize.ShloMosaic
  Idealize.ShloMosaic.TcCoe Idealize.SL.Sem Idealize.ShloMosaic.StableHlo Cert.ReadBack Cert.ReadEnd

/-- The buffer each operation writes, in program order. -/
def written : List (Ref sig .tc) :=
  [main_c, main_v0, main_v1, main_c_0, main_v2, main_v3, main_v4, main_c_1, main_v5, main_v6, main_v7, main_v8, main_v9, main_v10, main_v11, main_v12, main_v13, main_v14, main_v15, main_v16, main_call0_cst, main_call0_v0, main_v17, main_v18, main_v19, main_v20, main_v21, main_v22, main_v23, main_v24, main_v25, main_v26, main_call1_cst, main_call1_v0, main_v27, main_v28, main_v29, main_v30, main_v31, main_v32, main_v33, main_v34, main_v35, main_v36, main_call2_cst, main_call2_v0, main_v37, main_v38, main_v39, main_v40, main_v41, main_v42, main_v43, main_v44, main_v45, main_v46, main_call3_cst, main_call3_v0, main_v47, main_v48, main_v49, main_v50, main_v51, main_v52, main_v53, main_v54, main_v55, main_v56, main_v57, main_call4_cst, main_call4_v0, main_v58, main_v59, main_v60, main_v61, main_v62, main_v63, main_v64, main_v65, main_v66, main_v67, main_call5_cst, main_call5_v0, main_v68, main_v69, main_v70, main_v71, main_v72, main_v73, main_v74, main_v75, main_v76, main_v77, main_call6_cst, main_call6_v0, main_v78, main_v79, main_v80, main_v81, main_v82, main_v83, main_v84, main_v85, main_v86, main_v87, main_call7_cst, main_call7_v0, main_v88, main_v89, main_v90, main_v91, main_v92, main_v93, main_v94, main_v95, main_v96, main_v97, main_v98, main_call8_cst, main_call8_v0, main_v99, main_v100, main_v101, main_v102, main_v103, main_v104, main_v105, main_v106, main_v107, main_v108, main_call9_cst, main_call9_v0, main_v109, main_v110, main_v111, main_v112, main_v113, main_v114, main_v115, main_v116, main_v117, main_v118, main_call10_cst, main_call10_v0, main_v119, main_v120, main_v121, main_v122, main_v123, main_v124, main_v125, main_v126, main_v127, main_v128, main_call11_cst, main_call11_v0, main_v129, main_v130, main_v131, main_v132, main_v133, main_v134, main_v135, main_v136, main_v137, main_v138, main_v139, main_call12_cst, main_call12_v0, main_v140, main_v141, main_v142, main_v143, main_v144, main_v145, main_v146, main_v147, main_v148, main_v149, main_call13_cst, main_call13_v0, main_v150, main_v151, main_v152, main_v153, main_v154, main_v155, main_v156, main_v157, main_v158, main_v159, main_call14_cst, main_call14_v0, main_v160, main_v161, main_v162, main_v163, main_v164, main_v165, main_v166, main_v167, main_v168, main_v169, main_call15_cst, main_call15_v0, main_v170, main_v171, main_v172, main_v173, main_v174, main_v175, main_cst, main_v176, main_v177, main_cst_2, main_v178, main_v179, main_v180, main_v181, main_v182, main_cst_3, main_v183, main_v184, main_cst_4, main_v185, main_v186, main_v187, main_v188, main_cst_5, main_v189, main_v190, main_v191, main_v192, main_v193, main_cst_6, main_v194, main_v195, main_cst_7, main_v196, main_v197, main_v198, main_v199, main_v200, main_cst_8, main_v201, main_v202, main_v203, main_v204, main_v205, main_cst_9, main_v206, main_v207, main_cst_10, main_v208, main_v209, main_v210, main_v211, main_v212, main_v213, main_v214, main_cst_11, main_v215, main_v216, main_cst_12, main_v217, main_v218, main_v219, main_v220, main_v221, main_v222, main_v223, main_v224, main_v225, main_v226, main_cst_13, main_v227, main_v228, main_v229, main_cst_14, main_v230, main_cst_15, main_v231, main_v232, main_v233, main_cst_16, main_v234, main_cst_17, main_v235, main_v236, main_v237, main_v238, main_v239, main_cst_18, main_v240, main_cst_19, main_v241, main_v242, main_v243, main_call16_v0, main_call16_cst, main_call16_v1, main_v244, main_v245, main_v246, main_v247]

/-- Operation `j` writes exactly buffer `j` of the list. -/
theorem writesAt : WritesAt (ops (F := Ideal)) written :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))

variable (m : (ℓ : Loc nD τ sig) → Buf (Elt Ideal) ℓ) (c : Dev nD)

/-- The contents at the end of the line. -/
abbrev E : Valuation τ sig (Elt Ideal) := after (ops (F := Ideal)) (launchContents m c)

/-! ## The arguments are never written -/
theorem E_main_arg0 : E m c (Proc.devRef .tc main_arg0) = m ((c.tc : Thread nD τ).loc main_arg0) :=
  WritesAt.keep writesAt (nk (by decide +kernel)) _
theorem E_main_arg1 : E m c (Proc.devRef .tc main_arg1) = m ((c.tc : Thread nD τ).loc main_arg1) :=
  WritesAt.keep writesAt (nk (by decide +kernel)) _
theorem E_main_arg2 : E m c (Proc.devRef .tc main_arg2) = m ((c.tc : Thread nD τ).loc main_arg2) :=
  WritesAt.keep writesAt (nk (by decide +kernel)) _
theorem E_main_arg3 : E m c (Proc.devRef .tc main_arg3) = m ((c.tc : Thread nD τ).loc main_arg3) :=
  WritesAt.keep writesAt (nk (by decide +kernel)) _
theorem E_main_arg4 : E m c (Proc.devRef .tc main_arg4) = m ((c.tc : Thread nD τ).loc main_arg4) :=
  WritesAt.keep writesAt (nk (by decide +kernel)) _
theorem E_main_arg5 : E m c (Proc.devRef .tc main_arg5) = m ((c.tc : Thread nD τ).loc main_arg5) :=
  WritesAt.keep writesAt (nk (by decide +kernel)) _
theorem E_main_arg6 : E m c (Proc.devRef .tc main_arg6) = m ((c.tc : Thread nD τ).loc main_arg6) :=
  WritesAt.keep writesAt (nk (by decide +kernel)) _
theorem E_main_arg7 : E m c (Proc.devRef .tc main_arg7) = m ((c.tc : Thread nD τ).loc main_arg7) :=
  WritesAt.keep writesAt (nk (by decide +kernel)) _
theorem E_main_arg8 : E m c (Proc.devRef .tc main_arg8) = m ((c.tc : Thread nD τ).loc main_arg8) :=
  WritesAt.keep writesAt (nk (by decide +kernel)) _
theorem E_main_arg9 : E m c (Proc.devRef .tc main_arg9) = m ((c.tc : Thread nD τ).loc main_arg9) :=
  WritesAt.keep writesAt (nk (by decide +kernel)) _
theorem E_main_arg10 : E m c (Proc.devRef .tc main_arg10) = m ((c.tc : Thread nD τ).loc main_arg10) :=
  WritesAt.keep writesAt (nk (by decide +kernel)) _
theorem E_main_arg11 : E m c (Proc.devRef .tc main_arg11) = m ((c.tc : Thread nD τ).loc main_arg11) :=
  WritesAt.keep writesAt (nk (by decide +kernel)) _
theorem E_main_arg12 : E m c (Proc.devRef .tc main_arg12) = m ((c.tc : Thread nD τ).loc main_arg12) :=
  WritesAt.keep writesAt (nk (by decide +kernel)) _
theorem E_main_arg13 : E m c (Proc.devRef .tc main_arg13) = m ((c.tc : Thread nD τ).loc main_arg13) :=
  WritesAt.keep writesAt (nk (by decide +kernel)) _
theorem E_main_arg14 : E m c (Proc.devRef .tc main_arg14) = m ((c.tc : Thread nD τ).loc main_arg14) :=
  WritesAt.keep writesAt (nk (by decide +kernel)) _

/-! ## Down the line: each buffer's end contents are its stage -/
theorem E_main_c : E m c (Proc.devRef .tc main_c) = val_main_c (F := Ideal) := by
  have h := end0 writesAt (launchContents m c) (E m c) [] (fun _ _ => rfl) 0 _ _ _ rfl (nk (by decide +kernel))
  exact h

theorem E_main_v0 : E m c (Proc.devRef .tc main_v0) = val_main_v0 (F := Ideal) := by
  have h := end1 writesAt (launchContents m c) (E m c) [] (fun _ _ => rfl) 1 _ _ _ _ _ rfl (nk (by decide +kernel)) (nk (by decide +kernel))
  rw [E_main_c m c] at h
  exact h

theorem E_main_v1 : E m c (Proc.devRef .tc main_v1) = val_main_v1 (F := Ideal) (m ((c.tc : Thread nD τ).loc main_arg1)) := by
  have h := end2 writesAt (launchContents m c) (E m c) [] (fun _ _ => rfl) 2 _ _ _ _ _ _ _ rfl (nk (by decide +kernel)) (nk (by decide +kernel)) (nk (by decide +kernel))
  rw [E_main_arg1 m c, E_main_v0 m c] at h
  exact h

theorem E_main_c_0 : E m c (Proc.devRef .tc main_c_0) = val_main_c_0 (F := Ideal) := by
  have h := end0 writesAt (launchContents m c) (E m c) [] (fun _ _ => rfl) 3 _ _ _ rfl (nk (by decide +kernel))
  exact h

theorem E_main_v2 : E m c (Proc.devRef .tc main_v2) = val_main_v2 (F := Ideal) := by
  have h := end1 writesAt (launchContents m c) (E m c) [] (fun _ _ => rfl) 4 _ _ _ _ _ rfl (nk (by decide +kernel)) (nk (by decide +kernel))
  rw [E_main_c_0 m c] at h
  exact h

theorem E_main_v3 : E m c (Proc.devRef .tc main_v3) = val_main_v3 (F := Ideal) (m ((c.tc : Thread nD τ).loc main_arg1)) := by
  have h := end2 writesAt (launchContents m c) (E m c) [] (fun _ _ => rfl) 5 _ _ _ _ _ _ _ rfl (nk (by decide +kernel)) (nk (by decide +kernel)) (nk (by decide +kernel))
  rw [E_main_arg1 m c, E_main_v2 m c] at h
  exact h

theorem E_main_v4 : E m c (Proc.devRef .tc main_v4) = val_main_v4 (F := Ideal) (m ((c.tc : Thread nD τ).loc main_arg1)) := by
  have h := end3 writesAt (launchContents m c) (E m c) [] (fun _ _ => rfl) 6 _ _ _ _ _ _ _ _ _ rfl (nk (by decide +kernel)) (nk (by decide +kernel)) (nk (by decide +kernel)) (nk (by decide +kernel))
  rw [E_main_v1 m c, E_main_v3 m c, E_main_arg1 m c] at h
  exact h

theorem E_main_c_1 : E m c (Proc.devRef .tc main_c_1) = val_main_c_1 (F := Ideal) := by
  have h := end0 writesAt (launchContents m c) (E m c) [] (fun _ _ => rfl) 7 _ _ _ rfl (nk (by decide +kernel))
  exact h

theorem E_main_v5 : E m c (Proc.devRef .tc main_v5) = val_main_v5 (F := Ideal) := by
  have h := end1 writesAt (launchContents m c) (E m c) [] (fun _ _ => rfl) 8 _ _ _ _ _ rfl (nk (by decide +kernel)) (nk (by decide +kernel))
  rw [E_main_c_1 m c] at h
  exact h

theorem E_main_v6 : E m c (Proc.devRef .tc main_v6) = val_main_v6 (F := Ideal) := by
  have h := end1 writesAt (launchContents m c) (E m c) [] (fun _ _ => rfl) 9 _ _ _ _ _ rfl (nk (by decide +kernel)) (nk (by decide +kernel))
  rw [E_main_v5 m c] at h
  exact h

theorem E_main_v7 : E m c (Proc.devRef .tc main_v7) = val_main_v7 (F := Ideal) (m ((c.tc : Thread nD τ).loc main_arg1)) := by
  have h := end1 writesAt (launchContents m c) (E m c) [] (fun _ _ => rfl) 10 _ _ _ _ _ rfl (nk (by decide +kernel)) (nk (by decide +kernel))
  rw [E_main_v4 m c] at h
  exact h

theorem E_main_v8 : E m c (Proc.devRef .tc main_v8) = val_main_v8 (F := Ideal) := by
  have h := end1 writesAt (launchContents m c) (E m c) [] (fun _ _ => rfl) 11 _ _ _ _ _ rfl (nk (by decide +kernel)) (nk (by decide +kernel))
  rw [E_main_v6 m c] at h
  exact h

theorem E_main_v9 : E m c (Proc.devRef .tc main_v9) = val_main_v9 (F := Ideal) (m ((c.tc : Thread nD τ).loc main_arg1)) := by
  have h := end2 writesAt (launchContents m c) (E m c) [] (fun _ _ => rfl) 12 _ _ _ _ _ _ _ rfl (nk (by decide +kernel)) (nk (by decide +kernel)) (nk (by decide +kernel))
  rw [E_main_v7 m c, E_main_v8 m c] at h
  exact h

theorem E_main_v10 : E m c (Proc.devRef .tc main_v10) = val_main_v10 (F := Ideal) (m ((c.tc : Thread nD τ).loc main_arg0)) (m ((c.tc : Thread nD τ).loc main_arg1)) := by
  have h := end2 writesAt (launchContents m c) (E m c) [] (fun _ _ => rfl) 13 _ _ _ _ _ _ _ rfl (nk (by decide +kernel)) (nk (by decide +kernel)) (nk (by decide +kernel))
  rw [E_main_arg0 m c, E_main_v9 m c] at h
  exact h

theorem E_main_v11 : E m c (Proc.devRef .tc main_v11) = val_main_v11 (F := Ideal) (m ((c.tc : Thread nD τ).loc main_arg0)) (m ((c.tc : Thread nD τ).loc main_arg1)) := by
  have h := end1 writesAt (launchContents m c) (E m c) [] (fun _ _ => rfl) 14 _ _ _ _ _ rfl (nk (by decide +kernel)) (nk (by decide +kernel))
  rw [E_main_v10 m c] at h
  exact h

theorem E_main_v12 : E m c (Proc.devRef .tc main_v12) = val_main_v12 (F := Ideal) (m ((c.tc : Thread nD τ).loc main_arg3)) := by
  have h := end1 writesAt (launchContents m c) (E m c) [] (fun _ _ => rfl) 15 _ _ _ _ _ rfl (nk (by decide +kernel)) (nk (by decide +kernel))
  rw [E_main_arg3 m c] at h
  exact h

theorem E_main_v13 : E m c (Proc.devRef .tc main_v13) = val_main_v13 (F := Ideal) (m ((c.tc : Thread nD τ).loc main_arg0)) (m ((c.tc : Thread nD τ).loc main_arg1)) (m ((c.tc : Thread nD τ).loc main_arg3)) := by
  have h := end2 writesAt (launchContents m c) (E m c) [] (fun _ _ => rfl) 16 _ _ _ _ _ _ _ rfl (nk (by decide +kernel)) (nk (by decide +kernel)) (nk (by decide +kernel))
  rw [E_main_v10 m c, E_main_v12 m c] at h
  exact h

theorem E_main_v14 : E m c (Proc.devRef .tc main_v14) = val_main_v14 (F := Ideal) (m ((c.tc : Thread nD τ).loc main_arg4)) := by
  have h := end1 writesAt (launchContents m c) (E m c) [] (fun _ _ => rfl) 17 _ _ _ _ _ rfl (nk (by decide +kernel)) (nk (by decide +kernel))
  rw [E_main_arg4 m c] at h
  exact h

theorem E_main_v15 : E m c (Proc.devRef .tc main_v15) = val_main_v15 (F := Ideal) (m ((c.tc : Thread nD τ).loc main_arg4)) := by
  have h := end1 writesAt (launchContents m c) (E m c) [] (fun _ _ => rfl) 18 _ _ _ _ _ rfl (nk (by decide +kernel)) (nk (by decide +kernel))
  rw [E_main_v14 m c] at h
  exact h

theorem E_main_v16 : E m c (Proc.devRef .tc main_v16) = val_main_v16 (F := Ideal) (m ((c.tc : Thread nD τ).loc main_arg0)) (m ((c.tc : Thread nD τ).loc main_arg1)) (m ((c.tc : Thread nD τ).loc main_arg3)) (m ((c.tc : Thread nD τ).loc main_arg4)) := by
  have h := end2 writesAt (launchContents m c) (E m c) [] (fun _ _ => rfl) 19 _ _ _ _ _ _ _ rfl (nk (by decide +kernel)) (nk (by decide +kernel)) (nk (by decide +kernel))
  rw [E_main_v13 m c, E_main_v15 m c] at h
  exact h

theorem E_main_call0_cst : E m c (Proc.devRef .tc main_call0_cst) = val_main_call0_cst (F := Ideal) := by
  have h := end0 writesAt (launchContents m c) (E m c) [] (fun _ _ => rfl) 20 _ _ _ rfl (nk (by decide +kernel))
  exact h

theorem E_main_call0_v0 : E m c (Proc.devRef .tc main_call0_v0) = val_main_call0_v0 (F := Ideal) := by
  have h := end1 writesAt (launchContents m c) (E m c) [] (fun _ _ => rfl) 21 _ _ _ _ _ rfl (nk (by decide +kernel)) (nk (by decide +kernel))
  rw [E_main_call0_cst m c] at h
  exact h

theorem E_main_v17 : E m c (Proc.devRef .tc main_v17) = val_main_v17 (F := Ideal) (m ((c.tc : Thread nD τ).loc main_arg0)) (m ((c.tc : Thread nD τ).loc main_arg1)) (m ((c.tc : Thread nD τ).loc main_arg3)) (m ((c.tc : Thread nD τ).loc main_arg4)) := by
  have h := end2 writesAt (launchContents m c) (E m c) [] (fun _ _ => rfl) 22 _ _ _ _ _ _ _ rfl (nk (by decide +kernel)) (nk (by decide +kernel)) (nk (by decide +kernel))
  rw [E_main_v16 m c, E_main_call0_v0 m c] at h
  exact h

theorem E_main_v18 : E m c (Proc.devRef .tc main_v18) = val_main_v18 (F := Ideal) (m ((c.tc : Thread nD τ).loc main_arg5)) := by
  have h := end1 writesAt (launchContents m c) (E m c) [] (fun _ _ => rfl) 23 _ _ _ _ _ rfl (nk (by decide +kernel)) (nk (by decide +kernel))
  rw [E_main_arg5 m c] at h
  exact h

theorem E_main_v19 : E m c (Proc.devRef .tc main_v19) = val_main_v19 (F := Ideal) (m ((c.tc : Thread nD τ).loc main_arg5)) := by
  have h := endReshape writesAt (launchContents m c) (E m c) [] (fun _ _ => rfl) 24 _ _ _ _ _ _ rfl (nk (by decide +kernel)) (nk (by decide +kernel))
  rw [E_main_v18 m c] at h
  exact h

theorem E_main_v20 : E m c (Proc.devRef .tc main_v20) = val_main_v20 (F := Ideal) (m ((c.tc : Thread nD τ).loc main_arg5)) := by
  have h := end1 writesAt (launchContents m c) (E m c) [] (fun _ _ => rfl) 25 _ _ _ _ _ rfl (nk (by decide +kernel)) (nk (by decide +kernel))
  rw [E_main_v19 m c] at h
  exact h

theorem E_main_v21 : E m c (Proc.devRef .tc main_v21) = val_main_v21 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  have h := end2 writesAt (launchContents m c) (E m c) [] (fun _ _ => rfl) 26 _ _ _ _ _ _ _ rfl (nk (by decide +kernel)) (nk (by decide +kernel)) (nk (by decide +kernel))
  rw [E_main_v17 m c, E_main_v20 m c] at h
  exact h

theorem E_main_v22 : E m c (Proc.devRef .tc main_v22) = val_main_v22 (F := Ideal) (m ((c.tc : Thread nD τ).loc main_arg6)) := by
  have h := end1 writesAt (launchContents m c) (E m c) [] (fun _ _ => rfl) 27 _ _ _ _ _ rfl (nk (by decide +kernel)) (nk (by decide +kernel))
  rw [E_main_arg6 m c] at h
  exact h

theorem E_main_v23 : E m c (Proc.devRef .tc main_v23) = val_main_v23 (F := Ideal) (m ((c.tc : Thread nD τ).loc main_arg6)) := by
  have h := endReshape writesAt (launchContents m c) (E m c) [] (fun _ _ => rfl) 28 _ _ _ _ _ _ rfl (nk (by decide +kernel)) (nk (by decide +kernel))
  rw [E_main_v22 m c] at h
  exact h

theorem E_main_v24 : E m c (Proc.devRef .tc main_v24) = val_main_v24 (F := Ideal) (m ((c.tc : Thread nD τ).loc main_arg6)) := by
  have h := end1 writesAt (launchContents m c) (E m c) [] (fun _ _ => rfl) 29 _ _ _ _ _ rfl (nk (by decide +kernel)) (nk (by decide +kernel))
  rw [E_main_v23 m c] at h
  exact h

theorem E_main_v25 : E m c (Proc.devRef .tc main_v25) = val_main_v25 (F := Ideal) (m ((c.tc : Thread nD τ).loc main_arg6)) := by
  have h := end1 writesAt (launchContents m c) (E m c) [] (fun _ _ => rfl) 30 _ _ _ _ _ rfl (nk (by decide +kernel)) (nk (by decide +kernel))
  rw [E_main_v24 m c] at h
  exact h

theorem E_main_v26 : E m c (Proc.devRef .tc main_v26) = val_main_v26 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 31 _ _ _ _ _ _ _ rfl (nk (by decide +kernel)) (nk (by decide +kernel)) (nk (by decide +kernel))
  rw [E_main_v21 m c, E_main_v25 m c] at h
  exact h

theorem E_main_call1_cst : E m c (Proc.devRef .tc main_call1_cst) = val_main_call1_cst (F := Ideal) := by
  have h := end0 writesAt (launchContents m c) (E m c) [] (fun _ _ => rfl) 32 _ _ _ rfl (nk (by decide +kernel))
  exact h

theorem E_main_call1_v0 : E m c (Proc.devRef .tc main_call1_v0) = val_main_call1_v0 (F := Ideal) := by
  have h := end1 writesAt (launchContents m c) (E m c) [] (fun _ _ => rfl) 33 _ _ _ _ _ rfl (nk (by decide +kernel)) (nk (by decide +kernel))
  rw [E_main_call1_cst m c] at h
  exact h

theorem E_main_v27 : E m c (Proc.devRef .tc main_v27) = val_main_v27 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 34 _ _ _ _ _ _ _ rfl (nk (by decide +kernel)) (nk (by decide +kernel)) (nk (by decide +kernel))
  rw [E_main_v26 m c, E_main_call1_v0 m c] at h
  exact h

theorem E_main_v28 : E m c (Proc.devRef .tc main_v28) = val_main_v28 (F := Ideal) (m ((c.tc : Thread nD τ).loc main_arg5)) := by
  have h := end1 writesAt (launchContents m c) (E m c) [] (fun _ _ => rfl) 35 _ _ _ _ _ rfl (nk (by decide +kernel)) (nk (by decide +kernel))
  rw [E_main_arg5 m c] at h
  exact h

theorem E_main_v29 : E m c (Proc.devRef .tc main_v29) = val_main_v29 (F := Ideal) (m ((c.tc : Thread nD τ).loc main_arg5)) := by
  have h := endReshape writesAt (launchContents m c) (E m c) [] (fun _ _ => rfl) 36 _ _ _ _ _ _ rfl (nk (by decide +kernel)) (nk (by decide +kernel))
  rw [E_main_v28 m c] at h
  exact h

theorem E_main_v30 : E m c (Proc.devRef .tc main_v30) = val_main_v30 (F := Ideal) (m ((c.tc : Thread nD τ).loc main_arg5)) := by
  have h := end1 writesAt (launchContents m c) (E m c) [] (fun _ _ => rfl) 37 _ _ _ _ _ rfl (nk (by decide +kernel)) (nk (by decide +kernel))
  rw [E_main_v29 m c] at h
  exact h

theorem E_main_v31 : E m c (Proc.devRef .tc main_v31) = val_main_v31 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 38 _ _ _ _ _ _ _ rfl (nk (by decide +kernel)) (nk (by decide +kernel)) (nk (by decide +kernel))
  rw [E_main_v27 m c, E_main_v30 m c] at h
  exact h

theorem E_main_v32 : E m c (Proc.devRef .tc main_v32) = val_main_v32 (F := Ideal) (m ((c.tc : Thread nD τ).loc main_arg6)) := by
  have h := end1 writesAt (launchContents m c) (E m c) [] (fun _ _ => rfl) 39 _ _ _ _ _ rfl (nk (by decide +kernel)) (nk (by decide +kernel))
  rw [E_main_arg6 m c] at h
  exact h

theorem E_main_v33 : E m c (Proc.devRef .tc main_v33) = val_main_v33 (F := Ideal) (m ((c.tc : Thread nD τ).loc main_arg6)) := by
  have h := endReshape writesAt (launchContents m c) (E m c) [] (fun _ _ => rfl) 40 _ _ _ _ _ _ rfl (nk (by decide +kernel)) (nk (by decide +kernel))
  rw [E_main_v32 m c] at h
  exact h

theorem E_main_v34 : E m c (Proc.devRef .tc main_v34) = val_main_v34 (F := Ideal) (m ((c.tc : Thread nD τ).loc main_arg6)) := by
  have h := end1 writesAt (launchContents m c) (E m c) [] (fun _ _ => rfl) 41 _ _ _ _ _ rfl (nk (by decide +kernel)) (nk (by decide +kernel))
  rw [E_main_v33 m c] at h
  exact h

theorem E_main_v35 : E m c (Proc.devRef .tc main_v35) = val_main_v35 (F := Ideal) (m ((c.tc : Thread nD τ).loc main_arg6)) := by
  have h := end1 writesAt (launchContents m c) (E m c) [] (fun _ _ => rfl) 42 _ _ _ _ _ rfl (nk (by decide +kernel)) (nk (by decide +kernel))
  rw [E_main_v34 m c] at h
  exact h

theorem E_main_v36 : E m c (Proc.devRef .tc main_v36) = val_main_v36 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 43 _ _ _ _ _ _ _ rfl (nk (by decide +kernel)) (nk (by decide +kernel)) (nk (by decide +kernel))
  rw [E_main_v31 m c, E_main_v35 m c] at h
  exact h

theorem E_main_call2_cst : E m c (Proc.devRef .tc main_call2_cst) = val_main_call2_cst (F := Ideal) := by
  have h := end0 writesAt (launchContents m c) (E m c) [] (fun _ _ => rfl) 44 _ _ _ rfl (nk (by decide +kernel))
  exact h

theorem E_main_call2_v0 : E m c (Proc.devRef .tc main_call2_v0) = val_main_call2_v0 (F := Ideal) := by
  have h := end1 writesAt (launchContents m c) (E m c) [] (fun _ _ => rfl) 45 _ _ _ _ _ rfl (nk (by decide +kernel)) (nk (by decide +kernel))
  rw [E_main_call2_cst m c] at h
  exact h

theorem E_main_v37 : E m c (Proc.devRef .tc main_v37) = val_main_v37 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 46 _ _ _ _ _ _ _ rfl (nk (by decide +kernel)) (nk (by decide +kernel)) (nk (by decide +kernel))
  rw [E_main_v36 m c, E_main_call2_v0 m c] at h
  exact h

theorem E_main_v38 : E m c (Proc.devRef .tc main_v38) = val_main_v38 (F := Ideal) (m ((c.tc : Thread nD τ).loc main_arg5)) := by
  have h := end1 writesAt (launchContents m c) (E m c) [] (fun _ _ => rfl) 47 _ _ _ _ _ rfl (nk (by decide +kernel)) (nk (by decide +kernel))
  rw [E_main_arg5 m c] at h
  exact h

theorem E_main_v39 : E m c (Proc.devRef .tc main_v39) = val_main_v39 (F := Ideal) (m ((c.tc : Thread nD τ).loc main_arg5)) := by
  have h := endReshape writesAt (launchContents m c) (E m c) [] (fun _ _ => rfl) 48 _ _ _ _ _ _ rfl (nk (by decide +kernel)) (nk (by decide +kernel))
  rw [E_main_v38 m c] at h
  exact h

theorem E_main_v40 : E m c (Proc.devRef .tc main_v40) = val_main_v40 (F := Ideal) (m ((c.tc : Thread nD τ).loc main_arg5)) := by
  have h := end1 writesAt (launchContents m c) (E m c) [] (fun _ _ => rfl) 49 _ _ _ _ _ rfl (nk (by decide +kernel)) (nk (by decide +kernel))
  rw [E_main_v39 m c] at h
  exact h

theorem E_main_v41 : E m c (Proc.devRef .tc main_v41) = val_main_v41 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 50 _ _ _ _ _ _ _ rfl (nk (by decide +kernel)) (nk (by decide +kernel)) (nk (by decide +kernel))
  rw [E_main_v37 m c, E_main_v40 m c] at h
  exact h

theorem E_main_v42 : E m c (Proc.devRef .tc main_v42) = val_main_v42 (F := Ideal) (m ((c.tc : Thread nD τ).loc main_arg6)) := by
  have h := end1 writesAt (launchContents m c) (E m c) [] (fun _ _ => rfl) 51 _ _ _ _ _ rfl (nk (by decide +kernel)) (nk (by decide +kernel))
  rw [E_main_arg6 m c] at h
  exact h

theorem E_main_v43 : E m c (Proc.devRef .tc main_v43) = val_main_v43 (F := Ideal) (m ((c.tc : Thread nD τ).loc main_arg6)) := by
  have h := endReshape writesAt (launchContents m c) (E m c) [] (fun _ _ => rfl) 52 _ _ _ _ _ _ rfl (nk (by decide +kernel)) (nk (by decide +kernel))
  rw [E_main_v42 m c] at h
  exact h

theorem E_main_v44 : E m c (Proc.devRef .tc main_v44) = val_main_v44 (F := Ideal) (m ((c.tc : Thread nD τ).loc main_arg6)) := by
  have h := end1 writesAt (launchContents m c) (E m c) [] (fun _ _ => rfl) 53 _ _ _ _ _ rfl (nk (by decide +kernel)) (nk (by decide +kernel))
  rw [E_main_v43 m c] at h
  exact h

theorem E_main_v45 : E m c (Proc.devRef .tc main_v45) = val_main_v45 (F := Ideal) (m ((c.tc : Thread nD τ).loc main_arg6)) := by
  have h := end1 writesAt (launchContents m c) (E m c) [] (fun _ _ => rfl) 54 _ _ _ _ _ rfl (nk (by decide +kernel)) (nk (by decide +kernel))
  rw [E_main_v44 m c] at h
  exact h

theorem E_main_v46 : E m c (Proc.devRef .tc main_v46) = val_main_v46 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 55 _ _ _ _ _ _ _ rfl (nk (by decide +kernel)) (nk (by decide +kernel)) (nk (by decide +kernel))
  rw [E_main_v41 m c, E_main_v45 m c] at h
  exact h

theorem E_main_call3_cst : E m c (Proc.devRef .tc main_call3_cst) = val_main_call3_cst (F := Ideal) := by
  have h := end0 writesAt (launchContents m c) (E m c) [] (fun _ _ => rfl) 56 _ _ _ rfl (nk (by decide +kernel))
  exact h

theorem E_main_call3_v0 : E m c (Proc.devRef .tc main_call3_v0) = val_main_call3_v0 (F := Ideal) := by
  have h := end1 writesAt (launchContents m c) (E m c) [] (fun _ _ => rfl) 57 _ _ _ _ _ rfl (nk (by decide +kernel)) (nk (by decide +kernel))
  rw [E_main_call3_cst m c] at h
  exact h

theorem E_main_v47 : E m c (Proc.devRef .tc main_v47) = val_main_v47 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 58 _ _ _ _ _ _ _ rfl (nk (by decide +kernel)) (nk (by decide +kernel)) (nk (by decide +kernel))
  rw [E_main_v46 m c, E_main_call3_v0 m c] at h
  exact h

theorem E_main_v48 : E m c (Proc.devRef .tc main_v48) = val_main_v48 (F := Ideal) (m ((c.tc : Thread nD τ).loc main_arg7)) := by
  have h := end1 writesAt (launchContents m c) (E m c) [] (fun _ _ => rfl) 59 _ _ _ _ _ rfl (nk (by decide +kernel)) (nk (by decide +kernel))
  rw [E_main_arg7 m c] at h
  exact h

theorem E_main_v49 : E m c (Proc.devRef .tc main_v49) = val_main_v49 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h := end2 writesAt (launchContents m c) (E m c) [] (fun _ _ => rfl) 60 _ _ _ _ _ _ _ rfl (nk (by decide +kernel)) (nk (by decide +kernel)) (nk (by decide +kernel))
  rw [E_main_v47 m c, E_main_v48 m c] at h
  exact h

theorem E_main_v50 : E m c (Proc.devRef .tc main_v50) = val_main_v50 (F := Ideal) (m ((c.tc : Thread nD τ).loc main_arg8)) := by
  have h := end1 writesAt (launchContents m c) (E m c) [] (fun _ _ => rfl) 61 _ _ _ _ _ rfl (nk (by decide +kernel)) (nk (by decide +kernel))
  rw [E_main_arg8 m c] at h
  exact h

theorem E_main_v51 : E m c (Proc.devRef .tc main_v51) = val_main_v51 (F := Ideal) (m ((c.tc : Thread nD τ).loc main_arg8)) := by
  have h := end1 writesAt (launchContents m c) (E m c) [] (fun _ _ => rfl) 62 _ _ _ _ _ rfl (nk (by decide +kernel)) (nk (by decide +kernel))
  rw [E_main_v50 m c] at h
  exact h

theorem E_main_v52 : E m c (Proc.devRef .tc main_v52) = val_main_v52 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h := end2 writesAt (launchContents m c) (E m c) [] (fun _ _ => rfl) 63 _ _ _ _ _ _ _ rfl (nk (by decide +kernel)) (nk (by decide +kernel)) (nk (by decide +kernel))
  rw [E_main_v49 m c, E_main_v51 m c] at h
  exact h

theorem E_main_v53 : E m c (Proc.devRef .tc main_v53) = val_main_v53 (F := Ideal) (m ((c.tc : Thread nD τ).loc main_arg9)) := by
  have h := end1 writesAt (launchContents m c) (E m c) [] (fun _ _ => rfl) 64 _ _ _ _ _ rfl (nk (by decide +kernel)) (nk (by decide +kernel))
  rw [E_main_arg9 m c] at h
  exact h

theorem E_main_v54 : E m c (Proc.devRef .tc main_v54) = val_main_v54 (F := Ideal) (m ((c.tc : Thread nD τ).loc main_arg0)) (m ((c.tc : Thread nD τ).loc main_arg1)) (m ((c.tc : Thread nD τ).loc main_arg9)) := by
  have h := end2 writesAt (launchContents m c) (E m c) [] (fun _ _ => rfl) 65 _ _ _ _ _ _ _ rfl (nk (by decide +kernel)) (nk (by decide +kernel)) (nk (by decide +kernel))
  rw [E_main_v10 m c, E_main_v53 m c] at h
  exact h

theorem E_main_v55 : E m c (Proc.devRef .tc main_v55) = val_main_v55 (F := Ideal) (m ((c.tc : Thread nD τ).loc main_arg10)) := by
  have h := end1 writesAt (launchContents m c) (E m c) [] (fun _ _ => rfl) 66 _ _ _ _ _ rfl (nk (by decide +kernel)) (nk (by decide +kernel))
  rw [E_main_arg10 m c] at h
  exact h

theorem E_main_v56 : E m c (Proc.devRef .tc main_v56) = val_main_v56 (F := Ideal) (m ((c.tc : Thread nD τ).loc main_arg10)) := by
  have h := end1 writesAt (launchContents m c) (E m c) [] (fun _ _ => rfl) 67 _ _ _ _ _ rfl (nk (by decide +kernel)) (nk (by decide +kernel))
  rw [E_main_v55 m c] at h
  exact h

theorem E_main_v57 : E m c (Proc.devRef .tc main_v57) = val_main_v57 (F := Ideal) (m ((c.tc : Thread nD τ).loc main_arg0)) (m ((c.tc : Thread nD τ).loc main_arg1)) (m ((c.tc : Thread nD τ).loc main_arg9)) (m ((c.tc : Thread nD τ).loc main_arg10)) := by
  have h := end2 writesAt (launchContents m c) (E m c) [] (fun _ _ => rfl) 68 _ _ _ _ _ _ _ rfl (nk (by decide +kernel)) (nk (by decide +kernel)) (nk (by decide +kernel))
  rw [E_main_v54 m c, E_main_v56 m c] at h
  exact h

theorem E_main_call4_cst : E m c (Proc.devRef .tc main_call4_cst) = val_main_call4_cst (F := Ideal) := by
  have h := end0 writesAt (launchContents m c) (E m c) [] (fun _ _ => rfl) 69 _ _ _ rfl (nk (by decide +kernel))
  exact h

theorem E_main_call4_v0 : E m c (Proc.devRef .tc main_call4_v0) = val_main_call4_v0 (F := Ideal) := by
  have h := end1 writesAt (launchContents m c) (E m c) [] (fun _ _ => rfl) 70 _ _ _ _ _ rfl (nk (by decide +kernel)) (nk (by decide +kernel))
  rw [E_main_call4_cst m c] at h
  exact h

theorem E_main_v58 : E m c (Proc.devRef .tc main_v58) = val_main_v58 (F := Ideal) (m ((c.tc : Thread nD τ).loc main_arg0)) (m ((c.tc : Thread nD τ).loc main_arg1)) (m ((c.tc : Thread nD τ).loc main_arg9)) (m ((c.tc : Thread nD τ).loc main_arg10)) := by
  have h := end2 writesAt (launchContents m c) (E m c) [] (fun _ _ => rfl) 71 _ _ _ _ _ _ _ rfl (nk (by decide +kernel)) (nk (by decide +kernel)) (nk (by decide +kernel))
  rw [E_main_v57 m c, E_main_call4_v0 m c] at h
  exact h

theorem E_main_v59 : E m c (Proc.devRef .tc main_v59) = val_main_v59 (F := Ideal) (m ((c.tc : Thread nD τ).loc main_arg11)) := by
  have h := end1 writesAt (launchContents m c) (E m c) [] (fun _ _ => rfl) 72 _ _ _ _ _ rfl (nk (by decide +kernel)) (nk (by decide +kernel))
  rw [E_main_arg11 m c] at h
  exact h

theorem E_main_v60 : E m c (Proc.devRef .tc main_v60) = val_main_v60 (F := Ideal) (m ((c.tc : Thread nD τ).loc main_arg11)) := by
  have h := endReshape writesAt (launchContents m c) (E m c) [] (fun _ _ => rfl) 73 _ _ _ _ _ _ rfl (nk (by decide +kernel)) (nk (by decide +kernel))
  rw [E_main_v59 m c] at h
  exact h

theorem E_main_v61 : E m c (Proc.devRef .tc main_v61) = val_main_v61 (F := Ideal) (m ((c.tc : Thread nD τ).loc main_arg11)) := by
  have h := end1 writesAt (launchContents m c) (E m c) [] (fun _ _ => rfl) 74 _ _ _ _ _ rfl (nk (by decide +kernel)) (nk (by decide +kernel))
  rw [E_main_v60 m c] at h
  exact h

theorem E_main_v62 : E m c (Proc.devRef .tc main_v62) = val_main_v62 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) := by
  have h := end2 writesAt (launchContents m c) (E m c) [] (fun _ _ => rfl) 75 _ _ _ _ _ _ _ rfl (nk (by decide +kernel)) (nk (by decide +kernel)) (nk (by decide +kernel))
  rw [E_main_v58 m c, E_main_v61 m c] at h
  exact h

theorem E_main_v63 : E m c (Proc.devRef .tc main_v63) = val_main_v63 (F := Ideal) (m ((c.tc : Thread nD τ).loc main_arg12)) := by
  have h := end1 writesAt (launchContents m c) (E m c) [] (fun _ _ => rfl) 76 _ _ _ _ _ rfl (nk (by decide +kernel)) (nk (by decide +kernel))
  rw [E_main_arg12 m c] at h
  exact h

theorem E_main_v64 : E m c (Proc.devRef .tc main_v64) = val_main_v64 (F := Ideal) (m ((c.tc : Thread nD τ).loc main_arg12)) := by
  have h := endReshape writesAt (launchContents m c) (E m c) [] (fun _ _ => rfl) 77 _ _ _ _ _ _ rfl (nk (by decide +kernel)) (nk (by decide +kernel))
  rw [E_main_v63 m c] at h
  exact h

theorem E_main_v65 : E m c (Proc.devRef .tc main_v65) = val_main_v65 (F := Ideal) (m ((c.tc : Thread nD τ).loc main_arg12)) := by
  have h := end1 writesAt (launchContents m c) (E m c) [] (fun _ _ => rfl) 78 _ _ _ _ _ rfl (nk (by decide +kernel)) (nk (by decide +kernel))
  rw [E_main_v64 m c] at h
  exact h

theorem E_main_v66 : E m c (Proc.devRef .tc main_v66) = val_main_v66 (F := Ideal) (m ((c.tc : Thread nD τ).loc main_arg12)) := by
  have h := end1 writesAt (launchContents m c) (E m c) [] (fun _ _ => rfl) 79 _ _ _ _ _ rfl (nk (by decide +kernel)) (nk (by decide +kernel))
  rw [E_main_v65 m c] at h
  exact h

theorem E_main_v67 : E m c (Proc.devRef .tc main_v67) = val_main_v67 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 80 _ _ _ _ _ _ _ rfl (nk (by decide +kernel)) (nk (by decide +kernel)) (nk (by decide +kernel))
  rw [E_main_v62 m c, E_main_v66 m c] at h
  exact h

theorem E_main_call5_cst : E m c (Proc.devRef .tc main_call5_cst) = val_main_call5_cst (F := Ideal) := by
  have h := end0 writesAt (launchContents m c) (E m c) [] (fun _ _ => rfl) 81 _ _ _ rfl (nk (by decide +kernel))
  exact h

theorem E_main_call5_v0 : E m c (Proc.devRef .tc main_call5_v0) = val_main_call5_v0 (F := Ideal) := by
  have h := end1 writesAt (launchContents m c) (E m c) [] (fun _ _ => rfl) 82 _ _ _ _ _ rfl (nk (by decide +kernel)) (nk (by decide +kernel))
  rw [E_main_call5_cst m c] at h
  exact h

theorem E_main_v68 : E m c (Proc.devRef .tc main_v68) = val_main_v68 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 83 _ _ _ _ _ _ _ rfl (nk (by decide +kernel)) (nk (by decide +kernel)) (nk (by decide +kernel))
  rw [E_main_v67 m c, E_main_call5_v0 m c] at h
  exact h

theorem E_main_v69 : E m c (Proc.devRef .tc main_v69) = val_main_v69 (F := Ideal) (m ((c.tc : Thread nD τ).loc main_arg11)) := by
  have h := end1 writesAt (launchContents m c) (E m c) [] (fun _ _ => rfl) 84 _ _ _ _ _ rfl (nk (by decide +kernel)) (nk (by decide +kernel))
  rw [E_main_arg11 m c] at h
  exact h

theorem E_main_v70 : E m c (Proc.devRef .tc main_v70) = val_main_v70 (F := Ideal) (m ((c.tc : Thread nD τ).loc main_arg11)) := by
  have h := endReshape writesAt (launchContents m c) (E m c) [] (fun _ _ => rfl) 85 _ _ _ _ _ _ rfl (nk (by decide +kernel)) (nk (by decide +kernel))
  rw [E_main_v69 m c] at h
  exact h

theorem E_main_v71 : E m c (Proc.devRef .tc main_v71) = val_main_v71 (F := Ideal) (m ((c.tc : Thread nD τ).loc main_arg11)) := by
  have h := end1 writesAt (launchContents m c) (E m c) [] (fun _ _ => rfl) 86 _ _ _ _ _ rfl (nk (by decide +kernel)) (nk (by decide +kernel))
  rw [E_main_v70 m c] at h
  exact h

theorem E_main_v72 : E m c (Proc.devRef .tc main_v72) = val_main_v72 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 87 _ _ _ _ _ _ _ rfl (nk (by decide +kernel)) (nk (by decide +kernel)) (nk (by decide +kernel))
  rw [E_main_v68 m c, E_main_v71 m c] at h
  exact h

theorem E_main_v73 : E m c (Proc.devRef .tc main_v73) = val_main_v73 (F := Ideal) (m ((c.tc : Thread nD τ).loc main_arg12)) := by
  have h := end1 writesAt (launchContents m c) (E m c) [] (fun _ _ => rfl) 88 _ _ _ _ _ rfl (nk (by decide +kernel)) (nk (by decide +kernel))
  rw [E_main_arg12 m c] at h
  exact h

theorem E_main_v74 : E m c (Proc.devRef .tc main_v74) = val_main_v74 (F := Ideal) (m ((c.tc : Thread nD τ).loc main_arg12)) := by
  have h := endReshape writesAt (launchContents m c) (E m c) [] (fun _ _ => rfl) 89 _ _ _ _ _ _ rfl (nk (by decide +kernel)) (nk (by decide +kernel))
  rw [E_main_v73 m c] at h
  exact h

theorem E_main_v75 : E m c (Proc.devRef .tc main_v75) = val_main_v75 (F := Ideal) (m ((c.tc : Thread nD τ).loc main_arg12)) := by
  have h := end1 writesAt (launchContents m c) (E m c) [] (fun _ _ => rfl) 90 _ _ _ _ _ rfl (nk (by decide +kernel)) (nk (by decide +kernel))
  rw [E_main_v74 m c] at h
  exact h

theorem E_main_v76 : E m c (Proc.devRef .tc main_v76) = val_main_v76 (F := Ideal) (m ((c.tc : Thread nD τ).loc main_arg12)) := by
  have h := end1 writesAt (launchContents m c) (E m c) [] (fun _ _ => rfl) 91 _ _ _ _ _ rfl (nk (by decide +kernel)) (nk (by decide +kernel))
  rw [E_main_v75 m c] at h
  exact h

theorem E_main_v77 : E m c (Proc.devRef .tc main_v77) = val_main_v77 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 92 _ _ _ _ _ _ _ rfl (nk (by decide +kernel)) (nk (by decide +kernel)) (nk (by decide +kernel))
  rw [E_main_v72 m c, E_main_v76 m c] at h
  exact h

theorem E_main_call6_cst : E m c (Proc.devRef .tc main_call6_cst) = val_main_call6_cst (F := Ideal) := by
  have h := end0 writesAt (launchContents m c) (E m c) [] (fun _ _ => rfl) 93 _ _ _ rfl (nk (by decide +kernel))
  exact h

theorem E_main_call6_v0 : E m c (Proc.devRef .tc main_call6_v0) = val_main_call6_v0 (F := Ideal) := by
  have h := end1 writesAt (launchContents m c) (E m c) [] (fun _ _ => rfl) 94 _ _ _ _ _ rfl (nk (by decide +kernel)) (nk (by decide +kernel))
  rw [E_main_call6_cst m c] at h
  exact h

theorem E_main_v78 : E m c (Proc.devRef .tc main_v78) = val_main_v78 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 95 _ _ _ _ _ _ _ rfl (nk (by decide +kernel)) (nk (by decide +kernel)) (nk (by decide +kernel))
  rw [E_main_v77 m c, E_main_call6_v0 m c] at h
  exact h

theorem E_main_v79 : E m c (Proc.devRef .tc main_v79) = val_main_v79 (F := Ideal) (m ((c.tc : Thread nD τ).loc main_arg11)) := by
  have h := end1 writesAt (launchContents m c) (E m c) [] (fun _ _ => rfl) 96 _ _ _ _ _ rfl (nk (by decide +kernel)) (nk (by decide +kernel))
  rw [E_main_arg11 m c] at h
  exact h

theorem E_main_v80 : E m c (Proc.devRef .tc main_v80) = val_main_v80 (F := Ideal) (m ((c.tc : Thread nD τ).loc main_arg11)) := by
  have h := endReshape writesAt (launchContents m c) (E m c) [] (fun _ _ => rfl) 97 _ _ _ _ _ _ rfl (nk (by decide +kernel)) (nk (by decide +kernel))
  rw [E_main_v79 m c] at h
  exact h

theorem E_main_v81 : E m c (Proc.devRef .tc main_v81) = val_main_v81 (F := Ideal) (m ((c.tc : Thread nD τ).loc main_arg11)) := by
  have h := end1 writesAt (launchContents m c) (E m c) [] (fun _ _ => rfl) 98 _ _ _ _ _ rfl (nk (by decide +kernel)) (nk (by decide +kernel))
  rw [E_main_v80 m c] at h
  exact h

theorem E_main_v82 : E m c (Proc.devRef .tc main_v82) = val_main_v82 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 99 _ _ _ _ _ _ _ rfl (nk (by decide +kernel)) (nk (by decide +kernel)) (nk (by decide +kernel))
  rw [E_main_v78 m c, E_main_v81 m c] at h
  exact h

theorem E_main_v83 : E m c (Proc.devRef .tc main_v83) = val_main_v83 (F := Ideal) (m ((c.tc : Thread nD τ).loc main_arg12)) := by
  have h := end1 writesAt (launchContents m c) (E m c) [] (fun _ _ => rfl) 100 _ _ _ _ _ rfl (nk (by decide +kernel)) (nk (by decide +kernel))
  rw [E_main_arg12 m c] at h
  exact h

theorem E_main_v84 : E m c (Proc.devRef .tc main_v84) = val_main_v84 (F := Ideal) (m ((c.tc : Thread nD τ).loc main_arg12)) := by
  have h := endReshape writesAt (launchContents m c) (E m c) [] (fun _ _ => rfl) 101 _ _ _ _ _ _ rfl (nk (by decide +kernel)) (nk (by decide +kernel))
  rw [E_main_v83 m c] at h
  exact h

theorem E_main_v85 : E m c (Proc.devRef .tc main_v85) = val_main_v85 (F := Ideal) (m ((c.tc : Thread nD τ).loc main_arg12)) := by
  have h := end1 writesAt (launchContents m c) (E m c) [] (fun _ _ => rfl) 102 _ _ _ _ _ rfl (nk (by decide +kernel)) (nk (by decide +kernel))
  rw [E_main_v84 m c] at h
  exact h

theorem E_main_v86 : E m c (Proc.devRef .tc main_v86) = val_main_v86 (F := Ideal) (m ((c.tc : Thread nD τ).loc main_arg12)) := by
  have h := end1 writesAt (launchContents m c) (E m c) [] (fun _ _ => rfl) 103 _ _ _ _ _ rfl (nk (by decide +kernel)) (nk (by decide +kernel))
  rw [E_main_v85 m c] at h
  exact h

theorem E_main_v87 : E m c (Proc.devRef .tc main_v87) = val_main_v87 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 104 _ _ _ _ _ _ _ rfl (nk (by decide +kernel)) (nk (by decide +kernel)) (nk (by decide +kernel))
  rw [E_main_v82 m c, E_main_v86 m c] at h
  exact h

theorem E_main_call7_cst : E m c (Proc.devRef .tc main_call7_cst) = val_main_call7_cst (F := Ideal) := by
  have h := end0 writesAt (launchContents m c) (E m c) [] (fun _ _ => rfl) 105 _ _ _ rfl (nk (by decide +kernel))
  exact h

theorem E_main_call7_v0 : E m c (Proc.devRef .tc main_call7_v0) = val_main_call7_v0 (F := Ideal) := by
  have h := end1 writesAt (launchContents m c) (E m c) [] (fun _ _ => rfl) 106 _ _ _ _ _ rfl (nk (by decide +kernel)) (nk (by decide +kernel))
  rw [E_main_call7_cst m c] at h
  exact h

theorem E_main_v88 : E m c (Proc.devRef .tc main_v88) = val_main_v88 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 107 _ _ _ _ _ _ _ rfl (nk (by decide +kernel)) (nk (by decide +kernel)) (nk (by decide +kernel))
  rw [E_main_v87 m c, E_main_call7_v0 m c] at h
  exact h

theorem E_main_v89 : E m c (Proc.devRef .tc main_v89) = val_main_v89 (F := Ideal) (m ((c.tc : Thread nD τ).loc main_arg13)) := by
  have h := end1 writesAt (launchContents m c) (E m c) [] (fun _ _ => rfl) 108 _ _ _ _ _ rfl (nk (by decide +kernel)) (nk (by decide +kernel))
  rw [E_main_arg13 m c] at h
  exact h

theorem E_main_v90 : E m c (Proc.devRef .tc main_v90) = val_main_v90 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  have h := end2 writesAt (launchContents m c) (E m c) [] (fun _ _ => rfl) 109 _ _ _ _ _ _ _ rfl (nk (by decide +kernel)) (nk (by decide +kernel)) (nk (by decide +kernel))
  rw [E_main_v88 m c, E_main_v89 m c] at h
  exact h

theorem E_main_v91 : E m c (Proc.devRef .tc main_v91) = val_main_v91 (F := Ideal) (m ((c.tc : Thread nD τ).loc main_arg14)) := by
  have h := end1 writesAt (launchContents m c) (E m c) [] (fun _ _ => rfl) 110 _ _ _ _ _ rfl (nk (by decide +kernel)) (nk (by decide +kernel))
  rw [E_main_arg14 m c] at h
  exact h

theorem E_main_v92 : E m c (Proc.devRef .tc main_v92) = val_main_v92 (F := Ideal) (m ((c.tc : Thread nD τ).loc main_arg14)) := by
  have h := end1 writesAt (launchContents m c) (E m c) [] (fun _ _ => rfl) 111 _ _ _ _ _ rfl (nk (by decide +kernel)) (nk (by decide +kernel))
  rw [E_main_v91 m c] at h
  exact h

theorem E_main_v93 : E m c (Proc.devRef .tc main_v93) = val_main_v93 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 112 _ _ _ _ _ _ _ rfl (nk (by decide +kernel)) (nk (by decide +kernel)) (nk (by decide +kernel))
  rw [E_main_v90 m c, E_main_v92 m c] at h
  exact h

theorem E_main_v94 : E m c (Proc.devRef .tc main_v94) = val_main_v94 (F := Ideal) (m ((c.tc : Thread nD τ).loc main_arg3)) := by
  have h := end1 writesAt (launchContents m c) (E m c) [] (fun _ _ => rfl) 113 _ _ _ _ _ rfl (nk (by decide +kernel)) (nk (by decide +kernel))
  rw [E_main_arg3 m c] at h
  exact h

theorem E_main_v95 : E m c (Proc.devRef .tc main_v95) = val_main_v95 (F := Ideal) (m ((c.tc : Thread nD τ).loc main_arg0)) (m ((c.tc : Thread nD τ).loc main_arg1)) (m ((c.tc : Thread nD τ).loc main_arg3)) := by
  have h := end2 writesAt (launchContents m c) (E m c) [] (fun _ _ => rfl) 114 _ _ _ _ _ _ _ rfl (nk (by decide +kernel)) (nk (by decide +kernel)) (nk (by decide +kernel))
  rw [E_main_v11 m c, E_main_v94 m c] at h
  exact h

theorem E_main_v96 : E m c (Proc.devRef .tc main_v96) = val_main_v96 (F := Ideal) (m ((c.tc : Thread nD τ).loc main_arg4)) := by
  have h := end1 writesAt (launchContents m c) (E m c) [] (fun _ _ => rfl) 115 _ _ _ _ _ rfl (nk (by decide +kernel)) (nk (by decide +kernel))
  rw [E_main_arg4 m c] at h
  exact h

theorem E_main_v97 : E m c (Proc.devRef .tc main_v97) = val_main_v97 (F := Ideal) (m ((c.tc : Thread nD τ).loc main_arg4)) := by
  have h := end1 writesAt (launchContents m c) (E m c) [] (fun _ _ => rfl) 116 _ _ _ _ _ rfl (nk (by decide +kernel)) (nk (by decide +kernel))
  rw [E_main_v96 m c] at h
  exact h

theorem E_main_v98 : E m c (Proc.devRef .tc main_v98) = val_main_v98 (F := Ideal) (m ((c.tc : Thread nD τ).loc main_arg0)) (m ((c.tc : Thread nD τ).loc main_arg1)) (m ((c.tc : Thread nD τ).loc main_arg3)) (m ((c.tc : Thread nD τ).loc main_arg4)) := by
  have h := end2 writesAt (launchContents m c) (E m c) [] (fun _ _ => rfl) 117 _ _ _ _ _ _ _ rfl (nk (by decide +kernel)) (nk (by decide +kernel)) (nk (by decide +kernel))
  rw [E_main_v95 m c, E_main_v97 m c] at h
  exact h

theorem E_main_call8_cst : E m c (Proc.devRef .tc main_call8_cst) = val_main_call8_cst (F := Ideal) := by
  have h := end0 writesAt (launchContents m c) (E m c) [] (fun _ _ => rfl) 118 _ _ _ rfl (nk (by decide +kernel))
  exact h

theorem E_main_call8_v0 : E m c (Proc.devRef .tc main_call8_v0) = val_main_call8_v0 (F := Ideal) := by
  have h := end1 writesAt (launchContents m c) (E m c) [] (fun _ _ => rfl) 119 _ _ _ _ _ rfl (nk (by decide +kernel)) (nk (by decide +kernel))
  rw [E_main_call8_cst m c] at h
  exact h

theorem E_main_v99 : E m c (Proc.devRef .tc main_v99) = val_main_v99 (F := Ideal) (m ((c.tc : Thread nD τ).loc main_arg0)) (m ((c.tc : Thread nD τ).loc main_arg1)) (m ((c.tc : Thread nD τ).loc main_arg3)) (m ((c.tc : Thread nD τ).loc main_arg4)) := by
  have h := end2 writesAt (launchContents m c) (E m c) [] (fun _ _ => rfl) 120 _ _ _ _ _ _ _ rfl (nk (by decide +kernel)) (nk (by decide +kernel)) (nk (by decide +kernel))
  rw [E_main_v98 m c, E_main_call8_v0 m c] at h
  exact h

theorem E_main_v100 : E m c (Proc.devRef .tc main_v100) = val_main_v100 (F := Ideal) (m ((c.tc : Thread nD τ).loc main_arg5)) := by
  have h := end1 writesAt (launchContents m c) (E m c) [] (fun _ _ => rfl) 121 _ _ _ _ _ rfl (nk (by decide +kernel)) (nk (by decide +kernel))
  rw [E_main_arg5 m c] at h
  exact h

theorem E_main_v101 : E m c (Proc.devRef .tc main_v101) = val_main_v101 (F := Ideal) (m ((c.tc : Thread nD τ).loc main_arg5)) := by
  have h := endReshape writesAt (launchContents m c) (E m c) [] (fun _ _ => rfl) 122 _ _ _ _ _ _ rfl (nk (by decide +kernel)) (nk (by decide +kernel))
  rw [E_main_v100 m c] at h
  exact h

theorem E_main_v102 : E m c (Proc.devRef .tc main_v102) = val_main_v102 (F := Ideal) (m ((c.tc : Thread nD τ).loc main_arg5)) := by
  have h := end1 writesAt (launchContents m c) (E m c) [] (fun _ _ => rfl) 123 _ _ _ _ _ rfl (nk (by decide +kernel)) (nk (by decide +kernel))
  rw [E_main_v101 m c] at h
  exact h

theorem E_main_v103 : E m c (Proc.devRef .tc main_v103) = val_main_v103 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  have h := end2 writesAt (launchContents m c) (E m c) [] (fun _ _ => rfl) 124 _ _ _ _ _ _ _ rfl (nk (by decide +kernel)) (nk (by decide +kernel)) (nk (by decide +kernel))
  rw [E_main_v99 m c, E_main_v102 m c] at h
  exact h

theorem E_main_v104 : E m c (Proc.devRef .tc main_v104) = val_main_v104 (F := Ideal) (m ((c.tc : Thread nD τ).loc main_arg6)) := by
  have h := end1 writesAt (launchContents m c) (E m c) [] (fun _ _ => rfl) 125 _ _ _ _ _ rfl (nk (by decide +kernel)) (nk (by decide +kernel))
  rw [E_main_arg6 m c] at h
  exact h

theorem E_main_v105 : E m c (Proc.devRef .tc main_v105) = val_main_v105 (F := Ideal) (m ((c.tc : Thread nD τ).loc main_arg6)) := by
  have h := endReshape writesAt (launchContents m c) (E m c) [] (fun _ _ => rfl) 126 _ _ _ _ _ _ rfl (nk (by decide +kernel)) (nk (by decide +kernel))
  rw [E_main_v104 m c] at h
  exact h

theorem E_main_v106 : E m c (Proc.devRef .tc main_v106) = val_main_v106 (F := Ideal) (m ((c.tc : Thread nD τ).loc main_arg6)) := by
  have h := end1 writesAt (launchContents m c) (E m c) [] (fun _ _ => rfl) 127 _ _ _ _ _ rfl (nk (by decide +kernel)) (nk (by decide +kernel))
  rw [E_main_v105 m c] at h
  exact h

theorem E_main_v107 : E m c (Proc.devRef .tc main_v107) = val_main_v107 (F := Ideal) (m ((c.tc : Thread nD τ).loc main_arg6)) := by
  have h := end1 writesAt (launchContents m c) (E m c) [] (fun _ _ => rfl) 128 _ _ _ _ _ rfl (nk (by decide +kernel)) (nk (by decide +kernel))
  rw [E_main_v106 m c] at h
  exact h

theorem E_main_v108 : E m c (Proc.devRef .tc main_v108) = val_main_v108 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 129 _ _ _ _ _ _ _ rfl (nk (by decide +kernel)) (nk (by decide +kernel)) (nk (by decide +kernel))
  rw [E_main_v103 m c, E_main_v107 m c] at h
  exact h

theorem E_main_call9_cst : E m c (Proc.devRef .tc main_call9_cst) = val_main_call9_cst (F := Ideal) := by
  have h := end0 writesAt (launchContents m c) (E m c) [] (fun _ _ => rfl) 130 _ _ _ rfl (nk (by decide +kernel))
  exact h

theorem E_main_call9_v0 : E m c (Proc.devRef .tc main_call9_v0) = val_main_call9_v0 (F := Ideal) := by
  have h := end1 writesAt (launchContents m c) (E m c) [] (fun _ _ => rfl) 131 _ _ _ _ _ rfl (nk (by decide +kernel)) (nk (by decide +kernel))
  rw [E_main_call9_cst m c] at h
  exact h

theorem E_main_v109 : E m c (Proc.devRef .tc main_v109) = val_main_v109 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 132 _ _ _ _ _ _ _ rfl (nk (by decide +kernel)) (nk (by decide +kernel)) (nk (by decide +kernel))
  rw [E_main_v108 m c, E_main_call9_v0 m c] at h
  exact h

theorem E_main_v110 : E m c (Proc.devRef .tc main_v110) = val_main_v110 (F := Ideal) (m ((c.tc : Thread nD τ).loc main_arg5)) := by
  have h := end1 writesAt (launchContents m c) (E m c) [] (fun _ _ => rfl) 133 _ _ _ _ _ rfl (nk (by decide +kernel)) (nk (by decide +kernel))
  rw [E_main_arg5 m c] at h
  exact h

theorem E_main_v111 : E m c (Proc.devRef .tc main_v111) = val_main_v111 (F := Ideal) (m ((c.tc : Thread nD τ).loc main_arg5)) := by
  have h := endReshape writesAt (launchContents m c) (E m c) [] (fun _ _ => rfl) 134 _ _ _ _ _ _ rfl (nk (by decide +kernel)) (nk (by decide +kernel))
  rw [E_main_v110 m c] at h
  exact h

theorem E_main_v112 : E m c (Proc.devRef .tc main_v112) = val_main_v112 (F := Ideal) (m ((c.tc : Thread nD τ).loc main_arg5)) := by
  have h := end1 writesAt (launchContents m c) (E m c) [] (fun _ _ => rfl) 135 _ _ _ _ _ rfl (nk (by decide +kernel)) (nk (by decide +kernel))
  rw [E_main_v111 m c] at h
  exact h

theorem E_main_v113 : E m c (Proc.devRef .tc main_v113) = val_main_v113 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 136 _ _ _ _ _ _ _ rfl (nk (by decide +kernel)) (nk (by decide +kernel)) (nk (by decide +kernel))
  rw [E_main_v109 m c, E_main_v112 m c] at h
  exact h

theorem E_main_v114 : E m c (Proc.devRef .tc main_v114) = val_main_v114 (F := Ideal) (m ((c.tc : Thread nD τ).loc main_arg6)) := by
  have h := end1 writesAt (launchContents m c) (E m c) [] (fun _ _ => rfl) 137 _ _ _ _ _ rfl (nk (by decide +kernel)) (nk (by decide +kernel))
  rw [E_main_arg6 m c] at h
  exact h

theorem E_main_v115 : E m c (Proc.devRef .tc main_v115) = val_main_v115 (F := Ideal) (m ((c.tc : Thread nD τ).loc main_arg6)) := by
  have h := endReshape writesAt (launchContents m c) (E m c) [] (fun _ _ => rfl) 138 _ _ _ _ _ _ rfl (nk (by decide +kernel)) (nk (by decide +kernel))
  rw [E_main_v114 m c] at h
  exact h

theorem E_main_v116 : E m c (Proc.devRef .tc main_v116) = val_main_v116 (F := Ideal) (m ((c.tc : Thread nD τ).loc main_arg6)) := by
  have h := end1 writesAt (launchContents m c) (E m c) [] (fun _ _ => rfl) 139 _ _ _ _ _ rfl (nk (by decide +kernel)) (nk (by decide +kernel))
  rw [E_main_v115 m c] at h
  exact h

theorem E_main_v117 : E m c (Proc.devRef .tc main_v117) = val_main_v117 (F := Ideal) (m ((c.tc : Thread nD τ).loc main_arg6)) := by
  have h := end1 writesAt (launchContents m c) (E m c) [] (fun _ _ => rfl) 140 _ _ _ _ _ rfl (nk (by decide +kernel)) (nk (by decide +kernel))
  rw [E_main_v116 m c] at h
  exact h

theorem E_main_v118 : E m c (Proc.devRef .tc main_v118) = val_main_v118 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 141 _ _ _ _ _ _ _ rfl (nk (by decide +kernel)) (nk (by decide +kernel)) (nk (by decide +kernel))
  rw [E_main_v113 m c, E_main_v117 m c] at h
  exact h

theorem E_main_call10_cst : E m c (Proc.devRef .tc main_call10_cst) = val_main_call10_cst (F := Ideal) := by
  have h := end0 writesAt (launchContents m c) (E m c) [] (fun _ _ => rfl) 142 _ _ _ rfl (nk (by decide +kernel))
  exact h

theorem E_main_call10_v0 : E m c (Proc.devRef .tc main_call10_v0) = val_main_call10_v0 (F := Ideal) := by
  have h := end1 writesAt (launchContents m c) (E m c) [] (fun _ _ => rfl) 143 _ _ _ _ _ rfl (nk (by decide +kernel)) (nk (by decide +kernel))
  rw [E_main_call10_cst m c] at h
  exact h

theorem E_main_v119 : E m c (Proc.devRef .tc main_v119) = val_main_v119 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 144 _ _ _ _ _ _ _ rfl (nk (by decide +kernel)) (nk (by decide +kernel)) (nk (by decide +kernel))
  rw [E_main_v118 m c, E_main_call10_v0 m c] at h
  exact h

theorem E_main_v120 : E m c (Proc.devRef .tc main_v120) = val_main_v120 (F := Ideal) (m ((c.tc : Thread nD τ).loc main_arg5)) := by
  have h := end1 writesAt (launchContents m c) (E m c) [] (fun _ _ => rfl) 145 _ _ _ _ _ rfl (nk (by decide +kernel)) (nk (by decide +kernel))
  rw [E_main_arg5 m c] at h
  exact h

theorem E_main_v121 : E m c (Proc.devRef .tc main_v121) = val_main_v121 (F := Ideal) (m ((c.tc : Thread nD τ).loc main_arg5)) := by
  have h := endReshape writesAt (launchContents m c) (E m c) [] (fun _ _ => rfl) 146 _ _ _ _ _ _ rfl (nk (by decide +kernel)) (nk (by decide +kernel))
  rw [E_main_v120 m c] at h
  exact h

theorem E_main_v122 : E m c (Proc.devRef .tc main_v122) = val_main_v122 (F := Ideal) (m ((c.tc : Thread nD τ).loc main_arg5)) := by
  have h := end1 writesAt (launchContents m c) (E m c) [] (fun _ _ => rfl) 147 _ _ _ _ _ rfl (nk (by decide +kernel)) (nk (by decide +kernel))
  rw [E_main_v121 m c] at h
  exact h

theorem E_main_v123 : E m c (Proc.devRef .tc main_v123) = val_main_v123 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 148 _ _ _ _ _ _ _ rfl (nk (by decide +kernel)) (nk (by decide +kernel)) (nk (by decide +kernel))
  rw [E_main_v119 m c, E_main_v122 m c] at h
  exact h

theorem E_main_v124 : E m c (Proc.devRef .tc main_v124) = val_main_v124 (F := Ideal) (m ((c.tc : Thread nD τ).loc main_arg6)) := by
  have h := end1 writesAt (launchContents m c) (E m c) [] (fun _ _ => rfl) 149 _ _ _ _ _ rfl (nk (by decide +kernel)) (nk (by decide +kernel))
  rw [E_main_arg6 m c] at h
  exact h

theorem E_main_v125 : E m c (Proc.devRef .tc main_v125) = val_main_v125 (F := Ideal) (m ((c.tc : Thread nD τ).loc main_arg6)) := by
  have h := endReshape writesAt (launchContents m c) (E m c) [] (fun _ _ => rfl) 150 _ _ _ _ _ _ rfl (nk (by decide +kernel)) (nk (by decide +kernel))
  rw [E_main_v124 m c] at h
  exact h

theorem E_main_v126 : E m c (Proc.devRef .tc main_v126) = val_main_v126 (F := Ideal) (m ((c.tc : Thread nD τ).loc main_arg6)) := by
  have h := end1 writesAt (launchContents m c) (E m c) [] (fun _ _ => rfl) 151 _ _ _ _ _ rfl (nk (by decide +kernel)) (nk (by decide +kernel))
  rw [E_main_v125 m c] at h
  exact h

theorem E_main_v127 : E m c (Proc.devRef .tc main_v127) = val_main_v127 (F := Ideal) (m ((c.tc : Thread nD τ).loc main_arg6)) := by
  have h := end1 writesAt (launchContents m c) (E m c) [] (fun _ _ => rfl) 152 _ _ _ _ _ rfl (nk (by decide +kernel)) (nk (by decide +kernel))
  rw [E_main_v126 m c] at h
  exact h

theorem E_main_v128 : E m c (Proc.devRef .tc main_v128) = val_main_v128 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 153 _ _ _ _ _ _ _ rfl (nk (by decide +kernel)) (nk (by decide +kernel)) (nk (by decide +kernel))
  rw [E_main_v123 m c, E_main_v127 m c] at h
  exact h

theorem E_main_call11_cst : E m c (Proc.devRef .tc main_call11_cst) = val_main_call11_cst (F := Ideal) := by
  have h := end0 writesAt (launchContents m c) (E m c) [] (fun _ _ => rfl) 154 _ _ _ rfl (nk (by decide +kernel))
  exact h

theorem E_main_call11_v0 : E m c (Proc.devRef .tc main_call11_v0) = val_main_call11_v0 (F := Ideal) := by
  have h := end1 writesAt (launchContents m c) (E m c) [] (fun _ _ => rfl) 155 _ _ _ _ _ rfl (nk (by decide +kernel)) (nk (by decide +kernel))
  rw [E_main_call11_cst m c] at h
  exact h

theorem E_main_v129 : E m c (Proc.devRef .tc main_v129) = val_main_v129 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have h := end2 writesAt (launchContents m c) (E m c) [] (fun _ _ => rfl) 156 _ _ _ _ _ _ _ rfl (nk (by decide +kernel)) (nk (by decide +kernel)) (nk (by decide +kernel))
  rw [E_main_v128 m c, E_main_call11_v0 m c] at h
  exact h

theorem E_main_v130 : E m c (Proc.devRef .tc main_v130) = val_main_v130 (F := Ideal) (m ((c.tc : Thread nD τ).loc main_arg7)) := by
  have h := end1 writesAt (launchContents m c) (E m c) [] (fun _ _ => rfl) 157 _ _ _ _ _ rfl (nk (by decide +kernel)) (nk (by decide +kernel))
  rw [E_main_arg7 m c] at h
  exact h

theorem E_main_v131 : E m c (Proc.devRef .tc main_v131) = val_main_v131 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h := end2 writesAt (launchContents m c) (E m c) [] (fun _ _ => rfl) 158 _ _ _ _ _ _ _ rfl (nk (by decide +kernel)) (nk (by decide +kernel)) (nk (by decide +kernel))
  rw [E_main_v129 m c, E_main_v130 m c] at h
  exact h

theorem E_main_v132 : E m c (Proc.devRef .tc main_v132) = val_main_v132 (F := Ideal) (m ((c.tc : Thread nD τ).loc main_arg8)) := by
  have h := end1 writesAt (launchContents m c) (E m c) [] (fun _ _ => rfl) 159 _ _ _ _ _ rfl (nk (by decide +kernel)) (nk (by decide +kernel))
  rw [E_main_arg8 m c] at h
  exact h

theorem E_main_v133 : E m c (Proc.devRef .tc main_v133) = val_main_v133 (F := Ideal) (m ((c.tc : Thread nD τ).loc main_arg8)) := by
  have h := end1 writesAt (launchContents m c) (E m c) [] (fun _ _ => rfl) 160 _ _ _ _ _ rfl (nk (by decide +kernel)) (nk (by decide +kernel))
  rw [E_main_v132 m c] at h
  exact h

theorem E_main_v134 : E m c (Proc.devRef .tc main_v134) = val_main_v134 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h := end2 writesAt (launchContents m c) (E m c) [] (fun _ _ => rfl) 161 _ _ _ _ _ _ _ rfl (nk (by decide +kernel)) (nk (by decide +kernel)) (nk (by decide +kernel))
  rw [E_main_v131 m c, E_main_v133 m c] at h
  exact h

theorem E_main_v135 : E m c (Proc.devRef .tc main_v135) = val_main_v135 (F := Ideal) (m ((c.tc : Thread nD τ).loc main_arg9)) := by
  have h := end1 writesAt (launchContents m c) (E m c) [] (fun _ _ => rfl) 162 _ _ _ _ _ rfl (nk (by decide +kernel)) (nk (by decide +kernel))
  rw [E_main_arg9 m c] at h
  exact h

theorem E_main_v136 : E m c (Proc.devRef .tc main_v136) = val_main_v136 (F := Ideal) (m ((c.tc : Thread nD τ).loc main_arg0)) (m ((c.tc : Thread nD τ).loc main_arg1)) (m ((c.tc : Thread nD τ).loc main_arg9)) := by
  have h := end2 writesAt (launchContents m c) (E m c) [] (fun _ _ => rfl) 163 _ _ _ _ _ _ _ rfl (nk (by decide +kernel)) (nk (by decide +kernel)) (nk (by decide +kernel))
  rw [E_main_v11 m c, E_main_v135 m c] at h
  exact h

theorem E_main_v137 : E m c (Proc.devRef .tc main_v137) = val_main_v137 (F := Ideal) (m ((c.tc : Thread nD τ).loc main_arg10)) := by
  have h := end1 writesAt (launchContents m c) (E m c) [] (fun _ _ => rfl) 164 _ _ _ _ _ rfl (nk (by decide +kernel)) (nk (by decide +kernel))
  rw [E_main_arg10 m c] at h
  exact h

theorem E_main_v138 : E m c (Proc.devRef .tc main_v138) = val_main_v138 (F := Ideal) (m ((c.tc : Thread nD τ).loc main_arg10)) := by
  have h := end1 writesAt (launchContents m c) (E m c) [] (fun _ _ => rfl) 165 _ _ _ _ _ rfl (nk (by decide +kernel)) (nk (by decide +kernel))
  rw [E_main_v137 m c] at h
  exact h

theorem E_main_v139 : E m c (Proc.devRef .tc main_v139) = val_main_v139 (F := Ideal) (m ((c.tc : Thread nD τ).loc main_arg0)) (m ((c.tc : Thread nD τ).loc main_arg1)) (m ((c.tc : Thread nD τ).loc main_arg9)) (m ((c.tc : Thread nD τ).loc main_arg10)) := by
  have h := end2 writesAt (launchContents m c) (E m c) [] (fun _ _ => rfl) 166 _ _ _ _ _ _ _ rfl (nk (by decide +kernel)) (nk (by decide +kernel)) (nk (by decide +kernel))
  rw [E_main_v136 m c, E_main_v138 m c] at h
  exact h

theorem E_main_call12_cst : E m c (Proc.devRef .tc main_call12_cst) = val_main_call12_cst (F := Ideal) := by
  have h := end0 writesAt (launchContents m c) (E m c) [] (fun _ _ => rfl) 167 _ _ _ rfl (nk (by decide +kernel))
  exact h

theorem E_main_call12_v0 : E m c (Proc.devRef .tc main_call12_v0) = val_main_call12_v0 (F := Ideal) := by
  have h := end1 writesAt (launchContents m c) (E m c) [] (fun _ _ => rfl) 168 _ _ _ _ _ rfl (nk (by decide +kernel)) (nk (by decide +kernel))
  rw [E_main_call12_cst m c] at h
  exact h

theorem E_main_v140 : E m c (Proc.devRef .tc main_v140) = val_main_v140 (F := Ideal) (m ((c.tc : Thread nD τ).loc main_arg0)) (m ((c.tc : Thread nD τ).loc main_arg1)) (m ((c.tc : Thread nD τ).loc main_arg9)) (m ((c.tc : Thread nD τ).loc main_arg10)) := by
  have h := end2 writesAt (launchContents m c) (E m c) [] (fun _ _ => rfl) 169 _ _ _ _ _ _ _ rfl (nk (by decide +kernel)) (nk (by decide +kernel)) (nk (by decide +kernel))
  rw [E_main_v139 m c, E_main_call12_v0 m c] at h
  exact h

theorem E_main_v141 : E m c (Proc.devRef .tc main_v141) = val_main_v141 (F := Ideal) (m ((c.tc : Thread nD τ).loc main_arg11)) := by
  have h := end1 writesAt (launchContents m c) (E m c) [] (fun _ _ => rfl) 170 _ _ _ _ _ rfl (nk (by decide +kernel)) (nk (by decide +kernel))
  rw [E_main_arg11 m c] at h
  exact h

theorem E_main_v142 : E m c (Proc.devRef .tc main_v142) = val_main_v142 (F := Ideal) (m ((c.tc : Thread nD τ).loc main_arg11)) := by
  have h := endReshape writesAt (launchContents m c) (E m c) [] (fun _ _ => rfl) 171 _ _ _ _ _ _ rfl (nk (by decide +kernel)) (nk (by decide +kernel))
  rw [E_main_v141 m c] at h
  exact h

theorem E_main_v143 : E m c (Proc.devRef .tc main_v143) = val_main_v143 (F := Ideal) (m ((c.tc : Thread nD τ).loc main_arg11)) := by
  have h := end1 writesAt (launchContents m c) (E m c) [] (fun _ _ => rfl) 172 _ _ _ _ _ rfl (nk (by decide +kernel)) (nk (by decide +kernel))
  rw [E_main_v142 m c] at h
  exact h

theorem E_main_v144 : E m c (Proc.devRef .tc main_v144) = val_main_v144 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) := by
  have h := end2 writesAt (launchContents m c) (E m c) [] (fun _ _ => rfl) 173 _ _ _ _ _ _ _ rfl (nk (by decide +kernel)) (nk (by decide +kernel)) (nk (by decide +kernel))
  rw [E_main_v140 m c, E_main_v143 m c] at h
  exact h

theorem E_main_v145 : E m c (Proc.devRef .tc main_v145) = val_main_v145 (F := Ideal) (m ((c.tc : Thread nD τ).loc main_arg12)) := by
  have h := end1 writesAt (launchContents m c) (E m c) [] (fun _ _ => rfl) 174 _ _ _ _ _ rfl (nk (by decide +kernel)) (nk (by decide +kernel))
  rw [E_main_arg12 m c] at h
  exact h

theorem E_main_v146 : E m c (Proc.devRef .tc main_v146) = val_main_v146 (F := Ideal) (m ((c.tc : Thread nD τ).loc main_arg12)) := by
  have h := endReshape writesAt (launchContents m c) (E m c) [] (fun _ _ => rfl) 175 _ _ _ _ _ _ rfl (nk (by decide +kernel)) (nk (by decide +kernel))
  rw [E_main_v145 m c] at h
  exact h

theorem E_main_v147 : E m c (Proc.devRef .tc main_v147) = val_main_v147 (F := Ideal) (m ((c.tc : Thread nD τ).loc main_arg12)) := by
  have h := end1 writesAt (launchContents m c) (E m c) [] (fun _ _ => rfl) 176 _ _ _ _ _ rfl (nk (by decide +kernel)) (nk (by decide +kernel))
  rw [E_main_v146 m c] at h
  exact h

theorem E_main_v148 : E m c (Proc.devRef .tc main_v148) = val_main_v148 (F := Ideal) (m ((c.tc : Thread nD τ).loc main_arg12)) := by
  have h := end1 writesAt (launchContents m c) (E m c) [] (fun _ _ => rfl) 177 _ _ _ _ _ rfl (nk (by decide +kernel)) (nk (by decide +kernel))
  rw [E_main_v147 m c] at h
  exact h

theorem E_main_v149 : E m c (Proc.devRef .tc main_v149) = val_main_v149 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 178 _ _ _ _ _ _ _ rfl (nk (by decide +kernel)) (nk (by decide +kernel)) (nk (by decide +kernel))
  rw [E_main_v144 m c, E_main_v148 m c] at h
  exact h

theorem E_main_call13_cst : E m c (Proc.devRef .tc main_call13_cst) = val_main_call13_cst (F := Ideal) := by
  have h := end0 writesAt (launchContents m c) (E m c) [] (fun _ _ => rfl) 179 _ _ _ rfl (nk (by decide +kernel))
  exact h

theorem E_main_call13_v0 : E m c (Proc.devRef .tc main_call13_v0) = val_main_call13_v0 (F := Ideal) := by
  have h := end1 writesAt (launchContents m c) (E m c) [] (fun _ _ => rfl) 180 _ _ _ _ _ rfl (nk (by decide +kernel)) (nk (by decide +kernel))
  rw [E_main_call13_cst m c] at h
  exact h

theorem E_main_v150 : E m c (Proc.devRef .tc main_v150) = val_main_v150 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 181 _ _ _ _ _ _ _ rfl (nk (by decide +kernel)) (nk (by decide +kernel)) (nk (by decide +kernel))
  rw [E_main_v149 m c, E_main_call13_v0 m c] at h
  exact h

theorem E_main_v151 : E m c (Proc.devRef .tc main_v151) = val_main_v151 (F := Ideal) (m ((c.tc : Thread nD τ).loc main_arg11)) := by
  have h := end1 writesAt (launchContents m c) (E m c) [] (fun _ _ => rfl) 182 _ _ _ _ _ rfl (nk (by decide +kernel)) (nk (by decide +kernel))
  rw [E_main_arg11 m c] at h
  exact h

theorem E_main_v152 : E m c (Proc.devRef .tc main_v152) = val_main_v152 (F := Ideal) (m ((c.tc : Thread nD τ).loc main_arg11)) := by
  have h := endReshape writesAt (launchContents m c) (E m c) [] (fun _ _ => rfl) 183 _ _ _ _ _ _ rfl (nk (by decide +kernel)) (nk (by decide +kernel))
  rw [E_main_v151 m c] at h
  exact h

theorem E_main_v153 : E m c (Proc.devRef .tc main_v153) = val_main_v153 (F := Ideal) (m ((c.tc : Thread nD τ).loc main_arg11)) := by
  have h := end1 writesAt (launchContents m c) (E m c) [] (fun _ _ => rfl) 184 _ _ _ _ _ rfl (nk (by decide +kernel)) (nk (by decide +kernel))
  rw [E_main_v152 m c] at h
  exact h

theorem E_main_v154 : E m c (Proc.devRef .tc main_v154) = val_main_v154 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 185 _ _ _ _ _ _ _ rfl (nk (by decide +kernel)) (nk (by decide +kernel)) (nk (by decide +kernel))
  rw [E_main_v150 m c, E_main_v153 m c] at h
  exact h

theorem E_main_v155 : E m c (Proc.devRef .tc main_v155) = val_main_v155 (F := Ideal) (m ((c.tc : Thread nD τ).loc main_arg12)) := by
  have h := end1 writesAt (launchContents m c) (E m c) [] (fun _ _ => rfl) 186 _ _ _ _ _ rfl (nk (by decide +kernel)) (nk (by decide +kernel))
  rw [E_main_arg12 m c] at h
  exact h

theorem E_main_v156 : E m c (Proc.devRef .tc main_v156) = val_main_v156 (F := Ideal) (m ((c.tc : Thread nD τ).loc main_arg12)) := by
  have h := endReshape writesAt (launchContents m c) (E m c) [] (fun _ _ => rfl) 187 _ _ _ _ _ _ rfl (nk (by decide +kernel)) (nk (by decide +kernel))
  rw [E_main_v155 m c] at h
  exact h

theorem E_main_v157 : E m c (Proc.devRef .tc main_v157) = val_main_v157 (F := Ideal) (m ((c.tc : Thread nD τ).loc main_arg12)) := by
  have h := end1 writesAt (launchContents m c) (E m c) [] (fun _ _ => rfl) 188 _ _ _ _ _ rfl (nk (by decide +kernel)) (nk (by decide +kernel))
  rw [E_main_v156 m c] at h
  exact h

theorem E_main_v158 : E m c (Proc.devRef .tc main_v158) = val_main_v158 (F := Ideal) (m ((c.tc : Thread nD τ).loc main_arg12)) := by
  have h := end1 writesAt (launchContents m c) (E m c) [] (fun _ _ => rfl) 189 _ _ _ _ _ rfl (nk (by decide +kernel)) (nk (by decide +kernel))
  rw [E_main_v157 m c] at h
  exact h

theorem E_main_v159 : E m c (Proc.devRef .tc main_v159) = val_main_v159 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 190 _ _ _ _ _ _ _ rfl (nk (by decide +kernel)) (nk (by decide +kernel)) (nk (by decide +kernel))
  rw [E_main_v154 m c, E_main_v158 m c] at h
  exact h

theorem E_main_call14_cst : E m c (Proc.devRef .tc main_call14_cst) = val_main_call14_cst (F := Ideal) := by
  have h := end0 writesAt (launchContents m c) (E m c) [] (fun _ _ => rfl) 191 _ _ _ rfl (nk (by decide +kernel))
  exact h

theorem E_main_call14_v0 : E m c (Proc.devRef .tc main_call14_v0) = val_main_call14_v0 (F := Ideal) := by
  have h := end1 writesAt (launchContents m c) (E m c) [] (fun _ _ => rfl) 192 _ _ _ _ _ rfl (nk (by decide +kernel)) (nk (by decide +kernel))
  rw [E_main_call14_cst m c] at h
  exact h

theorem E_main_v160 : E m c (Proc.devRef .tc main_v160) = val_main_v160 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 193 _ _ _ _ _ _ _ rfl (nk (by decide +kernel)) (nk (by decide +kernel)) (nk (by decide +kernel))
  rw [E_main_v159 m c, E_main_call14_v0 m c] at h
  exact h

theorem E_main_v161 : E m c (Proc.devRef .tc main_v161) = val_main_v161 (F := Ideal) (m ((c.tc : Thread nD τ).loc main_arg11)) := by
  have h := end1 writesAt (launchContents m c) (E m c) [] (fun _ _ => rfl) 194 _ _ _ _ _ rfl (nk (by decide +kernel)) (nk (by decide +kernel))
  rw [E_main_arg11 m c] at h
  exact h

theorem E_main_v162 : E m c (Proc.devRef .tc main_v162) = val_main_v162 (F := Ideal) (m ((c.tc : Thread nD τ).loc main_arg11)) := by
  have h := endReshape writesAt (launchContents m c) (E m c) [] (fun _ _ => rfl) 195 _ _ _ _ _ _ rfl (nk (by decide +kernel)) (nk (by decide +kernel))
  rw [E_main_v161 m c] at h
  exact h

theorem E_main_v163 : E m c (Proc.devRef .tc main_v163) = val_main_v163 (F := Ideal) (m ((c.tc : Thread nD τ).loc main_arg11)) := by
  have h := end1 writesAt (launchContents m c) (E m c) [] (fun _ _ => rfl) 196 _ _ _ _ _ rfl (nk (by decide +kernel)) (nk (by decide +kernel))
  rw [E_main_v162 m c] at h
  exact h

theorem E_main_v164 : E m c (Proc.devRef .tc main_v164) = val_main_v164 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 197 _ _ _ _ _ _ _ rfl (nk (by decide +kernel)) (nk (by decide +kernel)) (nk (by decide +kernel))
  rw [E_main_v160 m c, E_main_v163 m c] at h
  exact h

theorem E_main_v165 : E m c (Proc.devRef .tc main_v165) = val_main_v165 (F := Ideal) (m ((c.tc : Thread nD τ).loc main_arg12)) := by
  have h := end1 writesAt (launchContents m c) (E m c) [] (fun _ _ => rfl) 198 _ _ _ _ _ rfl (nk (by decide +kernel)) (nk (by decide +kernel))
  rw [E_main_arg12 m c] at h
  exact h

theorem E_main_v166 : E m c (Proc.devRef .tc main_v166) = val_main_v166 (F := Ideal) (m ((c.tc : Thread nD τ).loc main_arg12)) := by
  have h := endReshape writesAt (launchContents m c) (E m c) [] (fun _ _ => rfl) 199 _ _ _ _ _ _ rfl (nk (by decide +kernel)) (nk (by decide +kernel))
  rw [E_main_v165 m c] at h
  exact h

theorem E_main_v167 : E m c (Proc.devRef .tc main_v167) = val_main_v167 (F := Ideal) (m ((c.tc : Thread nD τ).loc main_arg12)) := by
  have h := end1 writesAt (launchContents m c) (E m c) [] (fun _ _ => rfl) 200 _ _ _ _ _ rfl (nk (by decide +kernel)) (nk (by decide +kernel))
  rw [E_main_v166 m c] at h
  exact h

theorem E_main_v168 : E m c (Proc.devRef .tc main_v168) = val_main_v168 (F := Ideal) (m ((c.tc : Thread nD τ).loc main_arg12)) := by
  have h := end1 writesAt (launchContents m c) (E m c) [] (fun _ _ => rfl) 201 _ _ _ _ _ rfl (nk (by decide +kernel)) (nk (by decide +kernel))
  rw [E_main_v167 m c] at h
  exact h

theorem E_main_v169 : E m c (Proc.devRef .tc main_v169) = val_main_v169 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 202 _ _ _ _ _ _ _ rfl (nk (by decide +kernel)) (nk (by decide +kernel)) (nk (by decide +kernel))
  rw [E_main_v164 m c, E_main_v168 m c] at h
  exact h

theorem E_main_call15_cst : E m c (Proc.devRef .tc main_call15_cst) = val_main_call15_cst (F := Ideal) := by
  have h := end0 writesAt (launchContents m c) (E m c) [] (fun _ _ => rfl) 203 _ _ _ rfl (nk (by decide +kernel))
  exact h

theorem E_main_call15_v0 : E m c (Proc.devRef .tc main_call15_v0) = val_main_call15_v0 (F := Ideal) := by
  have h := end1 writesAt (launchContents m c) (E m c) [] (fun _ _ => rfl) 204 _ _ _ _ _ rfl (nk (by decide +kernel)) (nk (by decide +kernel))
  rw [E_main_call15_cst m c] at h
  exact h

theorem E_main_v170 : E m c (Proc.devRef .tc main_v170) = val_main_v170 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
  have h := end2 writesAt (launchContents m c) (E m c) [] (fun _ _ => rfl) 205 _ _ _ _ _ _ _ rfl (nk (by decide +kernel)) (nk (by decide +kernel)) (nk (by decide +kernel))
  rw [E_main_v169 m c, E_main_call15_v0 m c] at h
  exact h

theorem E_main_v171 : E m c (Proc.devRef .tc main_v171) = val_main_v171 (F := Ideal) (m ((c.tc : Thread nD τ).loc main_arg13)) := by
  have h := end1 writesAt (launchContents m c) (E m c) [] (fun _ _ => rfl) 206 _ _ _ _ _ rfl (nk (by decide +kernel)) (nk (by decide +kernel))
  rw [E_main_arg13 m c] at h
  exact h

theorem E_main_v172 : E m c (Proc.devRef .tc main_v172) = val_main_v172 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  have h := end2 writesAt (launchContents m c) (E m c) [] (fun _ _ => rfl) 207 _ _ _ _ _ _ _ rfl (nk (by decide +kernel)) (nk (by decide +kernel)) (nk (by decide +kernel))
  rw [E_main_v170 m c, E_main_v171 m c] at h
  exact h

theorem E_main_v173 : E m c (Proc.devRef .tc main_v173) = val_main_v173 (F := Ideal) (m ((c.tc : Thread nD τ).loc main_arg14)) := by
  have h := end1 writesAt (launchContents m c) (E m c) [] (fun _ _ => rfl) 208 _ _ _ _ _ rfl (nk (by decide +kernel)) (nk (by decide +kernel))
  rw [E_main_arg14 m c] at h
  exact h

theorem E_main_v174 : E m c (Proc.devRef .tc main_v174) = val_main_v174 (F := Ideal) (m ((c.tc : Thread nD τ).loc main_arg14)) := by
  have h := end1 writesAt (launchContents m c) (E m c) [] (fun _ _ => rfl) 209 _ _ _ _ _ rfl (nk (by decide +kernel)) (nk (by decide +kernel))
  rw [E_main_v173 m c] at h
  exact h

theorem E_main_v175 : E m c (Proc.devRef .tc main_v175) = val_main_v175 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 210 _ _ _ _ _ _ _ rfl (nk (by decide +kernel)) (nk (by decide +kernel)) (nk (by decide +kernel))
  rw [E_main_v172 m c, E_main_v174 m c] at h
  exact h

theorem E_main_cst : E m c (Proc.devRef .tc main_cst) = val_main_cst (F := Ideal) := by
  have h := end0 writesAt (launchContents m c) (E m c) [] (fun _ _ => rfl) 211 _ _ _ rfl (nk (by decide +kernel))
  exact h

theorem E_main_v176 : E m c (Proc.devRef .tc main_v176) = val_main_v176 (F := Ideal) := by
  have h := end1 writesAt (launchContents m c) (E m c) [] (fun _ _ => rfl) 212 _ _ _ _ _ rfl (nk (by decide +kernel)) (nk (by decide +kernel))
  rw [E_main_cst m c] at h
  exact h

theorem E_main_v177 : E m c (Proc.devRef .tc main_v177) = val_main_v177 (F := Ideal) (m ((c.tc : Thread nD τ).loc main_arg2)) := by
  have h := end2 writesAt (launchContents m c) (E m c) [] (fun _ _ => rfl) 213 _ _ _ _ _ _ _ rfl (nk (by decide +kernel)) (nk (by decide +kernel)) (nk (by decide +kernel))
  rw [E_main_arg2 m c, E_main_v176 m c] at h
  exact h

theorem E_main_cst_2 : E m c (Proc.devRef .tc main_cst_2) = val_main_cst_2 (F := Ideal) := by
  have h := end0 writesAt (launchContents m c) (E m c) [] (fun _ _ => rfl) 214 _ _ _ rfl (nk (by decide +kernel))
  exact h

theorem E_main_v178 : E m c (Proc.devRef .tc main_v178) = val_main_v178 (F := Ideal) := by
  have h := end1 writesAt (launchContents m c) (E m c) [] (fun _ _ => rfl) 215 _ _ _ _ _ rfl (nk (by decide +kernel)) (nk (by decide +kernel))
  rw [E_main_cst_2 m c] at h
  exact h

theorem E_main_v179 : E m c (Proc.devRef .tc main_v179) = val_main_v179 (F := Ideal) (m ((c.tc : Thread nD τ).loc main_arg2)) := by
  have h := end2 writesAt (launchContents m c) (E m c) [] (fun _ _ => rfl) 216 _ _ _ _ _ _ _ rfl (nk (by decide +kernel)) (nk (by decide +kernel)) (nk (by decide +kernel))
  rw [E_main_v177 m c, E_main_v178 m c] at h
  exact h

theorem E_main_v180 : E m c (Proc.devRef .tc main_v180) = val_main_v180 (F := Ideal) (m ((c.tc : Thread nD τ).loc main_arg2)) := by
  have h := end1 writesAt (launchContents m c) (E m c) [] (fun _ _ => rfl) 217 _ _ _ _ _ rfl (nk (by decide +kernel)) (nk (by decide +kernel))
  rw [E_main_v179 m c] at h
  exact h

theorem E_main_v181 : E m c (Proc.devRef .tc main_v181) = val_main_v181 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h := end1 writesAt (launchContents m c) (E m c) [] (fun _ _ => rfl) 218 _ _ _ _ _ rfl (nk (by decide +kernel)) (nk (by decide +kernel))
  rw [E_main_v52 m c] at h
  exact h

theorem E_main_v182 : E m c (Proc.devRef .tc main_v182) = val_main_v182 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h := end1 writesAt (launchContents m c) (E m c) [] (fun _ _ => rfl) 219 _ _ _ _ _ rfl (nk (by decide +kernel)) (nk (by decide +kernel))
  rw [E_main_v181 m c] at h
  exact h

theorem E_main_cst_3 : E m c (Proc.devRef .tc main_cst_3) = val_main_cst_3 (F := Ideal) := by
  have h := end0 writesAt (launchContents m c) (E m c) [] (fun _ _ => rfl) 220 _ _ _ rfl (nk (by decide +kernel))
  exact h

theorem E_main_v183 : E m c (Proc.devRef .tc main_v183) = val_main_v183 (F := Ideal) := by
  have h := end1 writesAt (launchContents m c) (E m c) [] (fun _ _ => rfl) 221 _ _ _ _ _ rfl (nk (by decide +kernel)) (nk (by decide +kernel))
  rw [E_main_cst_3 m c] at h
  exact h

theorem E_main_v184 : E m c (Proc.devRef .tc main_v184) = val_main_v184 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h := end2 writesAt (launchContents m c) (E m c) [] (fun _ _ => rfl) 222 _ _ _ _ _ _ _ rfl (nk (by decide +kernel)) (nk (by decide +kernel)) (nk (by decide +kernel))
  rw [E_main_v183 m c, E_main_v182 m c] at h
  exact h

theorem E_main_cst_4 : E m c (Proc.devRef .tc main_cst_4) = val_main_cst_4 (F := Ideal) := by
  have h := end0 writesAt (launchContents m c) (E m c) [] (fun _ _ => rfl) 223 _ _ _ rfl (nk (by decide +kernel))
  exact h

theorem E_main_v185 : E m c (Proc.devRef .tc main_v185) = val_main_v185 (F := Ideal) := by
  have h := end1 writesAt (launchContents m c) (E m c) [] (fun _ _ => rfl) 224 _ _ _ _ _ rfl (nk (by decide +kernel)) (nk (by decide +kernel))
  rw [E_main_cst_4 m c] at h
  exact h

theorem E_main_v186 : E m c (Proc.devRef .tc main_v186) = val_main_v186 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h := end2 writesAt (launchContents m c) (E m c) [] (fun _ _ => rfl) 225 _ _ _ _ _ _ _ rfl (nk (by decide +kernel)) (nk (by decide +kernel)) (nk (by decide +kernel))
  rw [E_main_v185 m c, E_main_v184 m c] at h
  exact h

theorem E_main_v187 : E m c (Proc.devRef .tc main_v187) = val_main_v187 (F := Ideal) (m ((c.tc : Thread nD τ).loc main_arg2)) := by
  have h := end1 writesAt (launchContents m c) (E m c) [] (fun _ _ => rfl) 226 _ _ _ _ _ rfl (nk (by decide +kernel)) (nk (by decide +kernel))
  rw [E_main_v180 m c] at h
  exact h

theorem E_main_v188 : E m c (Proc.devRef .tc main_v188) = val_main_v188 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h := end2 writesAt (launchContents m c) (E m c) [] (fun _ _ => rfl) 227 _ _ _ _ _ _ _ rfl (nk (by decide +kernel)) (nk (by decide +kernel)) (nk (by decide +kernel))
  rw [E_main_v187 m c, E_main_v186 m c] at h
  exact h

theorem E_main_cst_5 : E m c (Proc.devRef .tc main_cst_5) = val_main_cst_5 (F := Ideal) := by
  have h := end0 writesAt (launchContents m c) (E m c) [] (fun _ _ => rfl) 228 _ _ _ rfl (nk (by decide +kernel))
  exact h

theorem E_main_v189 : E m c (Proc.devRef .tc main_v189) = val_main_v189 (F := Ideal) := by
  have h := end1 writesAt (launchContents m c) (E m c) [] (fun _ _ => rfl) 229 _ _ _ _ _ rfl (nk (by decide +kernel)) (nk (by decide +kernel))
  rw [E_main_cst_5 m c] at h
  exact h

theorem E_main_v190 : E m c (Proc.devRef .tc main_v190) = val_main_v190 (F := Ideal) (m ((c.tc : Thread nD τ).loc main_arg2)) := by
  have h := end2 writesAt (launchContents m c) (E m c) [] (fun _ _ => rfl) 230 _ _ _ _ _ _ _ rfl (nk (by decide +kernel)) (nk (by decide +kernel)) (nk (by decide +kernel))
  rw [E_main_v189 m c, E_main_v179 m c] at h
  exact h

theorem E_main_v191 : E m c (Proc.devRef .tc main_v191) = val_main_v191 (F := Ideal) (m ((c.tc : Thread nD τ).loc main_arg2)) := by
  have h := end1 writesAt (launchContents m c) (E m c) [] (fun _ _ => rfl) 231 _ _ _ _ _ rfl (nk (by decide +kernel)) (nk (by decide +kernel))
  rw [E_main_v190 m c] at h
  exact h

theorem E_main_v192 : E m c (Proc.devRef .tc main_v192) = val_main_v192 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end1 writesAt (launchContents m c) (E m c) [] (fun _ _ => rfl) 232 _ _ _ _ _ rfl (nk (by decide +kernel)) (nk (by decide +kernel))
  rw [E_main_v93 m c] at h
  exact h

theorem E_main_v193 : E m c (Proc.devRef .tc main_v193) = val_main_v193 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end1 writesAt (launchContents m c) (E m c) [] (fun _ _ => rfl) 233 _ _ _ _ _ rfl (nk (by decide +kernel)) (nk (by decide +kernel))
  rw [E_main_v192 m c] at h
  exact h

theorem E_main_cst_6 : E m c (Proc.devRef .tc main_cst_6) = val_main_cst_6 (F := Ideal) := by
  have h := end0 writesAt (launchContents m c) (E m c) [] (fun _ _ => rfl) 234 _ _ _ rfl (nk (by decide +kernel))
  exact h

theorem E_main_v194 : E m c (Proc.devRef .tc main_v194) = val_main_v194 (F := Ideal) := by
  have h := end1 writesAt (launchContents m c) (E m c) [] (fun _ _ => rfl) 235 _ _ _ _ _ rfl (nk (by decide +kernel)) (nk (by decide +kernel))
  rw [E_main_cst_6 m c] at h
  exact h

theorem E_main_v195 : E m c (Proc.devRef .tc main_v195) = val_main_v195 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 236 _ _ _ _ _ _ _ rfl (nk (by decide +kernel)) (nk (by decide +kernel)) (nk (by decide +kernel))
  rw [E_main_v194 m c, E_main_v193 m c] at h
  exact h

theorem E_main_cst_7 : E m c (Proc.devRef .tc main_cst_7) = val_main_cst_7 (F := Ideal) := by
  have h := end0 writesAt (launchContents m c) (E m c) [] (fun _ _ => rfl) 237 _ _ _ rfl (nk (by decide +kernel))
  exact h

theorem E_main_v196 : E m c (Proc.devRef .tc main_v196) = val_main_v196 (F := Ideal) := by
  have h := end1 writesAt (launchContents m c) (E m c) [] (fun _ _ => rfl) 238 _ _ _ _ _ rfl (nk (by decide +kernel)) (nk (by decide +kernel))
  rw [E_main_cst_7 m c] at h
  exact h

theorem E_main_v197 : E m c (Proc.devRef .tc main_v197) = val_main_v197 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 239 _ _ _ _ _ _ _ rfl (nk (by decide +kernel)) (nk (by decide +kernel)) (nk (by decide +kernel))
  rw [E_main_v196 m c, E_main_v195 m c] at h
  exact h

theorem E_main_v198 : E m c (Proc.devRef .tc main_v198) = val_main_v198 (F := Ideal) (m ((c.tc : Thread nD τ).loc main_arg2)) := by
  have h := end1 writesAt (launchContents m c) (E m c) [] (fun _ _ => rfl) 240 _ _ _ _ _ rfl (nk (by decide +kernel)) (nk (by decide +kernel))
  rw [E_main_v191 m c] at h
  exact h

theorem E_main_v199 : E m c (Proc.devRef .tc main_v199) = val_main_v199 (F := Ideal) (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 241 _ _ _ _ _ _ _ rfl (nk (by decide +kernel)) (nk (by decide +kernel)) (nk (by decide +kernel))
  rw [E_main_v198 m c, E_main_v197 m c] at h
  exact h

theorem E_main_v200 : E m c (Proc.devRef .tc main_v200) = val_main_v200 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 242 _ _ _ _ _ _ _ rfl (nk (by decide +kernel)) (nk (by decide +kernel)) (nk (by decide +kernel))
  rw [E_main_v188 m c, E_main_v199 m c] at h
  exact h

theorem E_main_cst_8 : E m c (Proc.devRef .tc main_cst_8) = val_main_cst_8 (F := Ideal) := by
  have h := end0 writesAt (launchContents m c) (E m c) [] (fun _ _ => rfl) 243 _ _ _ rfl (nk (by decide +kernel))
  exact h

theorem E_main_v201 : E m c (Proc.devRef .tc main_v201) = val_main_v201 (F := Ideal) := by
  have h := end1 writesAt (launchContents m c) (E m c) [] (fun _ _ => rfl) 244 _ _ _ _ _ rfl (nk (by decide +kernel)) (nk (by decide +kernel))
  rw [E_main_cst_8 m c] at h
  exact h

theorem E_main_v202 : E m c (Proc.devRef .tc main_v202) = val_main_v202 (F := Ideal) (m ((c.tc : Thread nD τ).loc main_arg2)) := by
  have h := end2 writesAt (launchContents m c) (E m c) [] (fun _ _ => rfl) 245 _ _ _ _ _ _ _ rfl (nk (by decide +kernel)) (nk (by decide +kernel)) (nk (by decide +kernel))
  rw [E_main_v201 m c, E_main_v179 m c] at h
  exact h

theorem E_main_v203 : E m c (Proc.devRef .tc main_v203) = val_main_v203 (F := Ideal) (m ((c.tc : Thread nD τ).loc main_arg2)) := by
  have h := end1 writesAt (launchContents m c) (E m c) [] (fun _ _ => rfl) 246 _ _ _ _ _ rfl (nk (by decide +kernel)) (nk (by decide +kernel))
  rw [E_main_v202 m c] at h
  exact h

theorem E_main_v204 : E m c (Proc.devRef .tc main_v204) = val_main_v204 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h := end1 writesAt (launchContents m c) (E m c) [] (fun _ _ => rfl) 247 _ _ _ _ _ rfl (nk (by decide +kernel)) (nk (by decide +kernel))
  rw [E_main_v134 m c] at h
  exact h

theorem E_main_v205 : E m c (Proc.devRef .tc main_v205) = val_main_v205 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h := end1 writesAt (launchContents m c) (E m c) [] (fun _ _ => rfl) 248 _ _ _ _ _ rfl (nk (by decide +kernel)) (nk (by decide +kernel))
  rw [E_main_v204 m c] at h
  exact h

theorem E_main_cst_9 : E m c (Proc.devRef .tc main_cst_9) = val_main_cst_9 (F := Ideal) := by
  have h := end0 writesAt (launchContents m c) (E m c) [] (fun _ _ => rfl) 249 _ _ _ rfl (nk (by decide +kernel))
  exact h

theorem E_main_v206 : E m c (Proc.devRef .tc main_v206) = val_main_v206 (F := Ideal) := by
  have h := end1 writesAt (launchContents m c) (E m c) [] (fun _ _ => rfl) 250 _ _ _ _ _ rfl (nk (by decide +kernel)) (nk (by decide +kernel))
  rw [E_main_cst_9 m c] at h
  exact h

theorem E_main_v207 : E m c (Proc.devRef .tc main_v207) = val_main_v207 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h := end2 writesAt (launchContents m c) (E m c) [] (fun _ _ => rfl) 251 _ _ _ _ _ _ _ rfl (nk (by decide +kernel)) (nk (by decide +kernel)) (nk (by decide +kernel))
  rw [E_main_v206 m c, E_main_v205 m c] at h
  exact h

theorem E_main_cst_10 : E m c (Proc.devRef .tc main_cst_10) = val_main_cst_10 (F := Ideal) := by
  have h := end0 writesAt (launchContents m c) (E m c) [] (fun _ _ => rfl) 252 _ _ _ rfl (nk (by decide +kernel))
  exact h

theorem E_main_v208 : E m c (Proc.devRef .tc main_v208) = val_main_v208 (F := Ideal) := by
  have h := end1 writesAt (launchContents m c) (E m c) [] (fun _ _ => rfl) 253 _ _ _ _ _ rfl (nk (by decide +kernel)) (nk (by decide +kernel))
  rw [E_main_cst_10 m c] at h
  exact h

theorem E_main_v209 : E m c (Proc.devRef .tc main_v209) = val_main_v209 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h := end2 writesAt (launchContents m c) (E m c) [] (fun _ _ => rfl) 254 _ _ _ _ _ _ _ rfl (nk (by decide +kernel)) (nk (by decide +kernel)) (nk (by decide +kernel))
  rw [E_main_v208 m c, E_main_v207 m c] at h
  exact h

theorem E_main_v210 : E m c (Proc.devRef .tc main_v210) = val_main_v210 (F := Ideal) (m ((c.tc : Thread nD τ).loc main_arg2)) := by
  have h := end1 writesAt (launchContents m c) (E m c) [] (fun _ _ => rfl) 255 _ _ _ _ _ rfl (nk (by decide +kernel)) (nk (by decide +kernel))
  rw [E_main_v203 m c] at h
  exact h

theorem E_main_v211 : E m c (Proc.devRef .tc main_v211) = val_main_v211 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h := end2 writesAt (launchContents m c) (E m c) [] (fun _ _ => rfl) 256 _ _ _ _ _ _ _ rfl (nk (by decide +kernel)) (nk (by decide +kernel)) (nk (by decide +kernel))
  rw [E_main_v210 m c, E_main_v209 m c] at h
  exact h

theorem E_main_v212 : E m c (Proc.devRef .tc main_v212) = val_main_v212 (F := Ideal) (m ((c.tc : Thread nD τ).loc main_arg2)) := by
  have h := end1 writesAt (launchContents m c) (E m c) [] (fun _ _ => rfl) 257 _ _ _ _ _ rfl (nk (by decide +kernel)) (nk (by decide +kernel))
  rw [E_main_v179 m c] at h
  exact h

theorem E_main_v213 : E m c (Proc.devRef .tc main_v213) = val_main_v213 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end1 writesAt (launchContents m c) (E m c) [] (fun _ _ => rfl) 258 _ _ _ _ _ rfl (nk (by decide +kernel)) (nk (by decide +kernel))
  rw [E_main_v175 m c] at h
  exact h

theorem E_main_v214 : E m c (Proc.devRef .tc main_v214) = val_main_v214 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end1 writesAt (launchContents m c) (E m c) [] (fun _ _ => rfl) 259 _ _ _ _ _ rfl (nk (by decide +kernel)) (nk (by decide +kernel))
  rw [E_main_v213 m c] at h
  exact h

theorem E_main_cst_11 : E m c (Proc.devRef .tc main_cst_11) = val_main_cst_11 (F := Ideal) := by
  have h := end0 writesAt (launchContents m c) (E m c) [] (fun _ _ => rfl) 260 _ _ _ rfl (nk (by decide +kernel))
  exact h

theorem E_main_v215 : E m c (Proc.devRef .tc main_v215) = val_main_v215 (F := Ideal) := by
  have h := end1 writesAt (launchContents m c) (E m c) [] (fun _ _ => rfl) 261 _ _ _ _ _ rfl (nk (by decide +kernel)) (nk (by decide +kernel))
  rw [E_main_cst_11 m c] at h
  exact h

theorem E_main_v216 : E m c (Proc.devRef .tc main_v216) = val_main_v216 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 262 _ _ _ _ _ _ _ rfl (nk (by decide +kernel)) (nk (by decide +kernel)) (nk (by decide +kernel))
  rw [E_main_v215 m c, E_main_v214 m c] at h
  exact h

theorem E_main_cst_12 : E m c (Proc.devRef .tc main_cst_12) = val_main_cst_12 (F := Ideal) := by
  have h := end0 writesAt (launchContents m c) (E m c) [] (fun _ _ => rfl) 263 _ _ _ rfl (nk (by decide +kernel))
  exact h

theorem E_main_v217 : E m c (Proc.devRef .tc main_v217) = val_main_v217 (F := Ideal) := by
  have h := end1 writesAt (launchContents m c) (E m c) [] (fun _ _ => rfl) 264 _ _ _ _ _ rfl (nk (by decide +kernel)) (nk (by decide +kernel))
  rw [E_main_cst_12 m c] at h
  exact h

theorem E_main_v218 : E m c (Proc.devRef .tc main_v218) = val_main_v218 (F := Ideal) (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 265 _ _ _ _ _ _ _ rfl (nk (by decide +kernel)) (nk (by decide +kernel)) (nk (by decide +kernel))
  rw [E_main_v217 m c, E_main_v216 m c] at h
  exact h

theorem E_main_v219 : E m c (Proc.devRef .tc main_v219) = val_main_v219 (F := Ideal) (m ((c.tc : Thread nD τ).loc main_arg2)) := by
  have h := end1 writesAt (launchContents m c) (E m c) [] (fun _ _ => rfl) 266 _ _ _ _ _ rfl (nk (by decide +kernel)) (nk (by decide +kernel))
  rw [E_main_v212 m c] at h
  exact h

theorem E_main_v220 : E m c (Proc.devRef .tc main_v220) = val_main_v220 (F := Ideal) (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 267 _ _ _ _ _ _ _ rfl (nk (by decide +kernel)) (nk (by decide +kernel)) (nk (by decide +kernel))
  rw [E_main_v219 m c, E_main_v218 m c] at h
  exact h

theorem E_main_v221 : E m c (Proc.devRef .tc main_v221) = val_main_v221 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 268 _ _ _ _ _ _ _ rfl (nk (by decide +kernel)) (nk (by decide +kernel)) (nk (by decide +kernel))
  rw [E_main_v211 m c, E_main_v220 m c] at h
  exact h

theorem E_main_v222 : E m c (Proc.devRef .tc main_v222) = val_main_v222 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end1 writesAt (launchContents m c) (E m c) [] (fun _ _ => rfl) 269 _ _ _ _ _ rfl (nk (by decide +kernel)) (nk (by decide +kernel))
  rw [E_main_v200 m c] at h
  exact h

theorem E_main_v223 : E m c (Proc.devRef .tc main_v223) = val_main_v223 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end1 writesAt (launchContents m c) (E m c) [] (fun _ _ => rfl) 270 _ _ _ _ _ rfl (nk (by decide +kernel)) (nk (by decide +kernel))
  rw [E_main_v221 m c] at h
  exact h

theorem E_main_v224 : E m c (Proc.devRef .tc main_v224) = val_main_v224 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 271 _ _ _ _ _ _ _ rfl (nk (by decide +kernel)) (nk (by decide +kernel)) (nk (by decide +kernel))
  rw [E_main_v222 m c, E_main_v223 m c] at h
  exact h

theorem E_main_v225 : E m c (Proc.devRef .tc main_v225) = val_main_v225 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := endReshape writesAt (launchContents m c) (E m c) [] (fun _ _ => rfl) 272 _ _ _ _ _ _ rfl (nk (by decide +kernel)) (nk (by decide +kernel))
  rw [E_main_v224 m c] at h
  exact h

theorem E_main_v226 : E m c (Proc.devRef .tc main_v226) = val_main_v226 (F := Ideal) (m ((c.tc : Thread nD τ).loc main_arg1)) := by
  have h := endReshape writesAt (launchContents m c) (E m c) [] (fun _ _ => rfl) 273 _ _ _ _ _ _ rfl (nk (by decide +kernel)) (nk (by decide +kernel))
  rw [E_main_arg1 m c] at h
  exact h

theorem E_main_cst_13 : E m c (Proc.devRef .tc main_cst_13) = val_main_cst_13 (F := Ideal) := by
  have h := end0 writesAt (launchContents m c) (E m c) [] (fun _ _ => rfl) 274 _ _ _ rfl (nk (by decide +kernel))
  exact h

theorem E_main_v227 : E m c (Proc.devRef .tc main_v227) = val_main_v227 (F := Ideal) := by
  have h := end1 writesAt (launchContents m c) (E m c) [] (fun _ _ => rfl) 275 _ _ _ _ _ rfl (nk (by decide +kernel)) (nk (by decide +kernel))
  rw [E_main_cst_13 m c] at h
  exact h

theorem E_main_v228 : E m c (Proc.devRef .tc main_v228) = val_main_v228 (F := Ideal) (m ((c.tc : Thread nD τ).loc main_arg1)) := by
  have h := end1 writesAt (launchContents m c) (E m c) [] (fun _ _ => rfl) 276 _ _ _ _ _ rfl (nk (by decide +kernel)) (nk (by decide +kernel))
  rw [E_main_v226 m c] at h
  exact h

theorem E_main_v229 : E m c (Proc.devRef .tc main_v229) = val_main_v229 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end3 writesAt (launchContents m c) (E m c) [] (fun _ _ => rfl) 277 _ _ _ _ _ _ _ _ _ rfl (nk (by decide +kernel)) (nk (by decide +kernel)) (nk (by decide +kernel)) (nk (by decide +kernel))
  rw [E_main_v227 m c, E_main_v228 m c, E_main_v225 m c] at h
  exact h

theorem E_main_cst_14 : E m c (Proc.devRef .tc main_cst_14) = val_main_cst_14 (F := Ideal) := by
  have h := end0 writesAt (launchContents m c) (E m c) [] (fun _ _ => rfl) 278 _ _ _ rfl (nk (by decide +kernel))
  exact h

theorem E_main_v230 : E m c (Proc.devRef .tc main_v230) = val_main_v230 (F := Ideal) := by
  have h := end1 writesAt (launchContents m c) (E m c) [] (fun _ _ => rfl) 279 _ _ _ _ _ rfl (nk (by decide +kernel)) (nk (by decide +kernel))
  rw [E_main_cst_14 m c] at h
  exact h

theorem E_main_cst_15 : E m c (Proc.devRef .tc main_cst_15) = val_main_cst_15 (F := Ideal) := by
  have h := end0 writesAt (launchContents m c) (E m c) [] (fun _ _ => rfl) 280 _ _ _ rfl (nk (by decide +kernel))
  exact h

theorem E_main_v231 : E m c (Proc.devRef .tc main_v231) = val_main_v231 (F := Ideal) := by
  have h := end1 writesAt (launchContents m c) (E m c) [] (fun _ _ => rfl) 281 _ _ _ _ _ rfl (nk (by decide +kernel)) (nk (by decide +kernel))
  rw [E_main_cst_15 m c] at h
  exact h

theorem E_main_v232 : E m c (Proc.devRef .tc main_v232) = val_main_v232 (F := Ideal) (m ((c.tc : Thread nD τ).loc main_arg1)) := by
  have h := end1 writesAt (launchContents m c) (E m c) [] (fun _ _ => rfl) 282 _ _ _ _ _ rfl (nk (by decide +kernel)) (nk (by decide +kernel))
  rw [E_main_v226 m c] at h
  exact h

theorem E_main_v233 : E m c (Proc.devRef .tc main_v233) = val_main_v233 (F := Ideal) (m ((c.tc : Thread nD τ).loc main_arg1)) := by
  have h := end3 writesAt (launchContents m c) (E m c) [] (fun _ _ => rfl) 283 _ _ _ _ _ _ _ _ _ rfl (nk (by decide +kernel)) (nk (by decide +kernel)) (nk (by decide +kernel)) (nk (by decide +kernel))
  rw [E_main_v231 m c, E_main_v232 m c, E_main_v230 m c] at h
  exact h

theorem E_main_cst_16 : E m c (Proc.devRef .tc main_cst_16) = val_main_cst_16 (F := Ideal) := by
  have h := end0 writesAt (launchContents m c) (E m c) [] (fun _ _ => rfl) 284 _ _ _ rfl (nk (by decide +kernel))
  exact h

theorem E_main_v234 : E m c (Proc.devRef .tc main_v234) = val_main_v234 (F := Ideal) (m ((c.tc : Thread nD τ).loc main_arg1)) := by
  have h := end2 writesAt (launchContents m c) (E m c) [] (fun _ _ => rfl) 285 _ _ _ _ _ _ _ rfl (nk (by decide +kernel)) (nk (by decide +kernel)) (nk (by decide +kernel))
  rw [E_main_v233 m c, E_main_cst_16 m c] at h
  exact h

theorem E_main_cst_17 : E m c (Proc.devRef .tc main_cst_17) = val_main_cst_17 (F := Ideal) := by
  have h := end0 writesAt (launchContents m c) (E m c) [] (fun _ _ => rfl) 286 _ _ _ rfl (nk (by decide +kernel))
  exact h

theorem E_main_v235 : E m c (Proc.devRef .tc main_v235) = val_main_v235 (F := Ideal) (m ((c.tc : Thread nD τ).loc main_arg1)) := by
  have h := end2 writesAt (launchContents m c) (E m c) [] (fun _ _ => rfl) 287 _ _ _ _ _ _ _ rfl (nk (by decide +kernel)) (nk (by decide +kernel)) (nk (by decide +kernel))
  rw [E_main_v234 m c, E_main_cst_17 m c] at h
  exact h

theorem E_main_v236 : E m c (Proc.devRef .tc main_v236) = val_main_v236 (F := Ideal) (m ((c.tc : Thread nD τ).loc main_arg1)) := by
  have h := end1 writesAt (launchContents m c) (E m c) [] (fun _ _ => rfl) 288 _ _ _ _ _ rfl (nk (by decide +kernel)) (nk (by decide +kernel))
  rw [E_main_v235 m c] at h
  exact h

theorem E_main_v237 : E m c (Proc.devRef .tc main_v237) = val_main_v237 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 289 _ _ _ _ _ _ _ rfl (nk (by decide +kernel)) (nk (by decide +kernel)) (nk (by decide +kernel))
  rw [E_main_v229 m c, E_main_v236 m c] at h
  exact h

theorem E_main_v238 : E m c (Proc.devRef .tc main_v238) = val_main_v238 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end1 writesAt (launchContents m c) (E m c) [] (fun _ _ => rfl) 290 _ _ _ _ _ rfl (nk (by decide +kernel)) (nk (by decide +kernel))
  rw [E_main_v237 m c] at h
  exact h

theorem E_main_v239 : E m c (Proc.devRef .tc main_v239) = val_main_v239 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 291 _ _ _ _ _ _ _ rfl (nk (by decide +kernel)) (nk (by decide +kernel)) (nk (by decide +kernel))
  rw [E_main_arg0 m c, E_main_v238 m c] at h
  exact h

theorem E_main_cst_18 : E m c (Proc.devRef .tc main_cst_18) = val_main_cst_18 (F := Ideal) := by
  have h := end0 writesAt (launchContents m c) (E m c) [] (fun _ _ => rfl) 292 _ _ _ rfl (nk (by decide +kernel))
  exact h

theorem E_main_v240 : E m c (Proc.devRef .tc main_v240) = val_main_v240 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 293 _ _ _ _ _ _ _ rfl (nk (by decide +kernel)) (nk (by decide +kernel)) (nk (by decide +kernel))
  rw [E_main_v239 m c, E_main_cst_18 m c] at h
  exact h

theorem E_main_cst_19 : E m c (Proc.devRef .tc main_cst_19) = val_main_cst_19 (F := Ideal) := by
  have h := end0 writesAt (launchContents m c) (E m c) [] (fun _ _ => rfl) 294 _ _ _ rfl (nk (by decide +kernel))
  exact h

theorem E_main_v241 : E m c (Proc.devRef .tc main_v241) = val_main_v241 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 295 _ _ _ _ _ _ _ rfl (nk (by decide +kernel)) (nk (by decide +kernel)) (nk (by decide +kernel))
  rw [E_main_v240 m c, E_main_cst_19 m c] at h
  exact h

theorem E_main_v242 : E m c (Proc.devRef .tc main_v242) = val_main_v242 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end1 writesAt (launchContents m c) (E m c) [] (fun _ _ => rfl) 296 _ _ _ _ _ rfl (nk (by decide +kernel)) (nk (by decide +kernel))
  rw [E_main_v241 m c] at h
  exact h

theorem E_main_v243 : E m c (Proc.devRef .tc main_v243) = val_main_v243 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 297 _ _ _ _ _ _ _ rfl (nk (by decide +kernel)) (nk (by decide +kernel)) (nk (by decide +kernel))
  rw [E_main_v239 m c, E_main_v242 m c] at h
  exact h

theorem E_main_call16_v0 : E m c (Proc.devRef .tc main_call16_v0) = val_main_call16_v0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 298 _ _ _ _ _ _ _ rfl (nk (by decide +kernel)) (nk (by decide +kernel)) (nk (by decide +kernel))
  rw [E_main_v243 m c] at h
  exact h

theorem E_main_call16_cst : E m c (Proc.devRef .tc main_call16_cst) = val_main_call16_cst (F := Ideal) := by
  have h := end0 writesAt (launchContents m c) (E m c) [] (fun _ _ => rfl) 299 _ _ _ rfl (nk (by decide +kernel))
  exact h

theorem E_main_call16_v1 : E m c (Proc.devRef .tc main_call16_v1) = val_main_call16_v1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 300 _ _ _ _ _ _ _ rfl (nk (by decide +kernel)) (nk (by decide +kernel)) (nk (by decide +kernel))
  rw [E_main_call16_v0 m c, E_main_call16_cst m c] at h
  exact h

theorem E_main_v244 : E m c (Proc.devRef .tc main_v244) = val_main_v244 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end1 writesAt (launchContents m c) (E m c) [] (fun _ _ => rfl) 301 _ _ _ _ _ rfl (nk (by decide +kernel)) (nk (by decide +kernel))
  rw [E_main_call16_v1 m c] at h
  exact h

theorem E_main_v245 : E m c (Proc.devRef .tc main_v245) = val_main_v245 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end1 writesAt (launchContents m c) (E m c) [] (fun _ _ => rfl) 302 _ _ _ _ _ rfl (nk (by decide +kernel)) (nk (by decide +kernel))
  rw [E_main_v244 m c] at h
  exact h

theorem E_main_v246 : E m c (Proc.devRef .tc main_v246) = val_main_v246 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end1 writesAt (launchContents m c) (E m c) [] (fun _ _ => rfl) 303 _ _ _ _ _ rfl (nk (by decide +kernel)) (nk (by decide +kernel))
  rw [E_main_v245 m c] at h
  exact h

theorem E_main_v247 : E m c (Proc.devRef .tc main_v247) = val_main_v247 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h := end2 writesAt (launchContents m c) (E m c) [] (fun _ _ => rfl) 304 _ _ _ _ _ _ _ rfl (nk (by decide +kernel)) (nk (by decide +kernel)) (nk (by decide +kernel))
  rw [E_main_v243 m c, E_main_v246 m c] at h
  exact h

/-! ## The run -/

/-- Every weakly fair execution of the reference terminates with the result at its last stage of the arguments and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v247) = val_main_v247 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v247).trans (E_main_v247 m c),
      (h c main_arg0).trans (E_main_arg0 m c),
      (h c main_arg1).trans (E_main_arg1 m c),
      (h c main_arg2).trans (E_main_arg2 m c),
      (h c main_arg3).trans (E_main_arg3 m c),
      (h c main_arg4).trans (E_main_arg4 m c),
      (h c main_arg5).trans (E_main_arg5 m c),
      (h c main_arg6).trans (E_main_arg6 m c),
      (h c main_arg7).trans (E_main_arg7 m c),
      (h c main_arg8).trans (E_main_arg8 m c),
      (h c main_arg9).trans (E_main_arg9 m c),
      (h c main_arg10).trans (E_main_arg10 m c),
      (h c main_arg11).trans (E_main_arg11 m c),
      (h c main_arg12).trans (E_main_arg12 m c),
      (h c main_arg13).trans (E_main_arg13 m c),
      (h c main_arg14).trans (E_main_arg14 m c)⟩)
    (run_seq scopedRefs_eq scopedSems_eq defs main (fun _ => ops) main_eq (fun _ => ops_sub) m ρ (fun _ => ops_fresh))

end Cert.ReferenceIdeal.RefRun

end
-- ==== Proof.lean ====
/-
  The certificate of the edge-network kernel against its jnp reference.

  Both programs gather every edge's ten player scores, run the reward and the penalty network on the scores and on the
  reversed scores, combine the four outputs with the edge's outcome into ten contributions, and then apply one and the same
  tail: segment sums over the edge table, division by half the largest degree, addition to the scores, subtraction of the mean
  and division by the Euclidean norm. The kernel does the networks and the combination inside a pallas region, edge by column
  and 16384 edges per grid point, on arrays padded to 62 · 16384 columns; the reference does them edge by row on the host.

  At the ideal values the two arrays of contributions are the same function of the arguments, entry by entry
  (`EdgeNet.contrib`): a layer is the same sum of products (the reference multiplies score by weight, the kernel weight by
  score), the kernel's logistic operation is the reference's `1 / (1 + e^(−x))`, cutting the last layer's weights to five rows
  before the product is cutting the product's columns after it, and the padding columns are cut away before the tail. No
  finiteness of the inputs is used. The tail is never opened: it is applied to equal contributions.

  The frames of the two kernel programs are the generated ones; the reference's frame is its run (read back one operation at a time) with
  the result dropped; the ideal pass rewrote nothing, so `preserves` is trivial.
-/
import proofs.«122336_j21646635172527_1_alg».proof.Defs
import proofs.«122336_j21646635172527_1_alg».proof.Proof.Gen.Kernel
import proofs.«122336_j21646635172527_1_alg».proof.Proof.Gen.Kernel.Skeleton
import proofs.«122336_j21646635172527_1_alg».proof.Proof.Gen.Kernel.Launch
import proofs.«122336_j21646635172527_1_alg».proof.Proof.Gen.Kernel.Points
import proofs.«122336_j21646635172527_1_alg».proof.Proof.Gen.Kernel.Frame
import proofs.«122336_j21646635172527_1_alg».proof.Proof.Gen.KernelIdeal
import proofs.«122336_j21646635172527_1_alg».proof.Proof.Gen.KernelIdeal.Skeleton
import proofs.«122336_j21646635172527_1_alg».proof.Proof.Gen.KernelIdeal.Launch
import proofs.«122336_j21646635172527_1_alg».proof.Proof.Gen.KernelIdeal.Points
import proofs.«122336_j21646635172527_1_alg».proof.Proof.Gen.KernelIdeal.Frame
import proofs.«122336_j21646635172527_1_alg».proof.Proof.Gen.ReferenceIdeal
import proofs.«122336_j21646635172527_1_alg».proof.Proof.Gen.Pre_finite_inputs
import proofs.«122336_j21646635172527_1_alg».proof.Proof.KValue
import proofs.«122336_j21646635172527_1_alg».proof.Proof.RefContrib
import proofs.«122336_j21646635172527_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- The two programs gather the same scores: the same host operations on the score table and the edge table. -/
theorem gathered_eq (a0 : (⟨Cert.ReferenceIdeal.S100000x1, .f32⟩ : BufTy).Contents (Elt Ideal))
    (a1 : (⟨Cert.ReferenceIdeal.S1000000x10, .i32⟩ : BufTy).Contents (Elt Ideal)) :
    Cert.ReferenceIdeal.Read.val_main_v10 (F := Ideal) a0 a1 = Cert.KernelIdeal.Inputs.gathered a0 a1 := rfl

/-- The two programs apply the same tail to their contributions. -/
theorem tail_eq (V : (⟨Cert.ReferenceIdeal.S1000000x10, .f32⟩ : BufTy).Contents (Elt Ideal))
    (a1 : (⟨Cert.ReferenceIdeal.S1000000x10, .i32⟩ : BufTy).Contents (Elt Ideal))
    (a0 : (⟨Cert.ReferenceIdeal.S100000x1, .f32⟩ : BufTy).Contents (Elt Ideal)) :
    Cert.ReferenceIdeal.RefValue.refTail V a1 a0 = Cert.KernelIdeal.Tail.newScores V a1 a0 := rfl

/-- At the ideal values both programs end with the common tail of the specification's contributions. -/
theorem algebraic : Cert.algebraic_KernelIdeal_ReferenceIdeal := by
  intro m ρ m' ρ' _ hagree
  refine ⟨fun c => Cert.KernelIdeal.Value.value m c, Cert.KernelIdeal.Value.kernel_run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9, h10, h11, h12, h13, h14⟩ := hagree c
  rw [Cert.ReferenceIdeal.RefValue.val247_eq_tail,
    Cert.ReferenceIdeal.RefValue.ref_contrib, gathered_eq, tail_eq,
    h0, h1, h2, h3, h4, h5, h6, h7, h8, h9, h10, h11, h12, h13, h14]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
